-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x20000 : Shape := ⟨2, ![4096, 20000]⟩
abbrev S64x20000 : Shape := ⟨2, ![64, 20000]⟩
abbrev S64 : Shape := ⟨1, ![64]⟩
abbrev S3x64x64 : Shape := ⟨3, ![3, 64, 64]⟩
abbrev S3x64 : Shape := ⟨2, ![3, 64]⟩
abbrev S128x64 : Shape := ⟨2, ![128, 64]⟩
abbrev S128 : Shape := ⟨1, ![128]⟩
abbrev S64x128 : Shape := ⟨2, ![64, 128]⟩
abbrev S20000x64 : Shape := ⟨2, ![20000, 64]⟩
abbrev S20000 : Shape := ⟨1, ![20000]⟩
abbrev S_ : Shape := ⟨0, ![]⟩

class Facts : Prop where
  bcast_S_S4096x20000 : S_.BroadcastsInDim S4096x20000 (![] : Fin 0 → Fin S4096x20000.rank)
  reducesTo_S4096x20000_S_d0_1 : S4096x20000.ReducesTo [0, 1] S_
  h_S_ : 0 < S_.numel
  bcast_S_S64x20000 : S_.BroadcastsInDim S64x20000 (![] : Fin 0 → Fin S64x20000.rank)
  reducesTo_S64x20000_S_d0_1 : S64x20000.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S20000x64 : S_.BroadcastsInDim S20000x64 (![] : Fin 0 → Fin S20000x64.rank)
  reducesTo_S20000x64_S_d0_1 : S20000x64.ReducesTo [0, 1] S_
  bcast_S_S20000 : S_.BroadcastsInDim S20000 (![] : Fin 0 → Fin S20000.rank)
  reducesTo_S20000_S_d0 : S20000.ReducesTo [0] S_

variable [Facts]

def fn_part5 {F : FTy → Type} [FloatOps F] (main_arg18 : FVec F S20000 .f32) (main_v83 : IVec S_ 1) (main_v84 : FVec F S20000x64 .f32) (main_cst_32 : FVec F S_ .f32) : IVec S_ 1 :=
  let main_v85 : FVec F S20000x64 .f32 := broadcastInDim S20000x64 ![] bcast_S_S20000x64 main_cst_32
  let main_v86 : IVec S20000x64 1 := cmpf .olt main_v84 main_v85
  let main_c_33 : IVec S_ 1 := constantI S_ 1 1#1
  let main_v87 : IVec S_ 1 := (fun x v => Host.reduce IntOp.andi x v reducesTo_S20000x64_S_d0_1 h_S_) main_v86 main_c_33
  let main_v88 : IVec S_ 1 := andi main_v83 main_v87
  let main_v89 : FVec F S20000 .f32 := Host.absf main_arg18
  let main_cst_34 : FVec F S_ .f32 := constant S_ .f32 0x7F800000#32
  let main_v90 : FVec F S20000 .f32 := broadcastInDim S20000 ![] bcast_S_S20000 main_cst_34
  let main_v91 : IVec S20000 1 := cmpf .olt main_v89 main_v90
  let main_c_35 : IVec S_ 1 := constantI S_ 1 1#1
  let main_v92 : IVec S_ 1 := (fun x v => Host.reduce IntOp.andi x v reducesTo_S20000_S_d0 h_S_) main_v91 main_c_35
  let main_v93 : IVec S_ 1 := andi main_v88 main_v92
  main_v93

def fn_part4 {F : FTy → Type} [FloatOps F] (main_arg14 : FVec F S128 .f32) (main_arg15 : FVec F S64x128 .f32) (main_arg16 : FVec F S64 .f32) (main_arg17 : FVec F S20000x64 .f32) (main_arg18 : FVec F S20000 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S64x128 .f32 := Host.absf main_arg15
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S20000x64 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S3x64x64 .f32) (main_arg12 : FVec F S3x64 .f32) (main_arg13 : FVec F S128x64 .f32) (main_arg14 : FVec F S128 .f32) (main_arg15 : FVec F S64x128 .f32) (main_arg16 : FVec F S64 .f32) (main_arg17 : FVec F S20000x64 .f32) (main_arg18 : FVec F S20000 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3x64x64 .f32 := Host.absf main_arg11
  let main_cst_20 : FVec F S_ .f32 := constant S_ .f32 0x7F800000#32
  let main_v55 : FVec F S3x64x64 .f32 := broadcastInDim S3x64x64 ![] bcast_S_S3x64x64 main_cst_20
  let main_v56 : IVec S3x64x64 1 := cmpf .olt main_v54 main_v55
  let main_c_21 : IVec S_ 1 := constantI S_ 1 1#1
  let main_v57 : IVec S_ 1 := (fun x v => Host.reduce IntOp.andi x v reducesTo_S3x64x64_S_d0_1_2 h_S_) main_v56 main_c_21
  let main_v58 : IVec S_ 1 := andi main_v53 main_v57
  let main_v59 : FVec F S3x64 .f32 := Host.absf main_arg12
  let main_cst_22 : FVec F S_ .f32 := constant S_ .f32 0x7F800000#32
  let main_v60 : FVec F S3x64 .f32 := broadcastInDim S3x64 ![] bcast_S_S3x64 main_cst_22
  let main_v61 : IVec S3x64 1 := cmpf .olt main_v59 main_v60
  let main_c_23 : IVec S_ 1 := constantI S_ 1 1#1
  let main_v62 : IVec S_ 1 := (fun x v => Host.reduce IntOp.andi x v reducesTo_S3x64_S_d0_1 h_S_) main_v61 main_c_23
  let main_v63 : IVec S_ 1 := andi main_v58 main_v62
  let main_v64 : FVec F S128x64 .f32 := Host.absf main_arg13
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg14 main_arg15 main_arg16 main_arg17 main_arg18 main_v63 main_v67

def fn_part2 {F : FTy → Type} [FloatOps F] (main_arg7 : FVec F S3x64x64 .f32) (main_arg8 : FVec F S3x64 .f32) (main_arg9 : FVec F S3x64x64 .f32) (main_arg10 : FVec F S3x64 .f32) (main_arg11 : FVec F S3x64x64 .f32) (main_arg12 : FVec F S3x64 .f32) (main_arg13 : FVec F S128x64 .f32) (main_arg14 : FVec F S128 .f32) (main_arg15 : FVec F S64x128 .f32) (main_arg16 : FVec F S64 .f32) (main_arg17 : FVec F S20000x64 .f32) (main_arg18 : FVec F S20000 .f32) (main_v33 : IVec S_ 1) : IVec S_ 1 :=
  let main_v34 : FVec F S3x64x64 .f32 := Host.absf main_arg7
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg8
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64x64 .f32 := Host.absf main_arg9
  let main_cst_16 : FVec F S_ .f32 := constant S_ .f32 0x7F800000#32
  let main_v45 : FVec F S3x64x64 .f32 := broadcastInDim S3x64x64 ![] bcast_S_S3x64x64 main_cst_16
  let main_v46 : IVec S3x64x64 1 := cmpf .olt main_v44 main_v45
  let main_c_17 : IVec S_ 1 := constantI S_ 1 1#1
  let main_v47 : IVec S_ 1 := (fun x v => Host.reduce IntOp.andi x v reducesTo_S3x64x64_S_d0_1_2 h_S_) main_v46 main_c_17
  let main_v48 : IVec S_ 1 := andi main_v43 main_v47
  let main_v49 : FVec F S3x64 .f32 := Host.absf main_arg10
  let main_cst_18 : FVec F S_ .f32 := constant S_ .f32 0x7F800000#32
  let main_v50 : FVec F S3x64 .f32 := broadcastInDim S3x64 ![] bcast_S_S3x64 main_cst_18
  fn_part3 (F := F) main_arg11 main_arg12 main_arg13 main_arg14 main_arg15 main_arg16 main_arg17 main_arg18 main_v48 main_v49 main_v50

def fn_part1 {F : FTy → Type} [FloatOps F] (main_arg4 : FVec F S3x64 .f32) (main_arg5 : FVec F S3x64x64 .f32) (main_arg6 : FVec F S3x64 .f32) (main_arg7 : FVec F S3x64x64 .f32) (main_arg8 : FVec F S3x64 .f32) (main_arg9 : FVec F S3x64x64 .f32) (main_arg10 : FVec F S3x64 .f32) (main_arg11 : FVec F S3x64x64 .f32) (main_arg12 : FVec F S3x64 .f32) (main_arg13 : FVec F S128x64 .f32) (main_arg14 : FVec F S128 .f32) (main_arg15 : FVec F S64x128 .f32) (main_arg16 : FVec F S64 .f32) (main_arg17 : FVec F S20000x64 .f32) (main_arg18 : FVec F S20000 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg4
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg5
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg6
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x20000 .f32) (main_arg1 : FVec F S64x20000 .f32) (main_arg2 : FVec F S64 .f32) (main_arg3 : FVec F S3x64x64 .f32) (main_arg4 : FVec F S3x64 .f32) (main_arg5 : FVec F S3x64x64 .f32) (main_arg6 : FVec F S3x64 .f32) (main_arg7 : FVec F S3x64x64 .f32) (main_arg8 : FVec F S3x64 .f32) (main_arg9 : FVec F S3x64x64 .f32) (main_arg10 : FVec F S3x64 .f32) (main_arg11 : FVec F S3x64x64 .f32) (main_arg12 : FVec F S3x64 .f32) (main_arg13 : FVec F S128x64 .f32) (main_arg14 : FVec F S128 .f32) (main_arg15 : FVec F S64x128 .f32) (main_arg16 : FVec F S64 .f32) (main_arg17 : FVec F S20000x64 .f32) (main_arg18 : FVec F S20000 .f32) : IVec S_ 1 :=
  let main_v0 : FVec F S4096x20000 .f32 := Host.absf main_arg0
  let main_cst : FVec F S_ .f32 := constant S_ .f32 0x7F800000#32
  let main_v1 : FVec F S4096x20000 .f32 := broadcastInDim S4096x20000 ![] bcast_S_S4096x20000 main_cst
  let main_v2 : IVec S4096x20000 1 := cmpf .olt main_v0 main_v1
  let main_c : IVec S_ 1 := constantI S_ 1 1#1
  let main_v3 : IVec S_ 1 := (fun x v => Host.reduce IntOp.andi x v reducesTo_S4096x20000_S_d0_1 h_S_) main_v2 main_c
  let main_v4 : FVec F S64x20000 .f32 := Host.absf main_arg1
  let main_cst_0 : FVec F S_ .f32 := constant S_ .f32 0x7F800000#32
  let main_v5 : FVec F S64x20000 .f32 := broadcastInDim S64x20000 ![] bcast_S_S64x20000 main_cst_0
  let main_v6 : IVec S64x20000 1 := cmpf .olt main_v4 main_v5
  let main_c_1 : IVec S_ 1 := constantI S_ 1 1#1
  let main_v7 : IVec S_ 1 := (fun x v => Host.reduce IntOp.andi x v reducesTo_S64x20000_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg3
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x20000 : Shape := ⟨2, ![4096, 20000]⟩
abbrev S64x20000 : Shape := ⟨2, ![64, 20000]⟩
abbrev S64 : Shape := ⟨1, ![64]⟩
abbrev S3x64x64 : Shape := ⟨3, ![3, 64, 64]⟩
abbrev S3x64 : Shape := ⟨2, ![3, 64]⟩
abbrev S128x64 : Shape := ⟨2, ![128, 64]⟩
abbrev S128 : Shape := ⟨1, ![128]⟩
abbrev S64x128 : Shape := ⟨2, ![64, 128]⟩
abbrev S20000x64 : Shape := ⟨2, ![20000, 64]⟩
abbrev S20000 : Shape := ⟨1, ![20000]⟩
abbrev S_ : Shape := ⟨0, ![]⟩
abbrev S64x20480 : Shape := ⟨2, ![64, 20480]⟩
abbrev S1x20000 : Shape := ⟨2, ![1, 20000]⟩
abbrev S4096x64 : Shape := ⟨2, ![4096, 64]⟩
abbrev S1024x2560 : Shape := ⟨2, ![1024, 2560]⟩
abbrev S64x2560 : Shape := ⟨2, ![64, 2560]⟩
abbrev S1024x64 : Shape := ⟨2, ![1024, 64]⟩
abbrev S1x64 : Shape := ⟨2, ![1, 64]⟩
abbrev S1x64x64 : Shape := ⟨3, ![1, 64, 64]⟩
abbrev S64x64 : Shape := ⟨2, ![64, 64]⟩
abbrev S1024 : Shape := ⟨1, ![1024]⟩
abbrev S1024x1 : Shape := ⟨2, ![1024, 1]⟩
abbrev S1024x128 : Shape := ⟨2, ![1024, 128]⟩
abbrev S1x128 : Shape := ⟨2, ![1, 128]⟩
abbrev S2560x64 : Shape := ⟨2, ![2560, 64]⟩
abbrev S1x2560 : Shape := ⟨2, ![1, 2560]⟩

abbrev nBuf : Space → Nat
  | .hbm => 27
  | .vmem => 28
  | .smem => 0
  | _ => 0

abbrev bufTy : (tb : Table) → Fin (tcTables nBuf tb) → BufTy
  | .hbm, ⟨0, _⟩ => ⟨S4096x20000, .f32⟩
  | .hbm, ⟨1, _⟩ => ⟨S64x20000, .f32⟩
  | .hbm, ⟨2, _⟩ => ⟨S64, .f32⟩
  | .hbm, ⟨3, _⟩ => ⟨S3x64x64, .f32⟩
  | .hbm, ⟨4, _⟩ => ⟨S3x64, .f32⟩
  | .hbm, ⟨5, _⟩ => ⟨S3x64x64, .f32⟩
  | .hbm, ⟨6, _⟩ => ⟨S3x64, .f32⟩
  | .hbm, ⟨7, _⟩ => ⟨S3x64x64, .f32⟩
  | .hbm, ⟨8, _⟩ => ⟨S3x64, .f32⟩
  | .hbm, ⟨9, _⟩ => ⟨S3x64x64, .f32⟩
  | .hbm, ⟨10, _⟩ => ⟨S3x64, .f32⟩
  | .hbm, ⟨11, _⟩ => ⟨S3x64x64, .f32⟩
  | .hbm, ⟨12, _⟩ => ⟨S3x64, .f32⟩
  | .hbm, ⟨13, _⟩ => ⟨S128x64, .f32⟩
  | .hbm, ⟨14, _⟩ => ⟨S128, .f32⟩
  | .hbm, ⟨15, _⟩ => ⟨S64x128, .f32⟩
  | .hbm, ⟨16, _⟩ => ⟨S64, .f32⟩
  | .hbm, ⟨17, _⟩ => ⟨S20000x64, .f32⟩
  | .hbm, ⟨18, _⟩ => ⟨S20000, .f32⟩
  | .hbm, ⟨19, _⟩ => ⟨S_, .i32⟩
  | .hbm, ⟨20, _⟩ => ⟨S_, .f32⟩
  | .hbm, ⟨21, _⟩ => ⟨S64x20480, .f32⟩
  | .hbm, ⟨22, _⟩ => ⟨S64x20480, .bf16⟩
  | .hbm, ⟨23, _⟩ => ⟨S20000x64, .bf16⟩
  | .hbm, ⟨24, _⟩ => ⟨S1x20000, .f32⟩
  | .hbm, ⟨25, _⟩ => ⟨S4096x64, .f32⟩
  | .hbm, ⟨26, _⟩ => ⟨S4096x20000, .f32⟩
  | .local _ .vmem, ⟨0, _⟩ => ⟨S1024x2560, .f32⟩
  | .local _ .vmem, ⟨1, _⟩ => ⟨S1024x2560, .f32⟩
  | .local _ .vmem, ⟨2, _⟩ => ⟨S64x2560, .bf16⟩
  | .local _ .vmem, ⟨3, _⟩ => ⟨S64x2560, .bf16⟩
  | .local _ .vmem, ⟨4, _⟩ => ⟨S64, .f32⟩
  | .local _ .vmem, ⟨5, _⟩ => ⟨S3x64x64, .f32⟩
  | .local _ .vmem, ⟨6, _⟩ => ⟨S3x64, .f32⟩
  | .local _ .vmem, ⟨7, _⟩ => ⟨S3x64x64, .f32⟩
  | .local _ .vmem, ⟨8, _⟩ => ⟨S3x64, .f32⟩
  | .local _ .vmem, ⟨9, _⟩ => ⟨S3x64x64, .f32⟩
  | .local _ .vmem, ⟨10, _⟩ => ⟨S3x64, .f32⟩
  | .local _ .vmem, ⟨11, _⟩ => ⟨S3x64x64, .f32⟩
  | .local _ .vmem, ⟨12, _⟩ => ⟨S3x64, .f32⟩
  | .local _ .vmem, ⟨13, _⟩ => ⟨S128x64, .f32⟩
  | .local _ .vmem, ⟨14, _⟩ => ⟨S128, .f32⟩
  | .local _ .vmem, ⟨15, _⟩ => ⟨S64x128, .f32⟩
  | .local _ .vmem, ⟨16, _⟩ => ⟨S64, .f32⟩
  | .local _ .vmem, ⟨17, _⟩ => ⟨S1024x64, .f32⟩
  | .local _ .vmem, ⟨18, _⟩ => ⟨S1024x64, .f32⟩
  | .local _ .vmem, ⟨19, _⟩ => ⟨S1024x64, .f32⟩
  | .local _ .vmem, ⟨20, _⟩ => ⟨S1024x64, .f32⟩
  | .local _ .vmem, ⟨21, _⟩ => ⟨S1024x64, .f32⟩
  | .local _ .vmem, ⟨22, _⟩ => ⟨S2560x64, .bf16⟩
  | .local _ .vmem, ⟨23, _⟩ => ⟨S2560x64, .bf16⟩
  | .local _ .vmem, ⟨24, _⟩ => ⟨S1x2560, .f32⟩
  | .local _ .vmem, ⟨25, _⟩ => ⟨S1x2560, .f32⟩
  | .local _ .vmem, ⟨26, _⟩ => ⟨S1024x2560, .f32⟩
  | .local _ .vmem, ⟨27, _⟩ => ⟨S1024x2560, .f32⟩
  | _, _ => ⟨S4096x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_call0_v0 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_9 : BitVec 32 := 0#32
  let v22 : BitVec 1 := Scalar.cmpi .ne v21 c0_i32_9
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1024x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2560x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2560 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x2560 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  pads_S64x20000_S64x20480_000_04800 : S64x20000.Pads (![0, 0] : Fin 2 → Nat) ![0, 480] ![0, 0] S64x20480
  h_S_ : 0 < S_.numel
  bitsLt_bf16_f32 : FTy.bits .bf16 < FTy.bits .f32
  shapeCasts_S20000_S1x20000 : S20000.ShapeCasts S1x20000
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  iota_S1024x2560_d1_w32 : S1024x2560.Iotas .tc 32 [1]
  inb_S1024x2560_S1024x2560_0_0 : ∀ a, (![0, 0] : Fin 2 → Nat) a + S1024x2560.size a ≤ S1024x2560.size a
  h_S1024x2560 : 0 < S1024x2560.numel
  inb_S64x2560_S64x2560_0_0 : ∀ a, (![0, 0] : Fin 2 → Nat) a + S64x2560.size a ≤ S64x2560.size a
  h_S64x2560 : 0 < S64x2560.numel
  shapeCasts_S64x2560_S64x2560 : S64x2560.ShapeCasts S64x2560
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64_S1x64_0_0 : ∀ a, (![0, 0] : Fin 2 → Nat) a + S1x64.size a ≤ S3x64.size a
  h_S1x64 : 0 < S1x64.numel
  shapeCasts_S1x64_S64 : S1x64.ShapeCasts S64
  reduces_S1024x64_S1024 : S1024x64.Reduces [1] S1024
  shapeCasts_S1024_S1024x1 : S1024.ShapeCasts S1024x1
  broadcasts_S1024x1_S1024x64 : S1024x1.Broadcasts S1024x64
  inb_S3x64x64_S1x64x64_1_0_0 : ∀ a, (![1, 0, 0] : Fin 3 → Nat) a + S1x64x64.size a ≤ S3x64x64.size a
  inb_S3x64_S1x64_1_0 : ∀ a, (![1, 0] : Fin 2 → Nat) a + S1x64.size a ≤ S3x64.size a
  inb_S3x64x64_S1x64x64_2_0_0 : ∀ a, (![2, 0, 0] : Fin 3 → Nat) a + S1x64x64.size a ≤ S3x64x64.size a
  inb_S3x64_S1x64_2_0 : ∀ a, (![2, 0] : Fin 2 → Nat) a + S1x64.size a ≤ S3x64.size a
  inb_S128x64_S128x64_0_0 : ∀ a, (![0, 0] : Fin 2 → Nat) a + S128x64.size a ≤ S128x64.size a
  h_S128x64 : 0 < S128x64.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S64x128_S64x128_0_0 : ∀ a, (![0, 0] : Fin 2 → Nat) a + S64x128.size a ≤ S64x128.size a
  h_S64x128 : 0 < S64x128.numel
  inb_S2560x64_S2560x64_0_0 : ∀ a, (![0, 0] : Fin 2 → Nat) a + S2560x64.size a ≤ S2560x64.size a
  h_S2560x64 : 0 < S2560x64.numel
  shapeCasts_S2560x64_S2560x64 : S2560x64.ShapeCasts S2560x64
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  broadcasts_S1x2560_S1024x2560 : S1x2560.Broadcasts S1024x2560
  dot_S1024x2560_S64x2560_S1024x64_1_1_0_0_n_n_wf : DotDims.WF S1024x2560 S64x2560 S1024x64 [1] [1] [0] [0] [] []
  dot_S1024x64_S64x64_S1024x64_1_1_0_0_n_n_wf : DotDims.WF S1024x64 S64x64 S1024x64 [1] [1] [0] [0] [] []
  dot_S1024x64_S128x64_S1024x128_1_1_0_0_n_n_wf : DotDims.WF S1024x64 S128x64 S1024x128 [1] [1] [0] [0] [] []
  dot_S1024x128_S64x128_S1024x64_1_1_0_0_n_n_wf : DotDims.WF S1024x128 S64x128 S1024x64 [1] [1] [0] [0] [] []
  dot_S1024x64_S2560x64_S1024x2560_1_1_0_0_n_n_wf : DotDims.WF S1024x64 S2560x64 S1024x2560 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x2560.size a < S4096x20000.size a
  hwx0_0 : ∀ i : grid0.Coords, EltTy.bits .f32 = 32 ∨ (Rect.unit (s := S4096x20000) (fun a => cc0_transform_0 i a * S1024x2560.size a) (fun a => (Pipeline.Clip.of (cc0_transform_0 i a) (S1024x2560.size a) (S4096x20000.size a)).extent (S1024x2560.size a)) fun a => Pipeline.Clip.inb (Pipeline.Clip.ok_of (hstart0_0 i a))).WholeWords (EltTy.packing .f32)
  hwxs0_0 : ∀ i : grid0.Coords, EltTy.bits .f32 = 32 ∨ (Rect.unit (s := S1024x2560) (fun _ => 0) (fun a => (Pipeline.Clip.of (cc0_transform_0 i a) (S1024x2560.size a) (S4096x20000.size a)).extent (S1024x2560.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2560.size a ≤ S64x20480.size a
  hwx0_1 : ∀ i : grid0.Coords, EltTy.bits .bf16 = 32 ∨ (Rect.block (s := S64x20480) S64x2560.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64x64.size a ≤ S3x64x64.size a
  hwx0_3 : ∀ i : grid0.Coords, EltTy.bits .f32 = 32 ∨ (Rect.block (s := S3x64x64) S3x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64.size a ≤ S3x64.size a
  hwx0_4 : ∀ i : grid0.Coords, EltTy.bits .f32 = 32 ∨ (Rect.block (s := S3x64) S3x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x64x64.size a ≤ S3x64x64.size a
  hwx0_5 : ∀ i : grid0.Coords, EltTy.bits .f32 = 32 ∨ (Rect.block (s := S3x64x64) S3x64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x64.size a ≤ S3x64.size a
  hwx0_6 : ∀ i : grid0.Coords, EltTy.bits .f32 = 32 ∨ (Rect.block (s := S3x64) S3x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x64x64.size a ≤ S3x64x64.size a
  hwx0_7 : ∀ i : grid0.Coords, EltTy.bits .f32 = 32 ∨ (Rect.block (s := S3x64x64) S3x64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x64.size a ≤ S3x64.size a
  hwx0_8 : ∀ i : grid0.Coords, EltTy.bits .f32 = 32 ∨ (Rect.block (s := S3x64) S3x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x64x64.size a ≤ S3x64x64.size a
  hwx0_9 : ∀ i : grid0.Coords, EltTy.bits .f32 = 32 ∨ (Rect.block (s := S3x64x64) S3x64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3x64.size a ≤ S3x64.size a
  hwx0_10 : ∀ i : grid0.Coords, EltTy.bits .f32 = 32 ∨ (Rect.block (s := S3x64) S3x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x64.size a ≤ S128x64.size a
  hwx0_11 : ∀ i : grid0.Coords, EltTy.bits .f32 = 32 ∨ (Rect.block (s := S128x64) S128x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x128.size a ≤ S64x128.size a
  hwx0_13 : ∀ i : grid0.Coords, EltTy.bits .f32 = 32 ∨ (Rect.block (s := S64x128) S64x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64.size a ≤ S64.size a
  hwx0_14 : ∀ i : grid0.Coords, EltTy.bits .f32 = 32 ∨ (Rect.block (s := S64) S64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x64.size a ≤ S4096x64.size a
  hwx0_15 : ∀ i : grid0.Coords, EltTy.bits .f32 = 32 ∨ (Rect.block (s := S4096x64) S1024x64.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S4096x64.size a
  hwx1_0 : ∀ i : grid1.Coords, EltTy.bits .f32 = 32 ∨ (Rect.block (s := S4096x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S2560x64.size a < S20000x64.size a
  hwx1_1 : ∀ i : grid1.Coords, EltTy.bits .bf16 = 32 ∨ (Rect.unit (s := S20000x64) (fun a => cc1_transform_1 i a * S2560x64.size a) (fun a => (Pipeline.Clip.of (cc1_transform_1 i a) (S2560x64.size a) (S20000x64.size a)).extent (S2560x64.size a)) fun a => Pipeline.Clip.inb (Pipeline.Clip.ok_of (hstart1_1 i a))).WholeWords (EltTy.packing .bf16)
  hwxs1_1 : ∀ i : grid1.Coords, EltTy.bits .bf16 = 32 ∨ (Rect.unit (s := S2560x64) (fun _ => 0) (fun a => (Pipeline.Clip.of (cc1_transform_1 i a) (S2560x64.size a) (S20000x64.size a)).extent (S2560x64.size a)) fun a => (Nat.zero_add _).trans_le (Pipeline.Clip.extent_le (Pipeline.Clip.ok_of (hstart1_1 i a)))).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x2560.size a < S1x20000.size a
  hwx1_2 : ∀ i : grid1.Coords, EltTy.bits .f32 = 32 ∨ (Rect.unit (s := S1x20000) (fun a => cc1_transform_2 i a * S1x2560.size a) (fun a => (Pipeline.Clip.of (cc1_transform_2 i a) (S1x2560.size a) (S1x20000.size a)).extent (S1x2560.size a)) fun a => Pipeline.Clip.inb (Pipeline.Clip.ok_of (hstart1_2 i a))).WholeWords (EltTy.packing .f32)
  hwxs1_2 : ∀ i : grid1.Coords, EltTy.bits .f32 = 32 ∨ (Rect.unit (s := S1x2560) (fun _ => 0) (fun a => (Pipeline.Clip.of (cc1_transform_2 i a) (S1x2560.size a) (S1x20000.size a)).extent (S1x2560.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1024x2560.size a < S4096x20000.size a
  hwx1_3 : ∀ i : grid1.Coords, EltTy.bits .f32 = 32 ∨ (Rect.unit (s := S4096x20000) (fun a => cc1_transform_3 i a * S1024x2560.size a) (fun a => (Pipeline.Clip.of (cc1_transform_3 i a) (S1024x2560.size a) (S4096x20000.size a)).extent (S1024x2560.size a)) fun a => Pipeline.Clip.inb (Pipeline.Clip.ok_of (hstart1_3 i a))).WholeWords (EltTy.packing .f32)
  hwxs1_3 : ∀ i : grid1.Coords, EltTy.bits .f32 = 32 ∨ (Rect.unit (s := S1024x2560) (fun _ => 0) (fun a => (Pipeline.Clip.of (cc1_transform_3 i a) (S1024x2560.size a) (S4096x20000.size a)).extent (S1024x2560.size a)) fun a => (Nat.zero_add _).trans_le (Pipeline.Clip.extent_le (Pipeline.Clip.ok_of (hstart1_3 i a)))).WholeWords (EltTy.packing .f32)

variable [Facts₀]

def dot_S1024x2560_S64x2560_S1024x64_1_1_0_0_n_n : DotDims S1024x2560 S64x2560 S1024x64 where
  lhsContracting := [1]
  rhsContracting := [1]
  lhsNonContracting := [0]
  rhsNonContracting := [0]
  lhsBatch := []
  rhsBatch := []
  wf := dot_S1024x2560_S64x2560_S1024x64_1_1_0_0_n_n_wf
def dot_S1024x64_S64x64_S1024x64_1_1_0_0_n_n : DotDims S1024x64 S64x64 S1024x64 where
  lhsContracting := [1]
  rhsContracting := [1]
  lhsNonContracting := [0]
  rhsNonContracting := [0]
  lhsBatch := []
  rhsBatch := []
  wf := dot_S1024x64_S64x64_S1024x64_1_1_0_0_n_n_wf
def dot_S1024x64_S128x64_S1024x128_1_1_0_0_n_n : DotDims S1024x64 S128x64 S1024x128 where
  lhsContracting := [1]
  rhsContracting := [1]
  lhsNonContracting := [0]
  rhsNonContracting := [0]
  lhsBatch := []
  rhsBatch := []
  wf := dot_S1024x64_S128x64_S1024x128_1_1_0_0_n_n_wf
def dot_S1024x128_S64x128_S1024x64_1_1_0_0_n_n : DotDims S1024x128 S64x128 S1024x64 where
  lhsContracting := [1]
  rhsContracting := [1]
  lhsNonContracting := [0]
  rhsNonContracting := [0]
  lhsBatch := []
  rhsBatch := []
  wf := dot_S1024x128_S64x128_S1024x64_1_1_0_0_n_n_wf
def dot_S1024x64_S2560x64_S1024x2560_1_1_0_0_n_n : DotDims S1024x64 S2560x64 S1024x2560 where
  lhsContracting := [1]
  rhsContracting := [1]
  lhsNonContracting := [0]
  rhsNonContracting := [0]
  lhsBatch := []
  rhsBatch := []
  wf := dot_S1024x64_S2560x64_S1024x2560_1_1_0_0_n_n_wf

abbrev win0_0 : Pipeline.Window sig grid0 :=
  Pipeline.Window.ofSpecClip (Memref.whole main_arg0) S1024x2560.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S64x2560.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S3x64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S3x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S3x64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S3x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S128x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S64x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v4) S1024x64.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond2 i == 1#1) | ⟨_ + 16, h⟩ => absurd h (Nat.not_lt.2 (Nat.le_add_left _ _))

abbrev win1_0 : Pipeline.Window sig grid1 :=
  Pipeline.Window.ofSpec (Memref.whole main_v4) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpecClip (Memref.whole main_v2) S2560x64.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v3) S1x2560.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v5) S1024x2560.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x20000 : Shape := ⟨2, ![4096, 20000]⟩
abbrev S64x20000 : Shape := ⟨2, ![64, 20000]⟩
abbrev S64 : Shape := ⟨1, ![64]⟩
abbrev S3x64x64 : Shape := ⟨3, ![3, 64, 64]⟩
abbrev S3x64 : Shape := ⟨2, ![3, 64]⟩
abbrev S128x64 : Shape := ⟨2, ![128, 64]⟩
abbrev S128 : Shape := ⟨1, ![128]⟩
abbrev S64x128 : Shape := ⟨2, ![64, 128]⟩
abbrev S20000x64 : Shape := ⟨2, ![20000, 64]⟩
abbrev S20000 : Shape := ⟨1, ![20000]⟩
abbrev S4096x64 : Shape := ⟨2, ![4096, 64]⟩
abbrev S1x64 : Shape := ⟨2, ![1, 64]⟩
abbrev S1x64x64 : Shape := ⟨3, ![1, 64, 64]⟩
abbrev S64x64 : Shape := ⟨2, ![64, 64]⟩
abbrev S_ : Shape := ⟨0, ![]⟩
abbrev S4096 : Shape := ⟨1, ![4096]⟩
abbrev S4096x1 : Shape := ⟨2, ![4096, 1]⟩
abbrev S4096x128 : Shape := ⟨2, ![4096, 128]⟩
abbrev S1x128 : Shape := ⟨2, ![1, 128]⟩
abbrev S1x20000 : Shape := ⟨2, ![1, 20000]⟩

abbrev nBuf : Space → Nat
  | .hbm => 172
  | .vmem => 0
  | .smem => 0
  | _ => 0

abbrev hbmTy0_0 (i : Nat) : BufTy := match i % 128 with
  | 0 => ⟨S4096x20000, .f32⟩
  | 1 => ⟨S64x20000, .f32⟩
  | 2 => ⟨S64, .f32⟩
  | 3 => ⟨S3x64x64, .f32⟩
  | 4 => ⟨S3x64, .f32⟩
  | 5 => ⟨S3x64x64, .f32⟩
  | 6 => ⟨S3x64, .f32⟩
  | 7 => ⟨S3x64x64, .f32⟩
  | 8 => ⟨S3x64, .f32⟩
  | 9 => ⟨S3x64x64, .f32⟩
  | 10 => ⟨S3x64, .f32⟩
  | 11 => ⟨S3x64x64, .f32⟩
  | 12 => ⟨S3x64, .f32⟩
  | 13 => ⟨S128x64, .f32⟩
  | 14 => ⟨S128, .f32⟩
  | 15 => ⟨S64x128, .f32⟩
  | 16 => ⟨S64, .f32⟩
  | 17 => ⟨S20000x64, .f32⟩
  | 18 => ⟨S20000, .f32⟩
  | 19 => ⟨S20000x64, .f32⟩
  | 20 => ⟨S4096x64, .f32⟩
  | 21 => ⟨S1x64, .f32⟩
  | 22 => ⟨S4096x64, .f32⟩
  | 23 => ⟨S4096x64, .f32⟩
  | 24 => ⟨S1x64x64, .f32⟩
  | 25 => ⟨S64x64, .f32⟩
  | 26 => ⟨S64x64, .f32⟩
  | 27 => ⟨S4096x64, .f32⟩
  | 28 => ⟨S1x64, .f32⟩
  | 29 => ⟨S64, .f32⟩
  | 30 => ⟨S1x64, .f32⟩
  | 31 => ⟨S4096x64, .f32⟩
  | 32 => ⟨S4096x64, .f32⟩
  | 33 => ⟨S1x64x64, .f32⟩
  | 34 => ⟨S64x64, .f32⟩
  | 35 => ⟨S64x64, .f32⟩
  | 36 => ⟨S4096x64, .f32⟩
  | 37 => ⟨S1x64, .f32⟩
  | 38 => ⟨S64, .f32⟩
  | 39 => ⟨S1x64, .f32⟩
  | 40 => ⟨S4096x64, .f32⟩
  | 41 => ⟨S4096x64, .f32⟩
  | 42 => ⟨S1x64x64, .f32⟩
  | 43 => ⟨S64x64, .f32⟩
  | 44 => ⟨S64x64, .f32⟩
  | 45 => ⟨S4096x64, .f32⟩
  | 46 => ⟨S1x64, .f32⟩
  | 47 => ⟨S64, .f32⟩
  | 48 => ⟨S1x64, .f32⟩
  | 49 => ⟨S4096x64, .f32⟩
  | 50 => ⟨S4096x64, .f32⟩
  | 51 => ⟨S4096x64, .f32⟩
  | 52 => ⟨S_, .f32⟩
  | 53 => ⟨S4096, .f32⟩
  | 54 => ⟨S4096x1, .f32⟩
  | 55 => ⟨S4096x64, .f32⟩
  | 56 => ⟨S4096x64, .f32⟩
  | 57 => ⟨S1x64x64, .f32⟩
  | 58 => ⟨S64x64, .f32⟩
  | 59 => ⟨S64x64, .f32⟩
  | 60 => ⟨S4096x64, .f32⟩
  | 61 => ⟨S1x64, .f32⟩
  | 62 => ⟨S64, .f32⟩
  | 63 => ⟨S1x64, .f32⟩
  | 64 => ⟨S4096x64, .f32⟩
  | 65 => ⟨S4096x64, .f32⟩
  | 66 => ⟨S4096x64, .f32⟩
  | 67 => ⟨S1x64x64, .f32⟩
  | 68 => ⟨S64x64, .f32⟩
  | 69 => ⟨S64x64, .f32⟩
  | 70 => ⟨S4096x64, .f32⟩
  | 71 => ⟨S1x64, .f32⟩
  | 72 => ⟨S64, .f32⟩
  | 73 => ⟨S1x64, .f32⟩
  | 74 => ⟨S4096x64, .f32⟩
  | 75 => ⟨S4096x64, .f32⟩
  | 76 => ⟨S1x64x64, .f32⟩
  | 77 => ⟨S64x64, .f32⟩
  | 78 => ⟨S64x64, .f32⟩
  | 79 => ⟨S4096x64, .f32⟩
  | 80 => ⟨S1x64, .f32⟩
  | 81 => ⟨S64, .f32⟩
  | 82 => ⟨S1x64, .f32⟩
  | 83 => ⟨S4096x64, .f32⟩
  | 84 => ⟨S4096x64, .f32⟩
  | 85 => ⟨S1x64x64, .f32⟩
  | 86 => ⟨S64x64, .f32⟩
  | 87 => ⟨S64x64, .f32⟩
  | 88 => ⟨S4096x64, .f32⟩
  | 89 => ⟨S1x64, .f32⟩
  | 90 => ⟨S64, .f32⟩
  | 91 => ⟨S1x64, .f32⟩
  | 92 => ⟨S4096x64, .f32⟩
  | 93 => ⟨S4096x64, .f32⟩
  | 94 => ⟨S4096x64, .f32⟩
  | 95 => ⟨S_, .f32⟩
  | 96 => ⟨S4096, .f32⟩
  | 97 => ⟨S4096x1, .f32⟩
  | 98 => ⟨S4096x64, .f32⟩
  | 99 => ⟨S4096x64, .f32⟩
  | 100 => ⟨S1x64x64, .f32⟩
  | 101 => ⟨S64x64, .f32⟩
  | 102 => ⟨S64x64, .f32⟩
  | 103 => ⟨S4096x64, .f32⟩
  | 104 => ⟨S1x64, .f32⟩
  | 105 => ⟨S64, .f32⟩
  | 106 => ⟨S1x64, .f32⟩
  | 107 => ⟨S4096x64, .f32⟩
  | 108 => ⟨S4096x64, .f32⟩
  | 109 => ⟨S4096x64, .f32⟩
  | 110 => ⟨S1x64x64, .f32⟩
  | 111 => ⟨S64x64, .f32⟩
  | 112 => ⟨S64x64, .f32⟩
  | 113 => ⟨S4096x64, .f32⟩
  | 114 => ⟨S1x64, .f32⟩
  | 115 => ⟨S64, .f32⟩
  | 116 => ⟨S1x64, .f32⟩
  | 117 => ⟨S4096x64, .f32⟩
  | 118 => ⟨S4096x64, .f32⟩
  | 119 => ⟨S1x64x64, .f32⟩
  | 120 => ⟨S64x64, .f32⟩
  | 121 => ⟨S64x64, .f32⟩
  | 122 => ⟨S4096x64, .f32⟩
  | 123 => ⟨S1x64, .f32⟩
  | 124 => ⟨S64, .f32⟩
  | 125 => ⟨S1x64, .f32⟩
  | 126 => ⟨S4096x64, .f32⟩
  | 127 => ⟨S4096x64, .f32⟩
  | _ => ⟨S4096x20000, .f32⟩

abbrev hbmTy0_1 (i : Nat) : BufTy := match i % 128 with
  | 0 => ⟨S1x64x64, .f32⟩
  | 1 => ⟨S64x64, .f32⟩
  | 2 => ⟨S64x64, .f32⟩
  | 3 => ⟨S4096x64, .f32⟩
  | 4 => ⟨S1x64, .f32⟩
  | 5 => ⟨S64, .f32⟩
  | 6 => ⟨S1x64, .f32⟩
  | 7 => ⟨S4096x64, .f32⟩
  | 8 => ⟨S4096x64, .f32⟩
  | 9 => ⟨S4096x64, .f32⟩
  | 10 => ⟨S_, .f32⟩
  | 11 => ⟨S4096, .f32⟩
  | 12 => ⟨S4096x1, .f32⟩
  | 13 => ⟨S4096x64, .f32⟩
  | 14 => ⟨S4096x64, .f32⟩
  | 15 => ⟨S1x64x64, .f32⟩
  | 16 => ⟨S64x64, .f32⟩
  | 17 => ⟨S64x64, .f32⟩
  | 18 => ⟨S4096x64, .f32⟩
  | 19 => ⟨S1x64, .f32⟩
  | 20 => ⟨S64, .f32⟩
  | 21 => ⟨S1x64, .f32⟩
  | 22 => ⟨S4096x64, .f32⟩
  | 23 => ⟨S4096x64, .f32⟩
  | 24 => ⟨S4096x64, .f32⟩
  | 25 => ⟨S64x128, .f32⟩
  | 26 => ⟨S4096x128, .f32⟩
  | 27 => ⟨S1x128, .f32⟩
  | 28 => ⟨S4096x128, .f32⟩
  | 29 => ⟨S4096x128, .f32⟩
  | 30 => ⟨S_, .f32⟩
  | 31 => ⟨S4096x128, .f32⟩
  | 32 => ⟨S4096x128, .f32⟩
  | 33 => ⟨S128x64, .f32⟩
  | 34 => ⟨S4096x64, .f32⟩
  | 35 => ⟨S1x64, .f32⟩
  | 36 => ⟨S4096x64, .f32⟩
  | 37 => ⟨S4096x64, .f32⟩
  | 38 => ⟨S4096x64, .f32⟩
  | 39 => ⟨S64x20000, .f32⟩
  | 40 => ⟨S4096x20000, .f32⟩
  | 41 => ⟨S1x20000, .f32⟩
  | 42 => ⟨S4096x20000, .f32⟩
  | 43 => ⟨S4096x20000, .f32⟩
  | _ => ⟨S4096x20000, .f32⟩

abbrev hbmTy (i : Nat) : BufTy := match i / 128 with
  | 0 => hbmTy0_0 i
  | 1 => hbmTy0_1 i
  | _ => ⟨S4096x20000, .f32⟩

abbrev bufTy : (tb : Table) → Fin (tcTables nBuf tb) → BufTy
  | .hbm, ⟨i, _⟩ => hbmTy i
  | _, _ => ⟨S4096x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_0 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_1 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_call0_cst : Ref sig .tc := ⟨.hbm, 158, rfl⟩
abbrev main_call0_v0 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩

abbrev nD : Nat := 1
abbrev τ : Topo := Topo.v7x

variable {F : FTy → Type} [FloatOps F]

class Facts₀ : Prop where
  transposes_S64x20000_S20000x64_1_0 : S64x20000.Transposes [1, 0] S20000x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  reducesTo_S4096x64_S4096_d1 : S4096x64.ReducesTo [1] S4096
  h_S_ : 0 < S_.numel
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  transposes_S128x64_S64x128_1_0 : S128x64.Transposes [1, 0] S64x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  transposes_S64x128_S128x64_1_0 : S64x128.Transposes [1, 0] S128x64
  transposes_S20000x64_S64x20000_1_0 : S20000x64.Transposes [1, 0] S64x20000
  bcast_S20000_S1x20000_1 : S20000.BroadcastsInDim S1x20000 (![1] : Fin 1 → Fin S1x20000.rank)
  bcast_S1x20000_S4096x20000_0_1 : S1x20000.BroadcastsInDim S4096x20000 (![0, 1] : Fin 2 → Fin S4096x20000.rank)
  dot_S4096x20000_S20000x64_S4096x64_1_0_0_1_n_n_wf : DotDims.WF S4096x20000 S20000x64 S4096x64 [1] [0] [0] [1] [] []
  dot_S4096x64_S64x64_S4096x64_1_0_0_1_n_n_wf : DotDims.WF S4096x64 S64x64 S4096x64 [1] [0] [0] [1] [] []
  dot_S4096x64_S64x128_S4096x128_1_0_0_1_n_n_wf : DotDims.WF S4096x64 S64x128 S4096x128 [1] [0] [0] [1] [] []
  dot_S4096x128_S128x64_S4096x64_1_0_0_1_n_n_wf : DotDims.WF S4096x128 S128x64 S4096x64 [1] [0] [0] [1] [] []
  dot_S4096x64_S64x20000_S4096x20000_1_0_0_1_n_n_wf : DotDims.WF S4096x64 S64x20000 S4096x20000 [1] [0] [0] [1] [] []

variable [Facts₀]

def dot_S4096x20000_S20000x64_S4096x64_1_0_0_1_n_n : DotDims S4096x20000 S20000x64 S4096x64 where
  lhsContracting := [1]
  rhsContracting := [0]
  lhsNonContracting := [0]
  rhsNonContracting := [1]
  lhsBatch := []
  rhsBatch := []
  wf := dot_S4096x20000_S20000x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x20000_S4096x20000_1_0_0_1_n_n : DotDims S4096x64 S64x20000 S4096x20000 where
  lhsContracting := [1]
  rhsContracting := [0]
  lhsNonContracting := [0]
  rhsNonContracting := [1]
  lhsBatch := []
  rhsBatch := []
  wf := dot_S4096x64_S64x20000_S4096x20000_1_0_0_1_n_n_wf

class Facts : Prop extends Facts₀ where

variable [Facts]
-- ==== Proof.K0CondsB.lean ====
/-
  The input projection kernel: its two branch conditions over the 4 × 8 grid.

  The grid point (i, k) accumulates block k of the contraction over the 20000 columns into a scratch accumulator.
  The accumulator is reset when k = 0, and when k = 7 (the last block) the layers and the feed-forward part run on
  the finished accumulator and the result block is stored.  In the linear order of the 32 points, k is the point's
  number modulo 8.
-/
import proofs.«111399_j53506702573937_2_alg».proof.Proof.Gen.Kernel.Launch
import proofs.«111399_j53506702573937_2_alg».proof.Proof.Gen.Kernel.Skeleton
import proofs.«111399_j53506702573937_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- "k = 0": the accumulator is reset at this point. -/
abbrev condReset (i : grid0.Coords) : Prop := (Scalar.cmpi .ne (Scalar.extui (Scalar.cmpi .eq (BitVec.ofNat 32 (i 1).val) 0#32)) 0#32) = 1#1
theorem hcondReset : ∀ t : Fin cfg0.N, condReset (grid0.coords t) ↔ t.val % 8 = 0 :=
  (by decide +kernel : ∀ t : Fin grid0.N, condReset (grid0.coords t) ↔ t.val % 8 = 0)

/-- "k = 7": the epilogue runs and the result block is stored at this point. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

end Cert.Kernel.Hand

end
-- ==== Proof.K0MaskB.lean ====
/-
  The column mask of the input projection kernel hides whatever lies past the array's end.

  Block k of x covers columns 2560·k … 2560·k + 2559 of a 20000-column array, so the last block (k = 7) holds only
  2080 real columns; the rest of its staging buffer holds words nothing names.  The body replaces every entry whose
  column index is not below 20000 − 2560·k by zero before it multiplies, so the accumulated product does not depend
  on those words.
-/
import proofs.«111399_j53506702573937_2_alg».proof.Proof.K0CondsB
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-- For k < 8 and a column q < 2560 of the block that is not below the number of columns the block really has
    (2080 when k = 7, all 2560 otherwise), the kernel's signed comparison "q < 20000 − 2560·k" on 32-bit words fails. -/
theorem maskArith : ∀ (k : Fin 8) (q : Fin 2560), ¬ q.val < (if k.val = 7 then 2080 else 2560) →
    (BitVec.ofNat 32 q.val).slt (20000#32 - BitVec.ofNat 32 k.val * 2560#32) = false := by decide +kernel

/-- The second grid coordinate of a point is its number modulo 8. -/
theorem coordK : ∀ t : Fin grid0.N, ((grid0.coords t) 1).val = t.val % 8 := by decide +kernel
/-- What a fetch of x's block moves: all 1024 rows, and 2080 columns at the last column block, 2560 elsewhere. -/
theorem xsz : ∀ t : Fin grid0.N, win0_0.xsize (grid0.coords t) 0 = 1024 ∧ win0_0.xsize (grid0.coords t) 1 = (if t.val % 8 = 7 then 2080 else 2560) := by decide +kernel

/-- The accumulation step reads x's staging buffer only where the fetch filled it: two buffers that hold the same
    fetched block, whatever else they hold, give the same new accumulator. -/
theorem pay2_fill (t : Fin cfg0.N) (d d' : S1024x2560.Idx → Elt F .f32) (g : (win0_0.xblock (grid0.coords t)).Idx → Elt F .f32)
    (w : Vec F S64x2560 .bf16) (a : Vec F S1024x64 .f32) :
    k0_pay2 (grid0.coords t) (win0_0.fill (grid0.coords t) d g) w a = k0_pay2 (grid0.coords t) (win0_0.fill (grid0.coords t) d' g) w a := by
  unfold k0_pay2
  dsimp only
  have hs : select (cmpi CmpIPredicate.slt (iota Kind.tc S1024x2560 32 [1] iota_S1024x2560_d1_w32)
          (broadcast S1024x2560 (Scalar.subi (20000#32) (Scalar.muli (BitVec.ofNat 32 ((grid0.coords t) 1).val) 2560#32))))
        (win0_0.fill (grid0.coords t) d g) (broadcast S1024x2560 (FloatOps.ofBits FTy.f32 0#32))
      = select (cmpi CmpIPredicate.slt (iota Kind.tc S1024x2560 32 [1] iota_S1024x2560_d1_w32)
          (broadcast S1024x2560 (Scalar.subi (20000#32) (Scalar.muli (BitVec.ofNat 32 ((grid0.coords t) 1).val) 2560#32))))
        (win0_0.fill (grid0.coords t) d' g) (broadcast S1024x2560 (FloatOps.ofBits FTy.f32 0#32)) := by
    funext j
    by_cases hm : win0_0.moved (grid0.coords t) j = true
    · unfold select Pipeline.Window.fill
      rw [dif_pos hm, dif_pos hm]
    · have h0 : (j 0).val < 1024 := (j 0).isLt
      have h1 : (j 1).val < 2560 := (j 1).isLt
      have hk : ((grid0.coords t) 1).val < 8 := ((grid0.coords t) 1).isLt
      have hq : ¬ (j 1).val < (if t.val % 8 = 7 then 2080 else 2560) := fun hlt =>
        hm ((win0_0.moved_iff _ j).mpr fun a => by
          match a with
          | ⟨0, _⟩ => exact (xsz t).1 ▸ h0
          | ⟨1, _⟩ => exact (xsz t).2 ▸ hlt)
      have hmask := maskArith ⟨((grid0.coords t) 1).val, hk⟩ ⟨(j 1).val, h1⟩ (by
        show ¬ (j 1).val < (if ((grid0.coords t) 1).val = 7 then 2080 else 2560)
        rw [coordK t]; exact hq)
      have hc : cmpi CmpIPredicate.slt (iota Kind.tc S1024x2560 32 [1] iota_S1024x2560_d1_w32)
          (broadcast S1024x2560 (Scalar.subi (20000#32) (Scalar.muli (BitVec.ofNat 32 ((grid0.coords t) 1).val) 2560#32))) j = 0#1 := by
        show BitVec.ofBool ((BitVec.ofNat 32 (0 * 2560 + (j 1).val)).slt (20000#32 - BitVec.ofNat 32 ((grid0.coords t) 1).val * 2560#32)) = 0#1
        rw [Nat.zero_mul, Nat.zero_add]
        rw [show (BitVec.ofNat 32 (j 1).val).slt (20000#32 - BitVec.ofNat 32 ((grid0.coords t) 1).val * 2560#32) = false from hmask]
        rfl
      unfold select
      rw [hc]
      rfl
  rw [hs]

end Cert.Kernel.Hand

end
-- ==== Proof.K0RunAB.lean ====
/-
  The input projection kernel at a point with k = 0: the accumulator is reset to zero, then block 0 of the
  contraction is added to it.  Nothing is stored into the result buffer, which is handed back as it was found.
-/
import proofs.«111399_j53506702573937_2_alg».proof.Proof.K0CondsB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
noncomputable def kernelRunA (c : Dev nD) (i : grid0.Coords) (arg2 : Memref sig .tc .vmem S1024x2560 .f32) (harg2 : arg2.IsWhole) (arg3 : Memref sig .tc .vmem S64x2560 .bf16) (harg3 : arg3.IsWhole) (arg4 : Memref sig .tc .vmem S64 .f32) (harg4 : arg4.IsWhole) (arg5 : Memref sig .tc .vmem S3x64x64 .f32) (harg5 : arg5.IsWhole) (arg6 : Memref sig .tc .vmem S3x64 .f32) (harg6 : arg6.IsWhole) (arg7 : Memref sig .tc .vmem S3x64x64 .f32) (harg7 : arg7.IsWhole) (arg8 : Memref sig .tc .vmem S3x64 .f32) (harg8 : arg8.IsWhole) (arg9 : Memref sig .tc .vmem S3x64x64 .f32) (harg9 : arg9.IsWhole) (arg10 : Memref sig .tc .vmem S3x64 .f32) (harg10 : arg10.IsWhole) (arg11 : Memref sig .tc .vmem S3x64x64 .f32) (harg11 : arg11.IsWhole) (arg12 : Memref sig .tc .vmem S3x64 .f32) (harg12 : arg12.IsWhole) (arg13 : Memref sig .tc .vmem S128x64 .f32) (harg13 : arg13.IsWhole) (arg14 : Memref sig .tc .vmem S128 .f32) (harg14 : arg14.IsWhole) (arg15 : Memref sig .tc .vmem S64x128 .f32) (harg15 : arg15.IsWhole) (arg16 : Memref sig .tc .vmem S64 .f32) (harg16 : arg16.IsWhole) (arg17 : Memref sig .tc .vmem S1024x64 .f32) (harg17 : arg17.IsWhole) (arg18 : Memref sig .tc .vmem S1024x64 .f32) (harg18 : arg18.IsWhole) (hc0 : condReset i) (hc1 : ¬condLast i)
    (x0 : Vec F S1024x2560 .f32) (x1 : Vec F S64x2560 .bf16) (x2 : Vec F S64 .f32) (x3 : Vec F S3x64x64 .f32) (x4 : Vec F S3x64 .f32) (x5 : Vec F S3x64x64 .f32) (x6 : Vec F S3x64 .f32) (x7 : Vec F S3x64x64 .f32) (x8 : Vec F S3x64 .f32) (x9 : Vec F S3x64x64 .f32) (x10 : Vec F S3x64 .f32) (x11 : Vec F S128x64 .f32) (x12 : Vec F S128 .f32) (x13 : Vec F S64x128 .f32) (x14 : Vec F S64 .f32) :
    { LS0 : List (View.Piece (Elt F) S1024x64 .f32) //
      ∀ (xi15 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ (∃ f, arg18.view.loc (c : Thread nD τ) ↦[arg18.view.set]{fullShare} arg18.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun xi15 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    iexists _; iexact HS0

end Cert.Kernel.Hand

end
-- ==== Proof.K0RunBB.lean ====
/-
  The input projection kernel at a point with 0 < k < 7: block k of the contraction is added to the accumulator the
  point before left.  Nothing is stored into the result buffer, which is handed back as it was found.
-/
import proofs.«111399_j53506702573937_2_alg».proof.Proof.K0CondsB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
noncomputable def kernelRunB (c : Dev nD) (i : grid0.Coords) (arg2 : Memref sig .tc .vmem S1024x2560 .f32) (harg2 : arg2.IsWhole) (arg3 : Memref sig .tc .vmem S64x2560 .bf16) (harg3 : arg3.IsWhole) (arg4 : Memref sig .tc .vmem S64 .f32) (harg4 : arg4.IsWhole) (arg5 : Memref sig .tc .vmem S3x64x64 .f32) (harg5 : arg5.IsWhole) (arg6 : Memref sig .tc .vmem S3x64 .f32) (harg6 : arg6.IsWhole) (arg7 : Memref sig .tc .vmem S3x64x64 .f32) (harg7 : arg7.IsWhole) (arg8 : Memref sig .tc .vmem S3x64 .f32) (harg8 : arg8.IsWhole) (arg9 : Memref sig .tc .vmem S3x64x64 .f32) (harg9 : arg9.IsWhole) (arg10 : Memref sig .tc .vmem S3x64 .f32) (harg10 : arg10.IsWhole) (arg11 : Memref sig .tc .vmem S3x64x64 .f32) (harg11 : arg11.IsWhole) (arg12 : Memref sig .tc .vmem S3x64 .f32) (harg12 : arg12.IsWhole) (arg13 : Memref sig .tc .vmem S128x64 .f32) (harg13 : arg13.IsWhole) (arg14 : Memref sig .tc .vmem S128 .f32) (harg14 : arg14.IsWhole) (arg15 : Memref sig .tc .vmem S64x128 .f32) (harg15 : arg15.IsWhole) (arg16 : Memref sig .tc .vmem S64 .f32) (harg16 : arg16.IsWhole) (arg17 : Memref sig .tc .vmem S1024x64 .f32) (harg17 : arg17.IsWhole) (arg18 : Memref sig .tc .vmem S1024x64 .f32) (harg18 : arg18.IsWhole) (hc0 : ¬condReset i) (hc1 : ¬condLast i)
    (x0 : Vec F S1024x2560 .f32) (x1 : Vec F S64x2560 .bf16) (x2 : Vec F S64 .f32) (x3 : Vec F S3x64x64 .f32) (x4 : Vec F S3x64 .f32) (x5 : Vec F S3x64x64 .f32) (x6 : Vec F S3x64 .f32) (x7 : Vec F S3x64x64 .f32) (x8 : Vec F S3x64 .f32) (x9 : Vec F S3x64x64 .f32) (x10 : Vec F S3x64 .f32) (x11 : Vec F S128x64 .f32) (x12 : Vec F S128 .f32) (x13 : Vec F S64x128 .f32) (x14 : Vec F S64 .f32) (xs0 : Vec F S1024x64 .f32) :
    { LS0 : List (View.Piece (Elt F) S1024x64 .f32) //
      ∀ (xi15 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ owns (c : Thread nD τ) arg18 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ (∃ f, arg18.view.loc (c : Thread nD τ) ↦[arg18.view.set]{fullShare} arg18.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun xi15 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    iexists _; iexact HS0

end Cert.Kernel.Hand

end
-- ==== Proof.K0RunCB.lean ====
/-
  The input projection kernel at a point with k = 7: the last block of the contraction is added to the accumulator,
  then the bias, the three layers and the feed-forward part run on it and the result block is stored whole.
-/
import proofs.«111399_j53506702573937_2_alg».proof.Proof.K0CondsB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
noncomputable def kernelRunC (c : Dev nD) (i : grid0.Coords) (arg2 : Memref sig .tc .vmem S1024x2560 .f32) (harg2 : arg2.IsWhole) (arg3 : Memref sig .tc .vmem S64x2560 .bf16) (harg3 : arg3.IsWhole) (arg4 : Memref sig .tc .vmem S64 .f32) (harg4 : arg4.IsWhole) (arg5 : Memref sig .tc .vmem S3x64x64 .f32) (harg5 : arg5.IsWhole) (arg6 : Memref sig .tc .vmem S3x64 .f32) (harg6 : arg6.IsWhole) (arg7 : Memref sig .tc .vmem S3x64x64 .f32) (harg7 : arg7.IsWhole) (arg8 : Memref sig .tc .vmem S3x64 .f32) (harg8 : arg8.IsWhole) (arg9 : Memref sig .tc .vmem S3x64x64 .f32) (harg9 : arg9.IsWhole) (arg10 : Memref sig .tc .vmem S3x64 .f32) (harg10 : arg10.IsWhole) (arg11 : Memref sig .tc .vmem S3x64x64 .f32) (harg11 : arg11.IsWhole) (arg12 : Memref sig .tc .vmem S3x64 .f32) (harg12 : arg12.IsWhole) (arg13 : Memref sig .tc .vmem S128x64 .f32) (harg13 : arg13.IsWhole) (arg14 : Memref sig .tc .vmem S128 .f32) (harg14 : arg14.IsWhole) (arg15 : Memref sig .tc .vmem S64x128 .f32) (harg15 : arg15.IsWhole) (arg16 : Memref sig .tc .vmem S64 .f32) (harg16 : arg16.IsWhole) (arg17 : Memref sig .tc .vmem S1024x64 .f32) (harg17 : arg17.IsWhole) (arg18 : Memref sig .tc .vmem S1024x64 .f32) (harg18 : arg18.IsWhole) (hc0 : ¬condReset i) (hc1 : condLast i)
    (x0 : Vec F S1024x2560 .f32) (x1 : Vec F S64x2560 .bf16) (x2 : Vec F S64 .f32) (x3 : Vec F S3x64x64 .f32) (x4 : Vec F S3x64 .f32) (x5 : Vec F S3x64x64 .f32) (x6 : Vec F S3x64 .f32) (x7 : Vec F S3x64x64 .f32) (x8 : Vec F S3x64 .f32) (x9 : Vec F S3x64x64 .f32) (x10 : Vec F S3x64 .f32) (x11 : Vec F S128x64 .f32) (x12 : Vec F S128 .f32) (x13 : Vec F S64x128 .f32) (x14 : Vec F S64 .f32) (xs0 : Vec F S1024x64 .f32) :
    Σ' (L15 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ owns (c : Thread nD τ) arg18 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg18.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    iexists _; iexact HS0

end Cert.Kernel.Hand

end
-- ==== Proof.K0IndepB.lean ====
/-
  What the input projection kernel leaves does not depend on the unnamed words of x's staging buffer.

  In each of the three cases the accumulator ends at the accumulation step's value, which reads x's buffer through the
  column mask only; and in the last case the stored result block is computed from that accumulator and the small
  weight buffers.  So two runs whose x buffers hold the same fetched block leave the same accumulator and result.
-/
import proofs.«111399_j53506702573937_2_alg».proof.Proof.K0MaskB
import proofs.«111399_j53506702573937_2_alg».proof.Proof.K0RunAB
import proofs.«111399_j53506702573937_2_alg».proof.Proof.K0RunBB
import proofs.«111399_j53506702573937_2_alg».proof.Proof.K0RunCB
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A whole-buffer load of a whole staging buffer reads its contents. -/
theorem readWhole {S : Shape} {e : EltTy} {sp : Space} (m : Memref sig .tc sp S e) (hm : m.IsWhole) {off : Fin S.rank → Nat} (hoff : off = fun _ => 0)
    (inb : ∀ a, off a + S.size a ≤ S.size a) (X : S.Idx → Elt F e) :
    View.readAt (Elt F) m.view (Rect.unit off S.size inb).toLoadRect (hm.unread X) = X := by
  rw [View.readAt_eq_ld, hm.read_unread]; exact View.ld_unit_zero hoff inb X

theorem hz2 : (![0, 0] : Fin 2 → Nat) = fun _ => 0 := funext fun a => by fin_cases a <;> rfl

theorem runB_indep (c : Dev nD) (t : Fin cfg0.N) (arg2 : Memref sig .tc .vmem S1024x2560 .f32) (harg2 : arg2.IsWhole) (arg3 : Memref sig .tc .vmem S64x2560 .bf16) (harg3 : arg3.IsWhole) (arg4 : Memref sig .tc .vmem S64 .f32) (harg4 : arg4.IsWhole) (arg5 : Memref sig .tc .vmem S3x64x64 .f32) (harg5 : arg5.IsWhole) (arg6 : Memref sig .tc .vmem S3x64 .f32) (harg6 : arg6.IsWhole) (arg7 : Memref sig .tc .vmem S3x64x64 .f32) (harg7 : arg7.IsWhole) (arg8 : Memref sig .tc .vmem S3x64 .f32) (harg8 : arg8.IsWhole) (arg9 : Memref sig .tc .vmem S3x64x64 .f32) (harg9 : arg9.IsWhole) (arg10 : Memref sig .tc .vmem S3x64 .f32) (harg10 : arg10.IsWhole) (arg11 : Memref sig .tc .vmem S3x64x64 .f32) (harg11 : arg11.IsWhole) (arg12 : Memref sig .tc .vmem S3x64 .f32) (harg12 : arg12.IsWhole) (arg13 : Memref sig .tc .vmem S128x64 .f32) (harg13 : arg13.IsWhole) (arg14 : Memref sig .tc .vmem S128 .f32) (harg14 : arg14.IsWhole) (arg15 : Memref sig .tc .vmem S64x128 .f32) (harg15 : arg15.IsWhole) (arg16 : Memref sig .tc .vmem S64 .f32) (harg16 : arg16.IsWhole) (arg17 : Memref sig .tc .vmem S1024x64 .f32) (harg17 : arg17.IsWhole) (arg18 : Memref sig .tc .vmem S1024x64 .f32) (harg18 : arg18.IsWhole) (hc0 : ¬condReset (grid0.coords t)) (hc1 : ¬condLast (grid0.coords t))
    (d d' : S1024x2560.Idx → Elt F .f32) (g : (win0_0.xblock (grid0.coords t)).Idx → Elt F .f32) (x1 : Vec F S64x2560 .bf16) (x2 : Vec F S64 .f32) (x3 : Vec F S3x64x64 .f32) (x4 : Vec F S3x64 .f32) (x5 : Vec F S3x64x64 .f32) (x6 : Vec F S3x64 .f32) (x7 : Vec F S3x64x64 .f32) (x8 : Vec F S3x64 .f32) (x9 : Vec F S3x64x64 .f32) (x10 : Vec F S3x64 .f32) (x11 : Vec F S128x64 .f32) (x12 : Vec F S128 .f32) (x13 : Vec F S64x128 .f32) (x14 : Vec F S64 .f32) (xs0 : Vec F S1024x64 .f32) :
    View.canon (kernelRunB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (win0_0.fill (grid0.coords t) d g) x1 x2 x3 x4 x5 x6 x7 x8 x9 x10 x11 x12 x13 x14 xs0).1
      = View.canon (kernelRunB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (win0_0.fill (grid0.coords t) d' g) x1 x2 x3 x4 x5 x6 x7 x8 x9 x10 x11 x12 x13 x14 xs0).1 := by
  unfold kernelRunB
  dsimp only
  rw [readWhole arg2 harg2 hz2, readWhole arg2 harg2 hz2]
  refine (View.canon_cons_unit_zero (S := S1024x64) hz2 _ _ _).trans (Eq.trans ?_ (View.canon_cons_unit_zero (S := S1024x64) hz2 _ _ _).symm)
  exact pay2_fill t d d' g _ _

theorem runA_indep (c : Dev nD) (t : Fin cfg0.N) (arg2 : Memref sig .tc .vmem S1024x2560 .f32) (harg2 : arg2.IsWhole) (arg3 : Memref sig .tc .vmem S64x2560 .bf16) (harg3 : arg3.IsWhole) (arg4 : Memref sig .tc .vmem S64 .f32) (harg4 : arg4.IsWhole) (arg5 : Memref sig .tc .vmem S3x64x64 .f32) (harg5 : arg5.IsWhole) (arg6 : Memref sig .tc .vmem S3x64 .f32) (harg6 : arg6.IsWhole) (arg7 : Memref sig .tc .vmem S3x64x64 .f32) (harg7 : arg7.IsWhole) (arg8 : Memref sig .tc .vmem S3x64 .f32) (harg8 : arg8.IsWhole) (arg9 : Memref sig .tc .vmem S3x64x64 .f32) (harg9 : arg9.IsWhole) (arg10 : Memref sig .tc .vmem S3x64 .f32) (harg10 : arg10.IsWhole) (arg11 : Memref sig .tc .vmem S3x64x64 .f32) (harg11 : arg11.IsWhole) (arg12 : Memref sig .tc .vmem S3x64 .f32) (harg12 : arg12.IsWhole) (arg13 : Memref sig .tc .vmem S128x64 .f32) (harg13 : arg13.IsWhole) (arg14 : Memref sig .tc .vmem S128 .f32) (harg14 : arg14.IsWhole) (arg15 : Memref sig .tc .vmem S64x128 .f32) (harg15 : arg15.IsWhole) (arg16 : Memref sig .tc .vmem S64 .f32) (harg16 : arg16.IsWhole) (arg17 : Memref sig .tc .vmem S1024x64 .f32) (harg17 : arg17.IsWhole) (arg18 : Memref sig .tc .vmem S1024x64 .f32) (harg18 : arg18.IsWhole) (hc0 : condReset (grid0.coords t)) (hc1 : ¬condLast (grid0.coords t))
    (d d' : S1024x2560.Idx → Elt F .f32) (g : (win0_0.xblock (grid0.coords t)).Idx → Elt F .f32) (x1 : Vec F S64x2560 .bf16) (x2 : Vec F S64 .f32) (x3 : Vec F S3x64x64 .f32) (x4 : Vec F S3x64 .f32) (x5 : Vec F S3x64x64 .f32) (x6 : Vec F S3x64 .f32) (x7 : Vec F S3x64x64 .f32) (x8 : Vec F S3x64 .f32) (x9 : Vec F S3x64x64 .f32) (x10 : Vec F S3x64 .f32) (x11 : Vec F S128x64 .f32) (x12 : Vec F S128 .f32) (x13 : Vec F S64x128 .f32) (x14 : Vec F S64 .f32) :
    View.canon (kernelRunA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (win0_0.fill (grid0.coords t) d g) x1 x2 x3 x4 x5 x6 x7 x8 x9 x10 x11 x12 x13 x14).1
      = View.canon (kernelRunA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (win0_0.fill (grid0.coords t) d' g) x1 x2 x3 x4 x5 x6 x7 x8 x9 x10 x11 x12 x13 x14).1 := by
  unfold kernelRunA
  dsimp only
  rw [readWhole arg2 harg2 hz2, readWhole arg2 harg2 hz2]
  refine (View.canon_cons_unit_zero (S := S1024x64) hz2 _ _ _).trans (Eq.trans ?_ (View.canon_cons_unit_zero (S := S1024x64) hz2 _ _ _).symm)
  exact pay2_fill t d d' g _ _

theorem runC_indep (c : Dev nD) (t : Fin cfg0.N) (arg2 : Memref sig .tc .vmem S1024x2560 .f32) (harg2 : arg2.IsWhole) (arg3 : Memref sig .tc .vmem S64x2560 .bf16) (harg3 : arg3.IsWhole) (arg4 : Memref sig .tc .vmem S64 .f32) (harg4 : arg4.IsWhole) (arg5 : Memref sig .tc .vmem S3x64x64 .f32) (harg5 : arg5.IsWhole) (arg6 : Memref sig .tc .vmem S3x64 .f32) (harg6 : arg6.IsWhole) (arg7 : Memref sig .tc .vmem S3x64x64 .f32) (harg7 : arg7.IsWhole) (arg8 : Memref sig .tc .vmem S3x64 .f32) (harg8 : arg8.IsWhole) (arg9 : Memref sig .tc .vmem S3x64x64 .f32) (harg9 : arg9.IsWhole) (arg10 : Memref sig .tc .vmem S3x64 .f32) (harg10 : arg10.IsWhole) (arg11 : Memref sig .tc .vmem S3x64x64 .f32) (harg11 : arg11.IsWhole) (arg12 : Memref sig .tc .vmem S3x64 .f32) (harg12 : arg12.IsWhole) (arg13 : Memref sig .tc .vmem S128x64 .f32) (harg13 : arg13.IsWhole) (arg14 : Memref sig .tc .vmem S128 .f32) (harg14 : arg14.IsWhole) (arg15 : Memref sig .tc .vmem S64x128 .f32) (harg15 : arg15.IsWhole) (arg16 : Memref sig .tc .vmem S64 .f32) (harg16 : arg16.IsWhole) (arg17 : Memref sig .tc .vmem S1024x64 .f32) (harg17 : arg17.IsWhole) (arg18 : Memref sig .tc .vmem S1024x64 .f32) (harg18 : arg18.IsWhole) (hc0 : ¬condReset (grid0.coords t)) (hc1 : condLast (grid0.coords t))
    (d d' : S1024x2560.Idx → Elt F .f32) (g : (win0_0.xblock (grid0.coords t)).Idx → Elt F .f32) (x1 : Vec F S64x2560 .bf16) (x2 : Vec F S64 .f32) (x3 : Vec F S3x64x64 .f32) (x4 : Vec F S3x64 .f32) (x5 : Vec F S3x64x64 .f32) (x6 : Vec F S3x64 .f32) (x7 : Vec F S3x64x64 .f32) (x8 : Vec F S3x64 .f32) (x9 : Vec F S3x64x64 .f32) (x10 : Vec F S3x64 .f32) (x11 : Vec F S128x64 .f32) (x12 : Vec F S128 .f32) (x13 : Vec F S64x128 .f32) (x14 : Vec F S64 .f32) (xs0 : Vec F S1024x64 .f32) :
    (kernelRunC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (win0_0.fill (grid0.coords t) d g) x1 x2 x3 x4 x5 x6 x7 x8 x9 x10 x11 x12 x13 x14 xs0).1
        = (kernelRunC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (win0_0.fill (grid0.coords t) d' g) x1 x2 x3 x4 x5 x6 x7 x8 x9 x10 x11 x12 x13 x14 xs0).1
    ∧ (kernelRunC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (win0_0.fill (grid0.coords t) d g) x1 x2 x3 x4 x5 x6 x7 x8 x9 x10 x11 x12 x13 x14 xs0).2.1
        = (kernelRunC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (win0_0.fill (grid0.coords t) d' g) x1 x2 x3 x4 x5 x6 x7 x8 x9 x10 x11 x12 x13 x14 xs0).2.1 := by
  unfold kernelRunC
  dsimp only
  sl_unfold_run_names
  simp only [readWhole arg2 harg2 hz2]
  rw [pay2_fill t d d' g]
  exact ⟨rfl, rfl⟩

end Cert.Kernel.Hand

end
-- ==== Proof.K0DatB.lean ====
/-
  The input projection's pipeline, point by point.

  The 32 grid points run in order; point t works on row block t / 8 and column block t % 8.  The scratch accumulator
  is carried from point to point: reset and given block 0's product when t % 8 = 0, given block (t % 8)'s product on
  top of what the point before left otherwise; at t % 8 = 7 the finished accumulator goes through the bias, the three
  layers and the feed-forward part and the result block is stored, to be written back to rows 1024·(t / 8) … of the
  hidden state.  Every small weight is fetched once, at the first point, and found in place afterwards; x's block is
  fetched at every point, the last column block only on its 2080 real columns.
-/
import proofs.«111399_j53506702573937_2_alg».proof.Proof.K0IndepB
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each window's current staging buffer at point `t`. -/
abbrev ms0 (t : Fin cfg0.N) : Memref sig .tc .vmem S1024x2560 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x2560 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S3x64x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S3x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S3x64x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S3x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S3x64x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S3x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S3x64x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S3x64 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S128x64 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S64x128 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S64 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1024x64 .f32 := win0_15.stage (cfg0.slots t 15)
abbrev hs15 (t : Fin cfg0.N) : (ms15 t).IsWhole := hstage0_15 ((cfg0.slots t 15).cast nbuf0_15)
/-- The accumulator. -/
abbrev scM : Memref sig .tc .vmem S1024x64 .f32 := Memref.whole cc0_scratch0
/-- The zero word everywhere: what a buffer's unnamed part is stated at where a statement needs some value. -/
abbrev zeroX : S1024x2560.Idx → Elt F .f32 := fun _ => Scalar.ofBits .f32 0#32
abbrev zeroH : Vec F S1024x64 .f32 := fun _ => Scalar.ofBits .f32 0#32

/-- The three cases' runs at point `t`, on the point's staging buffers and blocks, x's buffer holding `d` past the
    fetched part. -/
abbrev runA (d : S1024x2560.Idx → Elt F .f32) (c : Dev nD) (t : Fin cfg0.N) (h0 : condReset (grid0.coords t)) (h1 : ¬condLast (grid0.coords t)) :=
  kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM (Memref.isWhole_whole _) h0 h1 (win0_0.fill (grid0.coords t) d (iblk0 V c 0 t)) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
abbrev runB (d : S1024x2560.Idx → Elt F .f32) (c : Dev nD) (t : Fin cfg0.N) (h0 : ¬condReset (grid0.coords t)) (h1 : ¬condLast (grid0.coords t)) (acc : Vec F S1024x64 .f32) :=
  kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM (Memref.isWhole_whole _) h0 h1 (win0_0.fill (grid0.coords t) d (iblk0 V c 0 t)) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) acc
abbrev runC (d : S1024x2560.Idx → Elt F .f32) (c : Dev nD) (t : Fin cfg0.N) (h0 : ¬condReset (grid0.coords t)) (h1 : condLast (grid0.coords t)) (acc : Vec F S1024x64 .f32) :=
  kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM (Memref.isWhole_whole _) h0 h1 (win0_0.fill (grid0.coords t) d (iblk0 V c 0 t)) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) acc

/-- THE ACCUMULATION: what the result's staging buffer and the accumulator hold after the body at point `n`
    (the first component is stated only at the points that store it, n % 8 = 7; elsewhere it is a filler). -/
def outsAt0 (c : Dev nD) : (n : ℕ) → n < cfg0.N → Vec F S1024x64 .f32 × Vec F S1024x64 .f32
  | 0, hn => (zeroH, View.canon (runA V zeroX c ⟨0, hn⟩ ((hcondReset ⟨0, hn⟩).mpr (Nat.zero_mod _)) (fun h => by have := (hcondLast ⟨0, hn⟩).mp h; (try dsimp only at this); omega)).1)
  | n + 1, hn =>
    if h0 : (n + 1) % 8 = 0 then
      if h1 : (n + 1) % 8 = 7 then False.elim (by omega)
      else (zeroH, View.canon (runA V zeroX c ⟨n + 1, hn⟩ ((hcondReset ⟨n + 1, hn⟩).mpr h0) (fun h => h1 ((hcondLast ⟨n + 1, hn⟩).mp h))).1)
    else
      if h1 : (n + 1) % 8 = 7 then
        (View.canon (runC V zeroX c ⟨n + 1, hn⟩ (fun h => h0 ((hcondReset ⟨n + 1, hn⟩).mp h)) ((hcondLast ⟨n + 1, hn⟩).mpr h1) (outsAt0 c n (Nat.lt_of_succ_lt hn)).2).1,
         View.canon (runC V zeroX c ⟨n + 1, hn⟩ (fun h => h0 ((hcondReset ⟨n + 1, hn⟩).mp h)) ((hcondLast ⟨n + 1, hn⟩).mpr h1) (outsAt0 c n (Nat.lt_of_succ_lt hn)).2).2.1)
      else
        (zeroH, View.canon (runB V zeroX c ⟨n + 1, hn⟩ (fun h => h0 ((hcondReset ⟨n + 1, hn⟩).mp h)) (fun h => h1 ((hcondLast ⟨n + 1, hn⟩).mp h)) (outsAt0 c n (Nat.lt_of_succ_lt hn)).2).1)

/-- `outsAt0` at a point of each case. -/
theorem outsAt0_A (c : Dev nD) (t : Fin cfg0.N) (h0 : t.val % 8 = 0) (h1 : ¬t.val % 8 = 7) :
    outsAt0 V c t.val t.isLt = (zeroH, View.canon (runA V zeroX c t ((hcondReset t).mpr h0) (fun h => h1 ((hcondLast t).mp h))).1) := by
  obtain ⟨n, hn⟩ := t
  cases n with
  | zero => exact rfl
  | succ n => exact (dif_pos h0).trans ((dif_neg h1).trans rfl)
theorem outsAt0_B (c : Dev nD) (t : Fin cfg0.N) (h0 : ¬t.val % 8 = 0) (h1 : ¬t.val % 8 = 7) :
    outsAt0 V c t.val t.isLt = (zeroH, View.canon (runB V zeroX c t (fun h => h0 ((hcondReset t).mp h)) (fun h => h1 ((hcondLast t).mp h)) (outsAt0 V c (t.val - 1) (Nat.lt_of_le_of_lt (Nat.sub_le _ _) t.isLt)).2).1) := by
  obtain ⟨n, hn⟩ := t
  cases n with
  | zero => exact (by exfalso; (try dsimp only at h0); exact absurd (Nat.zero_mod _) h0)
  | succ n => exact (dif_neg h0).trans ((dif_neg h1).trans rfl)
theorem outsAt0_C (c : Dev nD) (t : Fin cfg0.N) (h0 : ¬t.val % 8 = 0) (h1 : t.val % 8 = 7) :
    outsAt0 V c t.val t.isLt = (View.canon (runC V zeroX c t (fun h => h0 ((hcondReset t).mp h)) ((hcondLast t).mpr h1) (outsAt0 V c (t.val - 1) (Nat.lt_of_le_of_lt (Nat.sub_le _ _) t.isLt)).2).1,
      View.canon (runC V zeroX c t (fun h => h0 ((hcondReset t).mp h)) ((hcondLast t).mpr h1) (outsAt0 V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_pos h1).trans rfl)

/-- The second kernel's staging buffers, which this region never touches: each at some contents. -/
abbrev restB (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region invariant before position `n`: before the first point the scoped buffers no window stages at anything and
    the generator register at some state; afterwards the same with the accumulator at what the point before left. -/
def PhiS (c : Dev nD) : (n : ℕ) → n ≤ cfg0.N → sProp 𝕄
  | 0, _ => Pipeline.ΦA spec0 c
  | n + 1, hn => iprop((owns (c : Thread nD τ) scM fullShare ((outsAt0 V c n hn).2) ∗ restB c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM fullShare ((outsAt0 V c n hn).2) ∗ restB c) ∗ (∃ r, prngReg c r)) := rfl
theorem PhiS_pos (c : Dev nD) (n : ℕ) (h : n ≤ cfg0.N) (hz : n ≠ 0) :
    PhiS V c n h = iprop((owns (c : Thread nD τ) scM fullShare ((outsAt0 V c (n - 1) (by omega)).2) ∗ restB c) ∗ (∃ r, prngReg c r)) := by
  cases n with
  | zero => exact absurd rfl hz
  | succ n => rfl

theorem PhiA0_eq (c : Dev nD) :
    (Pipeline.ΦA spec0 c : sProp 𝕄) = iprop(((∃ d, owns (c : Thread nD τ) scM fullShare d) ∗ restB c) ∗ (∃ r, prngReg c r)) := by
  unfold Pipeline.ΦA; rw [scopedRest0_eq]; simp only [scM, owns_whole]; try rfl

/-- The proof data of the first pipeline on core `c`, at the contents `V` the region finds. -/
def dat0 (c : Dev nD) : Dat τ (Elt F) Unit ℕ (UR sig nD τ) ℕ cfg0 c where
  A w := V c (Pipeline.arrRef spec0 w)
  after w t := match w with
    | ⟨0, _⟩ => win0_0.fill (grid0.coords t) zeroX (iblk0 V c 0 t)
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => (outsAt0 V c t.val t.isLt).1
    | ⟨_ + 16, h⟩ => absurd h (Nat.not_lt.2 (Nat.le_add_left _ _))
  Φ t := PhiS V c t.val (Nat.le_of_lt_succ t.isLt)
  q _ := fullShare
  owed _ := 0

theorem A_eq0 (c : Dev nD) (w : Fin cfg0.W) : (dat0 V c).A w = V c (Pipeline.arrRef spec0 w) := by dsimp only [dat0]
theorem PhiS_castSucc (c : Dev nD) (t : Fin cfg0.N) : (dat0 V c).Φ t.castSucc = PhiS V c t.val (Nat.le_of_lt t.isLt) := by
  dsimp only [dat0]; simp only [Fin.coe_castSucc]
theorem after0_0 (c : Dev nD) (t : Fin cfg0.N) : (dat0 V c).after 0 t = win0_0.fill (grid0.coords t) zeroX (iblk0 V c 0 t) := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = (outsAt0 V c t.val t.isLt).1 := by dsimp only [dat0]

/-- x's buffer, fetched at every point: the block where the fetch filled it, what it held elsewhere. -/
theorem before0_0 (c : Dev nD) (t : Fin cfg0.N) (d) : (dat0 V c).before 0 t d = win0_0.fill (grid0.coords t) d (iblk0 V c 0 t) := by
  unfold Dat.before; rw [if_pos (fetch0_0 t)]; rfl
/-- Every other input's buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl) (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl) (fun t => by rw [after0_10]; unfold Dat.blockOf iblk0; rw [A_eq0]; try rfl) t d).trans
    (by unfold Dat.fetched Dat.blockOf iblk0; rw [A_eq0]; try rfl)
theorem before0_11 (c : Dev nD) (t : Fin cfg0.N) (d) : (dat0 V c).before 11 t d = iblk0 V c 11 t :=
  ((dat0 V c).before_in_eq_fetched 11 rfl (fun _ => rfl) (fun _ _ _ => rfl) (fun t => by rw [after0_11]; unfold Dat.blockOf iblk0; rw [A_eq0]; try rfl) t d).trans
    (by unfold Dat.fetched Dat.blockOf iblk0; rw [A_eq0]; try rfl)
theorem before0_12 (c : Dev nD) (t : Fin cfg0.N) (d) : (dat0 V c).before 12 t d = iblk0 V c 12 t :=
  ((dat0 V c).before_in_eq_fetched 12 rfl (fun _ => rfl) (fun _ _ _ => rfl) (fun t => by rw [after0_12]; unfold Dat.blockOf iblk0; rw [A_eq0]; try rfl) t d).trans
    (by unfold Dat.fetched Dat.blockOf iblk0; rw [A_eq0]; try rfl)
theorem before0_13 (c : Dev nD) (t : Fin cfg0.N) (d) : (dat0 V c).before 13 t d = iblk0 V c 13 t :=
  ((dat0 V c).before_in_eq_fetched 13 rfl (fun _ => rfl) (fun _ _ _ => rfl) (fun t => by rw [after0_13]; unfold Dat.blockOf iblk0; rw [A_eq0]; try rfl) t d).trans
    (by unfold Dat.fetched Dat.blockOf iblk0; rw [A_eq0]; try rfl)
theorem before0_14 (c : Dev nD) (t : Fin cfg0.N) (d) : (dat0 V c).before 14 t d = iblk0 V c 14 t :=
  ((dat0 V c).before_in_eq_fetched 14 rfl (fun _ => rfl) (fun _ _ _ => rfl) (fun t => by rw [after0_14]; unfold Dat.blockOf iblk0; rw [A_eq0]; try rfl) t d).trans
    (by unfold Dat.fetched Dat.blockOf iblk0; rw [A_eq0]; try rfl)

/-- Where the result window is idle. -/
theorem idle15 : ∀ t : Fin cfg0.N, ¬condLast (grid0.coords t) → cfg0.idle 15 (grid0.coords t) = true := by decide +kernel
theorem live15 : ∀ t : Fin cfg0.N, condLast (grid0.coords t) → cfg0.idle 15 (grid0.coords t) = false := by decide +kernel
theorem noFlush15 : ∀ t : Fin cfg0.N, ¬condLast (grid0.coords t) → (cfg0.win 15).flush t = false := by decide +kernel

theorem leaves0_0 (c : Dev nD) (t : Fin cfg0.N) : (dat0 V c).leaves 0 t
    = iprop(∃ d, owns (c : Thread nD τ) (ms0 t) fullShare (win0_0.fill (grid0.coords t) d (win0_0.cut (grid0.coords t) ((dat0 V c).after 0 t)))) := rfl
theorem leaves0_1 (c : Dev nD) (t : Fin cfg0.N) : (dat0 V c).leaves 1 t = owns (c : Thread nD τ) (ms1 t) fullShare ((dat0 V c).after 1 t) := rfl
theorem leaves0_2 (c : Dev nD) (t : Fin cfg0.N) : (dat0 V c).leaves 2 t = owns (c : Thread nD τ) (ms2 t) fullShare ((dat0 V c).after 2 t) := rfl
theorem leaves0_3 (c : Dev nD) (t : Fin cfg0.N) : (dat0 V c).leaves 3 t = owns (c : Thread nD τ) (ms3 t) fullShare ((dat0 V c).after 3 t) := rfl
theorem leaves0_4 (c : Dev nD) (t : Fin cfg0.N) : (dat0 V c).leaves 4 t = owns (c : Thread nD τ) (ms4 t) fullShare ((dat0 V c).after 4 t) := rfl
theorem leaves0_5 (c : Dev nD) (t : Fin cfg0.N) : (dat0 V c).leaves 5 t = owns (c : Thread nD τ) (ms5 t) fullShare ((dat0 V c).after 5 t) := rfl
theorem leaves0_6 (c : Dev nD) (t : Fin cfg0.N) : (dat0 V c).leaves 6 t = owns (c : Thread nD τ) (ms6 t) fullShare ((dat0 V c).after 6 t) := rfl
theorem leaves0_7 (c : Dev nD) (t : Fin cfg0.N) : (dat0 V c).leaves 7 t = owns (c : Thread nD τ) (ms7 t) fullShare ((dat0 V c).after 7 t) := rfl
theorem leaves0_8 (c : Dev nD) (t : Fin cfg0.N) : (dat0 V c).leaves 8 t = owns (c : Thread nD τ) (ms8 t) fullShare ((dat0 V c).after 8 t) := rfl
theorem leaves0_9 (c : Dev nD) (t : Fin cfg0.N) : (dat0 V c).leaves 9 t = owns (c : Thread nD τ) (ms9 t) fullShare ((dat0 V c).after 9 t) := rfl
theorem leaves0_10 (c : Dev nD) (t : Fin cfg0.N) : (dat0 V c).leaves 10 t = owns (c : Thread nD τ) (ms10 t) fullShare ((dat0 V c).after 10 t) := rfl
theorem leaves0_11 (c : Dev nD) (t : Fin cfg0.N) : (dat0 V c).leaves 11 t = owns (c : Thread nD τ) (ms11 t) fullShare ((dat0 V c).after 11 t) := rfl
theorem leaves0_12 (c : Dev nD) (t : Fin cfg0.N) : (dat0 V c).leaves 12 t = owns (c : Thread nD τ) (ms12 t) fullShare ((dat0 V c).after 12 t) := rfl
theorem leaves0_13 (c : Dev nD) (t : Fin cfg0.N) : (dat0 V c).leaves 13 t = owns (c : Thread nD τ) (ms13 t) fullShare ((dat0 V c).after 13 t) := rfl
theorem leaves0_14 (c : Dev nD) (t : Fin cfg0.N) : (dat0 V c).leaves 14 t = owns (c : Thread nD τ) (ms14 t) fullShare ((dat0 V c).after 14 t) := rfl
theorem leaves0_15_live (c : Dev nD) (t : Fin cfg0.N) (h : cfg0.idle 15 (grid0.coords t) = false) :
    (dat0 V c).leaves 15 t = owns (c : Thread nD τ) (ms15 t) fullShare ((dat0 V c).after 15 t) := by
  unfold Dat.leaves; rw [h]
theorem leaves0_15_idle (c : Dev nD) (t : Fin cfg0.N) (hi : cfg0.idle 15 (grid0.coords t) = true) (hf : (cfg0.win 15).flush t = false) :
    (dat0 V c).leaves 15 t = iprop(∃ d, owns (c : Thread nD τ) (ms15 t) fullShare ((dat0 V c).before 15 t d)) :=
  Dat.leaves_idle (dat0 V c) 15 t hi hf

def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d))
    ∗ (∃ d, owns (c : Thread nD τ) (ms6 t) fullShare ((dat0 V c).before 6 t d))
    ∗ (∃ d, owns (c : Thread nD τ) (ms7 t) fullShare ((dat0 V c).before 7 t d))
    ∗ (∃ d, owns (c : Thread nD τ) (ms8 t) fullShare ((dat0 V c).before 8 t d))
    ∗ (∃ d, owns (c : Thread nD τ) (ms9 t) fullShare ((dat0 V c).before 9 t d))
    ∗ (∃ d, owns (c : Thread nD τ) (ms10 t) fullShare ((dat0 V c).before 10 t d))
    ∗ (∃ d, owns (c : Thread nD τ) (ms11 t) fullShare ((dat0 V c).before 11 t d))
    ∗ (∃ d, owns (c : Thread nD τ) (ms12 t) fullShare ((dat0 V c).before 12 t d))
    ∗ (∃ d, owns (c : Thread nD τ) (ms13 t) fullShare ((dat0 V c).before 13 t d))
    ∗ (∃ d, owns (c : Thread nD τ) (ms14 t) fullShare ((dat0 V c).before 14 t d))
    ∗ (∃ d, owns (c : Thread nD τ) (ms15 t) fullShare ((dat0 V c).before 15 t d)))

def bodyPost (c : Dev nD) (t : Fin cfg0.N) : sProp 𝕄 :=
  iprop((dat0 V c).Φ t.succ ∗ (dat0 V c).owesAt () t.succ
    ∗ (dat0 V c).leaves 0 t
    ∗ (dat0 V c).leaves 1 t
    ∗ (dat0 V c).leaves 2 t
    ∗ (dat0 V c).leaves 3 t
    ∗ (dat0 V c).leaves 4 t
    ∗ (dat0 V c).leaves 5 t
    ∗ (dat0 V c).leaves 6 t
    ∗ (dat0 V c).leaves 7 t
    ∗ (dat0 V c).leaves 8 t
    ∗ (dat0 V c).leaves 9 t
    ∗ (dat0 V c).leaves 10 t
    ∗ (dat0 V c).leaves 11 t
    ∗ (dat0 V c).leaves 12 t
    ∗ (dat0 V c).leaves 13 t
    ∗ (dat0 V c).leaves 14 t
    ∗ (dat0 V c).leaves 15 t)

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6, before0_7, before0_8, before0_9, before0_10, before0_11, before0_12, before0_13, before0_14]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4, leaves0_5, leaves0_6, leaves0_7, leaves0_8, leaves0_9, leaves0_10, leaves0_11, leaves0_12, leaves0_13, leaves0_14, after0_0, after0_1, after0_2, after0_3, after0_4, after0_5, after0_6, after0_7, after0_8, after0_9, after0_10, after0_11, after0_12, after0_13, after0_14]
  have hN : t.val < 32 := lt_of_lt_of_eq t.isLt (show cfg0.N = 32 from N_0)
  by_cases h0 : t.val % 8 = 0
  · have h1 : ¬ t.val % 8 = 7 := by omega
    rw [leaves0_15_idle V c t (idle15 t (fun h => h1 ((hcondLast t).mp h))) (noFlush15 t (fun h => h1 ((hcondLast t).mp h)))]
    rw [outsAt0_A V c t h0 h1]
    dsimp only
    by_cases hz : t.val = 0
    ·
      rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runA V d0 c t ((hcondReset t).mpr h0) (fun h => h1 ((hcondLast t).mp h))).2 ((dat0 V c).before 15 t d15) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      iintro ⟨H0, H1, H2, H3, H4, H5, H6, H7, H8, H9, H10, H11, H12, H13, H14, H15, ⟨%es0, HS0⟩⟩
      isplitl [HS0 HR Hg]
      · isplitl [HS0 HR]
        · isplitl [HS0]
          · unfold owns; iexists _; isplitr
            swap; · iexact HS0
            ipureintro
            exact (View.read_writes_eq_canon _ _ _ (View.cover_of_tiledL (runA V d0 c t ((hcondReset t).mpr h0) (fun h => h1 ((hcondLast t).mp h))).1 S1024x64.size (by sl_kernel_rfl))).trans (runA_indep c t _ _ _ _ _ _ _ _ _ _ _ _ _ _ _ _ _ _ _ _ _ _ _ _ _ _ _ _ _ _ _ _ _ _ _ _ d0 zeroX (iblk0 V c 0 t) _ _ _ _ _ _ _ _ _ _ _ _ _ _)
          iexact HR
        iexact Hg
      isplitl [Ho]; · iexact Ho
      isplitl [H0]
      · iexists d0; rw [win0_0.cut_fill]; iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexists _; iexact H15
    ·
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runA V d0 c t ((hcondReset t).mpr h0) (fun h => h1 ((hcondLast t).mp h))).2 ((dat0 V c).before 15 t d15) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexists _; iexact HS0
      iintro ⟨H0, H1, H2, H3, H4, H5, H6, H7, H8, H9, H10, H11, H12, H13, H14, H15, ⟨%es0, HS0⟩⟩
      isplitl [HS0 HR Hg]
      · isplitl [HS0 HR]
        · isplitl [HS0]
          · unfold owns; iexists _; isplitr
            swap; · iexact HS0
            ipureintro
            exact (View.read_writes_eq_canon _ _ _ (View.cover_of_tiledL (runA V d0 c t ((hcondReset t).mpr h0) (fun h => h1 ((hcondLast t).mp h))).1 S1024x64.size (by sl_kernel_rfl))).trans (runA_indep c t _ _ _ _ _ _ _ _ _ _ _ _ _ _ _ _ _ _ _ _ _ _ _ _ _ _ _ _ _ _ _ _ _ _ _ _ d0 zeroX (iblk0 V c 0 t) _ _ _ _ _ _ _ _ _ _ _ _ _ _)
          iexact HR
        iexact Hg
      isplitl [Ho]; · iexact Ho
      isplitl [H0]
      · iexists d0; rw [win0_0.cut_fill]; iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexists _; iexact H15
  · have hz : t.val ≠ 0 := fun e => h0 (by rw [e])
    by_cases h1 : t.val % 8 = 7
    · rw [leaves0_15_live V c t (live15 t ((hcondLast t).mpr h1)), after0_15]
      rw [outsAt0_C V c t h0 h1]
      dsimp only
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runC V d0 c t (fun h => h0 ((hcondReset t).mp h)) ((hcondLast t).mpr h1) (outsAt0 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [HS0]; · iexact HS0
      iintro ⟨H0, H1, H2, H3, H4, H5, H6, H7, H8, H9, H10, H11, H12, H13, H14, ⟨%e15, H15⟩, ⟨%es0, HS0⟩⟩
      isplitl [HS0 HR Hg]
      · isplitl [HS0 HR]
        · isplitl [HS0]
          · unfold owns; iexists _; isplitr
            swap; · iexact HS0
            ipureintro
            exact (View.read_writes_eq_canon _ _ _ (View.cover_of_tiledL (runC V d0 c t (fun h => h0 ((hcondReset t).mp h)) ((hcondLast t).mpr h1) (outsAt0 V c (t.val - 1) (Nat.lt_of_le_of_lt (Nat.sub_le _ _) t.isLt)).2).2.1 S1024x64.size (by sl_kernel_rfl))).trans (congrArg View.canon (runC_indep c t _ _ _ _ _ _ _ _ _ _ _ _ _ _ _ _ _ _ _ _ _ _ _ _ _ _ _ _ _ _ _ _ _ _ _ _ d0 zeroX (iblk0 V c 0 t) _ _ _ _ _ _ _ _ _ _ _ _ _ _ _).2)
          iexact HR
        iexact Hg
      isplitl [Ho]; · iexact Ho
      isplitl [H0]
      · iexists d0; rw [win0_0.cut_fill]; iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      unfold owns; iexists _; isplitr
      swap; · iexact H15
      ipureintro
      exact (View.read_writes_eq_canon _ _ _ (View.cover_of_tiledL (runC V d0 c t (fun h => h0 ((hcondReset t).mp h)) ((hcondLast t).mpr h1) (outsAt0 V c (t.val - 1) (Nat.lt_of_le_of_lt (Nat.sub_le _ _) t.isLt)).2).1 S1024x64.size (by sl_kernel_rfl))).trans
        (congrArg View.canon (runC_indep c t _ _ _ _ _ _ _ _ _ _ _ _ _ _ _ _ _ _ _ _ _ _ _ _ _ _ _ _ _ _ _ _ _ _ _ _ d0 zeroX (iblk0 V c 0 t) _ _ _ _ _ _ _ _ _ _ _ _ _ _ _).1)
    · rw [leaves0_15_idle V c t (idle15 t (fun h => h1 ((hcondLast t).mp h))) (noFlush15 t (fun h => h1 ((hcondLast t).mp h)))]
      rw [outsAt0_B V c t h0 h1]
      dsimp only
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runB V d0 c t (fun h => h0 ((hcondReset t).mp h)) (fun h => h1 ((hcondLast t).mp h)) (outsAt0 V c (t.val - 1) (Nat.lt_of_le_of_lt (Nat.sub_le _ _) t.isLt)).2).2 ((dat0 V c).before 15 t d15) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      iintro ⟨H0, H1, H2, H3, H4, H5, H6, H7, H8, H9, H10, H11, H12, H13, H14, H15, ⟨%es0, HS0⟩⟩
      isplitl [HS0 HR Hg]
      · isplitl [HS0 HR]
        · isplitl [HS0]
          · unfold owns; iexists _; isplitr
            swap; · iexact HS0
            ipureintro
            exact (View.read_writes_eq_canon _ _ _ (View.cover_of_tiledL (runB V d0 c t (fun h => h0 ((hcondReset t).mp h)) (fun h => h1 ((hcondLast t).mp h)) (outsAt0 V c (t.val - 1) (Nat.lt_of_le_of_lt (Nat.sub_le _ _) t.isLt)).2).1 S1024x64.size (by sl_kernel_rfl))).trans (runB_indep c t _ _ _ _ _ _ _ _ _ _ _ _ _ _ _ _ _ _ _ _ _ _ _ _ _ _ _ _ _ _ _ _ _ _ _ _ d0 zeroX (iblk0 V c 0 t) _ _ _ _ _ _ _ _ _ _ _ _ _ _ _)
          iexact HR
        iexact Hg
      isplitl [Ho]; · iexact Ho
      isplitl [H0]
      · iexists d0; rw [win0_0.cut_fill]; iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexists _; iexact H15

/-- The body obligation at every point. -/
theorem body_obligation0 (c : Dev nD) : BodyObligationLoose (dat0 (F := F) V c) (defs₀ (F := F)) Variants.none () Set.univ := fun t => by
  rw [bigSep_W0, bigSep_W0]
  exact sound_body V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, HR⟩, Hg⟩
  isplitl [HS0 HR]
  · isplitl [HS0]
    · iexists _; iexact HS0
    iexact HR
  iexact Hg

end

end Cert.Kernel.Hand

end
-- ==== Proof.K1RunB.lean ====
/-
  The output projection's body on arbitrary staging buffers.

  One grid point of the second kernel reads a 1024×64 block of the hidden state, a 2560×64 block of the output
  weights and a 1×2560 block of the output bias, and overwrites its whole 1024×2560 output buffer with
  (hidden · weightsᵀ) + bias.  Nothing it stores depends on what the output buffer held before, and the three
  inputs are only read.
-/
import proofs.«111399_j53506702573937_2_alg».proof.Proof.Gen.Kernel.Launch
import proofs.«111399_j53506702573937_2_alg».proof.Proof.Gen.Kernel.Skeleton
import proofs.«111399_j53506702573937_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole 1024×64, 2560×64, 1×2560 and 1024×2560 rectangles the body loads and stores through. -/
abbrev rH : Rect S1024x64 := Rect.unit (s := S1024x64) ![0, 0] S1024x64.size inb_S1024x64_S1024x64_0_0
abbrev rW : Rect S2560x64 := Rect.unit (s := S2560x64) ![0, 0] S2560x64.size inb_S2560x64_S2560x64_0_0
abbrev rB : Rect S1x2560 := Rect.unit (s := S1x2560) ![0, 0] S1x2560.size inb_S1x2560_S1x2560_0_0
abbrev rO : Rect S1024x2560 := Rect.unit (s := S1024x2560) ![0, 0] S1024x2560.size inb_S1024x2560_S1024x2560_0_0

/-- What one point leaves in the output buffer: the single whole-buffer store of (h · Wᵀ) + b. -/
def outB (h : Vec F S1024x64 .f32) (w : Vec F S2560x64 .bf16) (b : Vec F S1x2560 .f32) : Vec F S1024x2560 .f32 :=
  View.canon [⟨rO, k1_pay1 (View.ld h rH) (View.ld w rW) (View.ld b rB)⟩]

/-- The one store covers the output buffer. -/
theorem coverB (p0 : Vec F S1024x2560 .f32) (y : S1024x2560.Idx) :
    ∃ pc ∈ ([⟨rO, p0⟩] : List (View.Piece (Elt F) S1024x2560 .f32)), y ∈ pc.1.set :=
  View.cover_of_tiled [⟨rO, p0⟩] S1024x2560.size (by rfl) y

set_option maxHeartbeats 1000000 in
/-- The body's triple: with the three inputs at `h`, `w`, `b` and the output buffer at anything, it runs to the
    continuation holding the inputs unchanged and the output buffer at `outB h w b`. -/
theorem sound_kernelB (c : Dev nD) (E : Set ℕ) (i : grid1.Coords)
    (arg2 : Memref sig .tc .vmem S1024x64 .f32) (harg2 : arg2.IsWhole) (arg3 : Memref sig .tc .vmem S2560x64 .bf16) (harg3 : arg3.IsWhole)
    (arg4 : Memref sig .tc .vmem S1x2560 .f32) (harg4 : arg4.IsWhole) (arg5 : Memref sig .tc .vmem S1024x2560 .f32) (harg5 : arg5.IsWhole)
    (h : Vec F S1024x64 .f32) (w : Vec F S2560x64 .bf16) (b : Vec F S1x2560 .f32) (K : PUnit → sProp 𝕄) :
    iprop(owns (c : Thread nD τ) arg2 fullShare h ∗ owns (c : Thread nD τ) arg3 fullShare w ∗ owns (c : Thread nD τ) arg4 fullShare b
        ∗ (∃ d, owns (c : Thread nD τ) arg5 fullShare d)
        ∗ (iprop(owns (c : Thread nD τ) arg2 fullShare h ∗ owns (c : Thread nD τ) arg3 fullShare w ∗ owns (c : Thread nD τ) arg4 fullShare b
            ∗ owns (c : Thread nD τ) arg5 fullShare (outB h w b)) -∗ K ⟨⟩))
      ⊢ wp frame (wpE (defs₀ (F := F)) Variants.none c none) E (cc1__kernel_b i arg2 harg2 arg3 harg3 arg4 harg4 arg5 harg5) K := by
  simp only [cc1__kernel_b_eq_skeleton]; unfold cc1__kernel_b_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverB _)

end Cert.Kernel.Hand

end
-- ==== Proof.K1DatB.lean ====
/-
  The output projection's pipeline: its proof data and its body obligation.

  The second kernel runs over an 8×4 grid of (column block, row block).  At each point it is handed a 1024×64 block
  of the hidden state, a 2560×64 block of the output weights and a 1×2560 block of the output bias, and leaves in
  its 1024×2560 output buffer (hidden · weightsᵀ) + bias.  The last column block overhangs the arrays' 20000
  columns: the weight rows, bias columns and output columns past the end are not moved by any transfer, and the body
  obligation states the three buffers on the part inside the arrays only.  What the output holds on the columns
  inside the array does not depend on what the weight and bias buffers hold past the arrays' end; that is the
  column-locality hypothesis `LocB`, which the body obligation takes as a hypothesis.
-/
import proofs.«111399_j53506702573937_2_alg».proof.Proof.K1RunB
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, its part inside the array, read off the array as the region finds it. -/
def iblkB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden-state block at point `t`: 1024 whole rows. -/
def hblkB (c : Dev nD) (t : Fin cfg1.N) : Vec F S1024x64 .f32 := iblkB V c 0 t

/-- The weight block at point `t`, its rows past the array's end at the zero word. -/
def wblkB (c : Dev nD) (t : Fin cfg1.N) : Vec F S2560x64 .bf16 :=
  win1_1.fill (grid1.coords t) (fun _ => Scalar.ofBits .bf16 0#16) (iblkB V c 1 t)

/-- The bias block at point `t`, its columns past the array's end at the zero word. -/
def bblkB (c : Dev nD) (t : Fin cfg1.N) : Vec F S1x2560 .f32 :=
  win1_2.fill (grid1.coords t) (fun _ => Scalar.ofBits .f32 0#32) (iblkB V c 2 t)

/-! ## The proof data -/

/-- The proof data of the second pipeline on core `c`: the arrays as the region finds them; after the body at
    point `t` the hidden-state buffer at its block, the weight and bias buffers at their blocks filled out with the
    zero word, the output buffer at `outB` of those three; the class's invariant; nothing owed; full shares. -/
def datB (c : Dev nD) : Dat τ (Elt F) Unit ℕ (UR sig nD τ) ℕ cfg1 c where
  A w := V c (Pipeline.arrRef spec1 w)
  after w t := match w with
    | ⟨0, _⟩ => hblkB V c t
    | ⟨1, _⟩ => wblkB V c t
    | ⟨2, _⟩ => bblkB V c t
    | ⟨3, _⟩ => outB (hblkB V c t) (wblkB V c t) (bblkB V c t)
  Φ _ := Pipeline.ΦA spec1 c
  q _ := fullShare
  owed _ := 0

theorem datB_A (c : Dev nD) (w : Fin cfg1.W) : (datB V c).A w = V c (Pipeline.arrRef spec1 w) := by
  dsimp only [datB]

/-- The proof data's shares, tallies and invariant, projected. -/
theorem datB_q (c : Dev nD) (w : Fin cfg1.W) : (datB V c).q w = fullShare := rfl
theorem datB_owed (c : Dev nD) (t : Fin (cfg1.N + 1)) : (datB V c).owed t = 0 := rfl
theorem datB_Φ (c : Dev nD) (t : Fin (cfg1.N + 1)) : (datB V c).Φ t = Pipeline.ΦA spec1 c := rfl

theorem afterB_0 (c : Dev nD) (t : Fin cfg1.N) : (datB V c).after 0 t = hblkB V c t := by dsimp only [datB]
theorem afterB_1 (c : Dev nD) (t : Fin cfg1.N) : (datB V c).after 1 t = wblkB V c t := by dsimp only [datB]
theorem afterB_2 (c : Dev nD) (t : Fin cfg1.N) : (datB V c).after 2 t = bblkB V c t := by dsimp only [datB]
theorem afterB_3 (c : Dev nD) (t : Fin cfg1.N) :
    (datB V c).after 3 t = outB (hblkB V c t) (wblkB V c t) (bblkB V c t) := by dsimp only [datB]

/-! ## What the body finds -/

/-- The hidden-state buffer holds its block at every point, fetched there or not. -/
theorem beforeB_0 (c : Dev nD) (t : Fin cfg1.N) (d) : (datB V c).before 0 t d = hblkB V c t :=
  ((datB V c).before_in_eq_fetched 0 rfl (fun _ => rfl) (fun _ _ _ => rfl)
    (fun t => by rw [afterB_0]; unfold Dat.blockOf hblkB iblkB; rw [datB_A]; try rfl) t d).trans
    (by unfold Dat.fetched Dat.blockOf hblkB iblkB; rw [datB_A]; try rfl)

/-- The weight buffer holds its block on the rows inside the array, `d` past them, at every point, fetched there or
    not: unfetched, the column block has not moved, and the cut is a function of the block index. -/
theorem beforeB_1 (c : Dev nD) (t : Fin cfg1.N) (d) :
    (datB V c).before 1 t d = win1_1.fill (grid1.coords t) d (iblkB V c 1 t) :=
  ((datB V c).before_in_eq_fetched 1 rfl (fun _ => rfl)
    (fun t t' h => by
      funext a
      show Pipeline.Clip.of ((cfg1.win 1).index t a) _ _ = Pipeline.Clip.of ((cfg1.win 1).index t' a) _ _
      rw [h])
    (fun t => by
      rw [afterB_1]; unfold wblkB
      refine (win1_1.cut_fill _ _ _).trans ?_
      unfold Dat.blockOf iblkB; rw [datB_A]) t d).trans
    (by unfold Dat.fetched Dat.blockOf iblkB; rw [datB_A])

/-- The bias buffer likewise, on the columns inside the array. -/
theorem beforeB_2 (c : Dev nD) (t : Fin cfg1.N) (d) :
    (datB V c).before 2 t d = win1_2.fill (grid1.coords t) d (iblkB V c 2 t) :=
  ((datB V c).before_in_eq_fetched 2 rfl (fun _ => rfl)
    (fun t t' h => by
      funext a
      show Pipeline.Clip.of ((cfg1.win 2).index t a) _ _ = Pipeline.Clip.of ((cfg1.win 2).index t' a) _ _
      rw [h])
    (fun t => by
      rw [afterB_2]; unfold bblkB
      refine (win1_2.cut_fill _ _ _).trans ?_
      unfold Dat.blockOf iblkB; rw [datB_A]) t d).trans
    (by unfold Dat.fetched Dat.blockOf iblkB; rw [datB_A])

/-! ## Column locality -/

/-- Column locality of the body's result: on the columns inside the array at grid coordinates `i`, what the body
    leaves in the output buffer depends on the weight buffer only through its rows inside the array and on the bias
    buffer only through its columns inside the array. -/
def LocB : Prop :=
  ∀ (i : grid1.Coords) (h : Vec F S1024x64 .f32) (w w' : Vec F S2560x64 .bf16) (b b' : Vec F S1x2560 .f32),
    win1_1.cut i w = win1_1.cut i w' → win1_2.cut i b = win1_2.cut i b' →
    win1_3.cut i (outB h w b) = win1_3.cut i (outB h w' b')

/-! ## The body obligation -/

/-- The library's body obligation.  The hidden-state buffer arrives at its block; the weight and bias buffers at
    their blocks filled out past the arrays' end with whatever they held; the output buffer at anything.  The body
    leaves the inputs as they were and the output at `outB` of them, which by column locality agrees on the
    columns inside the array with `outB` of the blocks filled out with the zero word: all the loose windows'
    obligations state. -/
theorem body_obligationB (hloc : LocB (F := F)) (c : Dev nD) :
    BodyObligationLoose (datB V c) (defs₀ (F := F)) Variants.none () Set.univ := fun t => by
  rw [bigSep_W1, bigSep_W1]
  simp only
  rw [show (datB V c).Φ t.succ = (datB V c).Φ t.castSucc from rfl,
    show (datB V c).owesAt () t.succ = (datB V c).owesAt () t.castSucc from rfl]
  iintro ⟨HΦ, Ho, ⟨%d0, H0⟩, ⟨%d1, H1⟩, ⟨%d2, H2⟩, ⟨%d3, H3⟩⟩
  rw [beforeB_0 V c t d0, beforeB_1 V c t d1, beforeB_2 V c t d2]
  iapply (sound_kernelB (F := F) c Set.univ (grid1.coords t)
    (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) (win1_3.stage (cfg1.slots t 3)) (hstage1_3 ((cfg1.slots t 3).cast nbuf1_3))
    (hblkB V c t)
    (win1_1.fill (grid1.coords t) d1 (iblkB V c 1 t)) (win1_2.fill (grid1.coords t) d2 (iblkB V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have hw : win1_1.cut (grid1.coords t) (wblkB V c t) = iblkB V c 1 t := win1_1.cut_fill _ _ _
  have hb : win1_2.cut (grid1.coords t) (bblkB V c t) = iblkB V c 2 t := win1_2.cut_fill _ _ _
  have ho : win1_3.fill (grid1.coords t)
        (outB (hblkB V c t) (win1_1.fill (grid1.coords t) d1 (iblkB V c 1 t)) (win1_2.fill (grid1.coords t) d2 (iblkB V c 2 t)))
        (win1_3.cut (grid1.coords t) (outB (hblkB V c t) (wblkB V c t) (bblkB V c t)))
      = outB (hblkB V c t) (win1_1.fill (grid1.coords t) d1 (iblkB V c 1 t)) (win1_2.fill (grid1.coords t) d2 (iblkB V c 2 t)) :=
    win1_3.fill_congr_cut _ (hloc _ _ _ _ _ _
      ((win1_1.cut_fill _ _ _).trans hw.symm) ((win1_2.cut_fill _ _ _).trans hb.symm))
  isplitl [H0]
  · rw [afterB_0]; iexact H0
  isplitl [H1]
  · iexists d1
    rw [afterB_1]
    change _ ⊢ owns (c : Thread nD τ) (st1_1 t) fullShare (win1_1.fill (grid1.coords t) d1 (win1_1.cut (grid1.coords t) (wblkB V c t)))
    rw [hw]
  isplitl [H2]
  · iexists d2
    rw [afterB_2]
    change _ ⊢ owns (c : Thread nD τ) (st1_2 t) fullShare (win1_2.fill (grid1.coords t) d2 (win1_2.cut (grid1.coords t) (bblkB V c t)))
    rw [hb]
  · iexists outB (hblkB V c t) (win1_1.fill (grid1.coords t) d1 (iblkB V c 1 t)) (win1_2.fill (grid1.coords t) d2 (iblkB V c 2 t))
    rw [afterB_3]
    change _ ⊢ owns (c : Thread nD τ) (st1_3 t) fullShare (win1_3.fill (grid1.coords t) _ (win1_3.cut (grid1.coords t) (outB (hblkB V c t) (wblkB V c t) (bblkB V c t))))
    rw [ho]

end Cert.Kernel.Hand

end
-- ==== Proof.K1ForgetB.lean ====
/-
  The output projection's body obligation with the result window forgotten.

  For a claim that reads only the inputs: the output buffer is handed to the body at any contents and taken back at
  any contents, so nothing is asked of what the body computes from the weight rows and bias columns past the arrays'
  end.  The three input windows are stated as in the full obligation.
-/
import proofs.«111399_j53506702573937_2_alg».proof.Proof.K1DatB
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The windows forgotten: the result window alone. -/
abbrev fgtB : Fin cfg1.W → Bool := fun | 0 => false | 1 => false | 2 => false | 3 => true | ⟨_ + 4, h⟩ => absurd h (Nat.not_lt.2 (Nat.le_add_left _ _))

theorem fgtB_0 : fgtB 0 = false := rfl
theorem fgtB_1 : fgtB 1 = false := rfl
theorem fgtB_2 : fgtB 2 = false := rfl
theorem fgtB_3 : fgtB 3 = true := rfl

/-- The body obligation with the result window forgotten: the inputs arrive and leave as in the full obligation; the
    output buffer arrives at anything and leaves at what the body stored, whatever that is. -/
theorem body_obligationB_forget (c : Dev nD) :
    BodyObligationLoose (datB V c) (defs₀ (F := F)) Variants.none () Set.univ (fgt := fgtB) := fun t => by
  rw [bigSep_W1, bigSep_W1]
  simp only [fgtB_0, fgtB_1, fgtB_2, fgtB_3]
  rw [show (datB V c).Φ t.succ = (datB V c).Φ t.castSucc from rfl,
    show (datB V c).owesAt () t.succ = (datB V c).owesAt () t.castSucc from rfl]
  iintro ⟨HΦ, Ho, ⟨%d0, H0⟩, ⟨%d1, H1⟩, ⟨%d2, H2⟩, ⟨%d3, H3⟩⟩
  rw [beforeB_0 V c t d0, beforeB_1 V c t d1, beforeB_2 V c t d2]
  iapply (sound_kernelB (F := F) c Set.univ (grid1.coords t)
    (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) (win1_3.stage (cfg1.slots t 3)) (hstage1_3 ((cfg1.slots t 3).cast nbuf1_3))
    (hblkB V c t)
    (win1_1.fill (grid1.coords t) d1 (iblkB V c 1 t)) (win1_2.fill (grid1.coords t) d2 (iblkB V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have hw : win1_1.cut (grid1.coords t) (wblkB V c t) = iblkB V c 1 t := win1_1.cut_fill _ _ _
  have hb : win1_2.cut (grid1.coords t) (bblkB V c t) = iblkB V c 2 t := win1_2.cut_fill _ _ _
  isplitl [H0]
  · rw [afterB_0]; iexact H0
  isplitl [H1]
  · iexists d1
    rw [afterB_1]
    change _ ⊢ owns (c : Thread nD τ) (st1_1 t) fullShare (win1_1.fill (grid1.coords t) d1 (win1_1.cut (grid1.coords t) (wblkB V c t)))
    rw [hw]
  isplitl [H2]
  · iexists d2
    rw [afterB_2]
    change _ ⊢ owns (c : Thread nD τ) (st1_2 t) fullShare (win1_2.fill (grid1.coords t) d2 (win1_2.cut (grid1.coords t) (bblkB V c t)))
    rw [hb]
  · iexists _; iexact H3

end Cert.Kernel.Hand

end
-- ==== Proof.RunKitB.lean ====
/-
  The run of the kernel program from the launch to the return.

  The program is three stretches of host operations (a constant; its conversion and the padding of the input weights;
  two roundings to bfloat16 and a reshape of the output bias) followed by the two kernel regions, nothing after.  Given,
  for each region, proof data stated over arbitrary entry contents with its body obligation and its invariant's two
  ends, every weakly fair execution terminates, the arguments end as launched, and the result array holds what the
  second region's write-backs leave.  The contents each region is entered with are read back through the host
  stretches to the launch memory.
-/
import proofs.«111399_j53506702573937_2_alg».proof.Proof.Gen.Kernel.Launch
import proofs.«111399_j53506702573937_2_alg».proof.Proof.Gen.Kernel.Points
import proofs.«111399_j53506702573937_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Run

/-! ## The two regions' proof data, over arbitrary entry contents -/

variable
  (dat0 : ((c : Dev nD) → (b : Ref sig .tc) → Buf (Elt F) ((c : Thread nD τ).loc b)) → (c : Dev nD) → Dat τ (Elt F) Unit ℕ (UR sig nD τ) ℕ cfg0 c)
  (dat1 : ((c : Dev nD) → (b : Ref sig .tc) → Buf (Elt F) ((c : Thread nD τ).loc b)) → (c : Dev nD) → Dat τ (Elt F) Unit ℕ (UR sig nD τ) ℕ cfg1 c)

/-- What the run takes of the two regions' proof data: the arrays are the entry contents, every input array is held
    whole, nothing is owed, no bound is put on the recorded pairs at entry, the body obligation holds, and the
    invariant's first and last points are the class's (the scoped rest and the generator register). -/
structure RunHyps : Prop where
  hA0 : ∀ V c w, (dat0 V c).A w = V c (Pipeline.arrRef spec0 w)
  hq0 : ∀ V c w, (dat0 V c).q w = fullShare
  how0 : ∀ V c t, (dat0 V c).owed t = 0
  hr0 : ∀ V c, (dat0 V c).recorded 0 = Set.univ
  hb0 : ∀ V c, BodyObligationLoose (dat0 V c) (defs₀ (F := F)) Variants.none () Set.univ
  hin0 : ∀ V c, (Pipeline.ΦA spec0 c : sProp 𝕄) ⊢ (dat0 V c).Φ 0
  hout0 : ∀ V c, (dat0 V c).Φ (Fin.last cfg0.N) ⊢ (Pipeline.ΦA spec0 c : sProp 𝕄)
  hA1 : ∀ V c w, (dat1 V c).A w = V c (Pipeline.arrRef spec1 w)
  hq1 : ∀ V c w, (dat1 V c).q w = fullShare
  how1 : ∀ V c t, (dat1 V c).owed t = 0
  hr1 : ∀ V c, (dat1 V c).recorded 0 = Set.univ
  hb1 : ∀ V c, BodyObligationLoose (dat1 V c) (defs₀ (F := F)) Variants.none () Set.univ
  hin1 : ∀ V c, (Pipeline.ΦA spec1 c : sProp 𝕄) ⊢ (dat1 V c).Φ 0
  hout1 : ∀ V c, (dat1 V c).Φ (Fin.last cfg1.N) ⊢ (Pipeline.ΦA spec1 c : sProp 𝕄)

variable (m : (ℓ : Loc nD τ sig) → Buf (Elt F) ℓ)

/-! ## The buffer contents at each boundary -/

/-- Region 0's entry contents (after the three host stretches), read at the TensorCore's references. -/
abbrev V3 : ((c : Dev nD) → (b : Ref sig .tc) → Buf (Elt F) ((c : Thread nD τ).loc b)) := fun c b => Gen.V3 m c b

/-- At region 0's exit: its arrays at what its write-backs leave, every other buffer as entered. -/
def W4 (c : Dev nD) : Valuation τ sig (Elt F) :=
  Pipeline.withArrays spec0 c (Gen.V3 m c) fun w => (dat0 (V3 m) c).arrAt w cfg0.N
theorem W4_arr (c : Dev nD) (w : Fin cfg0.W) :
    W4 dat0 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 dat0 m c (Proc.devRef .tc b) = Gen.V3 m c (Proc.devRef .tc b) := by
  unfold W4; exact Pipeline.withArrays_of_ne spec0 c _ _ b hb
/-- The same read at the TensorCore's references: region 1's entry contents. -/
abbrev V4 : ((c : Dev nD) → (b : Ref sig .tc) → Buf (Elt F) ((c : Thread nD τ).loc b)) := fun c b => W4 dat0 m c b
theorem hF0 (c : Dev nD) (w : Fin cfg0.W) : (dat0 (V3 m) c).arrAt w cfg0.N = V4 dat0 m c (Pipeline.arrRef spec0 w) :=
  (W4_arr dat0 m c w).symm
theorem hrest0 (c : Dev nD) : ∀ b, b ∉ Finset.univ.image (Pipeline.arrRef spec0) → V4 dat0 m c b = V3 m c b :=
  fun b hb => W4_of_ne dat0 m c b fun w e => hb (Finset.mem_image.mpr ⟨w, Finset.mem_univ _, e⟩)

/-- At region 1's exit: its arrays at what its write-backs leave, every other buffer as entered. -/
def W5 (c : Dev nD) : Valuation τ sig (Elt F) :=
  Pipeline.withArrays spec1 c (W4 dat0 m c) fun w => (dat1 (V4 dat0 m) c).arrAt w cfg1.N
theorem W5_arr (c : Dev nD) (w : Fin cfg1.W) :
    W5 dat0 dat1 m c (Proc.devRef .tc (Pipeline.arrRef spec1 w)) = (dat1 (V4 dat0 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 dat0 dat1 m c (Proc.devRef .tc b) = W4 dat0 m c (Proc.devRef .tc b) := by
  unfold W5; exact Pipeline.withArrays_of_ne spec1 c _ _ b hb
/-- The same read at the TensorCore's references. -/
abbrev V5 : ((c : Dev nD) → (b : Ref sig .tc) → Buf (Elt F) ((c : Thread nD τ).loc b)) := fun c b => W5 dat0 dat1 m c b
theorem hF1 (c : Dev nD) (w : Fin cfg1.W) : (dat1 (V4 dat0 m) c).arrAt w cfg1.N = V5 dat0 dat1 m c (Pipeline.arrRef spec1 w) :=
  (W5_arr dat0 dat1 m c w).symm
theorem hrest1 (c : Dev nD) : ∀ b, b ∉ Finset.univ.image (Pipeline.arrRef spec1) → V5 dat0 dat1 m c b = V4 dat0 m c b :=
  fun b hb => W5_of_ne dat0 dat1 m c b fun w e => hb (Finset.mem_image.mpr ⟨w, Finset.mem_univ _, e⟩)

/-- An argument no host stretch writes holds its launch contents when region 0 is entered. -/
theorem V3_launch (c : Dev nD) (r : Ref sig .tc) (h2 : r ∉ hostOps0_2_W) (h1 : r ∉ hostOps0_1_W) (h0 : r ∉ hostOps0_W) :
    Gen.V3 m c (Proc.devRef .tc r) = m ((c : Thread nD τ).loc r) :=
  (Gen.V3_of m c r h2).trans <| (Gen.V2_of m c r h1).trans <| (Gen.V1_of m c r h0).trans rfl

/-! ## The proof data family and the thread state -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 dat0 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 dat0 dat1 m c) ∗ ∃ r, prngReg c r)

/-! ## The regions as segments -/

variable (H : RunHyps dat0 dat1)
include H

set_option backward.isDefEq.respectTransparency.types false in
/-- Region 0 over the thread state: entered from every unscoped buffer at the contents the host stretches leave, left
    with its arrays at what its write-backs leave.  Its arrays are split out of the unscoped buffers and put back at the
    exit contents; the generator register goes into the invariant and comes out; nothing is owed. -/
def reg0 : Pipeline.RegionSeg (pcfgs (F := F)) adm (pdats dat0 dat1 m) () defs₀ 𝒱₀ L lv 0 where
  win := launch0.win.to₀
  block_pos := launch0.block_pos
  stage_whole := launch0.stage_whole
  K := PEmpty
  osem k := k.elim
  ho := Pipeline.OwnSemFacts.none _
  hbody c := H.hb0 (V3 m) c
  hwaits := Pipeline.hwaits_of_owed_zero _ _ _ _ L lv 0 fun c t => H.how0 (V3 m) c t
  pre c := iprop(StableHlo.held (c : Thread nD τ) (Pipeline.ucRefs τ sig) (Gen.V3 m c) ∗ R c)
  post c := iprop(StableHlo.held (c : Thread nD τ) (Pipeline.ucRefs τ sig) (W4 dat0 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats dat0 dat1 m) launch0.win launch0.arr_whole c
      ((pdats dat0 dat1 m 0 c).share_full fun w => H.hq0 (V3 m) c w) (V3 m c) fun w => H.hA0 (V3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (show x ∈ (dat0 (V3 m) c).recorded 0 from (H.hr0 (V3 m) c).symm ▸ Set.mem_univ x)
      rw [show (pdats dat0 dat1 m 0 c).owed 0 = 0 from H.how0 (V3 m) c 0]
      iexact HO
    isplitl [Hp]; · iexact Hp
    iexact Hrest
  hin c := by
    refine BIBase.Entails.trans ?_ (H.hin0 (V3 m) c)
    unfold Pipeline.ΦA
    iintro ⟨Hp, -, Hr⟩
    isplitl [Hr]; · iexact Hr
    iexact Hp
  hout c := by
    rw [Pipeline.ownSems0_none]
    refine BIBase.Entails.trans (H.hout0 (V3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 m) ((pdats dat0 dat1 m 0 c).share_full fun w => H.hq0 (V3 m) c w)
      (V3 m c) (V4 dat0 m c) ((pdats dat0 dat1 m 0 c).arrAt · cfg0.N) (hF0 dat0 m c) (hrest0 dat0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 dat1 m 0 c).owed (Fin.last _) = 0 from H.how0 (V3 m) c _]
    icases HO with ⟨%W, -, HO⟩; iexists W; iexact HO

set_option backward.isDefEq.respectTransparency.types false in
/-- Region 1 over the thread state: entered from the contents region 0 leaves, left with its arrays at what its
    write-backs leave (what the launch reads at the end). -/
def reg1 : Pipeline.RegionSeg (pcfgs (F := F)) adm (pdats dat0 dat1 m) () defs₀ 𝒱₀ L lv 1 where
  win := launch1.win.to₀
  block_pos := launch1.block_pos
  stage_whole := launch1.stage_whole
  K := PEmpty
  osem k := k.elim
  ho := Pipeline.OwnSemFacts.none _
  hbody c := H.hb1 (V4 dat0 m) c
  hwaits := Pipeline.hwaits_of_owed_zero _ _ _ _ L lv 1 fun c t => H.how1 (V4 dat0 m) c t
  pre c := iprop(StableHlo.held (c : Thread nD τ) (Pipeline.ucRefs τ sig) (W4 dat0 m c) ∗ R c)
  post c := iprop(Tₙ dat0 dat1 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 dat0 m c)
  hentry c := by
    rw [Pipeline.ownSems0_none]
    have hsplit := Pipeline.arrays_of_unscopedBufs (p := 1) (pcfgs (F := F)) adm (pdats dat0 dat1 m) launch1.win launch1.arr_whole c
      ((pdats dat0 dat1 m 1 c).share_full fun w => H.hq1 (V4 dat0 m) c w) (V4 dat0 m c) fun w => H.hA1 (V4 dat0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (show x ∈ (dat1 (V4 dat0 m) c).recorded 0 from (H.hr1 (V4 dat0 m) c).symm ▸ Set.mem_univ x)
      rw [show (pdats dat0 dat1 m 1 c).owed 0 = 0 from H.how1 (V4 dat0 m) c 0]
      iexact HO
    isplitl [Hp]; · iexact Hp
    iexact Hrest
  hin c := by
    refine BIBase.Entails.trans ?_ (H.hin1 (V4 dat0 m) c)
    unfold Pipeline.ΦA
    iintro ⟨Hp, -, Hr⟩
    isplitl [Hr]; · iexact Hr
    iexact Hp
  hout c := by
    rw [Pipeline.ownSems0_none]
    refine BIBase.Entails.trans (H.hout1 (V4 dat0 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats dat0 dat1 m) ((pdats dat0 dat1 m 1 c).share_full fun w => H.hq1 (V4 dat0 m) c w)
      (V4 dat0 m c) (V5 dat0 dat1 m c) ((pdats dat0 dat1 m 1 c).arrAt · cfg1.N) (hF1 dat0 dat1 m c) (hrest1 dat0 dat1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats dat0 dat1 m 1 c).owed (Fin.last _) = 0 from H.how1 (V4 dat0 m) c _]
    icases HO with ⟨%W, -, HO⟩; iexists W; iexact HO

/-! ## @main as segments, and the launch -/

/-- @main's five segments in order: a host segment per stretch from its boundary's contents, then the two regions. -/
abbrev segs : List (Pipeline.Seg (pcfgs (F := F)) adm (pdats dat0 dat1 m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .region (reg0 dat0 dat1 m H),
    .region (reg1 dat0 dat1 m H) ]

set_option backward.isDefEq.respectTransparency.types false in
/-- From any memory with zero counters, every weakly fair execution of @main terminates, nothing faulting, and every
    final memory holds each unscoped buffer at the last boundary's contents. -/
theorem run_W5 (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 dat0 dat1 m c b) :=
  Pipeline.θ_run_regions_kit (pcfgs (F := F)) adm (pdats dat0 dat1 m) () cellOf_inj emb₁ defs₀ 𝒱₀ L lv m ρ main (segs dat0 dat1 m H)
    (fun c Q => by
      rewrite [main_chain c, Pipeline.Seg.run_eq_chain,
        show (segs dat0 dat1 m H).map Pipeline.Seg.prog = [
          StableHlo.seq hostOps0,
          StableHlo.seq hostOps0_1,
          StableHlo.seq hostOps0_2,
          Prog.lift (.customCall (Pipeline.entry 0) ()),
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ dat0 dat1 m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 dat0 dat1 m c b)
    (hfin := fun c s' => by
      iintro ⟨⟨Hh, -⟩, HSI⟩
      unfold StableHlo.held
      imodintro
      iapply (pointsTo_read_all (Pipeline.ucRefs τ sig) (fun b => (((c : Thread nD τ)).1, b)) (W5 dat0 dat1 m c) s')
      isplitl [Hh] <;> iassumption)
    (hQ := fun s h c => h c)

/-! ## The arguments end as launched

No host operation and no region writes an argument: a region reads it through an input window or bypasses it, so the
contents at an argument's buffer walk back through the boundaries to the launch memory. -/
theorem W5_main_arg0 (c : Dev nD) : W5 dat0 dat1 m c (Proc.devRef .tc main_arg0) = m ((c : Thread nD τ).loc main_arg0) :=
  calc W5 dat0 dat1 m c (Proc.devRef .tc main_arg0)
    _ = W4 dat0 m c (Proc.devRef .tc main_arg0) := W5_of_ne dat0 dat1 m c main_arg0 (by decide)
    _ = Gen.V3 m c (Proc.devRef .tc main_arg0) := (W4_arr dat0 m c 0).trans (((dat0 (V3 m) c).arrAt_in 0 rfl _).trans (H.hA0 (V3 m) c 0))
    _ = m ((c : Thread nD τ).loc main_arg0) := V3_launch m c main_arg0 (by decide) (by decide) (by decide)
theorem W5_main_arg1 (c : Dev nD) : W5 dat0 dat1 m c (Proc.devRef .tc main_arg1) = m ((c : Thread nD τ).loc main_arg1) :=
  calc W5 dat0 dat1 m c (Proc.devRef .tc main_arg1)
    _ = W4 dat0 m c (Proc.devRef .tc main_arg1) := W5_of_ne dat0 dat1 m c main_arg1 (by decide)
    _ = Gen.V3 m c (Proc.devRef .tc main_arg1) := W4_of_ne dat0 m c main_arg1 (by decide)
    _ = m ((c : Thread nD τ).loc main_arg1) := V3_launch m c main_arg1 (by decide) (by decide) (by decide)
theorem W5_main_arg2 (c : Dev nD) : W5 dat0 dat1 m c (Proc.devRef .tc main_arg2) = m ((c : Thread nD τ).loc main_arg2) :=
  calc W5 dat0 dat1 m c (Proc.devRef .tc main_arg2)
    _ = W4 dat0 m c (Proc.devRef .tc main_arg2) := W5_of_ne dat0 dat1 m c main_arg2 (by decide)
    _ = Gen.V3 m c (Proc.devRef .tc main_arg2) := (W4_arr dat0 m c 2).trans (((dat0 (V3 m) c).arrAt_in 2 rfl _).trans (H.hA0 (V3 m) c 2))
    _ = m ((c : Thread nD τ).loc main_arg2) := V3_launch m c main_arg2 (by decide) (by decide) (by decide)
theorem W5_main_arg3 (c : Dev nD) : W5 dat0 dat1 m c (Proc.devRef .tc main_arg3) = m ((c : Thread nD τ).loc main_arg3) :=
  calc W5 dat0 dat1 m c (Proc.devRef .tc main_arg3)
    _ = W4 dat0 m c (Proc.devRef .tc main_arg3) := W5_of_ne dat0 dat1 m c main_arg3 (by decide)
    _ = Gen.V3 m c (Proc.devRef .tc main_arg3) := (W4_arr dat0 m c 3).trans (((dat0 (V3 m) c).arrAt_in 3 rfl _).trans (H.hA0 (V3 m) c 3))
    _ = m ((c : Thread nD τ).loc main_arg3) := V3_launch m c main_arg3 (by decide) (by decide) (by decide)
theorem W5_main_arg4 (c : Dev nD) : W5 dat0 dat1 m c (Proc.devRef .tc main_arg4) = m ((c : Thread nD τ).loc main_arg4) :=
  calc W5 dat0 dat1 m c (Proc.devRef .tc main_arg4)
    _ = W4 dat0 m c (Proc.devRef .tc main_arg4) := W5_of_ne dat0 dat1 m c main_arg4 (by decide)
    _ = Gen.V3 m c (Proc.devRef .tc main_arg4) := (W4_arr dat0 m c 4).trans (((dat0 (V3 m) c).arrAt_in 4 rfl _).trans (H.hA0 (V3 m) c 4))
    _ = m ((c : Thread nD τ).loc main_arg4) := V3_launch m c main_arg4 (by decide) (by decide) (by decide)
theorem W5_main_arg5 (c : Dev nD) : W5 dat0 dat1 m c (Proc.devRef .tc main_arg5) = m ((c : Thread nD τ).loc main_arg5) :=
  calc W5 dat0 dat1 m c (Proc.devRef .tc main_arg5)
    _ = W4 dat0 m c (Proc.devRef .tc main_arg5) := W5_of_ne dat0 dat1 m c main_arg5 (by decide)
    _ = Gen.V3 m c (Proc.devRef .tc main_arg5) := (W4_arr dat0 m c 5).trans (((dat0 (V3 m) c).arrAt_in 5 rfl _).trans (H.hA0 (V3 m) c 5))
    _ = m ((c : Thread nD τ).loc main_arg5) := V3_launch m c main_arg5 (by decide) (by decide) (by decide)
theorem W5_main_arg6 (c : Dev nD) : W5 dat0 dat1 m c (Proc.devRef .tc main_arg6) = m ((c : Thread nD τ).loc main_arg6) :=
  calc W5 dat0 dat1 m c (Proc.devRef .tc main_arg6)
    _ = W4 dat0 m c (Proc.devRef .tc main_arg6) := W5_of_ne dat0 dat1 m c main_arg6 (by decide)
    _ = Gen.V3 m c (Proc.devRef .tc main_arg6) := (W4_arr dat0 m c 6).trans (((dat0 (V3 m) c).arrAt_in 6 rfl _).trans (H.hA0 (V3 m) c 6))
    _ = m ((c : Thread nD τ).loc main_arg6) := V3_launch m c main_arg6 (by decide) (by decide) (by decide)
theorem W5_main_arg7 (c : Dev nD) : W5 dat0 dat1 m c (Proc.devRef .tc main_arg7) = m ((c : Thread nD τ).loc main_arg7) :=
  calc W5 dat0 dat1 m c (Proc.devRef .tc main_arg7)
    _ = W4 dat0 m c (Proc.devRef .tc main_arg7) := W5_of_ne dat0 dat1 m c main_arg7 (by decide)
    _ = Gen.V3 m c (Proc.devRef .tc main_arg7) := (W4_arr dat0 m c 7).trans (((dat0 (V3 m) c).arrAt_in 7 rfl _).trans (H.hA0 (V3 m) c 7))
    _ = m ((c : Thread nD τ).loc main_arg7) := V3_launch m c main_arg7 (by decide) (by decide) (by decide)
theorem W5_main_arg8 (c : Dev nD) : W5 dat0 dat1 m c (Proc.devRef .tc main_arg8) = m ((c : Thread nD τ).loc main_arg8) :=
  calc W5 dat0 dat1 m c (Proc.devRef .tc main_arg8)
    _ = W4 dat0 m c (Proc.devRef .tc main_arg8) := W5_of_ne dat0 dat1 m c main_arg8 (by decide)
    _ = Gen.V3 m c (Proc.devRef .tc main_arg8) := (W4_arr dat0 m c 8).trans (((dat0 (V3 m) c).arrAt_in 8 rfl _).trans (H.hA0 (V3 m) c 8))
    _ = m ((c : Thread nD τ).loc main_arg8) := V3_launch m c main_arg8 (by decide) (by decide) (by decide)
theorem W5_main_arg9 (c : Dev nD) : W5 dat0 dat1 m c (Proc.devRef .tc main_arg9) = m ((c : Thread nD τ).loc main_arg9) :=
  calc W5 dat0 dat1 m c (Proc.devRef .tc main_arg9)
    _ = W4 dat0 m c (Proc.devRef .tc main_arg9) := W5_of_ne dat0 dat1 m c main_arg9 (by decide)
    _ = Gen.V3 m c (Proc.devRef .tc main_arg9) := W4_of_ne dat0 m c main_arg9 (by decide)
    _ = m ((c : Thread nD τ).loc main_arg9) := V3_launch m c main_arg9 (by decide) (by decide) (by decide)
theorem W5_main_arg10 (c : Dev nD) : W5 dat0 dat1 m c (Proc.devRef .tc main_arg10) = m ((c : Thread nD τ).loc main_arg10) :=
  calc W5 dat0 dat1 m c (Proc.devRef .tc main_arg10)
    _ = W4 dat0 m c (Proc.devRef .tc main_arg10) := W5_of_ne dat0 dat1 m c main_arg10 (by decide)
    _ = Gen.V3 m c (Proc.devRef .tc main_arg10) := W4_of_ne dat0 m c main_arg10 (by decide)
    _ = m ((c : Thread nD τ).loc main_arg10) := V3_launch m c main_arg10 (by decide) (by decide) (by decide)
theorem W5_main_arg11 (c : Dev nD) : W5 dat0 dat1 m c (Proc.devRef .tc main_arg11) = m ((c : Thread nD τ).loc main_arg11) :=
  calc W5 dat0 dat1 m c (Proc.devRef .tc main_arg11)
    _ = W4 dat0 m c (Proc.devRef .tc main_arg11) := W5_of_ne dat0 dat1 m c main_arg11 (by decide)
    _ = Gen.V3 m c (Proc.devRef .tc main_arg11) := (W4_arr dat0 m c 9).trans (((dat0 (V3 m) c).arrAt_in 9 rfl _).trans (H.hA0 (V3 m) c 9))
    _ = m ((c : Thread nD τ).loc main_arg11) := V3_launch m c main_arg11 (by decide) (by decide) (by decide)
theorem W5_main_arg12 (c : Dev nD) : W5 dat0 dat1 m c (Proc.devRef .tc main_arg12) = m ((c : Thread nD τ).loc main_arg12) :=
  calc W5 dat0 dat1 m c (Proc.devRef .tc main_arg12)
    _ = W4 dat0 m c (Proc.devRef .tc main_arg12) := W5_of_ne dat0 dat1 m c main_arg12 (by decide)
    _ = Gen.V3 m c (Proc.devRef .tc main_arg12) := (W4_arr dat0 m c 10).trans (((dat0 (V3 m) c).arrAt_in 10 rfl _).trans (H.hA0 (V3 m) c 10))
    _ = m ((c : Thread nD τ).loc main_arg12) := V3_launch m c main_arg12 (by decide) (by decide) (by decide)
theorem W5_main_arg13 (c : Dev nD) : W5 dat0 dat1 m c (Proc.devRef .tc main_arg13) = m ((c : Thread nD τ).loc main_arg13) :=
  calc W5 dat0 dat1 m c (Proc.devRef .tc main_arg13)
    _ = W4 dat0 m c (Proc.devRef .tc main_arg13) := W5_of_ne dat0 dat1 m c main_arg13 (by decide)
    _ = Gen.V3 m c (Proc.devRef .tc main_arg13) := (W4_arr dat0 m c 11).trans (((dat0 (V3 m) c).arrAt_in 11 rfl _).trans (H.hA0 (V3 m) c 11))
    _ = m ((c : Thread nD τ).loc main_arg13) := V3_launch m c main_arg13 (by decide) (by decide) (by decide)
theorem W5_main_arg14 (c : Dev nD) : W5 dat0 dat1 m c (Proc.devRef .tc main_arg14) = m ((c : Thread nD τ).loc main_arg14) :=
  calc W5 dat0 dat1 m c (Proc.devRef .tc main_arg14)
    _ = W4 dat0 m c (Proc.devRef .tc main_arg14) := W5_of_ne dat0 dat1 m c main_arg14 (by decide)
    _ = Gen.V3 m c (Proc.devRef .tc main_arg14) := (W4_arr dat0 m c 12).trans (((dat0 (V3 m) c).arrAt_in 12 rfl _).trans (H.hA0 (V3 m) c 12))
    _ = m ((c : Thread nD τ).loc main_arg14) := V3_launch m c main_arg14 (by decide) (by decide) (by decide)
theorem W5_main_arg15 (c : Dev nD) : W5 dat0 dat1 m c (Proc.devRef .tc main_arg15) = m ((c : Thread nD τ).loc main_arg15) :=
  calc W5 dat0 dat1 m c (Proc.devRef .tc main_arg15)
    _ = W4 dat0 m c (Proc.devRef .tc main_arg15) := W5_of_ne dat0 dat1 m c main_arg15 (by decide)
    _ = Gen.V3 m c (Proc.devRef .tc main_arg15) := (W4_arr dat0 m c 13).trans (((dat0 (V3 m) c).arrAt_in 13 rfl _).trans (H.hA0 (V3 m) c 13))
    _ = m ((c : Thread nD τ).loc main_arg15) := V3_launch m c main_arg15 (by decide) (by decide) (by decide)
theorem W5_main_arg16 (c : Dev nD) : W5 dat0 dat1 m c (Proc.devRef .tc main_arg16) = m ((c : Thread nD τ).loc main_arg16) :=
  calc W5 dat0 dat1 m c (Proc.devRef .tc main_arg16)
    _ = W4 dat0 m c (Proc.devRef .tc main_arg16) := W5_of_ne dat0 dat1 m c main_arg16 (by decide)
    _ = Gen.V3 m c (Proc.devRef .tc main_arg16) := (W4_arr dat0 m c 14).trans (((dat0 (V3 m) c).arrAt_in 14 rfl _).trans (H.hA0 (V3 m) c 14))
    _ = m ((c : Thread nD τ).loc main_arg16) := V3_launch m c main_arg16 (by decide) (by decide) (by decide)
theorem W5_main_arg17 (c : Dev nD) : W5 dat0 dat1 m c (Proc.devRef .tc main_arg17) = m ((c : Thread nD τ).loc main_arg17) :=
  calc W5 dat0 dat1 m c (Proc.devRef .tc main_arg17)
    _ = W4 dat0 m c (Proc.devRef .tc main_arg17) := W5_of_ne dat0 dat1 m c main_arg17 (by decide)
    _ = Gen.V3 m c (Proc.devRef .tc main_arg17) := W4_of_ne dat0 m c main_arg17 (by decide)
    _ = m ((c : Thread nD τ).loc main_arg17) := V3_launch m c main_arg17 (by decide) (by decide) (by decide)
theorem W5_main_arg18 (c : Dev nD) : W5 dat0 dat1 m c (Proc.devRef .tc main_arg18) = m ((c : Thread nD τ).loc main_arg18) :=
  calc W5 dat0 dat1 m c (Proc.devRef .tc main_arg18)
    _ = W4 dat0 m c (Proc.devRef .tc main_arg18) := W5_of_ne dat0 dat1 m c main_arg18 (by decide)
    _ = Gen.V3 m c (Proc.devRef .tc main_arg18) := W4_of_ne dat0 m c main_arg18 (by decide)
    _ = m ((c : Thread nD τ).loc main_arg18) := V3_launch m c main_arg18 (by decide) (by decide) (by decide)
/-- The result array holds what region 1's write-backs leave. -/
theorem W5_main_v5 (c : Dev nD) : W5 dat0 dat1 m c (Proc.devRef .tc main_v5) = (dat1 (V4 dat0 m) c).arrAt 3 cfg1.N :=
  W5_arr dat0 dat1 m c 3

/-- THE RUN: from any memory with zero counters, every weakly fair execution of @main terminates, nothing faulting; the
    result array ends holding what region 1's write-backs leave and every argument its launch contents. -/
theorem run_of' (ρ : Dev nD → PrngReg) : θ_run defs (onTc (τ := τ) (main (F := F))) ⟨m, fun _ => 0, ρ⟩ (fun r => ∀ c : Dev nD,
      r.2.mem ((c.tc : Thread nD τ).loc main_v5) = (dat1 (V4 dat0 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_v5 (by decide))).trans (W5_main_v5 dat0 dat1 m H c),
      (h c _ (mem_uc main_arg0 (by decide))).trans (W5_main_arg0 dat0 dat1 m H c),
      (h c _ (mem_uc main_arg1 (by decide))).trans (W5_main_arg1 dat0 dat1 m H c),
      (h c _ (mem_uc main_arg2 (by decide))).trans (W5_main_arg2 dat0 dat1 m H c),
      (h c _ (mem_uc main_arg3 (by decide))).trans (W5_main_arg3 dat0 dat1 m H c),
      (h c _ (mem_uc main_arg4 (by decide))).trans (W5_main_arg4 dat0 dat1 m H c),
      (h c _ (mem_uc main_arg5 (by decide))).trans (W5_main_arg5 dat0 dat1 m H c),
      (h c _ (mem_uc main_arg6 (by decide))).trans (W5_main_arg6 dat0 dat1 m H c),
      (h c _ (mem_uc main_arg7 (by decide))).trans (W5_main_arg7 dat0 dat1 m H c),
      (h c _ (mem_uc main_arg8 (by decide))).trans (W5_main_arg8 dat0 dat1 m H c),
      (h c _ (mem_uc main_arg9 (by decide))).trans (W5_main_arg9 dat0 dat1 m H c),
      (h c _ (mem_uc main_arg10 (by decide))).trans (W5_main_arg10 dat0 dat1 m H c),
      (h c _ (mem_uc main_arg11 (by decide))).trans (W5_main_arg11 dat0 dat1 m H c),
      (h c _ (mem_uc main_arg12 (by decide))).trans (W5_main_arg12 dat0 dat1 m H c),
      (h c _ (mem_uc main_arg13 (by decide))).trans (W5_main_arg13 dat0 dat1 m H c),
      (h c _ (mem_uc main_arg14 (by decide))).trans (W5_main_arg14 dat0 dat1 m H c),
      (h c _ (mem_uc main_arg15 (by decide))).trans (W5_main_arg15 dat0 dat1 m H c),
      (h c _ (mem_uc main_arg16 (by decide))).trans (W5_main_arg16 dat0 dat1 m H c),
      (h c _ (mem_uc main_arg17 (by decide))).trans (W5_main_arg17 dat0 dat1 m H c),
      (h c _ (mem_uc main_arg18 (by decide))).trans (W5_main_arg18 dat0 dat1 m H c)⟩)
    (run_W5 dat0 dat1 m H ρ)

end Run

/-- THE RUN, with the two regions' proof data and what is asked of them spelt out. -/
theorem run_of
    (dat0 : ((c : Dev nD) → (b : Ref sig .tc) → Buf (Elt F) ((c : Thread nD τ).loc b)) → (c : Dev nD) → Dat τ (Elt F) Unit ℕ (UR sig nD τ) ℕ cfg0 c)
    (hA0 : ∀ V c w, (dat0 V c).A w = V c (Pipeline.arrRef spec0 w))
    (hq0 : ∀ V c w, (dat0 V c).q w = fullShare)
    (how0 : ∀ V c t, (dat0 V c).owed t = 0)
    (hr0 : ∀ V c, (dat0 V c).recorded 0 = Set.univ)
    (hb0 : ∀ V c, BodyObligationLoose (dat0 V c) (defs₀ (F := F)) Variants.none () Set.univ)
    (hin0 : ∀ V c, (Pipeline.ΦA spec0 c : sProp 𝕄) ⊢ (dat0 V c).Φ 0)
    (hout0 : ∀ V c, (dat0 V c).Φ (Fin.last cfg0.N) ⊢ (Pipeline.ΦA spec0 c : sProp 𝕄))
    (dat1 : ((c : Dev nD) → (b : Ref sig .tc) → Buf (Elt F) ((c : Thread nD τ).loc b)) → (c : Dev nD) → Dat τ (Elt F) Unit ℕ (UR sig nD τ) ℕ cfg1 c)
    (hA1 : ∀ V c w, (dat1 V c).A w = V c (Pipeline.arrRef spec1 w))
    (hq1 : ∀ V c w, (dat1 V c).q w = fullShare)
    (how1 : ∀ V c t, (dat1 V c).owed t = 0)
    (hr1 : ∀ V c, (dat1 V c).recorded 0 = Set.univ)
    (hb1 : ∀ V c, BodyObligationLoose (dat1 V c) (defs₀ (F := F)) Variants.none () Set.univ)
    (hin1 : ∀ V c, (Pipeline.ΦA spec1 c : sProp 𝕄) ⊢ (dat1 V c).Φ 0)
    (hout1 : ∀ V c, (dat1 V c).Φ (Fin.last cfg1.N) ⊢ (Pipeline.ΦA spec1 c : sProp 𝕄))
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v5) = (dat1 (V4 dat0 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  run_of' dat0 dat1 m ⟨hA0, hq0, how0, hr0, hb0, hin0, hout0, hA1, hq1, how1, hr1, hb1, hin1, hout1⟩ ρ

end Cert.Kernel.Hand

end
-- ==== Proof.RunKitRB.lean ====
/-
  The run of the kernel program when the output projection's result window is not described.

  The same segments as the exact run, over proof data read as relations: the first kernel's data exactly, the output
  projection's with chosen windows forgotten — what the body leaves there is not stated.  The last thread state then
  holds the second region's arrays at some contents; the arguments, which no region writes, still end as launched.
-/
import proofs.«111399_j53506702573937_2_alg».proof.Proof.Gen.Kernel.Launch
import proofs.«111399_j53506702573937_2_alg».proof.Proof.Gen.Kernel.Points
import proofs.«111399_j53506702573937_2_alg».proof.Proof.Gen.Kernel.Regions
import proofs.«111399_j53506702573937_2_alg».proof.Proof.RunKitB
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section RunR

variable
  (dat0 : ((c : Dev nD) → (b : Ref sig .tc) → Buf (Elt F) ((c : Thread nD τ).loc b)) → (c : Dev nD) → Dat τ (Elt F) Unit ℕ (UR sig nD τ) ℕ cfg0 c)
  (dat1 : ((c : Dev nD) → (b : Ref sig .tc) → Buf (Elt F) ((c : Thread nD τ).loc b)) → (c : Dev nD) → Dat τ (Elt F) Unit ℕ (UR sig nD τ) ℕ cfg1 c)
  (fgt1 : Fin cfg1.W → Bool)

/-- What the run takes of the two regions' proof data, the second region's body obligation with the windows `fgt1`
    marks forgotten. -/
structure RunHypsR : Prop where
  hA0 : ∀ V c w, (dat0 V c).A w = V c (Pipeline.arrRef spec0 w)
  hq0 : ∀ V c w, (dat0 V c).q w = fullShare
  how0 : ∀ V c t, (dat0 V c).owed t = 0
  hr0 : ∀ V c, (dat0 V c).recorded 0 = Set.univ
  hb0 : ∀ V c, BodyObligationLoose (dat0 V c) (defs₀ (F := F)) Variants.none () Set.univ
  hin0 : ∀ V c, (Pipeline.ΦA spec0 c : sProp 𝕄) ⊢ (dat0 V c).Φ 0
  hout0 : ∀ V c, (dat0 V c).Φ (Fin.last cfg0.N) ⊢ (Pipeline.ΦA spec0 c : sProp 𝕄)
  hA1 : ∀ V c w, (dat1 V c).A w = V c (Pipeline.arrRef spec1 w)
  hq1 : ∀ V c w, (dat1 V c).q w = fullShare
  how1 : ∀ V c t, (dat1 V c).owed t = 0
  hr1 : ∀ V c, (dat1 V c).recorded 0 = Set.univ
  hb1 : ∀ V c, BodyObligationLoose (dat1 V c) (defs₀ (F := F)) Variants.none () Set.univ (fgt := fgt1)
  hin1 : ∀ V c, (Pipeline.ΦA spec1 c : sProp 𝕄) ⊢ (dat1 V c).Φ 0
  hout1 : ∀ V c, (dat1 V c).Φ (Fin.last cfg1.N) ⊢ (Pipeline.ΦA spec1 c : sProp 𝕄)

variable (m : (ℓ : Loc nD τ sig) → Buf (Elt F) ℓ)

/-- Both regions' proof data read as relations: region 0's exactly, region 1's with the marked windows forgotten. -/
def rdats : (p : Fin 2) → (c : Dev nD) → Pipeline.RDat τ (Elt F) Unit ℕ (UR sig nD τ) ℕ (Pipeline.pin (pcfgs (F := F)) adm p) c
  | ⟨0, _⟩ => fun c => (dat0 (V3 m) c).toR
  | ⟨1, _⟩ => fun c => (dat1 (V4 dat0 m) c).toRForget fgt1

/-- The last thread state without the dues: every unscoped buffer at the contents region 1 was entered with, its arrays
    at some contents; the generator register at some state. -/
abbrev TₙR (c : Dev nD) : sProp 𝕄 :=
  iprop((∃ A : (w : Fin cfg1.W) → Buf (Elt F) ((cfg1.win w).arr.view.loc (c : Thread nD τ)),
      StableHlo.held (c : Thread nD τ) (Pipeline.ucRefs τ sig) (Pipeline.withArrays spec1 c (W4 dat0 m c) A)) ∗ ∃ r, prngReg c r)

variable (H : RunHypsR dat0 dat1 fgt1)
include H

set_option backward.isDefEq.respectTransparency.types false in
/-- Region 0 over the thread state, its proof data read as a relation. -/
def regR0 : Pipeline.RDat.RegionSeg (pcfgs (F := F)) adm (rdats dat0 dat1 fgt1 m) () defs₀ 𝒱₀ L lv 0 where
  win := launch0.win.to₀
  block_pos := launch0.block_pos
  stage_whole := launch0.stage_whole
  K := PEmpty
  osem k := k.elim
  ho := Pipeline.OwnSemFacts.none _
  hbody c := (H.hb0 (V3 m) c).toR
  hwaits := Pipeline.RDat.hwaits_of_owed_zero _ _ _ _ L lv 0 fun c t => H.how0 (V3 m) c t
  pre c := iprop(StableHlo.held (c : Thread nD τ) (Pipeline.ucRefs τ sig) (Gen.V3 m c) ∗ R c)
  post c := iprop(StableHlo.held (c : Thread nD τ) (Pipeline.ucRefs τ sig) (W4 dat0 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.RDat.arrays_of_unscopedBufs (p := 0) (pcfgs (F := F)) adm (rdats dat0 dat1 fgt1 m) launch0.win launch0.arr_whole c
      (fun w => (dat0 (V3 m) c).share_full (fun w => H.hq0 (V3 m) c w) w) (V3 m c) fun w => H.hA0 (V3 m) c w
    rw [Pipeline.unscopedBufs_held] at hsplit
    iintro ⟨⟨Hub, Hp, HO⟩, -, -⟩
    ihave H' := hsplit $$ Hub
    icases H' with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun x _ => Or.inl (show x ∈ (dat0 (V3 m) c).recorded 0 from (H.hr0 (V3 m) c).symm ▸ Set.mem_univ x)
      rw [show (rdats dat0 dat1 fgt1 m 0 c).owed 0 = 0 from H.how0 (V3 m) c 0]
      iexact HO
    isplitl [Hp]; · iexact Hp
    iexact Hrest
  hin c := by
    refine BIBase.Entails.trans ?_ (H.hin0 (V3 m) c)
    unfold Pipeline.ΦA
    iintro ⟨Hp, -, Hr⟩
    isplitl [Hr]; · iexact Hr
    iexact Hp
  hout c := by
    rw [Pipeline.ownSems0_none]
    refine BIBase.Entails.trans (H.hout0 (V3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 m) ((pdats dat0 dat1 m 0 c).share_full fun w => H.hq0 (V3 m) c w)
      (V3 m c) (V4 dat0 m c) ((pdats dat0 dat1 m 0 c).arrAt · cfg0.N) (hF0 dat0 m c) (hrest0 dat0 m c)
    rw [Pipeline.unscopedBufs_held] at hjoin
    have harr : ((rdats dat0 dat1 fgt1 m 0 c).arraysAt (Pipeline.pin (pcfgs (F := F)) adm 0).N : sProp 𝕄)
        = (pdats dat0 dat1 m 0 c).arrays ((pdats dat0 dat1 m 0 c).arrAt · cfg0.N) := (dat0 (V3 m) c).toR_arraysAt_eq cfg0.N
    rw [harr]
    iintro ⟨Ha, HO, HY, Hrest⟩
    imodintro
    isplitl [Ha Hrest]
    · iapply hjoin; isplitl [Ha] <;> iassumption
    isplitl [HY]; · iexact HY
    unfold Pipeline.RDat.owesAt Pipeline.owesWithin
    rw [show (rdats dat0 dat1 fgt1 m 0 c).owed (Fin.last _) = 0 from H.how0 (V3 m) c _]
    icases HO with ⟨%W, -, HO⟩; iexists W; iexact HO

set_option backward.isDefEq.respectTransparency.types false in
/-- Region 1 over the thread state, its proof data read as a relation with the marked windows forgotten: it leaves its
    arrays at some contents. -/
def regR1 : Pipeline.RDat.RegionSeg (pcfgs (F := F)) adm (rdats dat0 dat1 fgt1 m) () defs₀ 𝒱₀ L lv 1 where
  win := launch1.win.to₀
  block_pos := launch1.block_pos
  stage_whole := launch1.stage_whole
  K := PEmpty
  osem k := k.elim
  ho := Pipeline.OwnSemFacts.none _
  hbody c := (H.hb1 (V4 dat0 m) c).toRForget
  hwaits := Pipeline.RDat.hwaits_of_owed_zero _ _ _ _ L lv 1 fun c t => H.how1 (V4 dat0 m) c t
  pre c := iprop(StableHlo.held (c : Thread nD τ) (Pipeline.ucRefs τ sig) (W4 dat0 m c) ∗ R c)
  post c := iprop(TₙR dat0 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 dat0 m c)
  hentry c := by
    rw [Pipeline.ownSems0_none]
    have hsplit := Pipeline.RDat.arrays_of_unscopedBufs (p := 1) (pcfgs (F := F)) adm (rdats dat0 dat1 fgt1 m) launch1.win launch1.arr_whole c
      (fun w => (dat1 (V4 dat0 m) c).share_full (fun w => H.hq1 (V4 dat0 m) c w) w) (V4 dat0 m c) fun w => H.hA1 (V4 dat0 m) c w
    rw [Pipeline.unscopedBufs_held] at hsplit
    iintro ⟨⟨Hub, Hp, HO⟩, -, -⟩
    ihave H' := hsplit $$ Hub
    icases H' with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun x _ => Or.inl (show x ∈ (dat1 (V4 dat0 m) c).recorded 0 from (H.hr1 (V4 dat0 m) c).symm ▸ Set.mem_univ x)
      rw [show (rdats dat0 dat1 fgt1 m 1 c).owed 0 = 0 from H.how1 (V4 dat0 m) c 0]
      iexact HO
    isplitl [Hp]; · iexact Hp
    iexact Hrest
  hin c := by
    refine BIBase.Entails.trans ?_ (H.hin1 (V4 dat0 m) c)
    unfold Pipeline.ΦA
    iintro ⟨Hp, -, Hr⟩
    isplitl [Hr]; · iexact Hr
    iexact Hp
  hout c := by
    rw [Pipeline.ownSems0_none]
    refine BIBase.Entails.trans (H.hout1 (V4 dat0 m) c) ?_
    unfold Pipeline.ΦA
    iintro ⟨Hr, Hp⟩
    isplitl [Hp]; · iexact Hp
    isplitr; · iempintro
    iexact Hr
  hexit c := by
    unfold Pipeline.RDat.arraysAt
    iintro ⟨Ha, HO, HY, Hrest⟩
    ihave Ha' := (BI.bigSep_exists_pi Finset.univ (fun w Fb => iprop(⌜(rdats dat0 dat1 fgt1 m 1 c).ArrAt w (Pipeline.pin (pcfgs (F := F)) adm 1).N Fb⌝
        ∗ ((Pipeline.pin (pcfgs (F := F)) adm 1).win w).arr.view.loc (c : Thread nD τ) ↦[((Pipeline.pin (pcfgs (F := F)) adm 1).win w).arr.view.set]{(rdats dat0 dat1 fgt1 m 1 c).share w} Fb))) $$ Ha
    icases Ha' with ⟨%A, Ha⟩
    ihave Ha2 := (BI.bigSep_pure_sep Finset.univ (fun w => (rdats dat0 dat1 fgt1 m 1 c).ArrAt w (Pipeline.pin (pcfgs (F := F)) adm 1).N (A w))
        (fun w => ((Pipeline.pin (pcfgs (F := F)) adm 1).win w).arr.view.loc (c : Thread nD τ) ↦[((Pipeline.pin (pcfgs (F := F)) adm 1).win w).arr.view.set]{(rdats dat0 dat1 fgt1 m 1 c).share w} A w)) $$ Ha
    icases Ha2 with ⟨-, Ha⟩
    have hjoin := Pipeline.unscopedBufs_of_arrays (p := 1) (pcfgs (F := F)) adm (Ix := Unit) (Name := ℕ) (U := UR sig nD τ) (Lvl := ℕ)
      launch1.win launch1.arr_whole c (pdats dat0 dat1 m) ((pdats dat0 dat1 m 1 c).share_full fun w => H.hq1 (V4 dat0 m) c w)
      (V4 dat0 m c) (fun b => Pipeline.withArrays spec1 c (W4 dat0 m c) A b) A
      (fun w => (Pipeline.withArrays_arr spec1 launch1.win.arr_inj c _ A w).symm)
      (fun b hb => Pipeline.withArrays_of_ne spec1 c _ A b fun w e => hb (Finset.mem_image.mpr ⟨w, Finset.mem_univ _, e⟩))
    rw [Pipeline.unscopedBufs_held] at hjoin
    imodintro
    isplitl [Ha Hrest HY]
    · isplitl [Ha Hrest]
      · iexists A
        iapply hjoin; isplitl [Ha]
        · unfold Pipeline.Dat.arrays; iexact Ha
        iexact Hrest
      iexact HY
    unfold Pipeline.RDat.owesAt Pipeline.owesWithin
    rw [show (rdats dat0 dat1 fgt1 m 1 c).owed (Fin.last _) = 0 from H.how1 (V4 dat0 m) c _]
    icases HO with ⟨%W, -, HO⟩; iexists W; iexact HO

/-- @main's five segments in order, the regions over the relational proof data. -/
abbrev segsR : List (Pipeline.RDat.Seg (pcfgs (F := F)) adm (rdats dat0 dat1 fgt1 m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .region (regR0 dat0 dat1 fgt1 m H),
    .region (regR1 dat0 dat1 fgt1 m H) ]

/-! ## The arguments as region 1 is entered -/

theorem W4R_main_arg0 (c : Dev nD) : W4 dat0 m c (Proc.devRef .tc main_arg0) = m ((c : Thread nD τ).loc main_arg0) :=
  ((W4_arr dat0 m c 0).trans (((dat0 (V3 m) c).arrAt_in 0 rfl _).trans (H.hA0 (V3 m) c 0))).trans (V3_launch m c main_arg0 (by decide) (by decide) (by decide))
theorem W4R_main_arg1 (c : Dev nD) : W4 dat0 m c (Proc.devRef .tc main_arg1) = m ((c : Thread nD τ).loc main_arg1) :=
  (W4_of_ne dat0 m c main_arg1 (by decide)).trans (V3_launch m c main_arg1 (by decide) (by decide) (by decide))
theorem W4R_main_arg2 (c : Dev nD) : W4 dat0 m c (Proc.devRef .tc main_arg2) = m ((c : Thread nD τ).loc main_arg2) :=
  ((W4_arr dat0 m c 2).trans (((dat0 (V3 m) c).arrAt_in 2 rfl _).trans (H.hA0 (V3 m) c 2))).trans (V3_launch m c main_arg2 (by decide) (by decide) (by decide))
theorem W4R_main_arg3 (c : Dev nD) : W4 dat0 m c (Proc.devRef .tc main_arg3) = m ((c : Thread nD τ).loc main_arg3) :=
  ((W4_arr dat0 m c 3).trans (((dat0 (V3 m) c).arrAt_in 3 rfl _).trans (H.hA0 (V3 m) c 3))).trans (V3_launch m c main_arg3 (by decide) (by decide) (by decide))
theorem W4R_main_arg4 (c : Dev nD) : W4 dat0 m c (Proc.devRef .tc main_arg4) = m ((c : Thread nD τ).loc main_arg4) :=
  ((W4_arr dat0 m c 4).trans (((dat0 (V3 m) c).arrAt_in 4 rfl _).trans (H.hA0 (V3 m) c 4))).trans (V3_launch m c main_arg4 (by decide) (by decide) (by decide))
theorem W4R_main_arg5 (c : Dev nD) : W4 dat0 m c (Proc.devRef .tc main_arg5) = m ((c : Thread nD τ).loc main_arg5) :=
  ((W4_arr dat0 m c 5).trans (((dat0 (V3 m) c).arrAt_in 5 rfl _).trans (H.hA0 (V3 m) c 5))).trans (V3_launch m c main_arg5 (by decide) (by decide) (by decide))
theorem W4R_main_arg6 (c : Dev nD) : W4 dat0 m c (Proc.devRef .tc main_arg6) = m ((c : Thread nD τ).loc main_arg6) :=
  ((W4_arr dat0 m c 6).trans (((dat0 (V3 m) c).arrAt_in 6 rfl _).trans (H.hA0 (V3 m) c 6))).trans (V3_launch m c main_arg6 (by decide) (by decide) (by decide))
theorem W4R_main_arg7 (c : Dev nD) : W4 dat0 m c (Proc.devRef .tc main_arg7) = m ((c : Thread nD τ).loc main_arg7) :=
  ((W4_arr dat0 m c 7).trans (((dat0 (V3 m) c).arrAt_in 7 rfl _).trans (H.hA0 (V3 m) c 7))).trans (V3_launch m c main_arg7 (by decide) (by decide) (by decide))
theorem W4R_main_arg8 (c : Dev nD) : W4 dat0 m c (Proc.devRef .tc main_arg8) = m ((c : Thread nD τ).loc main_arg8) :=
  ((W4_arr dat0 m c 8).trans (((dat0 (V3 m) c).arrAt_in 8 rfl _).trans (H.hA0 (V3 m) c 8))).trans (V3_launch m c main_arg8 (by decide) (by decide) (by decide))
theorem W4R_main_arg9 (c : Dev nD) : W4 dat0 m c (Proc.devRef .tc main_arg9) = m ((c : Thread nD τ).loc main_arg9) :=
  (W4_of_ne dat0 m c main_arg9 (by decide)).trans (V3_launch m c main_arg9 (by decide) (by decide) (by decide))
theorem W4R_main_arg10 (c : Dev nD) : W4 dat0 m c (Proc.devRef .tc main_arg10) = m ((c : Thread nD τ).loc main_arg10) :=
  (W4_of_ne dat0 m c main_arg10 (by decide)).trans (V3_launch m c main_arg10 (by decide) (by decide) (by decide))
theorem W4R_main_arg11 (c : Dev nD) : W4 dat0 m c (Proc.devRef .tc main_arg11) = m ((c : Thread nD τ).loc main_arg11) :=
  ((W4_arr dat0 m c 9).trans (((dat0 (V3 m) c).arrAt_in 9 rfl _).trans (H.hA0 (V3 m) c 9))).trans (V3_launch m c main_arg11 (by decide) (by decide) (by decide))
theorem W4R_main_arg12 (c : Dev nD) : W4 dat0 m c (Proc.devRef .tc main_arg12) = m ((c : Thread nD τ).loc main_arg12) :=
  ((W4_arr dat0 m c 10).trans (((dat0 (V3 m) c).arrAt_in 10 rfl _).trans (H.hA0 (V3 m) c 10))).trans (V3_launch m c main_arg12 (by decide) (by decide) (by decide))
theorem W4R_main_arg13 (c : Dev nD) : W4 dat0 m c (Proc.devRef .tc main_arg13) = m ((c : Thread nD τ).loc main_arg13) :=
  ((W4_arr dat0 m c 11).trans (((dat0 (V3 m) c).arrAt_in 11 rfl _).trans (H.hA0 (V3 m) c 11))).trans (V3_launch m c main_arg13 (by decide) (by decide) (by decide))
theorem W4R_main_arg14 (c : Dev nD) : W4 dat0 m c (Proc.devRef .tc main_arg14) = m ((c : Thread nD τ).loc main_arg14) :=
  ((W4_arr dat0 m c 12).trans (((dat0 (V3 m) c).arrAt_in 12 rfl _).trans (H.hA0 (V3 m) c 12))).trans (V3_launch m c main_arg14 (by decide) (by decide) (by decide))
theorem W4R_main_arg15 (c : Dev nD) : W4 dat0 m c (Proc.devRef .tc main_arg15) = m ((c : Thread nD τ).loc main_arg15) :=
  ((W4_arr dat0 m c 13).trans (((dat0 (V3 m) c).arrAt_in 13 rfl _).trans (H.hA0 (V3 m) c 13))).trans (V3_launch m c main_arg15 (by decide) (by decide) (by decide))
theorem W4R_main_arg16 (c : Dev nD) : W4 dat0 m c (Proc.devRef .tc main_arg16) = m ((c : Thread nD τ).loc main_arg16) :=
  ((W4_arr dat0 m c 14).trans (((dat0 (V3 m) c).arrAt_in 14 rfl _).trans (H.hA0 (V3 m) c 14))).trans (V3_launch m c main_arg16 (by decide) (by decide) (by decide))
theorem W4R_main_arg17 (c : Dev nD) : W4 dat0 m c (Proc.devRef .tc main_arg17) = m ((c : Thread nD τ).loc main_arg17) :=
  (W4_of_ne dat0 m c main_arg17 (by decide)).trans (V3_launch m c main_arg17 (by decide) (by decide) (by decide))
theorem W4R_main_arg18 (c : Dev nD) : W4 dat0 m c (Proc.devRef .tc main_arg18) = m ((c : Thread nD τ).loc main_arg18) :=
  (W4_of_ne dat0 m c main_arg18 (by decide)).trans (V3_launch m c main_arg18 (by decide) (by decide) (by decide))

set_option backward.isDefEq.respectTransparency.types false in
/-- THE FRAME over relational proof data: from any memory with zero counters, every weakly fair execution of @main
    terminates, nothing faulting, and every argument ends holding its launch contents. -/
theorem frame_of' (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.RDat.θ_run_regions_kit (pcfgs (F := F)) adm (rdats dat0 dat1 fgt1 m) () cellOf_inj emb₁ defs₀ 𝒱₀ L lv m ρ main (segsR dat0 dat1 fgt1 m H)
    (fun c Q => by
      rewrite [main_chain c, Pipeline.RDat.Seg.run_eq_chain,
        show (segsR dat0 dat1 fgt1 m H).map Pipeline.RDat.Seg.prog = [
          StableHlo.seq hostOps0,
          StableHlo.seq hostOps0_1,
          StableHlo.seq hostOps0_2,
          Prog.lift (.customCall (Pipeline.entry 0) ()),
          Prog.lift (.customCall (Pipeline.entry 1) ()) ] from rfl]
      exact .rfl)
    (by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := TₙR dat0 m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∃ A : (w : Fin cfg1.W) → Buf (Elt F) ((cfg1.win w).arr.view.loc (c : Thread nD τ)),
      ∀ b ∈ Pipeline.ucRefs τ sig, s.mem (((c : Thread nD τ)).1, b) = Pipeline.withArrays spec1 c (W4 dat0 m c) A b)
    (hfin := fun c s' => by
      iintro ⟨⟨⟨%A, Hh⟩, -⟩, HSI⟩
      unfold StableHlo.held
      ihave Hr := (pointsTo_read_all (Pipeline.ucRefs τ sig) (fun b => (((c : Thread nD τ)).1, b)) (Pipeline.withArrays spec1 c (W4 dat0 m c) A) s') $$ [Hh HSI]
      · isplitl [Hh] <;> iassumption
      icases Hr with ⟨%h, HSI⟩
      imodintro
      isplitr; · ipureintro; exact ⟨A, h⟩
      iexact HSI)
    (hQ := fun s h c => by
      obtain ⟨A, hA⟩ := h c
      exact ⟨(hA _ (mem_uc main_arg0 (by decide))).trans ((Pipeline.withArrays_of_ne spec1 c _ A main_arg0 (by decide)).trans (W4R_main_arg0 dat0 dat1 fgt1 m H c)),
        (hA _ (mem_uc main_arg1 (by decide))).trans ((Pipeline.withArrays_of_ne spec1 c _ A main_arg1 (by decide)).trans (W4R_main_arg1 dat0 dat1 fgt1 m H c)),
        (hA _ (mem_uc main_arg2 (by decide))).trans ((Pipeline.withArrays_of_ne spec1 c _ A main_arg2 (by decide)).trans (W4R_main_arg2 dat0 dat1 fgt1 m H c)),
        (hA _ (mem_uc main_arg3 (by decide))).trans ((Pipeline.withArrays_of_ne spec1 c _ A main_arg3 (by decide)).trans (W4R_main_arg3 dat0 dat1 fgt1 m H c)),
        (hA _ (mem_uc main_arg4 (by decide))).trans ((Pipeline.withArrays_of_ne spec1 c _ A main_arg4 (by decide)).trans (W4R_main_arg4 dat0 dat1 fgt1 m H c)),
        (hA _ (mem_uc main_arg5 (by decide))).trans ((Pipeline.withArrays_of_ne spec1 c _ A main_arg5 (by decide)).trans (W4R_main_arg5 dat0 dat1 fgt1 m H c)),
        (hA _ (mem_uc main_arg6 (by decide))).trans ((Pipeline.withArrays_of_ne spec1 c _ A main_arg6 (by decide)).trans (W4R_main_arg6 dat0 dat1 fgt1 m H c)),
        (hA _ (mem_uc main_arg7 (by decide))).trans ((Pipeline.withArrays_of_ne spec1 c _ A main_arg7 (by decide)).trans (W4R_main_arg7 dat0 dat1 fgt1 m H c)),
        (hA _ (mem_uc main_arg8 (by decide))).trans ((Pipeline.withArrays_of_ne spec1 c _ A main_arg8 (by decide)).trans (W4R_main_arg8 dat0 dat1 fgt1 m H c)),
        (hA _ (mem_uc main_arg9 (by decide))).trans ((Pipeline.withArrays_of_ne spec1 c _ A main_arg9 (by decide)).trans (W4R_main_arg9 dat0 dat1 fgt1 m H c)),
        (hA _ (mem_uc main_arg10 (by decide))).trans ((Pipeline.withArrays_of_ne spec1 c _ A main_arg10 (by decide)).trans (W4R_main_arg10 dat0 dat1 fgt1 m H c)),
        (hA _ (mem_uc main_arg11 (by decide))).trans ((Pipeline.withArrays_of_ne spec1 c _ A main_arg11 (by decide)).trans (W4R_main_arg11 dat0 dat1 fgt1 m H c)),
        (hA _ (mem_uc main_arg12 (by decide))).trans ((Pipeline.withArrays_of_ne spec1 c _ A main_arg12 (by decide)).trans (W4R_main_arg12 dat0 dat1 fgt1 m H c)),
        (hA _ (mem_uc main_arg13 (by decide))).trans ((Pipeline.withArrays_of_ne spec1 c _ A main_arg13 (by decide)).trans (W4R_main_arg13 dat0 dat1 fgt1 m H c)),
        (hA _ (mem_uc main_arg14 (by decide))).trans ((Pipeline.withArrays_of_ne spec1 c _ A main_arg14 (by decide)).trans (W4R_main_arg14 dat0 dat1 fgt1 m H c)),
        (hA _ (mem_uc main_arg15 (by decide))).trans ((Pipeline.withArrays_of_ne spec1 c _ A main_arg15 (by decide)).trans (W4R_main_arg15 dat0 dat1 fgt1 m H c)),
        (hA _ (mem_uc main_arg16 (by decide))).trans ((Pipeline.withArrays_of_ne spec1 c _ A main_arg16 (by decide)).trans (W4R_main_arg16 dat0 dat1 fgt1 m H c)),
        (hA _ (mem_uc main_arg17 (by decide))).trans ((Pipeline.withArrays_of_ne spec1 c _ A main_arg17 (by decide)).trans (W4R_main_arg17 dat0 dat1 fgt1 m H c)),
        (hA _ (mem_uc main_arg18 (by decide))).trans ((Pipeline.withArrays_of_ne spec1 c _ A main_arg18 (by decide)).trans (W4R_main_arg18 dat0 dat1 fgt1 m H c))⟩)

end RunR

/-- THE FRAME over relational proof data, with the two regions' proof data and what is asked of them spelt out. -/
theorem frame_of
    (dat0 : ((c : Dev nD) → (b : Ref sig .tc) → Buf (Elt F) ((c : Thread nD τ).loc b)) → (c : Dev nD) → Dat τ (Elt F) Unit ℕ (UR sig nD τ) ℕ cfg0 c)
    (hA0 : ∀ V c w, (dat0 V c).A w = V c (Pipeline.arrRef spec0 w))
    (hq0 : ∀ V c w, (dat0 V c).q w = fullShare)
    (how0 : ∀ V c t, (dat0 V c).owed t = 0)
    (hr0 : ∀ V c, (dat0 V c).recorded 0 = Set.univ)
    (hb0 : ∀ V c, BodyObligationLoose (dat0 V c) (defs₀ (F := F)) Variants.none () Set.univ)
    (hin0 : ∀ V c, (Pipeline.ΦA spec0 c : sProp 𝕄) ⊢ (dat0 V c).Φ 0)
    (hout0 : ∀ V c, (dat0 V c).Φ (Fin.last cfg0.N) ⊢ (Pipeline.ΦA spec0 c : sProp 𝕄))
    (dat1 : ((c : Dev nD) → (b : Ref sig .tc) → Buf (Elt F) ((c : Thread nD τ).loc b)) → (c : Dev nD) → Dat τ (Elt F) Unit ℕ (UR sig nD τ) ℕ cfg1 c)
    (hA1 : ∀ V c w, (dat1 V c).A w = V c (Pipeline.arrRef spec1 w))
    (hq1 : ∀ V c w, (dat1 V c).q w = fullShare)
    (how1 : ∀ V c t, (dat1 V c).owed t = 0)
    (hr1 : ∀ V c, (dat1 V c).recorded 0 = Set.univ)
    (fgt1 : Fin cfg1.W → Bool)
    (hb1f : ∀ V c, BodyObligationLoose (dat1 V c) (defs₀ (F := F)) Variants.none () Set.univ (fgt := fgt1))
    (hin1 : ∀ V c, (Pipeline.ΦA spec1 c : sProp 𝕄) ⊢ (dat1 V c).Φ 0)
    (hout1 : ∀ V c, (dat1 V c).Φ (Fin.last cfg1.N) ⊢ (Pipeline.ΦA spec1 c : sProp 𝕄))
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of' dat0 dat1 fgt1 m ⟨hA0, hq0, how0, hr0, hb0, hin0, hout0, hA1, hq1, how1, hr1, hb1f, hin1, hout1⟩ ρ

end Cert.Kernel.Hand

end
-- ==== Proof.FrameMainB.lean ====
/-
  The frame of the kernel program at the two regions' proof data, the output projection's result window not described.

  With the first kernel's data read exactly and the output projection's data read with its result window forgotten, every
  weakly fair execution terminates and every argument ends holding its launch contents.
-/
import proofs.«111399_j53506702573937_2_alg».proof.Proof.K0DatB
import proofs.«111399_j53506702573937_2_alg».proof.Proof.K1DatB
import proofs.«111399_j53506702573937_2_alg».proof.Proof.K1ForgetB
import proofs.«111399_j53506702573937_2_alg».proof.Proof.RunKitRB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- THE FRAME at the two kernels' proof data. -/
theorem frame_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of dat0 A_eq0 (fun _ _ _ => rfl) (fun _ _ _ => rfl) (fun _ _ => rfl) body_obligation0 hin0 hout0
    datB datB_A datB_q datB_owed (fun _ _ => rfl) fgtB (fun V c => body_obligationB_forget V c)
    (fun V c => by rw [datB_Φ]) (fun V c => by rw [datB_Φ]) m ρ

end Cert.Kernel.Hand

end
-- ==== Proof.FrameB.lean ====
/-
  The kernel's word-level frame, read off its run.

  At the bit-exact number system the kernel program runs as at any other: with the first kernel's proof data read
  exactly and the output projection's result window not described, every weakly fair execution terminates, faults
  nowhere and leaves the nineteen argument arrays as launched.  That is the frame claim.
-/
import proofs.«111399_j53506702573937_2_alg».proof.Defs
import proofs.«111399_j53506702573937_2_alg».proof.Proof.FrameMainB

noncomputable section

open Idealize.ShloMosaic Idealize.ShloMosaic.TcCoe Idealize.SL.Sem

namespace Cert.Proof.FrameB

/-- Every weakly fair execution of the kernel program over words terminates, faults nowhere and leaves its nineteen
    argument arrays as launched. -/
theorem frame_k [Cert.Kernel.Facts] [Cert.Pre_finite_inputs.Facts] : Cert.frame_Kernel := fun m ρ _ =>
  Cert.Kernel.Hand.frame_main (F := Bits) m ρ

end Cert.Proof.FrameB

end
-- ==== Proof.K0CondsI.lean ====
/-
  The input projection kernel: its two branch conditions over the 4 × 8 grid.

  The grid point (i, k) accumulates block k of the contraction over the 20000 columns into a scratch accumulator.
  The accumulator is reset when k = 0, and when k = 7 (the last block) the layers and the feed-forward part run on
  the finished accumulator and the result block is stored.  In the linear order of the 32 points, k is the point's
  number modulo 8.
-/
import proofs.«111399_j53506702573937_2_alg».proof.Proof.Gen.KernelIdeal.Launch
import proofs.«111399_j53506702573937_2_alg».proof.Proof.Gen.KernelIdeal.Skeleton
import proofs.«111399_j53506702573937_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- "k = 0": the accumulator is reset at this point. -/
abbrev condReset (i : grid0.Coords) : Prop := (Scalar.cmpi .ne (Scalar.extui (Scalar.cmpi .eq (BitVec.ofNat 32 (i 1).val) 0#32)) 0#32) = 1#1
theorem hcondReset : ∀ t : Fin cfg0.N, condReset (grid0.coords t) ↔ t.val % 8 = 0 :=
  (by decide +kernel : ∀ t : Fin grid0.N, condReset (grid0.coords t) ↔ t.val % 8 = 0)

/-- "k = 7": the epilogue runs and the result block is stored at this point. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

end Cert.KernelIdeal.Hand

end
-- ==== Proof.K0MaskI.lean ====
/-
  The column mask of the input projection kernel hides whatever lies past the array's end.

  Block k of x covers columns 2560·k … 2560·k + 2559 of a 20000-column array, so the last block (k = 7) holds only
  2080 real columns; the rest of its staging buffer holds words nothing names.  The body replaces every entry whose
  column index is not below 20000 − 2560·k by zero before it multiplies, so the accumulated product does not depend
  on those words.
-/
import proofs.«111399_j53506702573937_2_alg».proof.Proof.K0CondsI
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-- For k < 8 and a column q < 2560 of the block that is not below the number of columns the block really has
    (2080 when k = 7, all 2560 otherwise), the kernel's signed comparison "q < 20000 − 2560·k" on 32-bit words fails. -/
theorem maskArith : ∀ (k : Fin 8) (q : Fin 2560), ¬ q.val < (if k.val = 7 then 2080 else 2560) →
    (BitVec.ofNat 32 q.val).slt (20000#32 - BitVec.ofNat 32 k.val * 2560#32) = false := by decide +kernel

/-- The second grid coordinate of a point is its number modulo 8. -/
theorem coordK : ∀ t : Fin grid0.N, ((grid0.coords t) 1).val = t.val % 8 := by decide +kernel
/-- What a fetch of x's block moves: all 1024 rows, and 2080 columns at the last column block, 2560 elsewhere. -/
theorem xsz : ∀ t : Fin grid0.N, win0_0.xsize (grid0.coords t) 0 = 1024 ∧ win0_0.xsize (grid0.coords t) 1 = (if t.val % 8 = 7 then 2080 else 2560) := by decide +kernel

/-- The accumulation step reads x's staging buffer only where the fetch filled it: two buffers that hold the same
    fetched block, whatever else they hold, give the same new accumulator. -/
theorem pay2_fill (t : Fin cfg0.N) (d d' : S1024x2560.Idx → Elt F .f32) (g : (win0_0.xblock (grid0.coords t)).Idx → Elt F .f32)
    (w : Vec F S64x2560 .bf16) (a : Vec F S1024x64 .f32) :
    k0_pay2 (grid0.coords t) (win0_0.fill (grid0.coords t) d g) w a = k0_pay2 (grid0.coords t) (win0_0.fill (grid0.coords t) d' g) w a := by
  unfold k0_pay2
  dsimp only
  have hs : select (cmpi CmpIPredicate.slt (iota Kind.tc S1024x2560 32 [1] iota_S1024x2560_d1_w32)
          (broadcast S1024x2560 (Scalar.subi (20000#32) (Scalar.muli (BitVec.ofNat 32 ((grid0.coords t) 1).val) 2560#32))))
        (win0_0.fill (grid0.coords t) d g) (broadcast S1024x2560 (FloatOps.ofBits FTy.f32 0#32))
      = select (cmpi CmpIPredicate.slt (iota Kind.tc S1024x2560 32 [1] iota_S1024x2560_d1_w32)
          (broadcast S1024x2560 (Scalar.subi (20000#32) (Scalar.muli (BitVec.ofNat 32 ((grid0.coords t) 1).val) 2560#32))))
        (win0_0.fill (grid0.coords t) d' g) (broadcast S1024x2560 (FloatOps.ofBits FTy.f32 0#32)) := by
    funext j
    by_cases hm : win0_0.moved (grid0.coords t) j = true
    · unfold select Pipeline.Window.fill
      rw [dif_pos hm, dif_pos hm]
    · have h0 : (j 0).val < 1024 := (j 0).isLt
      have h1 : (j 1).val < 2560 := (j 1).isLt
      have hk : ((grid0.coords t) 1).val < 8 := ((grid0.coords t) 1).isLt
      have hq : ¬ (j 1).val < (if t.val % 8 = 7 then 2080 else 2560) := fun hlt =>
        hm ((win0_0.moved_iff _ j).mpr fun a => by
          match a with
          | ⟨0, _⟩ => exact (xsz t).1 ▸ h0
          | ⟨1, _⟩ => exact (xsz t).2 ▸ hlt)
      have hmask := maskArith ⟨((grid0.coords t) 1).val, hk⟩ ⟨(j 1).val, h1⟩ (by
        show ¬ (j 1).val < (if ((grid0.coords t) 1).val = 7 then 2080 else 2560)
        rw [coordK t]; exact hq)
      have hc : cmpi CmpIPredicate.slt (iota Kind.tc S1024x2560 32 [1] iota_S1024x2560_d1_w32)
          (broadcast S1024x2560 (Scalar.subi (20000#32) (Scalar.muli (BitVec.ofNat 32 ((grid0.coords t) 1).val) 2560#32))) j = 0#1 := by
        show BitVec.ofBool ((BitVec.ofNat 32 (0 * 2560 + (j 1).val)).slt (20000#32 - BitVec.ofNat 32 ((grid0.coords t) 1).val * 2560#32)) = 0#1
        rw [Nat.zero_mul, Nat.zero_add]
        rw [show (BitVec.ofNat 32 (j 1).val).slt (20000#32 - BitVec.ofNat 32 ((grid0.coords t) 1).val * 2560#32) = false from hmask]
        rfl
      unfold select
      rw [hc]
      rfl
  rw [hs]

end Cert.KernelIdeal.Hand

end
-- ==== Proof.K0RunAI.lean ====
/-
  The input projection kernel at a point with k = 0: the accumulator is reset to zero, then block 0 of the
  contraction is added to it.  Nothing is stored into the result buffer, which is handed back as it was found.
-/
import proofs.«111399_j53506702573937_2_alg».proof.Proof.K0CondsI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
noncomputable def kernelRunA (c : Dev nD) (i : grid0.Coords) (arg2 : Memref sig .tc .vmem S1024x2560 .f32) (harg2 : arg2.IsWhole) (arg3 : Memref sig .tc .vmem S64x2560 .bf16) (harg3 : arg3.IsWhole) (arg4 : Memref sig .tc .vmem S64 .f32) (harg4 : arg4.IsWhole) (arg5 : Memref sig .tc .vmem S3x64x64 .f32) (harg5 : arg5.IsWhole) (arg6 : Memref sig .tc .vmem S3x64 .f32) (harg6 : arg6.IsWhole) (arg7 : Memref sig .tc .vmem S3x64x64 .f32) (harg7 : arg7.IsWhole) (arg8 : Memref sig .tc .vmem S3x64 .f32) (harg8 : arg8.IsWhole) (arg9 : Memref sig .tc .vmem S3x64x64 .f32) (harg9 : arg9.IsWhole) (arg10 : Memref sig .tc .vmem S3x64 .f32) (harg10 : arg10.IsWhole) (arg11 : Memref sig .tc .vmem S3x64x64 .f32) (harg11 : arg11.IsWhole) (arg12 : Memref sig .tc .vmem S3x64 .f32) (harg12 : arg12.IsWhole) (arg13 : Memref sig .tc .vmem S128x64 .f32) (harg13 : arg13.IsWhole) (arg14 : Memref sig .tc .vmem S128 .f32) (harg14 : arg14.IsWhole) (arg15 : Memref sig .tc .vmem S64x128 .f32) (harg15 : arg15.IsWhole) (arg16 : Memref sig .tc .vmem S64 .f32) (harg16 : arg16.IsWhole) (arg17 : Memref sig .tc .vmem S1024x64 .f32) (harg17 : arg17.IsWhole) (arg18 : Memref sig .tc .vmem S1024x64 .f32) (harg18 : arg18.IsWhole) (hc0 : condReset i) (hc1 : ¬condLast i)
    (x0 : Vec F S1024x2560 .f32) (x1 : Vec F S64x2560 .bf16) (x2 : Vec F S64 .f32) (x3 : Vec F S3x64x64 .f32) (x4 : Vec F S3x64 .f32) (x5 : Vec F S3x64x64 .f32) (x6 : Vec F S3x64 .f32) (x7 : Vec F S3x64x64 .f32) (x8 : Vec F S3x64 .f32) (x9 : Vec F S3x64x64 .f32) (x10 : Vec F S3x64 .f32) (x11 : Vec F S128x64 .f32) (x12 : Vec F S128 .f32) (x13 : Vec F S64x128 .f32) (x14 : Vec F S64 .f32) :
    { LS0 : List (View.Piece (Elt F) S1024x64 .f32) //
      ∀ (xi15 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ (∃ f, arg18.view.loc (c : Thread nD τ) ↦[arg18.view.set]{fullShare} arg18.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun xi15 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    iexists _; iexact HS0

end Cert.KernelIdeal.Hand

end
-- ==== Proof.K0RunBI.lean ====
/-
  The input projection kernel at a point with 0 < k < 7: block k of the contraction is added to the accumulator the
  point before left.  Nothing is stored into the result buffer, which is handed back as it was found.
-/
import proofs.«111399_j53506702573937_2_alg».proof.Proof.K0CondsI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
noncomputable def kernelRunB (c : Dev nD) (i : grid0.Coords) (arg2 : Memref sig .tc .vmem S1024x2560 .f32) (harg2 : arg2.IsWhole) (arg3 : Memref sig .tc .vmem S64x2560 .bf16) (harg3 : arg3.IsWhole) (arg4 : Memref sig .tc .vmem S64 .f32) (harg4 : arg4.IsWhole) (arg5 : Memref sig .tc .vmem S3x64x64 .f32) (harg5 : arg5.IsWhole) (arg6 : Memref sig .tc .vmem S3x64 .f32) (harg6 : arg6.IsWhole) (arg7 : Memref sig .tc .vmem S3x64x64 .f32) (harg7 : arg7.IsWhole) (arg8 : Memref sig .tc .vmem S3x64 .f32) (harg8 : arg8.IsWhole) (arg9 : Memref sig .tc .vmem S3x64x64 .f32) (harg9 : arg9.IsWhole) (arg10 : Memref sig .tc .vmem S3x64 .f32) (harg10 : arg10.IsWhole) (arg11 : Memref sig .tc .vmem S3x64x64 .f32) (harg11 : arg11.IsWhole) (arg12 : Memref sig .tc .vmem S3x64 .f32) (harg12 : arg12.IsWhole) (arg13 : Memref sig .tc .vmem S128x64 .f32) (harg13 : arg13.IsWhole) (arg14 : Memref sig .tc .vmem S128 .f32) (harg14 : arg14.IsWhole) (arg15 : Memref sig .tc .vmem S64x128 .f32) (harg15 : arg15.IsWhole) (arg16 : Memref sig .tc .vmem S64 .f32) (harg16 : arg16.IsWhole) (arg17 : Memref sig .tc .vmem S1024x64 .f32) (harg17 : arg17.IsWhole) (arg18 : Memref sig .tc .vmem S1024x64 .f32) (harg18 : arg18.IsWhole) (hc0 : ¬condReset i) (hc1 : ¬condLast i)
    (x0 : Vec F S1024x2560 .f32) (x1 : Vec F S64x2560 .bf16) (x2 : Vec F S64 .f32) (x3 : Vec F S3x64x64 .f32) (x4 : Vec F S3x64 .f32) (x5 : Vec F S3x64x64 .f32) (x6 : Vec F S3x64 .f32) (x7 : Vec F S3x64x64 .f32) (x8 : Vec F S3x64 .f32) (x9 : Vec F S3x64x64 .f32) (x10 : Vec F S3x64 .f32) (x11 : Vec F S128x64 .f32) (x12 : Vec F S128 .f32) (x13 : Vec F S64x128 .f32) (x14 : Vec F S64 .f32) (xs0 : Vec F S1024x64 .f32) :
    { LS0 : List (View.Piece (Elt F) S1024x64 .f32) //
      ∀ (xi15 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ owns (c : Thread nD τ) arg18 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ (∃ f, arg18.view.loc (c : Thread nD τ) ↦[arg18.view.set]{fullShare} arg18.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun xi15 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    iexists _; iexact HS0

end Cert.KernelIdeal.Hand

end
-- ==== Proof.K0RunCI.lean ====
/-
  The input projection kernel at a point with k = 7: the last block of the contraction is added to the accumulator,
  then the bias, the three layers and the feed-forward part run on it and the result block is stored whole.
-/
import proofs.«111399_j53506702573937_2_alg».proof.Proof.K0CondsI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
noncomputable def kernelRunC (c : Dev nD) (i : grid0.Coords) (arg2 : Memref sig .tc .vmem S1024x2560 .f32) (harg2 : arg2.IsWhole) (arg3 : Memref sig .tc .vmem S64x2560 .bf16) (harg3 : arg3.IsWhole) (arg4 : Memref sig .tc .vmem S64 .f32) (harg4 : arg4.IsWhole) (arg5 : Memref sig .tc .vmem S3x64x64 .f32) (harg5 : arg5.IsWhole) (arg6 : Memref sig .tc .vmem S3x64 .f32) (harg6 : arg6.IsWhole) (arg7 : Memref sig .tc .vmem S3x64x64 .f32) (harg7 : arg7.IsWhole) (arg8 : Memref sig .tc .vmem S3x64 .f32) (harg8 : arg8.IsWhole) (arg9 : Memref sig .tc .vmem S3x64x64 .f32) (harg9 : arg9.IsWhole) (arg10 : Memref sig .tc .vmem S3x64 .f32) (harg10 : arg10.IsWhole) (arg11 : Memref sig .tc .vmem S3x64x64 .f32) (harg11 : arg11.IsWhole) (arg12 : Memref sig .tc .vmem S3x64 .f32) (harg12 : arg12.IsWhole) (arg13 : Memref sig .tc .vmem S128x64 .f32) (harg13 : arg13.IsWhole) (arg14 : Memref sig .tc .vmem S128 .f32) (harg14 : arg14.IsWhole) (arg15 : Memref sig .tc .vmem S64x128 .f32) (harg15 : arg15.IsWhole) (arg16 : Memref sig .tc .vmem S64 .f32) (harg16 : arg16.IsWhole) (arg17 : Memref sig .tc .vmem S1024x64 .f32) (harg17 : arg17.IsWhole) (arg18 : Memref sig .tc .vmem S1024x64 .f32) (harg18 : arg18.IsWhole) (hc0 : ¬condReset i) (hc1 : condLast i)
    (x0 : Vec F S1024x2560 .f32) (x1 : Vec F S64x2560 .bf16) (x2 : Vec F S64 .f32) (x3 : Vec F S3x64x64 .f32) (x4 : Vec F S3x64 .f32) (x5 : Vec F S3x64x64 .f32) (x6 : Vec F S3x64 .f32) (x7 : Vec F S3x64x64 .f32) (x8 : Vec F S3x64 .f32) (x9 : Vec F S3x64x64 .f32) (x10 : Vec F S3x64 .f32) (x11 : Vec F S128x64 .f32) (x12 : Vec F S128 .f32) (x13 : Vec F S64x128 .f32) (x14 : Vec F S64 .f32) (xs0 : Vec F S1024x64 .f32) :
    Σ' (L15 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ owns (c : Thread nD τ) arg18 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg18.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    iexists _; iexact HS0

end Cert.KernelIdeal.Hand

end
-- ==== Proof.K0IndepI.lean ====
/-
  What the input projection kernel leaves does not depend on the unnamed words of x's staging buffer.

  In each of the three cases the accumulator ends at the accumulation step's value, which reads x's buffer through the
  column mask only; and in the last case the stored result block is computed from that accumulator and the small
  weight buffers.  So two runs whose x buffers hold the same fetched block leave the same accumulator and result.
-/
import proofs.«111399_j53506702573937_2_alg».proof.Proof.K0MaskI
import proofs.«111399_j53506702573937_2_alg».proof.Proof.K0RunAI
import proofs.«111399_j53506702573937_2_alg».proof.Proof.K0RunBI
import proofs.«111399_j53506702573937_2_alg».proof.Proof.K0RunCI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A whole-buffer load of a whole staging buffer reads its contents. -/
theorem readWhole {S : Shape} {e : EltTy} {sp : Space} (m : Memref sig .tc sp S e) (hm : m.IsWhole) {off : Fin S.rank → Nat} (hoff : off = fun _ => 0)
    (inb : ∀ a, off a + S.size a ≤ S.size a) (X : S.Idx → Elt F e) :
    View.readAt (Elt F) m.view (Rect.unit off S.size inb).toLoadRect (hm.unread X) = X := by
  rw [View.readAt_eq_ld, hm.read_unread]; exact View.ld_unit_zero hoff inb X

theorem hz2 : (![0, 0] : Fin 2 → Nat) = fun _ => 0 := funext fun a => by fin_cases a <;> rfl

theorem runB_indep (c : Dev nD) (t : Fin cfg0.N) (arg2 : Memref sig .tc .vmem S1024x2560 .f32) (harg2 : arg2.IsWhole) (arg3 : Memref sig .tc .vmem S64x2560 .bf16) (harg3 : arg3.IsWhole) (arg4 : Memref sig .tc .vmem S64 .f32) (harg4 : arg4.IsWhole) (arg5 : Memref sig .tc .vmem S3x64x64 .f32) (harg5 : arg5.IsWhole) (arg6 : Memref sig .tc .vmem S3x64 .f32) (harg6 : arg6.IsWhole) (arg7 : Memref sig .tc .vmem S3x64x64 .f32) (harg7 : arg7.IsWhole) (arg8 : Memref sig .tc .vmem S3x64 .f32) (harg8 : arg8.IsWhole) (arg9 : Memref sig .tc .vmem S3x64x64 .f32) (harg9 : arg9.IsWhole) (arg10 : Memref sig .tc .vmem S3x64 .f32) (harg10 : arg10.IsWhole) (arg11 : Memref sig .tc .vmem S3x64x64 .f32) (harg11 : arg11.IsWhole) (arg12 : Memref sig .tc .vmem S3x64 .f32) (harg12 : arg12.IsWhole) (arg13 : Memref sig .tc .vmem S128x64 .f32) (harg13 : arg13.IsWhole) (arg14 : Memref sig .tc .vmem S128 .f32) (harg14 : arg14.IsWhole) (arg15 : Memref sig .tc .vmem S64x128 .f32) (harg15 : arg15.IsWhole) (arg16 : Memref sig .tc .vmem S64 .f32) (harg16 : arg16.IsWhole) (arg17 : Memref sig .tc .vmem S1024x64 .f32) (harg17 : arg17.IsWhole) (arg18 : Memref sig .tc .vmem S1024x64 .f32) (harg18 : arg18.IsWhole) (hc0 : ¬condReset (grid0.coords t)) (hc1 : ¬condLast (grid0.coords t))
    (d d' : S1024x2560.Idx → Elt F .f32) (g : (win0_0.xblock (grid0.coords t)).Idx → Elt F .f32) (x1 : Vec F S64x2560 .bf16) (x2 : Vec F S64 .f32) (x3 : Vec F S3x64x64 .f32) (x4 : Vec F S3x64 .f32) (x5 : Vec F S3x64x64 .f32) (x6 : Vec F S3x64 .f32) (x7 : Vec F S3x64x64 .f32) (x8 : Vec F S3x64 .f32) (x9 : Vec F S3x64x64 .f32) (x10 : Vec F S3x64 .f32) (x11 : Vec F S128x64 .f32) (x12 : Vec F S128 .f32) (x13 : Vec F S64x128 .f32) (x14 : Vec F S64 .f32) (xs0 : Vec F S1024x64 .f32) :
    View.canon (kernelRunB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (win0_0.fill (grid0.coords t) d g) x1 x2 x3 x4 x5 x6 x7 x8 x9 x10 x11 x12 x13 x14 xs0).1
      = View.canon (kernelRunB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (win0_0.fill (grid0.coords t) d' g) x1 x2 x3 x4 x5 x6 x7 x8 x9 x10 x11 x12 x13 x14 xs0).1 := by
  unfold kernelRunB
  dsimp only
  rw [readWhole arg2 harg2 hz2, readWhole arg2 harg2 hz2]
  refine (View.canon_cons_unit_zero (S := S1024x64) hz2 _ _ _).trans (Eq.trans ?_ (View.canon_cons_unit_zero (S := S1024x64) hz2 _ _ _).symm)
  exact pay2_fill t d d' g _ _

theorem runA_indep (c : Dev nD) (t : Fin cfg0.N) (arg2 : Memref sig .tc .vmem S1024x2560 .f32) (harg2 : arg2.IsWhole) (arg3 : Memref sig .tc .vmem S64x2560 .bf16) (harg3 : arg3.IsWhole) (arg4 : Memref sig .tc .vmem S64 .f32) (harg4 : arg4.IsWhole) (arg5 : Memref sig .tc .vmem S3x64x64 .f32) (harg5 : arg5.IsWhole) (arg6 : Memref sig .tc .vmem S3x64 .f32) (harg6 : arg6.IsWhole) (arg7 : Memref sig .tc .vmem S3x64x64 .f32) (harg7 : arg7.IsWhole) (arg8 : Memref sig .tc .vmem S3x64 .f32) (harg8 : arg8.IsWhole) (arg9 : Memref sig .tc .vmem S3x64x64 .f32) (harg9 : arg9.IsWhole) (arg10 : Memref sig .tc .vmem S3x64 .f32) (harg10 : arg10.IsWhole) (arg11 : Memref sig .tc .vmem S3x64x64 .f32) (harg11 : arg11.IsWhole) (arg12 : Memref sig .tc .vmem S3x64 .f32) (harg12 : arg12.IsWhole) (arg13 : Memref sig .tc .vmem S128x64 .f32) (harg13 : arg13.IsWhole) (arg14 : Memref sig .tc .vmem S128 .f32) (harg14 : arg14.IsWhole) (arg15 : Memref sig .tc .vmem S64x128 .f32) (harg15 : arg15.IsWhole) (arg16 : Memref sig .tc .vmem S64 .f32) (harg16 : arg16.IsWhole) (arg17 : Memref sig .tc .vmem S1024x64 .f32) (harg17 : arg17.IsWhole) (arg18 : Memref sig .tc .vmem S1024x64 .f32) (harg18 : arg18.IsWhole) (hc0 : condReset (grid0.coords t)) (hc1 : ¬condLast (grid0.coords t))
    (d d' : S1024x2560.Idx → Elt F .f32) (g : (win0_0.xblock (grid0.coords t)).Idx → Elt F .f32) (x1 : Vec F S64x2560 .bf16) (x2 : Vec F S64 .f32) (x3 : Vec F S3x64x64 .f32) (x4 : Vec F S3x64 .f32) (x5 : Vec F S3x64x64 .f32) (x6 : Vec F S3x64 .f32) (x7 : Vec F S3x64x64 .f32) (x8 : Vec F S3x64 .f32) (x9 : Vec F S3x64x64 .f32) (x10 : Vec F S3x64 .f32) (x11 : Vec F S128x64 .f32) (x12 : Vec F S128 .f32) (x13 : Vec F S64x128 .f32) (x14 : Vec F S64 .f32) :
    View.canon (kernelRunA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (win0_0.fill (grid0.coords t) d g) x1 x2 x3 x4 x5 x6 x7 x8 x9 x10 x11 x12 x13 x14).1
      = View.canon (kernelRunA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (win0_0.fill (grid0.coords t) d' g) x1 x2 x3 x4 x5 x6 x7 x8 x9 x10 x11 x12 x13 x14).1 := by
  unfold kernelRunA
  dsimp only
  rw [readWhole arg2 harg2 hz2, readWhole arg2 harg2 hz2]
  refine (View.canon_cons_unit_zero (S := S1024x64) hz2 _ _ _).trans (Eq.trans ?_ (View.canon_cons_unit_zero (S := S1024x64) hz2 _ _ _).symm)
  exact pay2_fill t d d' g _ _

theorem runC_indep (c : Dev nD) (t : Fin cfg0.N) (arg2 : Memref sig .tc .vmem S1024x2560 .f32) (harg2 : arg2.IsWhole) (arg3 : Memref sig .tc .vmem S64x2560 .bf16) (harg3 : arg3.IsWhole) (arg4 : Memref sig .tc .vmem S64 .f32) (harg4 : arg4.IsWhole) (arg5 : Memref sig .tc .vmem S3x64x64 .f32) (harg5 : arg5.IsWhole) (arg6 : Memref sig .tc .vmem S3x64 .f32) (harg6 : arg6.IsWhole) (arg7 : Memref sig .tc .vmem S3x64x64 .f32) (harg7 : arg7.IsWhole) (arg8 : Memref sig .tc .vmem S3x64 .f32) (harg8 : arg8.IsWhole) (arg9 : Memref sig .tc .vmem S3x64x64 .f32) (harg9 : arg9.IsWhole) (arg10 : Memref sig .tc .vmem S3x64 .f32) (harg10 : arg10.IsWhole) (arg11 : Memref sig .tc .vmem S3x64x64 .f32) (harg11 : arg11.IsWhole) (arg12 : Memref sig .tc .vmem S3x64 .f32) (harg12 : arg12.IsWhole) (arg13 : Memref sig .tc .vmem S128x64 .f32) (harg13 : arg13.IsWhole) (arg14 : Memref sig .tc .vmem S128 .f32) (harg14 : arg14.IsWhole) (arg15 : Memref sig .tc .vmem S64x128 .f32) (harg15 : arg15.IsWhole) (arg16 : Memref sig .tc .vmem S64 .f32) (harg16 : arg16.IsWhole) (arg17 : Memref sig .tc .vmem S1024x64 .f32) (harg17 : arg17.IsWhole) (arg18 : Memref sig .tc .vmem S1024x64 .f32) (harg18 : arg18.IsWhole) (hc0 : ¬condReset (grid0.coords t)) (hc1 : condLast (grid0.coords t))
    (d d' : S1024x2560.Idx → Elt F .f32) (g : (win0_0.xblock (grid0.coords t)).Idx → Elt F .f32) (x1 : Vec F S64x2560 .bf16) (x2 : Vec F S64 .f32) (x3 : Vec F S3x64x64 .f32) (x4 : Vec F S3x64 .f32) (x5 : Vec F S3x64x64 .f32) (x6 : Vec F S3x64 .f32) (x7 : Vec F S3x64x64 .f32) (x8 : Vec F S3x64 .f32) (x9 : Vec F S3x64x64 .f32) (x10 : Vec F S3x64 .f32) (x11 : Vec F S128x64 .f32) (x12 : Vec F S128 .f32) (x13 : Vec F S64x128 .f32) (x14 : Vec F S64 .f32) (xs0 : Vec F S1024x64 .f32) :
    (kernelRunC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (win0_0.fill (grid0.coords t) d g) x1 x2 x3 x4 x5 x6 x7 x8 x9 x10 x11 x12 x13 x14 xs0).1
        = (kernelRunC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (win0_0.fill (grid0.coords t) d' g) x1 x2 x3 x4 x5 x6 x7 x8 x9 x10 x11 x12 x13 x14 xs0).1
    ∧ (kernelRunC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (win0_0.fill (grid0.coords t) d g) x1 x2 x3 x4 x5 x6 x7 x8 x9 x10 x11 x12 x13 x14 xs0).2.1
        = (kernelRunC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (win0_0.fill (grid0.coords t) d' g) x1 x2 x3 x4 x5 x6 x7 x8 x9 x10 x11 x12 x13 x14 xs0).2.1 := by
  unfold kernelRunC
  dsimp only
  sl_unfold_run_names
  simp only [readWhole arg2 harg2 hz2]
  rw [pay2_fill t d d' g]
  exact ⟨rfl, rfl⟩

end Cert.KernelIdeal.Hand

end
-- ==== Proof.K0DatI.lean ====
/-
  The input projection's pipeline, point by point.

  The 32 grid points run in order; point t works on row block t / 8 and column block t % 8.  The scratch accumulator
  is carried from point to point: reset and given block 0's product when t % 8 = 0, given block (t % 8)'s product on
  top of what the point before left otherwise; at t % 8 = 7 the finished accumulator goes through the bias, the three
  layers and the feed-forward part and the result block is stored, to be written back to rows 1024·(t / 8) … of the
  hidden state.  Every small weight is fetched once, at the first point, and found in place afterwards; x's block is
  fetched at every point, the last column block only on its 2080 real columns.
-/
import proofs.«111399_j53506702573937_2_alg».proof.Proof.K0IndepI
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each window's current staging buffer at point `t`. -/
abbrev ms0 (t : Fin cfg0.N) : Memref sig .tc .vmem S1024x2560 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x2560 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S3x64x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S3x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S3x64x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S3x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S3x64x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S3x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S3x64x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S3x64 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S128x64 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S64x128 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S64 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1024x64 .f32 := win0_15.stage (cfg0.slots t 15)
abbrev hs15 (t : Fin cfg0.N) : (ms15 t).IsWhole := hstage0_15 ((cfg0.slots t 15).cast nbuf0_15)
/-- The accumulator. -/
abbrev scM : Memref sig .tc .vmem S1024x64 .f32 := Memref.whole cc0_scratch0
/-- The zero word everywhere: what a buffer's unnamed part is stated at where a statement needs some value. -/
abbrev zeroX : S1024x2560.Idx → Elt F .f32 := fun _ => Scalar.ofBits .f32 0#32
abbrev zeroH : Vec F S1024x64 .f32 := fun _ => Scalar.ofBits .f32 0#32

/-- The three cases' runs at point `t`, on the point's staging buffers and blocks, x's buffer holding `d` past the
    fetched part. -/
abbrev runA (d : S1024x2560.Idx → Elt F .f32) (c : Dev nD) (t : Fin cfg0.N) (h0 : condReset (grid0.coords t)) (h1 : ¬condLast (grid0.coords t)) :=
  kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM (Memref.isWhole_whole _) h0 h1 (win0_0.fill (grid0.coords t) d (iblk0 V c 0 t)) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
abbrev runB (d : S1024x2560.Idx → Elt F .f32) (c : Dev nD) (t : Fin cfg0.N) (h0 : ¬condReset (grid0.coords t)) (h1 : ¬condLast (grid0.coords t)) (acc : Vec F S1024x64 .f32) :=
  kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM (Memref.isWhole_whole _) h0 h1 (win0_0.fill (grid0.coords t) d (iblk0 V c 0 t)) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) acc
abbrev runC (d : S1024x2560.Idx → Elt F .f32) (c : Dev nD) (t : Fin cfg0.N) (h0 : ¬condReset (grid0.coords t)) (h1 : condLast (grid0.coords t)) (acc : Vec F S1024x64 .f32) :=
  kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM (Memref.isWhole_whole _) h0 h1 (win0_0.fill (grid0.coords t) d (iblk0 V c 0 t)) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) acc

/-- THE ACCUMULATION: what the result's staging buffer and the accumulator hold after the body at point `n`
    (the first component is stated only at the points that store it, n % 8 = 7; elsewhere it is a filler). -/
def outsAt0 (c : Dev nD) : (n : ℕ) → n < cfg0.N → Vec F S1024x64 .f32 × Vec F S1024x64 .f32
  | 0, hn => (zeroH, View.canon (runA V zeroX c ⟨0, hn⟩ ((hcondReset ⟨0, hn⟩).mpr (Nat.zero_mod _)) (fun h => by have := (hcondLast ⟨0, hn⟩).mp h; (try dsimp only at this); omega)).1)
  | n + 1, hn =>
    if h0 : (n + 1) % 8 = 0 then
      if h1 : (n + 1) % 8 = 7 then False.elim (by omega)
      else (zeroH, View.canon (runA V zeroX c ⟨n + 1, hn⟩ ((hcondReset ⟨n + 1, hn⟩).mpr h0) (fun h => h1 ((hcondLast ⟨n + 1, hn⟩).mp h))).1)
    else
      if h1 : (n + 1) % 8 = 7 then
        (View.canon (runC V zeroX c ⟨n + 1, hn⟩ (fun h => h0 ((hcondReset ⟨n + 1, hn⟩).mp h)) ((hcondLast ⟨n + 1, hn⟩).mpr h1) (outsAt0 c n (Nat.lt_of_succ_lt hn)).2).1,
         View.canon (runC V zeroX c ⟨n + 1, hn⟩ (fun h => h0 ((hcondReset ⟨n + 1, hn⟩).mp h)) ((hcondLast ⟨n + 1, hn⟩).mpr h1) (outsAt0 c n (Nat.lt_of_succ_lt hn)).2).2.1)
      else
        (zeroH, View.canon (runB V zeroX c ⟨n + 1, hn⟩ (fun h => h0 ((hcondReset ⟨n + 1, hn⟩).mp h)) (fun h => h1 ((hcondLast ⟨n + 1, hn⟩).mp h)) (outsAt0 c n (Nat.lt_of_succ_lt hn)).2).1)

/-- `outsAt0` at a point of each case. -/
theorem outsAt0_A (c : Dev nD) (t : Fin cfg0.N) (h0 : t.val % 8 = 0) (h1 : ¬t.val % 8 = 7) :
    outsAt0 V c t.val t.isLt = (zeroH, View.canon (runA V zeroX c t ((hcondReset t).mpr h0) (fun h => h1 ((hcondLast t).mp h))).1) := by
  obtain ⟨n, hn⟩ := t
  cases n with
  | zero => exact rfl
  | succ n => exact (dif_pos h0).trans ((dif_neg h1).trans rfl)
theorem outsAt0_B (c : Dev nD) (t : Fin cfg0.N) (h0 : ¬t.val % 8 = 0) (h1 : ¬t.val % 8 = 7) :
    outsAt0 V c t.val t.isLt = (zeroH, View.canon (runB V zeroX c t (fun h => h0 ((hcondReset t).mp h)) (fun h => h1 ((hcondLast t).mp h)) (outsAt0 V c (t.val - 1) (Nat.lt_of_le_of_lt (Nat.sub_le _ _) t.isLt)).2).1) := by
  obtain ⟨n, hn⟩ := t
  cases n with
  | zero => exact (by exfalso; (try dsimp only at h0); exact absurd (Nat.zero_mod _) h0)
  | succ n => exact (dif_neg h0).trans ((dif_neg h1).trans rfl)
theorem outsAt0_C (c : Dev nD) (t : Fin cfg0.N) (h0 : ¬t.val % 8 = 0) (h1 : t.val % 8 = 7) :
    outsAt0 V c t.val t.isLt = (View.canon (runC V zeroX c t (fun h => h0 ((hcondReset t).mp h)) ((hcondLast t).mpr h1) (outsAt0 V c (t.val - 1) (Nat.lt_of_le_of_lt (Nat.sub_le _ _) t.isLt)).2).1,
      View.canon (runC V zeroX c t (fun h => h0 ((hcondReset t).mp h)) ((hcondLast t).mpr h1) (outsAt0 V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_pos h1).trans rfl)

/-- The second kernel's staging buffers, which this region never touches: each at some contents. -/
abbrev restB (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region invariant before position `n`: before the first point the scoped buffers no window stages at anything and
    the generator register at some state; afterwards the same with the accumulator at what the point before left. -/
def PhiS (c : Dev nD) : (n : ℕ) → n ≤ cfg0.N → sProp 𝕄
  | 0, _ => Pipeline.ΦA spec0 c
  | n + 1, hn => iprop((owns (c : Thread nD τ) scM fullShare ((outsAt0 V c n hn).2) ∗ restB c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM fullShare ((outsAt0 V c n hn).2) ∗ restB c) ∗ (∃ r, prngReg c r)) := rfl
theorem PhiS_pos (c : Dev nD) (n : ℕ) (h : n ≤ cfg0.N) (hz : n ≠ 0) :
    PhiS V c n h = iprop((owns (c : Thread nD τ) scM fullShare ((outsAt0 V c (n - 1) (by omega)).2) ∗ restB c) ∗ (∃ r, prngReg c r)) := by
  cases n with
  | zero => exact absurd rfl hz
  | succ n => rfl

theorem PhiA0_eq (c : Dev nD) :
    (Pipeline.ΦA spec0 c : sProp 𝕄) = iprop(((∃ d, owns (c : Thread nD τ) scM fullShare d) ∗ restB c) ∗ (∃ r, prngReg c r)) := by
  unfold Pipeline.ΦA; rw [scopedRest0_eq]; simp only [scM, owns_whole]; try rfl

/-- The proof data of the first pipeline on core `c`, at the contents `V` the region finds. -/
def dat0 (c : Dev nD) : Dat τ (Elt F) Unit ℕ (UR sig nD τ) ℕ cfg0 c where
  A w := V c (Pipeline.arrRef spec0 w)
  after w t := match w with
    | ⟨0, _⟩ => win0_0.fill (grid0.coords t) zeroX (iblk0 V c 0 t)
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => (outsAt0 V c t.val t.isLt).1
    | ⟨_ + 16, h⟩ => absurd h (Nat.not_lt.2 (Nat.le_add_left _ _))
  Φ t := PhiS V c t.val (Nat.le_of_lt_succ t.isLt)
  q _ := fullShare
  owed _ := 0

theorem A_eq0 (c : Dev nD) (w : Fin cfg0.W) : (dat0 V c).A w = V c (Pipeline.arrRef spec0 w) := by dsimp only [dat0]
theorem PhiS_castSucc (c : Dev nD) (t : Fin cfg0.N) : (dat0 V c).Φ t.castSucc = PhiS V c t.val (Nat.le_of_lt t.isLt) := by
  dsimp only [dat0]; simp only [Fin.coe_castSucc]
theorem after0_0 (c : Dev nD) (t : Fin cfg0.N) : (dat0 V c).after 0 t = win0_0.fill (grid0.coords t) zeroX (iblk0 V c 0 t) := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = (outsAt0 V c t.val t.isLt).1 := by dsimp only [dat0]

/-- x's buffer, fetched at every point: the block where the fetch filled it, what it held elsewhere. -/
theorem before0_0 (c : Dev nD) (t : Fin cfg0.N) (d) : (dat0 V c).before 0 t d = win0_0.fill (grid0.coords t) d (iblk0 V c 0 t) := by
  unfold Dat.before; rw [if_pos (fetch0_0 t)]; rfl
/-- Every other input's buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl) (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl) (fun t => by rw [after0_10]; unfold Dat.blockOf iblk0; rw [A_eq0]; try rfl) t d).trans
    (by unfold Dat.fetched Dat.blockOf iblk0; rw [A_eq0]; try rfl)
theorem before0_11 (c : Dev nD) (t : Fin cfg0.N) (d) : (dat0 V c).before 11 t d = iblk0 V c 11 t :=
  ((dat0 V c).before_in_eq_fetched 11 rfl (fun _ => rfl) (fun _ _ _ => rfl) (fun t => by rw [after0_11]; unfold Dat.blockOf iblk0; rw [A_eq0]; try rfl) t d).trans
    (by unfold Dat.fetched Dat.blockOf iblk0; rw [A_eq0]; try rfl)
theorem before0_12 (c : Dev nD) (t : Fin cfg0.N) (d) : (dat0 V c).before 12 t d = iblk0 V c 12 t :=
  ((dat0 V c).before_in_eq_fetched 12 rfl (fun _ => rfl) (fun _ _ _ => rfl) (fun t => by rw [after0_12]; unfold Dat.blockOf iblk0; rw [A_eq0]; try rfl) t d).trans
    (by unfold Dat.fetched Dat.blockOf iblk0; rw [A_eq0]; try rfl)
theorem before0_13 (c : Dev nD) (t : Fin cfg0.N) (d) : (dat0 V c).before 13 t d = iblk0 V c 13 t :=
  ((dat0 V c).before_in_eq_fetched 13 rfl (fun _ => rfl) (fun _ _ _ => rfl) (fun t => by rw [after0_13]; unfold Dat.blockOf iblk0; rw [A_eq0]; try rfl) t d).trans
    (by unfold Dat.fetched Dat.blockOf iblk0; rw [A_eq0]; try rfl)
theorem before0_14 (c : Dev nD) (t : Fin cfg0.N) (d) : (dat0 V c).before 14 t d = iblk0 V c 14 t :=
  ((dat0 V c).before_in_eq_fetched 14 rfl (fun _ => rfl) (fun _ _ _ => rfl) (fun t => by rw [after0_14]; unfold Dat.blockOf iblk0; rw [A_eq0]; try rfl) t d).trans
    (by unfold Dat.fetched Dat.blockOf iblk0; rw [A_eq0]; try rfl)

/-- Where the result window is idle. -/
theorem idle15 : ∀ t : Fin cfg0.N, ¬condLast (grid0.coords t) → cfg0.idle 15 (grid0.coords t) = true := by decide +kernel
theorem live15 : ∀ t : Fin cfg0.N, condLast (grid0.coords t) → cfg0.idle 15 (grid0.coords t) = false := by decide +kernel
theorem noFlush15 : ∀ t : Fin cfg0.N, ¬condLast (grid0.coords t) → (cfg0.win 15).flush t = false := by decide +kernel

theorem leaves0_0 (c : Dev nD) (t : Fin cfg0.N) : (dat0 V c).leaves 0 t
    = iprop(∃ d, owns (c : Thread nD τ) (ms0 t) fullShare (win0_0.fill (grid0.coords t) d (win0_0.cut (grid0.coords t) ((dat0 V c).after 0 t)))) := rfl
theorem leaves0_1 (c : Dev nD) (t : Fin cfg0.N) : (dat0 V c).leaves 1 t = owns (c : Thread nD τ) (ms1 t) fullShare ((dat0 V c).after 1 t) := rfl
theorem leaves0_2 (c : Dev nD) (t : Fin cfg0.N) : (dat0 V c).leaves 2 t = owns (c : Thread nD τ) (ms2 t) fullShare ((dat0 V c).after 2 t) := rfl
theorem leaves0_3 (c : Dev nD) (t : Fin cfg0.N) : (dat0 V c).leaves 3 t = owns (c : Thread nD τ) (ms3 t) fullShare ((dat0 V c).after 3 t) := rfl
theorem leaves0_4 (c : Dev nD) (t : Fin cfg0.N) : (dat0 V c).leaves 4 t = owns (c : Thread nD τ) (ms4 t) fullShare ((dat0 V c).after 4 t) := rfl
theorem leaves0_5 (c : Dev nD) (t : Fin cfg0.N) : (dat0 V c).leaves 5 t = owns (c : Thread nD τ) (ms5 t) fullShare ((dat0 V c).after 5 t) := rfl
theorem leaves0_6 (c : Dev nD) (t : Fin cfg0.N) : (dat0 V c).leaves 6 t = owns (c : Thread nD τ) (ms6 t) fullShare ((dat0 V c).after 6 t) := rfl
theorem leaves0_7 (c : Dev nD) (t : Fin cfg0.N) : (dat0 V c).leaves 7 t = owns (c : Thread nD τ) (ms7 t) fullShare ((dat0 V c).after 7 t) := rfl
theorem leaves0_8 (c : Dev nD) (t : Fin cfg0.N) : (dat0 V c).leaves 8 t = owns (c : Thread nD τ) (ms8 t) fullShare ((dat0 V c).after 8 t) := rfl
theorem leaves0_9 (c : Dev nD) (t : Fin cfg0.N) : (dat0 V c).leaves 9 t = owns (c : Thread nD τ) (ms9 t) fullShare ((dat0 V c).after 9 t) := rfl
theorem leaves0_10 (c : Dev nD) (t : Fin cfg0.N) : (dat0 V c).leaves 10 t = owns (c : Thread nD τ) (ms10 t) fullShare ((dat0 V c).after 10 t) := rfl
theorem leaves0_11 (c : Dev nD) (t : Fin cfg0.N) : (dat0 V c).leaves 11 t = owns (c : Thread nD τ) (ms11 t) fullShare ((dat0 V c).after 11 t) := rfl
theorem leaves0_12 (c : Dev nD) (t : Fin cfg0.N) : (dat0 V c).leaves 12 t = owns (c : Thread nD τ) (ms12 t) fullShare ((dat0 V c).after 12 t) := rfl
theorem leaves0_13 (c : Dev nD) (t : Fin cfg0.N) : (dat0 V c).leaves 13 t = owns (c : Thread nD τ) (ms13 t) fullShare ((dat0 V c).after 13 t) := rfl
theorem leaves0_14 (c : Dev nD) (t : Fin cfg0.N) : (dat0 V c).leaves 14 t = owns (c : Thread nD τ) (ms14 t) fullShare ((dat0 V c).after 14 t) := rfl
theorem leaves0_15_live (c : Dev nD) (t : Fin cfg0.N) (h : cfg0.idle 15 (grid0.coords t) = false) :
    (dat0 V c).leaves 15 t = owns (c : Thread nD τ) (ms15 t) fullShare ((dat0 V c).after 15 t) := by
  unfold Dat.leaves; rw [h]
theorem leaves0_15_idle (c : Dev nD) (t : Fin cfg0.N) (hi : cfg0.idle 15 (grid0.coords t) = true) (hf : (cfg0.win 15).flush t = false) :
    (dat0 V c).leaves 15 t = iprop(∃ d, owns (c : Thread nD τ) (ms15 t) fullShare ((dat0 V c).before 15 t d)) :=
  Dat.leaves_idle (dat0 V c) 15 t hi hf

def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d))
    ∗ (∃ d, owns (c : Thread nD τ) (ms6 t) fullShare ((dat0 V c).before 6 t d))
    ∗ (∃ d, owns (c : Thread nD τ) (ms7 t) fullShare ((dat0 V c).before 7 t d))
    ∗ (∃ d, owns (c : Thread nD τ) (ms8 t) fullShare ((dat0 V c).before 8 t d))
    ∗ (∃ d, owns (c : Thread nD τ) (ms9 t) fullShare ((dat0 V c).before 9 t d))
    ∗ (∃ d, owns (c : Thread nD τ) (ms10 t) fullShare ((dat0 V c).before 10 t d))
    ∗ (∃ d, owns (c : Thread nD τ) (ms11 t) fullShare ((dat0 V c).before 11 t d))
    ∗ (∃ d, owns (c : Thread nD τ) (ms12 t) fullShare ((dat0 V c).before 12 t d))
    ∗ (∃ d, owns (c : Thread nD τ) (ms13 t) fullShare ((dat0 V c).before 13 t d))
    ∗ (∃ d, owns (c : Thread nD τ) (ms14 t) fullShare ((dat0 V c).before 14 t d))
    ∗ (∃ d, owns (c : Thread nD τ) (ms15 t) fullShare ((dat0 V c).before 15 t d)))

def bodyPost (c : Dev nD) (t : Fin cfg0.N) : sProp 𝕄 :=
  iprop((dat0 V c).Φ t.succ ∗ (dat0 V c).owesAt () t.succ
    ∗ (dat0 V c).leaves 0 t
    ∗ (dat0 V c).leaves 1 t
    ∗ (dat0 V c).leaves 2 t
    ∗ (dat0 V c).leaves 3 t
    ∗ (dat0 V c).leaves 4 t
    ∗ (dat0 V c).leaves 5 t
    ∗ (dat0 V c).leaves 6 t
    ∗ (dat0 V c).leaves 7 t
    ∗ (dat0 V c).leaves 8 t
    ∗ (dat0 V c).leaves 9 t
    ∗ (dat0 V c).leaves 10 t
    ∗ (dat0 V c).leaves 11 t
    ∗ (dat0 V c).leaves 12 t
    ∗ (dat0 V c).leaves 13 t
    ∗ (dat0 V c).leaves 14 t
    ∗ (dat0 V c).leaves 15 t)

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6, before0_7, before0_8, before0_9, before0_10, before0_11, before0_12, before0_13, before0_14]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4, leaves0_5, leaves0_6, leaves0_7, leaves0_8, leaves0_9, leaves0_10, leaves0_11, leaves0_12, leaves0_13, leaves0_14, after0_0, after0_1, after0_2, after0_3, after0_4, after0_5, after0_6, after0_7, after0_8, after0_9, after0_10, after0_11, after0_12, after0_13, after0_14]
  have hN : t.val < 32 := lt_of_lt_of_eq t.isLt (show cfg0.N = 32 from N_0)
  by_cases h0 : t.val % 8 = 0
  · have h1 : ¬ t.val % 8 = 7 := by omega
    rw [leaves0_15_idle V c t (idle15 t (fun h => h1 ((hcondLast t).mp h))) (noFlush15 t (fun h => h1 ((hcondLast t).mp h)))]
    rw [outsAt0_A V c t h0 h1]
    dsimp only
    by_cases hz : t.val = 0
    ·
      rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runA V d0 c t ((hcondReset t).mpr h0) (fun h => h1 ((hcondLast t).mp h))).2 ((dat0 V c).before 15 t d15) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      iintro ⟨H0, H1, H2, H3, H4, H5, H6, H7, H8, H9, H10, H11, H12, H13, H14, H15, ⟨%es0, HS0⟩⟩
      isplitl [HS0 HR Hg]
      · isplitl [HS0 HR]
        · isplitl [HS0]
          · unfold owns; iexists _; isplitr
            swap; · iexact HS0
            ipureintro
            exact (View.read_writes_eq_canon _ _ _ (View.cover_of_tiledL (runA V d0 c t ((hcondReset t).mpr h0) (fun h => h1 ((hcondLast t).mp h))).1 S1024x64.size (by sl_kernel_rfl))).trans (runA_indep c t _ _ _ _ _ _ _ _ _ _ _ _ _ _ _ _ _ _ _ _ _ _ _ _ _ _ _ _ _ _ _ _ _ _ _ _ d0 zeroX (iblk0 V c 0 t) _ _ _ _ _ _ _ _ _ _ _ _ _ _)
          iexact HR
        iexact Hg
      isplitl [Ho]; · iexact Ho
      isplitl [H0]
      · iexists d0; rw [win0_0.cut_fill]; iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexists _; iexact H15
    ·
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runA V d0 c t ((hcondReset t).mpr h0) (fun h => h1 ((hcondLast t).mp h))).2 ((dat0 V c).before 15 t d15) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexists _; iexact HS0
      iintro ⟨H0, H1, H2, H3, H4, H5, H6, H7, H8, H9, H10, H11, H12, H13, H14, H15, ⟨%es0, HS0⟩⟩
      isplitl [HS0 HR Hg]
      · isplitl [HS0 HR]
        · isplitl [HS0]
          · unfold owns; iexists _; isplitr
            swap; · iexact HS0
            ipureintro
            exact (View.read_writes_eq_canon _ _ _ (View.cover_of_tiledL (runA V d0 c t ((hcondReset t).mpr h0) (fun h => h1 ((hcondLast t).mp h))).1 S1024x64.size (by sl_kernel_rfl))).trans (runA_indep c t _ _ _ _ _ _ _ _ _ _ _ _ _ _ _ _ _ _ _ _ _ _ _ _ _ _ _ _ _ _ _ _ _ _ _ _ d0 zeroX (iblk0 V c 0 t) _ _ _ _ _ _ _ _ _ _ _ _ _ _)
          iexact HR
        iexact Hg
      isplitl [Ho]; · iexact Ho
      isplitl [H0]
      · iexists d0; rw [win0_0.cut_fill]; iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexists _; iexact H15
  · have hz : t.val ≠ 0 := fun e => h0 (by rw [e])
    by_cases h1 : t.val % 8 = 7
    · rw [leaves0_15_live V c t (live15 t ((hcondLast t).mpr h1)), after0_15]
      rw [outsAt0_C V c t h0 h1]
      dsimp only
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runC V d0 c t (fun h => h0 ((hcondReset t).mp h)) ((hcondLast t).mpr h1) (outsAt0 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [HS0]; · iexact HS0
      iintro ⟨H0, H1, H2, H3, H4, H5, H6, H7, H8, H9, H10, H11, H12, H13, H14, ⟨%e15, H15⟩, ⟨%es0, HS0⟩⟩
      isplitl [HS0 HR Hg]
      · isplitl [HS0 HR]
        · isplitl [HS0]
          · unfold owns; iexists _; isplitr
            swap; · iexact HS0
            ipureintro
            exact (View.read_writes_eq_canon _ _ _ (View.cover_of_tiledL (runC V d0 c t (fun h => h0 ((hcondReset t).mp h)) ((hcondLast t).mpr h1) (outsAt0 V c (t.val - 1) (Nat.lt_of_le_of_lt (Nat.sub_le _ _) t.isLt)).2).2.1 S1024x64.size (by sl_kernel_rfl))).trans (congrArg View.canon (runC_indep c t _ _ _ _ _ _ _ _ _ _ _ _ _ _ _ _ _ _ _ _ _ _ _ _ _ _ _ _ _ _ _ _ _ _ _ _ d0 zeroX (iblk0 V c 0 t) _ _ _ _ _ _ _ _ _ _ _ _ _ _ _).2)
          iexact HR
        iexact Hg
      isplitl [Ho]; · iexact Ho
      isplitl [H0]
      · iexists d0; rw [win0_0.cut_fill]; iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      unfold owns; iexists _; isplitr
      swap; · iexact H15
      ipureintro
      exact (View.read_writes_eq_canon _ _ _ (View.cover_of_tiledL (runC V d0 c t (fun h => h0 ((hcondReset t).mp h)) ((hcondLast t).mpr h1) (outsAt0 V c (t.val - 1) (Nat.lt_of_le_of_lt (Nat.sub_le _ _) t.isLt)).2).1 S1024x64.size (by sl_kernel_rfl))).trans
        (congrArg View.canon (runC_indep c t _ _ _ _ _ _ _ _ _ _ _ _ _ _ _ _ _ _ _ _ _ _ _ _ _ _ _ _ _ _ _ _ _ _ _ _ d0 zeroX (iblk0 V c 0 t) _ _ _ _ _ _ _ _ _ _ _ _ _ _ _).1)
    · rw [leaves0_15_idle V c t (idle15 t (fun h => h1 ((hcondLast t).mp h))) (noFlush15 t (fun h => h1 ((hcondLast t).mp h)))]
      rw [outsAt0_B V c t h0 h1]
      dsimp only
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runB V d0 c t (fun h => h0 ((hcondReset t).mp h)) (fun h => h1 ((hcondLast t).mp h)) (outsAt0 V c (t.val - 1) (Nat.lt_of_le_of_lt (Nat.sub_le _ _) t.isLt)).2).2 ((dat0 V c).before 15 t d15) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      iintro ⟨H0, H1, H2, H3, H4, H5, H6, H7, H8, H9, H10, H11, H12, H13, H14, H15, ⟨%es0, HS0⟩⟩
      isplitl [HS0 HR Hg]
      · isplitl [HS0 HR]
        · isplitl [HS0]
          · unfold owns; iexists _; isplitr
            swap; · iexact HS0
            ipureintro
            exact (View.read_writes_eq_canon _ _ _ (View.cover_of_tiledL (runB V d0 c t (fun h => h0 ((hcondReset t).mp h)) (fun h => h1 ((hcondLast t).mp h)) (outsAt0 V c (t.val - 1) (Nat.lt_of_le_of_lt (Nat.sub_le _ _) t.isLt)).2).1 S1024x64.size (by sl_kernel_rfl))).trans (runB_indep c t _ _ _ _ _ _ _ _ _ _ _ _ _ _ _ _ _ _ _ _ _ _ _ _ _ _ _ _ _ _ _ _ _ _ _ _ d0 zeroX (iblk0 V c 0 t) _ _ _ _ _ _ _ _ _ _ _ _ _ _ _)
          iexact HR
        iexact Hg
      isplitl [Ho]; · iexact Ho
      isplitl [H0]
      · iexists d0; rw [win0_0.cut_fill]; iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexists _; iexact H15

/-- The body obligation at every point. -/
theorem body_obligation0 (c : Dev nD) : BodyObligationLoose (dat0 (F := F) V c) (defs₀ (F := F)) Variants.none () Set.univ := fun t => by
  rw [bigSep_W0, bigSep_W0]
  exact sound_body V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, HR⟩, Hg⟩
  isplitl [HS0 HR]
  · isplitl [HS0]
    · iexists _; iexact HS0
    iexact HR
  iexact Hg

end

end Cert.KernelIdeal.Hand

end
-- ==== Proof.K1RunI.lean ====
/-
  The output projection's body on arbitrary staging buffers.

  One grid point of the second kernel reads a 1024×64 block of the hidden state, a 2560×64 block of the output
  weights and a 1×2560 block of the output bias, and overwrites its whole 1024×2560 output buffer with
  (hidden · weightsᵀ) + bias.  Nothing it stores depends on what the output buffer held before, and the three
  inputs are only read.
-/
import proofs.«111399_j53506702573937_2_alg».proof.Proof.Gen.KernelIdeal.Launch
import proofs.«111399_j53506702573937_2_alg».proof.Proof.Gen.KernelIdeal.Skeleton
import proofs.«111399_j53506702573937_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole 1024×64, 2560×64, 1×2560 and 1024×2560 rectangles the body loads and stores through. -/
abbrev rH : Rect S1024x64 := Rect.unit (s := S1024x64) ![0, 0] S1024x64.size inb_S1024x64_S1024x64_0_0
abbrev rW : Rect S2560x64 := Rect.unit (s := S2560x64) ![0, 0] S2560x64.size inb_S2560x64_S2560x64_0_0
abbrev rB : Rect S1x2560 := Rect.unit (s := S1x2560) ![0, 0] S1x2560.size inb_S1x2560_S1x2560_0_0
abbrev rO : Rect S1024x2560 := Rect.unit (s := S1024x2560) ![0, 0] S1024x2560.size inb_S1024x2560_S1024x2560_0_0

/-- What one point leaves in the output buffer: the single whole-buffer store of (h · Wᵀ) + b. -/
def outB (h : Vec F S1024x64 .f32) (w : Vec F S2560x64 .bf16) (b : Vec F S1x2560 .f32) : Vec F S1024x2560 .f32 :=
  View.canon [⟨rO, k1_pay1 (View.ld h rH) (View.ld w rW) (View.ld b rB)⟩]

/-- The one store covers the output buffer. -/
theorem coverB (p0 : Vec F S1024x2560 .f32) (y : S1024x2560.Idx) :
    ∃ pc ∈ ([⟨rO, p0⟩] : List (View.Piece (Elt F) S1024x2560 .f32)), y ∈ pc.1.set :=
  View.cover_of_tiled [⟨rO, p0⟩] S1024x2560.size (by rfl) y

set_option maxHeartbeats 1000000 in
/-- The body's triple: with the three inputs at `h`, `w`, `b` and the output buffer at anything, it runs to the
    continuation holding the inputs unchanged and the output buffer at `outB h w b`. -/
theorem sound_kernelB (c : Dev nD) (E : Set ℕ) (i : grid1.Coords)
    (arg2 : Memref sig .tc .vmem S1024x64 .f32) (harg2 : arg2.IsWhole) (arg3 : Memref sig .tc .vmem S2560x64 .bf16) (harg3 : arg3.IsWhole)
    (arg4 : Memref sig .tc .vmem S1x2560 .f32) (harg4 : arg4.IsWhole) (arg5 : Memref sig .tc .vmem S1024x2560 .f32) (harg5 : arg5.IsWhole)
    (h : Vec F S1024x64 .f32) (w : Vec F S2560x64 .bf16) (b : Vec F S1x2560 .f32) (K : PUnit → sProp 𝕄) :
    iprop(owns (c : Thread nD τ) arg2 fullShare h ∗ owns (c : Thread nD τ) arg3 fullShare w ∗ owns (c : Thread nD τ) arg4 fullShare b
        ∗ (∃ d, owns (c : Thread nD τ) arg5 fullShare d)
        ∗ (iprop(owns (c : Thread nD τ) arg2 fullShare h ∗ owns (c : Thread nD τ) arg3 fullShare w ∗ owns (c : Thread nD τ) arg4 fullShare b
            ∗ owns (c : Thread nD τ) arg5 fullShare (outB h w b)) -∗ K ⟨⟩))
      ⊢ wp frame (wpE (defs₀ (F := F)) Variants.none c none) E (cc1__kernel_b i arg2 harg2 arg3 harg3 arg4 harg4 arg5 harg5) K := by
  simp only [cc1__kernel_b_eq_skeleton]; unfold cc1__kernel_b_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverB _)

end Cert.KernelIdeal.Hand

end
-- ==== Proof.K1DatI.lean ====
/-
  The output projection's pipeline: its proof data and its body obligation.

  The second kernel runs over an 8×4 grid of (column block, row block).  At each point it is handed a 1024×64 block
  of the hidden state, a 2560×64 block of the output weights and a 1×2560 block of the output bias, and leaves in
  its 1024×2560 output buffer (hidden · weightsᵀ) + bias.  The last column block overhangs the arrays' 20000
  columns: the weight rows, bias columns and output columns past the end are not moved by any transfer, and the body
  obligation states the three buffers on the part inside the arrays only.  What the output holds on the columns
  inside the array does not depend on what the weight and bias buffers hold past the arrays' end; that is the
  column-locality hypothesis `LocB`, which the body obligation takes as a hypothesis.
-/
import proofs.«111399_j53506702573937_2_alg».proof.Proof.K1RunI
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, its part inside the array, read off the array as the region finds it. -/
def iblkB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden-state block at point `t`: 1024 whole rows. -/
def hblkB (c : Dev nD) (t : Fin cfg1.N) : Vec F S1024x64 .f32 := iblkB V c 0 t

/-- The weight block at point `t`, its rows past the array's end at the zero word. -/
def wblkB (c : Dev nD) (t : Fin cfg1.N) : Vec F S2560x64 .bf16 :=
  win1_1.fill (grid1.coords t) (fun _ => Scalar.ofBits .bf16 0#16) (iblkB V c 1 t)

/-- The bias block at point `t`, its columns past the array's end at the zero word. -/
def bblkB (c : Dev nD) (t : Fin cfg1.N) : Vec F S1x2560 .f32 :=
  win1_2.fill (grid1.coords t) (fun _ => Scalar.ofBits .f32 0#32) (iblkB V c 2 t)

/-! ## The proof data -/

/-- The proof data of the second pipeline on core `c`: the arrays as the region finds them; after the body at
    point `t` the hidden-state buffer at its block, the weight and bias buffers at their blocks filled out with the
    zero word, the output buffer at `outB` of those three; the class's invariant; nothing owed; full shares. -/
def datB (c : Dev nD) : Dat τ (Elt F) Unit ℕ (UR sig nD τ) ℕ cfg1 c where
  A w := V c (Pipeline.arrRef spec1 w)
  after w t := match w with
    | ⟨0, _⟩ => hblkB V c t
    | ⟨1, _⟩ => wblkB V c t
    | ⟨2, _⟩ => bblkB V c t
    | ⟨3, _⟩ => outB (hblkB V c t) (wblkB V c t) (bblkB V c t)
  Φ _ := Pipeline.ΦA spec1 c
  q _ := fullShare
  owed _ := 0

theorem datB_A (c : Dev nD) (w : Fin cfg1.W) : (datB V c).A w = V c (Pipeline.arrRef spec1 w) := by
  dsimp only [datB]

/-- The proof data's shares, tallies and invariant, projected. -/
theorem datB_q (c : Dev nD) (w : Fin cfg1.W) : (datB V c).q w = fullShare := rfl
theorem datB_owed (c : Dev nD) (t : Fin (cfg1.N + 1)) : (datB V c).owed t = 0 := rfl
theorem datB_Φ (c : Dev nD) (t : Fin (cfg1.N + 1)) : (datB V c).Φ t = Pipeline.ΦA spec1 c := rfl

theorem afterB_0 (c : Dev nD) (t : Fin cfg1.N) : (datB V c).after 0 t = hblkB V c t := by dsimp only [datB]
theorem afterB_1 (c : Dev nD) (t : Fin cfg1.N) : (datB V c).after 1 t = wblkB V c t := by dsimp only [datB]
theorem afterB_2 (c : Dev nD) (t : Fin cfg1.N) : (datB V c).after 2 t = bblkB V c t := by dsimp only [datB]
theorem afterB_3 (c : Dev nD) (t : Fin cfg1.N) :
    (datB V c).after 3 t = outB (hblkB V c t) (wblkB V c t) (bblkB V c t) := by dsimp only [datB]

/-! ## What the body finds -/

/-- The hidden-state buffer holds its block at every point, fetched there or not. -/
theorem beforeB_0 (c : Dev nD) (t : Fin cfg1.N) (d) : (datB V c).before 0 t d = hblkB V c t :=
  ((datB V c).before_in_eq_fetched 0 rfl (fun _ => rfl) (fun _ _ _ => rfl)
    (fun t => by rw [afterB_0]; unfold Dat.blockOf hblkB iblkB; rw [datB_A]; try rfl) t d).trans
    (by unfold Dat.fetched Dat.blockOf hblkB iblkB; rw [datB_A]; try rfl)

/-- The weight buffer holds its block on the rows inside the array, `d` past them, at every point, fetched there or
    not: unfetched, the column block has not moved, and the cut is a function of the block index. -/
theorem beforeB_1 (c : Dev nD) (t : Fin cfg1.N) (d) :
    (datB V c).before 1 t d = win1_1.fill (grid1.coords t) d (iblkB V c 1 t) :=
  ((datB V c).before_in_eq_fetched 1 rfl (fun _ => rfl)
    (fun t t' h => by
      funext a
      show Pipeline.Clip.of ((cfg1.win 1).index t a) _ _ = Pipeline.Clip.of ((cfg1.win 1).index t' a) _ _
      rw [h])
    (fun t => by
      rw [afterB_1]; unfold wblkB
      refine (win1_1.cut_fill _ _ _).trans ?_
      unfold Dat.blockOf iblkB; rw [datB_A]) t d).trans
    (by unfold Dat.fetched Dat.blockOf iblkB; rw [datB_A])

/-- The bias buffer likewise, on the columns inside the array. -/
theorem beforeB_2 (c : Dev nD) (t : Fin cfg1.N) (d) :
    (datB V c).before 2 t d = win1_2.fill (grid1.coords t) d (iblkB V c 2 t) :=
  ((datB V c).before_in_eq_fetched 2 rfl (fun _ => rfl)
    (fun t t' h => by
      funext a
      show Pipeline.Clip.of ((cfg1.win 2).index t a) _ _ = Pipeline.Clip.of ((cfg1.win 2).index t' a) _ _
      rw [h])
    (fun t => by
      rw [afterB_2]; unfold bblkB
      refine (win1_2.cut_fill _ _ _).trans ?_
      unfold Dat.blockOf iblkB; rw [datB_A]) t d).trans
    (by unfold Dat.fetched Dat.blockOf iblkB; rw [datB_A])

/-! ## Column locality -/

/-- Column locality of the body's result: on the columns inside the array at grid coordinates `i`, what the body
    leaves in the output buffer depends on the weight buffer only through its rows inside the array and on the bias
    buffer only through its columns inside the array. -/
def LocB : Prop :=
  ∀ (i : grid1.Coords) (h : Vec F S1024x64 .f32) (w w' : Vec F S2560x64 .bf16) (b b' : Vec F S1x2560 .f32),
    win1_1.cut i w = win1_1.cut i w' → win1_2.cut i b = win1_2.cut i b' →
    win1_3.cut i (outB h w b) = win1_3.cut i (outB h w' b')

/-! ## The body obligation -/

/-- The library's body obligation.  The hidden-state buffer arrives at its block; the weight and bias buffers at
    their blocks filled out past the arrays' end with whatever they held; the output buffer at anything.  The body
    leaves the inputs as they were and the output at `outB` of them, which by column locality agrees on the
    columns inside the array with `outB` of the blocks filled out with the zero word: all the loose windows'
    obligations state. -/
theorem body_obligationB (hloc : LocB (F := F)) (c : Dev nD) :
    BodyObligationLoose (datB V c) (defs₀ (F := F)) Variants.none () Set.univ := fun t => by
  rw [bigSep_W1, bigSep_W1]
  simp only
  rw [show (datB V c).Φ t.succ = (datB V c).Φ t.castSucc from rfl,
    show (datB V c).owesAt () t.succ = (datB V c).owesAt () t.castSucc from rfl]
  iintro ⟨HΦ, Ho, ⟨%d0, H0⟩, ⟨%d1, H1⟩, ⟨%d2, H2⟩, ⟨%d3, H3⟩⟩
  rw [beforeB_0 V c t d0, beforeB_1 V c t d1, beforeB_2 V c t d2]
  iapply (sound_kernelB (F := F) c Set.univ (grid1.coords t)
    (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) (win1_3.stage (cfg1.slots t 3)) (hstage1_3 ((cfg1.slots t 3).cast nbuf1_3))
    (hblkB V c t)
    (win1_1.fill (grid1.coords t) d1 (iblkB V c 1 t)) (win1_2.fill (grid1.coords t) d2 (iblkB V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have hw : win1_1.cut (grid1.coords t) (wblkB V c t) = iblkB V c 1 t := win1_1.cut_fill _ _ _
  have hb : win1_2.cut (grid1.coords t) (bblkB V c t) = iblkB V c 2 t := win1_2.cut_fill _ _ _
  have ho : win1_3.fill (grid1.coords t)
        (outB (hblkB V c t) (win1_1.fill (grid1.coords t) d1 (iblkB V c 1 t)) (win1_2.fill (grid1.coords t) d2 (iblkB V c 2 t)))
        (win1_3.cut (grid1.coords t) (outB (hblkB V c t) (wblkB V c t) (bblkB V c t)))
      = outB (hblkB V c t) (win1_1.fill (grid1.coords t) d1 (iblkB V c 1 t)) (win1_2.fill (grid1.coords t) d2 (iblkB V c 2 t)) :=
    win1_3.fill_congr_cut _ (hloc _ _ _ _ _ _
      ((win1_1.cut_fill _ _ _).trans hw.symm) ((win1_2.cut_fill _ _ _).trans hb.symm))
  isplitl [H0]
  · rw [afterB_0]; iexact H0
  isplitl [H1]
  · iexists d1
    rw [afterB_1]
    change _ ⊢ owns (c : Thread nD τ) (st1_1 t) fullShare (win1_1.fill (grid1.coords t) d1 (win1_1.cut (grid1.coords t) (wblkB V c t)))
    rw [hw]
  isplitl [H2]
  · iexists d2
    rw [afterB_2]
    change _ ⊢ owns (c : Thread nD τ) (st1_2 t) fullShare (win1_2.fill (grid1.coords t) d2 (win1_2.cut (grid1.coords t) (bblkB V c t)))
    rw [hb]
  · iexists outB (hblkB V c t) (win1_1.fill (grid1.coords t) d1 (iblkB V c 1 t)) (win1_2.fill (grid1.coords t) d2 (iblkB V c 2 t))
    rw [afterB_3]
    change _ ⊢ owns (c : Thread nD τ) (st1_3 t) fullShare (win1_3.fill (grid1.coords t) _ (win1_3.cut (grid1.coords t) (outB (hblkB V c t) (wblkB V c t) (bblkB V c t))))
    rw [ho]

end Cert.KernelIdeal.Hand

end
-- ==== Proof.RunKitI.lean ====
/-
  The run of the kernel program from the launch to the return.

  The program is three stretches of host operations (a constant; its conversion and the padding of the input weights;
  two roundings to bfloat16 and a reshape of the output bias) followed by the two kernel regions, nothing after.  Given,
  for each region, proof data stated over arbitrary entry contents with its body obligation and its invariant's two
  ends, every weakly fair execution terminates, the arguments end as launched, and the result array holds what the
  second region's write-backs leave.  The contents each region is entered with are read back through the host
  stretches to the launch memory.
-/
import proofs.«111399_j53506702573937_2_alg».proof.Proof.Gen.KernelIdeal.Launch
import proofs.«111399_j53506702573937_2_alg».proof.Proof.Gen.KernelIdeal.Points
import proofs.«111399_j53506702573937_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Run

/-! ## The two regions' proof data, over arbitrary entry contents -/

variable
  (dat0 : ((c : Dev nD) → (b : Ref sig .tc) → Buf (Elt F) ((c : Thread nD τ).loc b)) → (c : Dev nD) → Dat τ (Elt F) Unit ℕ (UR sig nD τ) ℕ cfg0 c)
  (dat1 : ((c : Dev nD) → (b : Ref sig .tc) → Buf (Elt F) ((c : Thread nD τ).loc b)) → (c : Dev nD) → Dat τ (Elt F) Unit ℕ (UR sig nD τ) ℕ cfg1 c)

/-- What the run takes of the two regions' proof data: the arrays are the entry contents, every input array is held
    whole, nothing is owed, no bound is put on the recorded pairs at entry, the body obligation holds, and the
    invariant's first and last points are the class's (the scoped rest and the generator register). -/
structure RunHyps : Prop where
  hA0 : ∀ V c w, (dat0 V c).A w = V c (Pipeline.arrRef spec0 w)
  hq0 : ∀ V c w, (dat0 V c).q w = fullShare
  how0 : ∀ V c t, (dat0 V c).owed t = 0
  hr0 : ∀ V c, (dat0 V c).recorded 0 = Set.univ
  hb0 : ∀ V c, BodyObligationLoose (dat0 V c) (defs₀ (F := F)) Variants.none () Set.univ
  hin0 : ∀ V c, (Pipeline.ΦA spec0 c : sProp 𝕄) ⊢ (dat0 V c).Φ 0
  hout0 : ∀ V c, (dat0 V c).Φ (Fin.last cfg0.N) ⊢ (Pipeline.ΦA spec0 c : sProp 𝕄)
  hA1 : ∀ V c w, (dat1 V c).A w = V c (Pipeline.arrRef spec1 w)
  hq1 : ∀ V c w, (dat1 V c).q w = fullShare
  how1 : ∀ V c t, (dat1 V c).owed t = 0
  hr1 : ∀ V c, (dat1 V c).recorded 0 = Set.univ
  hb1 : ∀ V c, BodyObligationLoose (dat1 V c) (defs₀ (F := F)) Variants.none () Set.univ
  hin1 : ∀ V c, (Pipeline.ΦA spec1 c : sProp 𝕄) ⊢ (dat1 V c).Φ 0
  hout1 : ∀ V c, (dat1 V c).Φ (Fin.last cfg1.N) ⊢ (Pipeline.ΦA spec1 c : sProp 𝕄)

variable (m : (ℓ : Loc nD τ sig) → Buf (Elt F) ℓ)

/-! ## The buffer contents at each boundary -/

/-- Region 0's entry contents (after the three host stretches), read at the TensorCore's references. -/
abbrev V3 : ((c : Dev nD) → (b : Ref sig .tc) → Buf (Elt F) ((c : Thread nD τ).loc b)) := fun c b => Gen.V3 m c b

/-- At region 0's exit: its arrays at what its write-backs leave, every other buffer as entered. -/
def W4 (c : Dev nD) : Valuation τ sig (Elt F) :=
  Pipeline.withArrays spec0 c (Gen.V3 m c) fun w => (dat0 (V3 m) c).arrAt w cfg0.N
theorem W4_arr (c : Dev nD) (w : Fin cfg0.W) :
    W4 dat0 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 dat0 m c (Proc.devRef .tc b) = Gen.V3 m c (Proc.devRef .tc b) := by
  unfold W4; exact Pipeline.withArrays_of_ne spec0 c _ _ b hb
/-- The same read at the TensorCore's references: region 1's entry contents. -/
abbrev V4 : ((c : Dev nD) → (b : Ref sig .tc) → Buf (Elt F) ((c : Thread nD τ).loc b)) := fun c b => W4 dat0 m c b
theorem hF0 (c : Dev nD) (w : Fin cfg0.W) : (dat0 (V3 m) c).arrAt w cfg0.N = V4 dat0 m c (Pipeline.arrRef spec0 w) :=
  (W4_arr dat0 m c w).symm
theorem hrest0 (c : Dev nD) : ∀ b, b ∉ Finset.univ.image (Pipeline.arrRef spec0) → V4 dat0 m c b = V3 m c b :=
  fun b hb => W4_of_ne dat0 m c b fun w e => hb (Finset.mem_image.mpr ⟨w, Finset.mem_univ _, e⟩)

/-- At region 1's exit: its arrays at what its write-backs leave, every other buffer as entered. -/
def W5 (c : Dev nD) : Valuation τ sig (Elt F) :=
  Pipeline.withArrays spec1 c (W4 dat0 m c) fun w => (dat1 (V4 dat0 m) c).arrAt w cfg1.N
theorem W5_arr (c : Dev nD) (w : Fin cfg1.W) :
    W5 dat0 dat1 m c (Proc.devRef .tc (Pipeline.arrRef spec1 w)) = (dat1 (V4 dat0 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 dat0 dat1 m c (Proc.devRef .tc b) = W4 dat0 m c (Proc.devRef .tc b) := by
  unfold W5; exact Pipeline.withArrays_of_ne spec1 c _ _ b hb
/-- The same read at the TensorCore's references. -/
abbrev V5 : ((c : Dev nD) → (b : Ref sig .tc) → Buf (Elt F) ((c : Thread nD τ).loc b)) := fun c b => W5 dat0 dat1 m c b
theorem hF1 (c : Dev nD) (w : Fin cfg1.W) : (dat1 (V4 dat0 m) c).arrAt w cfg1.N = V5 dat0 dat1 m c (Pipeline.arrRef spec1 w) :=
  (W5_arr dat0 dat1 m c w).symm
theorem hrest1 (c : Dev nD) : ∀ b, b ∉ Finset.univ.image (Pipeline.arrRef spec1) → V5 dat0 dat1 m c b = V4 dat0 m c b :=
  fun b hb => W5_of_ne dat0 dat1 m c b fun w e => hb (Finset.mem_image.mpr ⟨w, Finset.mem_univ _, e⟩)

/-- An argument no host stretch writes holds its launch contents when region 0 is entered. -/
theorem V3_launch (c : Dev nD) (r : Ref sig .tc) (h2 : r ∉ hostOps0_2_W) (h1 : r ∉ hostOps0_1_W) (h0 : r ∉ hostOps0_W) :
    Gen.V3 m c (Proc.devRef .tc r) = m ((c : Thread nD τ).loc r) :=
  (Gen.V3_of m c r h2).trans <| (Gen.V2_of m c r h1).trans <| (Gen.V1_of m c r h0).trans rfl

/-! ## The proof data family and the thread state -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 dat0 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 dat0 dat1 m c) ∗ ∃ r, prngReg c r)

/-! ## The regions as segments -/

variable (H : RunHyps dat0 dat1)
include H

set_option backward.isDefEq.respectTransparency.types false in
/-- Region 0 over the thread state: entered from every unscoped buffer at the contents the host stretches leave, left
    with its arrays at what its write-backs leave.  Its arrays are split out of the unscoped buffers and put back at the
    exit contents; the generator register goes into the invariant and comes out; nothing is owed. -/
def reg0 : Pipeline.RegionSeg (pcfgs (F := F)) adm (pdats dat0 dat1 m) () defs₀ 𝒱₀ L lv 0 where
  win := launch0.win.to₀
  block_pos := launch0.block_pos
  stage_whole := launch0.stage_whole
  K := PEmpty
  osem k := k.elim
  ho := Pipeline.OwnSemFacts.none _
  hbody c := H.hb0 (V3 m) c
  hwaits := Pipeline.hwaits_of_owed_zero _ _ _ _ L lv 0 fun c t => H.how0 (V3 m) c t
  pre c := iprop(StableHlo.held (c : Thread nD τ) (Pipeline.ucRefs τ sig) (Gen.V3 m c) ∗ R c)
  post c := iprop(StableHlo.held (c : Thread nD τ) (Pipeline.ucRefs τ sig) (W4 dat0 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats dat0 dat1 m) launch0.win launch0.arr_whole c
      ((pdats dat0 dat1 m 0 c).share_full fun w => H.hq0 (V3 m) c w) (V3 m c) fun w => H.hA0 (V3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (show x ∈ (dat0 (V3 m) c).recorded 0 from (H.hr0 (V3 m) c).symm ▸ Set.mem_univ x)
      rw [show (pdats dat0 dat1 m 0 c).owed 0 = 0 from H.how0 (V3 m) c 0]
      iexact HO
    isplitl [Hp]; · iexact Hp
    iexact Hrest
  hin c := by
    refine BIBase.Entails.trans ?_ (H.hin0 (V3 m) c)
    unfold Pipeline.ΦA
    iintro ⟨Hp, -, Hr⟩
    isplitl [Hr]; · iexact Hr
    iexact Hp
  hout c := by
    rw [Pipeline.ownSems0_none]
    refine BIBase.Entails.trans (H.hout0 (V3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 m) ((pdats dat0 dat1 m 0 c).share_full fun w => H.hq0 (V3 m) c w)
      (V3 m c) (V4 dat0 m c) ((pdats dat0 dat1 m 0 c).arrAt · cfg0.N) (hF0 dat0 m c) (hrest0 dat0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 dat1 m 0 c).owed (Fin.last _) = 0 from H.how0 (V3 m) c _]
    icases HO with ⟨%W, -, HO⟩; iexists W; iexact HO

set_option backward.isDefEq.respectTransparency.types false in
/-- Region 1 over the thread state: entered from the contents region 0 leaves, left with its arrays at what its
    write-backs leave (what the launch reads at the end). -/
def reg1 : Pipeline.RegionSeg (pcfgs (F := F)) adm (pdats dat0 dat1 m) () defs₀ 𝒱₀ L lv 1 where
  win := launch1.win.to₀
  block_pos := launch1.block_pos
  stage_whole := launch1.stage_whole
  K := PEmpty
  osem k := k.elim
  ho := Pipeline.OwnSemFacts.none _
  hbody c := H.hb1 (V4 dat0 m) c
  hwaits := Pipeline.hwaits_of_owed_zero _ _ _ _ L lv 1 fun c t => H.how1 (V4 dat0 m) c t
  pre c := iprop(StableHlo.held (c : Thread nD τ) (Pipeline.ucRefs τ sig) (W4 dat0 m c) ∗ R c)
  post c := iprop(Tₙ dat0 dat1 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 dat0 m c)
  hentry c := by
    rw [Pipeline.ownSems0_none]
    have hsplit := Pipeline.arrays_of_unscopedBufs (p := 1) (pcfgs (F := F)) adm (pdats dat0 dat1 m) launch1.win launch1.arr_whole c
      ((pdats dat0 dat1 m 1 c).share_full fun w => H.hq1 (V4 dat0 m) c w) (V4 dat0 m c) fun w => H.hA1 (V4 dat0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (show x ∈ (dat1 (V4 dat0 m) c).recorded 0 from (H.hr1 (V4 dat0 m) c).symm ▸ Set.mem_univ x)
      rw [show (pdats dat0 dat1 m 1 c).owed 0 = 0 from H.how1 (V4 dat0 m) c 0]
      iexact HO
    isplitl [Hp]; · iexact Hp
    iexact Hrest
  hin c := by
    refine BIBase.Entails.trans ?_ (H.hin1 (V4 dat0 m) c)
    unfold Pipeline.ΦA
    iintro ⟨Hp, -, Hr⟩
    isplitl [Hr]; · iexact Hr
    iexact Hp
  hout c := by
    rw [Pipeline.ownSems0_none]
    refine BIBase.Entails.trans (H.hout1 (V4 dat0 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats dat0 dat1 m) ((pdats dat0 dat1 m 1 c).share_full fun w => H.hq1 (V4 dat0 m) c w)
      (V4 dat0 m c) (V5 dat0 dat1 m c) ((pdats dat0 dat1 m 1 c).arrAt · cfg1.N) (hF1 dat0 dat1 m c) (hrest1 dat0 dat1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats dat0 dat1 m 1 c).owed (Fin.last _) = 0 from H.how1 (V4 dat0 m) c _]
    icases HO with ⟨%W, -, HO⟩; iexists W; iexact HO

/-! ## @main as segments, and the launch -/

/-- @main's five segments in order: a host segment per stretch from its boundary's contents, then the two regions. -/
abbrev segs : List (Pipeline.Seg (pcfgs (F := F)) adm (pdats dat0 dat1 m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .region (reg0 dat0 dat1 m H),
    .region (reg1 dat0 dat1 m H) ]

set_option backward.isDefEq.respectTransparency.types false in
/-- From any memory with zero counters, every weakly fair execution of @main terminates, nothing faulting, and every
    final memory holds each unscoped buffer at the last boundary's contents. -/
theorem run_W5 (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 dat0 dat1 m c b) :=
  Pipeline.θ_run_regions_kit (pcfgs (F := F)) adm (pdats dat0 dat1 m) () cellOf_inj emb₁ defs₀ 𝒱₀ L lv m ρ main (segs dat0 dat1 m H)
    (fun c Q => by
      rewrite [main_chain c, Pipeline.Seg.run_eq_chain,
        show (segs dat0 dat1 m H).map Pipeline.Seg.prog = [
          StableHlo.seq hostOps0,
          StableHlo.seq hostOps0_1,
          StableHlo.seq hostOps0_2,
          Prog.lift (.customCall (Pipeline.entry 0) ()),
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ dat0 dat1 m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 dat0 dat1 m c b)
    (hfin := fun c s' => by
      iintro ⟨⟨Hh, -⟩, HSI⟩
      unfold StableHlo.held
      imodintro
      iapply (pointsTo_read_all (Pipeline.ucRefs τ sig) (fun b => (((c : Thread nD τ)).1, b)) (W5 dat0 dat1 m c) s')
      isplitl [Hh] <;> iassumption)
    (hQ := fun s h c => h c)

/-! ## The arguments end as launched

No host operation and no region writes an argument: a region reads it through an input window or bypasses it, so the
contents at an argument's buffer walk back through the boundaries to the launch memory. -/
theorem W5_main_arg0 (c : Dev nD) : W5 dat0 dat1 m c (Proc.devRef .tc main_arg0) = m ((c : Thread nD τ).loc main_arg0) :=
  calc W5 dat0 dat1 m c (Proc.devRef .tc main_arg0)
    _ = W4 dat0 m c (Proc.devRef .tc main_arg0) := W5_of_ne dat0 dat1 m c main_arg0 (by decide)
    _ = Gen.V3 m c (Proc.devRef .tc main_arg0) := (W4_arr dat0 m c 0).trans (((dat0 (V3 m) c).arrAt_in 0 rfl _).trans (H.hA0 (V3 m) c 0))
    _ = m ((c : Thread nD τ).loc main_arg0) := V3_launch m c main_arg0 (by decide) (by decide) (by decide)
theorem W5_main_arg1 (c : Dev nD) : W5 dat0 dat1 m c (Proc.devRef .tc main_arg1) = m ((c : Thread nD τ).loc main_arg1) :=
  calc W5 dat0 dat1 m c (Proc.devRef .tc main_arg1)
    _ = W4 dat0 m c (Proc.devRef .tc main_arg1) := W5_of_ne dat0 dat1 m c main_arg1 (by decide)
    _ = Gen.V3 m c (Proc.devRef .tc main_arg1) := W4_of_ne dat0 m c main_arg1 (by decide)
    _ = m ((c : Thread nD τ).loc main_arg1) := V3_launch m c main_arg1 (by decide) (by decide) (by decide)
theorem W5_main_arg2 (c : Dev nD) : W5 dat0 dat1 m c (Proc.devRef .tc main_arg2) = m ((c : Thread nD τ).loc main_arg2) :=
  calc W5 dat0 dat1 m c (Proc.devRef .tc main_arg2)
    _ = W4 dat0 m c (Proc.devRef .tc main_arg2) := W5_of_ne dat0 dat1 m c main_arg2 (by decide)
    _ = Gen.V3 m c (Proc.devRef .tc main_arg2) := (W4_arr dat0 m c 2).trans (((dat0 (V3 m) c).arrAt_in 2 rfl _).trans (H.hA0 (V3 m) c 2))
    _ = m ((c : Thread nD τ).loc main_arg2) := V3_launch m c main_arg2 (by decide) (by decide) (by decide)
theorem W5_main_arg3 (c : Dev nD) : W5 dat0 dat1 m c (Proc.devRef .tc main_arg3) = m ((c : Thread nD τ).loc main_arg3) :=
  calc W5 dat0 dat1 m c (Proc.devRef .tc main_arg3)
    _ = W4 dat0 m c (Proc.devRef .tc main_arg3) := W5_of_ne dat0 dat1 m c main_arg3 (by decide)
    _ = Gen.V3 m c (Proc.devRef .tc main_arg3) := (W4_arr dat0 m c 3).trans (((dat0 (V3 m) c).arrAt_in 3 rfl _).trans (H.hA0 (V3 m) c 3))
    _ = m ((c : Thread nD τ).loc main_arg3) := V3_launch m c main_arg3 (by decide) (by decide) (by decide)
theorem W5_main_arg4 (c : Dev nD) : W5 dat0 dat1 m c (Proc.devRef .tc main_arg4) = m ((c : Thread nD τ).loc main_arg4) :=
  calc W5 dat0 dat1 m c (Proc.devRef .tc main_arg4)
    _ = W4 dat0 m c (Proc.devRef .tc main_arg4) := W5_of_ne dat0 dat1 m c main_arg4 (by decide)
    _ = Gen.V3 m c (Proc.devRef .tc main_arg4) := (W4_arr dat0 m c 4).trans (((dat0 (V3 m) c).arrAt_in 4 rfl _).trans (H.hA0 (V3 m) c 4))
    _ = m ((c : Thread nD τ).loc main_arg4) := V3_launch m c main_arg4 (by decide) (by decide) (by decide)
theorem W5_main_arg5 (c : Dev nD) : W5 dat0 dat1 m c (Proc.devRef .tc main_arg5) = m ((c : Thread nD τ).loc main_arg5) :=
  calc W5 dat0 dat1 m c (Proc.devRef .tc main_arg5)
    _ = W4 dat0 m c (Proc.devRef .tc main_arg5) := W5_of_ne dat0 dat1 m c main_arg5 (by decide)
    _ = Gen.V3 m c (Proc.devRef .tc main_arg5) := (W4_arr dat0 m c 5).trans (((dat0 (V3 m) c).arrAt_in 5 rfl _).trans (H.hA0 (V3 m) c 5))
    _ = m ((c : Thread nD τ).loc main_arg5) := V3_launch m c main_arg5 (by decide) (by decide) (by decide)
theorem W5_main_arg6 (c : Dev nD) : W5 dat0 dat1 m c (Proc.devRef .tc main_arg6) = m ((c : Thread nD τ).loc main_arg6) :=
  calc W5 dat0 dat1 m c (Proc.devRef .tc main_arg6)
    _ = W4 dat0 m c (Proc.devRef .tc main_arg6) := W5_of_ne dat0 dat1 m c main_arg6 (by decide)
    _ = Gen.V3 m c (Proc.devRef .tc main_arg6) := (W4_arr dat0 m c 6).trans (((dat0 (V3 m) c).arrAt_in 6 rfl _).trans (H.hA0 (V3 m) c 6))
    _ = m ((c : Thread nD τ).loc main_arg6) := V3_launch m c main_arg6 (by decide) (by decide) (by decide)
theorem W5_main_arg7 (c : Dev nD) : W5 dat0 dat1 m c (Proc.devRef .tc main_arg7) = m ((c : Thread nD τ).loc main_arg7) :=
  calc W5 dat0 dat1 m c (Proc.devRef .tc main_arg7)
    _ = W4 dat0 m c (Proc.devRef .tc main_arg7) := W5_of_ne dat0 dat1 m c main_arg7 (by decide)
    _ = Gen.V3 m c (Proc.devRef .tc main_arg7) := (W4_arr dat0 m c 7).trans (((dat0 (V3 m) c).arrAt_in 7 rfl _).trans (H.hA0 (V3 m) c 7))
    _ = m ((c : Thread nD τ).loc main_arg7) := V3_launch m c main_arg7 (by decide) (by decide) (by decide)
theorem W5_main_arg8 (c : Dev nD) : W5 dat0 dat1 m c (Proc.devRef .tc main_arg8) = m ((c : Thread nD τ).loc main_arg8) :=
  calc W5 dat0 dat1 m c (Proc.devRef .tc main_arg8)
    _ = W4 dat0 m c (Proc.devRef .tc main_arg8) := W5_of_ne dat0 dat1 m c main_arg8 (by decide)
    _ = Gen.V3 m c (Proc.devRef .tc main_arg8) := (W4_arr dat0 m c 8).trans (((dat0 (V3 m) c).arrAt_in 8 rfl _).trans (H.hA0 (V3 m) c 8))
    _ = m ((c : Thread nD τ).loc main_arg8) := V3_launch m c main_arg8 (by decide) (by decide) (by decide)
theorem W5_main_arg9 (c : Dev nD) : W5 dat0 dat1 m c (Proc.devRef .tc main_arg9) = m ((c : Thread nD τ).loc main_arg9) :=
  calc W5 dat0 dat1 m c (Proc.devRef .tc main_arg9)
    _ = W4 dat0 m c (Proc.devRef .tc main_arg9) := W5_of_ne dat0 dat1 m c main_arg9 (by decide)
    _ = Gen.V3 m c (Proc.devRef .tc main_arg9) := W4_of_ne dat0 m c main_arg9 (by decide)
    _ = m ((c : Thread nD τ).loc main_arg9) := V3_launch m c main_arg9 (by decide) (by decide) (by decide)
theorem W5_main_arg10 (c : Dev nD) : W5 dat0 dat1 m c (Proc.devRef .tc main_arg10) = m ((c : Thread nD τ).loc main_arg10) :=
  calc W5 dat0 dat1 m c (Proc.devRef .tc main_arg10)
    _ = W4 dat0 m c (Proc.devRef .tc main_arg10) := W5_of_ne dat0 dat1 m c main_arg10 (by decide)
    _ = Gen.V3 m c (Proc.devRef .tc main_arg10) := W4_of_ne dat0 m c main_arg10 (by decide)
    _ = m ((c : Thread nD τ).loc main_arg10) := V3_launch m c main_arg10 (by decide) (by decide) (by decide)
theorem W5_main_arg11 (c : Dev nD) : W5 dat0 dat1 m c (Proc.devRef .tc main_arg11) = m ((c : Thread nD τ).loc main_arg11) :=
  calc W5 dat0 dat1 m c (Proc.devRef .tc main_arg11)
    _ = W4 dat0 m c (Proc.devRef .tc main_arg11) := W5_of_ne dat0 dat1 m c main_arg11 (by decide)
    _ = Gen.V3 m c (Proc.devRef .tc main_arg11) := (W4_arr dat0 m c 9).trans (((dat0 (V3 m) c).arrAt_in 9 rfl _).trans (H.hA0 (V3 m) c 9))
    _ = m ((c : Thread nD τ).loc main_arg11) := V3_launch m c main_arg11 (by decide) (by decide) (by decide)
theorem W5_main_arg12 (c : Dev nD) : W5 dat0 dat1 m c (Proc.devRef .tc main_arg12) = m ((c : Thread nD τ).loc main_arg12) :=
  calc W5 dat0 dat1 m c (Proc.devRef .tc main_arg12)
    _ = W4 dat0 m c (Proc.devRef .tc main_arg12) := W5_of_ne dat0 dat1 m c main_arg12 (by decide)
    _ = Gen.V3 m c (Proc.devRef .tc main_arg12) := (W4_arr dat0 m c 10).trans (((dat0 (V3 m) c).arrAt_in 10 rfl _).trans (H.hA0 (V3 m) c 10))
    _ = m ((c : Thread nD τ).loc main_arg12) := V3_launch m c main_arg12 (by decide) (by decide) (by decide)
theorem W5_main_arg13 (c : Dev nD) : W5 dat0 dat1 m c (Proc.devRef .tc main_arg13) = m ((c : Thread nD τ).loc main_arg13) :=
  calc W5 dat0 dat1 m c (Proc.devRef .tc main_arg13)
    _ = W4 dat0 m c (Proc.devRef .tc main_arg13) := W5_of_ne dat0 dat1 m c main_arg13 (by decide)
    _ = Gen.V3 m c (Proc.devRef .tc main_arg13) := (W4_arr dat0 m c 11).trans (((dat0 (V3 m) c).arrAt_in 11 rfl _).trans (H.hA0 (V3 m) c 11))
    _ = m ((c : Thread nD τ).loc main_arg13) := V3_launch m c main_arg13 (by decide) (by decide) (by decide)
theorem W5_main_arg14 (c : Dev nD) : W5 dat0 dat1 m c (Proc.devRef .tc main_arg14) = m ((c : Thread nD τ).loc main_arg14) :=
  calc W5 dat0 dat1 m c (Proc.devRef .tc main_arg14)
    _ = W4 dat0 m c (Proc.devRef .tc main_arg14) := W5_of_ne dat0 dat1 m c main_arg14 (by decide)
    _ = Gen.V3 m c (Proc.devRef .tc main_arg14) := (W4_arr dat0 m c 12).trans (((dat0 (V3 m) c).arrAt_in 12 rfl _).trans (H.hA0 (V3 m) c 12))
    _ = m ((c : Thread nD τ).loc main_arg14) := V3_launch m c main_arg14 (by decide) (by decide) (by decide)
theorem W5_main_arg15 (c : Dev nD) : W5 dat0 dat1 m c (Proc.devRef .tc main_arg15) = m ((c : Thread nD τ).loc main_arg15) :=
  calc W5 dat0 dat1 m c (Proc.devRef .tc main_arg15)
    _ = W4 dat0 m c (Proc.devRef .tc main_arg15) := W5_of_ne dat0 dat1 m c main_arg15 (by decide)
    _ = Gen.V3 m c (Proc.devRef .tc main_arg15) := (W4_arr dat0 m c 13).trans (((dat0 (V3 m) c).arrAt_in 13 rfl _).trans (H.hA0 (V3 m) c 13))
    _ = m ((c : Thread nD τ).loc main_arg15) := V3_launch m c main_arg15 (by decide) (by decide) (by decide)
theorem W5_main_arg16 (c : Dev nD) : W5 dat0 dat1 m c (Proc.devRef .tc main_arg16) = m ((c : Thread nD τ).loc main_arg16) :=
  calc W5 dat0 dat1 m c (Proc.devRef .tc main_arg16)
    _ = W4 dat0 m c (Proc.devRef .tc main_arg16) := W5_of_ne dat0 dat1 m c main_arg16 (by decide)
    _ = Gen.V3 m c (Proc.devRef .tc main_arg16) := (W4_arr dat0 m c 14).trans (((dat0 (V3 m) c).arrAt_in 14 rfl _).trans (H.hA0 (V3 m) c 14))
    _ = m ((c : Thread nD τ).loc main_arg16) := V3_launch m c main_arg16 (by decide) (by decide) (by decide)
theorem W5_main_arg17 (c : Dev nD) : W5 dat0 dat1 m c (Proc.devRef .tc main_arg17) = m ((c : Thread nD τ).loc main_arg17) :=
  calc W5 dat0 dat1 m c (Proc.devRef .tc main_arg17)
    _ = W4 dat0 m c (Proc.devRef .tc main_arg17) := W5_of_ne dat0 dat1 m c main_arg17 (by decide)
    _ = Gen.V3 m c (Proc.devRef .tc main_arg17) := W4_of_ne dat0 m c main_arg17 (by decide)
    _ = m ((c : Thread nD τ).loc main_arg17) := V3_launch m c main_arg17 (by decide) (by decide) (by decide)
theorem W5_main_arg18 (c : Dev nD) : W5 dat0 dat1 m c (Proc.devRef .tc main_arg18) = m ((c : Thread nD τ).loc main_arg18) :=
  calc W5 dat0 dat1 m c (Proc.devRef .tc main_arg18)
    _ = W4 dat0 m c (Proc.devRef .tc main_arg18) := W5_of_ne dat0 dat1 m c main_arg18 (by decide)
    _ = Gen.V3 m c (Proc.devRef .tc main_arg18) := W4_of_ne dat0 m c main_arg18 (by decide)
    _ = m ((c : Thread nD τ).loc main_arg18) := V3_launch m c main_arg18 (by decide) (by decide) (by decide)
/-- The result array holds what region 1's write-backs leave. -/
theorem W5_main_v5 (c : Dev nD) : W5 dat0 dat1 m c (Proc.devRef .tc main_v5) = (dat1 (V4 dat0 m) c).arrAt 3 cfg1.N :=
  W5_arr dat0 dat1 m c 3

/-- THE RUN: from any memory with zero counters, every weakly fair execution of @main terminates, nothing faulting; the
    result array ends holding what region 1's write-backs leave and every argument its launch contents. -/
theorem run_of' (ρ : Dev nD → PrngReg) : θ_run defs (onTc (τ := τ) (main (F := F))) ⟨m, fun _ => 0, ρ⟩ (fun r => ∀ c : Dev nD,
      r.2.mem ((c.tc : Thread nD τ).loc main_v5) = (dat1 (V4 dat0 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_v5 (by decide))).trans (W5_main_v5 dat0 dat1 m H c),
      (h c _ (mem_uc main_arg0 (by decide))).trans (W5_main_arg0 dat0 dat1 m H c),
      (h c _ (mem_uc main_arg1 (by decide))).trans (W5_main_arg1 dat0 dat1 m H c),
      (h c _ (mem_uc main_arg2 (by decide))).trans (W5_main_arg2 dat0 dat1 m H c),
      (h c _ (mem_uc main_arg3 (by decide))).trans (W5_main_arg3 dat0 dat1 m H c),
      (h c _ (mem_uc main_arg4 (by decide))).trans (W5_main_arg4 dat0 dat1 m H c),
      (h c _ (mem_uc main_arg5 (by decide))).trans (W5_main_arg5 dat0 dat1 m H c),
      (h c _ (mem_uc main_arg6 (by decide))).trans (W5_main_arg6 dat0 dat1 m H c),
      (h c _ (mem_uc main_arg7 (by decide))).trans (W5_main_arg7 dat0 dat1 m H c),
      (h c _ (mem_uc main_arg8 (by decide))).trans (W5_main_arg8 dat0 dat1 m H c),
      (h c _ (mem_uc main_arg9 (by decide))).trans (W5_main_arg9 dat0 dat1 m H c),
      (h c _ (mem_uc main_arg10 (by decide))).trans (W5_main_arg10 dat0 dat1 m H c),
      (h c _ (mem_uc main_arg11 (by decide))).trans (W5_main_arg11 dat0 dat1 m H c),
      (h c _ (mem_uc main_arg12 (by decide))).trans (W5_main_arg12 dat0 dat1 m H c),
      (h c _ (mem_uc main_arg13 (by decide))).trans (W5_main_arg13 dat0 dat1 m H c),
      (h c _ (mem_uc main_arg14 (by decide))).trans (W5_main_arg14 dat0 dat1 m H c),
      (h c _ (mem_uc main_arg15 (by decide))).trans (W5_main_arg15 dat0 dat1 m H c),
      (h c _ (mem_uc main_arg16 (by decide))).trans (W5_main_arg16 dat0 dat1 m H c),
      (h c _ (mem_uc main_arg17 (by decide))).trans (W5_main_arg17 dat0 dat1 m H c),
      (h c _ (mem_uc main_arg18 (by decide))).trans (W5_main_arg18 dat0 dat1 m H c)⟩)
    (run_W5 dat0 dat1 m H ρ)

end Run

/-- THE RUN, with the two regions' proof data and what is asked of them spelt out. -/
theorem run_of
    (dat0 : ((c : Dev nD) → (b : Ref sig .tc) → Buf (Elt F) ((c : Thread nD τ).loc b)) → (c : Dev nD) → Dat τ (Elt F) Unit ℕ (UR sig nD τ) ℕ cfg0 c)
    (hA0 : ∀ V c w, (dat0 V c).A w = V c (Pipeline.arrRef spec0 w))
    (hq0 : ∀ V c w, (dat0 V c).q w = fullShare)
    (how0 : ∀ V c t, (dat0 V c).owed t = 0)
    (hr0 : ∀ V c, (dat0 V c).recorded 0 = Set.univ)
    (hb0 : ∀ V c, BodyObligationLoose (dat0 V c) (defs₀ (F := F)) Variants.none () Set.univ)
    (hin0 : ∀ V c, (Pipeline.ΦA spec0 c : sProp 𝕄) ⊢ (dat0 V c).Φ 0)
    (hout0 : ∀ V c, (dat0 V c).Φ (Fin.last cfg0.N) ⊢ (Pipeline.ΦA spec0 c : sProp 𝕄))
    (dat1 : ((c : Dev nD) → (b : Ref sig .tc) → Buf (Elt F) ((c : Thread nD τ).loc b)) → (c : Dev nD) → Dat τ (Elt F) Unit ℕ (UR sig nD τ) ℕ cfg1 c)
    (hA1 : ∀ V c w, (dat1 V c).A w = V c (Pipeline.arrRef spec1 w))
    (hq1 : ∀ V c w, (dat1 V c).q w = fullShare)
    (how1 : ∀ V c t, (dat1 V c).owed t = 0)
    (hr1 : ∀ V c, (dat1 V c).recorded 0 = Set.univ)
    (hb1 : ∀ V c, BodyObligationLoose (dat1 V c) (defs₀ (F := F)) Variants.none () Set.univ)
    (hin1 : ∀ V c, (Pipeline.ΦA spec1 c : sProp 𝕄) ⊢ (dat1 V c).Φ 0)
    (hout1 : ∀ V c, (dat1 V c).Φ (Fin.last cfg1.N) ⊢ (Pipeline.ΦA spec1 c : sProp 𝕄))
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v5) = (dat1 (V4 dat0 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  run_of' dat0 dat1 m ⟨hA0, hq0, how0, hr0, hb0, hin0, hout0, hA1, hq1, how1, hr1, hb1, hin1, hout1⟩ ρ

end Cert.KernelIdeal.Hand

end
-- ==== Proof.RunMainI.lean ====
/-
  The run of the kernel program at the two regions' proof data.

  With the input-projection-and-layers kernel's data and the output projection's data in place of the parameters, every
  weakly fair execution terminates, the arguments end as launched, and the result array holds what the output
  projection's write-backs leave, computed from the contents the first kernel leaves.
-/
import proofs.«111399_j53506702573937_2_alg».proof.Proof.K0DatI
import proofs.«111399_j53506702573937_2_alg».proof.Proof.K1DatI
import proofs.«111399_j53506702573937_2_alg».proof.Proof.RunKitI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- THE RUN at the two kernels' proof data, given that the output projection's result block depends only on the rows
    and columns inside the arrays. -/
theorem run_main (hloc : LocB (F := F)) (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v5) = (datB (V4 dat0 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  run_of dat0 A_eq0 (fun _ _ _ => rfl) (fun _ _ _ => rfl) (fun _ _ => rfl) body_obligation0 hin0 hout0
    datB datB_A datB_q datB_owed (fun _ _ => rfl) (fun V c => body_obligationB V hloc c)
    (fun V c => by rw [datB_Φ]) (fun V c => by rw [datB_Φ]) m ρ

end Cert.KernelIdeal.Hand

end
-- ==== Proof.RunKitReadI.lean ====
/-
  What the two kernel regions are entered with, read back to the launch memory.

  Region 0 stages the input, the padded input weights rounded to bfloat16, and fourteen weight and bias arguments; the
  arguments hold their launch contents and the rounded padded weights are the host operations' term of the launch
  contents.  Region 1 stages the hidden state region 0 leaves, the output weights rounded to bfloat16 and the output
  bias reshaped to one row.
-/
import proofs.«111399_j53506702573937_2_alg».proof.Proof.Gen.KernelIdeal.Launch
import proofs.«111399_j53506702573937_2_alg».proof.Proof.Gen.KernelIdeal.Points
import proofs.«111399_j53506702573937_2_alg».proof.Proof.Gen.KernelIdeal.Regions
import proofs.«111399_j53506702573937_2_alg».proof.Proof.RunKitI
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Read

variable (m : (ℓ : Loc nD τ sig) → Buf (Elt F) ℓ)

/-! ## Region 0's arrays at entry -/

theorem V3_main_arg0 (c : Dev nD) : V3 m c main_arg0 = m ((c : Thread nD τ).loc main_arg0) :=
  V3_launch m c main_arg0 (by decide) (by decide) (by decide)
theorem V3_main_arg2 (c : Dev nD) : V3 m c main_arg2 = m ((c : Thread nD τ).loc main_arg2) :=
  V3_launch m c main_arg2 (by decide) (by decide) (by decide)
theorem V3_main_arg3 (c : Dev nD) : V3 m c main_arg3 = m ((c : Thread nD τ).loc main_arg3) :=
  V3_launch m c main_arg3 (by decide) (by decide) (by decide)
theorem V3_main_arg4 (c : Dev nD) : V3 m c main_arg4 = m ((c : Thread nD τ).loc main_arg4) :=
  V3_launch m c main_arg4 (by decide) (by decide) (by decide)
theorem V3_main_arg5 (c : Dev nD) : V3 m c main_arg5 = m ((c : Thread nD τ).loc main_arg5) :=
  V3_launch m c main_arg5 (by decide) (by decide) (by decide)
theorem V3_main_arg6 (c : Dev nD) : V3 m c main_arg6 = m ((c : Thread nD τ).loc main_arg6) :=
  V3_launch m c main_arg6 (by decide) (by decide) (by decide)
theorem V3_main_arg7 (c : Dev nD) : V3 m c main_arg7 = m ((c : Thread nD τ).loc main_arg7) :=
  V3_launch m c main_arg7 (by decide) (by decide) (by decide)
theorem V3_main_arg8 (c : Dev nD) : V3 m c main_arg8 = m ((c : Thread nD τ).loc main_arg8) :=
  V3_launch m c main_arg8 (by decide) (by decide) (by decide)
theorem V3_main_arg11 (c : Dev nD) : V3 m c main_arg11 = m ((c : Thread nD τ).loc main_arg11) :=
  V3_launch m c main_arg11 (by decide) (by decide) (by decide)
theorem V3_main_arg12 (c : Dev nD) : V3 m c main_arg12 = m ((c : Thread nD τ).loc main_arg12) :=
  V3_launch m c main_arg12 (by decide) (by decide) (by decide)
theorem V3_main_arg13 (c : Dev nD) : V3 m c main_arg13 = m ((c : Thread nD τ).loc main_arg13) :=
  V3_launch m c main_arg13 (by decide) (by decide) (by decide)
theorem V3_main_arg14 (c : Dev nD) : V3 m c main_arg14 = m ((c : Thread nD τ).loc main_arg14) :=
  V3_launch m c main_arg14 (by decide) (by decide) (by decide)
theorem V3_main_arg15 (c : Dev nD) : V3 m c main_arg15 = m ((c : Thread nD τ).loc main_arg15) :=
  V3_launch m c main_arg15 (by decide) (by decide) (by decide)
theorem V3_main_arg16 (c : Dev nD) : V3 m c main_arg16 = m ((c : Thread nD τ).loc main_arg16) :=
  V3_launch m c main_arg16 (by decide) (by decide) (by decide)

/-- The input weights as region 0 stages them: padded with the converted zero constant to 20480 columns, then rounded to
    bfloat16. -/
theorem V3_main_v1 (c : Dev nD) : (V3 m c main_v1 : (⟨S64x20480, .bf16⟩ : BufTy).Contents (Elt F)) =
    truncf .bf16 (pad S64x20480 ![0, 0] ![0, 480] ![0, 0] (m ((c : Thread nD τ).loc main_arg1) : (⟨S64x20000, .f32⟩ : BufTy).Contents (Elt F))
      (sitofp .f32 (constantI S_ 32 0#32)) pads_S64x20000_S64x20480_000_04800 h_S_) bitsLt_bf16_f32 := by
  show StableHlo.after hostOps0_2 (StableHlo.after hostOps0_1 (StableHlo.after hostOps0 (fun b => m (c, b)))) (Proc.devRef .tc main_v1) = _
  after_results; rfl

/-- The output weights rounded to bfloat16, as the host operations leave them. -/
theorem V3_main_v2 (c : Dev nD) : (V3 m c main_v2 : (⟨S20000x64, .bf16⟩ : BufTy).Contents (Elt F)) =
    truncf .bf16 (m ((c : Thread nD τ).loc main_arg17) : (⟨S20000x64, .f32⟩ : BufTy).Contents (Elt F)) bitsLt_bf16_f32 := by
  show StableHlo.after hostOps0_2 (StableHlo.after hostOps0_1 (StableHlo.after hostOps0 (fun b => m (c, b)))) (Proc.devRef .tc main_v2) = _
  after_results

/-- The output bias reshaped to one row, as the host operations leave it. -/
theorem V3_main_v3 (c : Dev nD) : (V3 m c main_v3 : (⟨S1x20000, .f32⟩ : BufTy).Contents (Elt F)) =
    shapeCast S1x20000 (m ((c : Thread nD τ).loc main_arg18) : (⟨S20000, .f32⟩ : BufTy).Contents (Elt F)) shapeCasts_S20000_S1x20000 := by
  show StableHlo.after hostOps0_2 (StableHlo.after hostOps0_1 (StableHlo.after hostOps0 (fun b => m (c, b)))) (Proc.devRef .tc main_v3) = _
  after_results; rfl

/-! ## Region 1's arrays at entry -/

variable (dat0 : ((c : Dev nD) → (b : Ref sig .tc) → Buf (Elt F) ((c : Thread nD τ).loc b)) → (c : Dev nD) → Dat τ (Elt F) Unit ℕ (UR sig nD τ) ℕ cfg0 c)

/-- The hidden state: what region 0's write-backs leave in its output array. -/
theorem V4_main_v4 (c : Dev nD) : V4 dat0 m c main_v4 = (dat0 (V3 m) c).arrAt 15 cfg0.N :=
  W4_arr dat0 m c 15

theorem V4_main_v2 (c : Dev nD) : (V4 dat0 m c main_v2 : (⟨S20000x64, .bf16⟩ : BufTy).Contents (Elt F)) =
    truncf .bf16 (m ((c : Thread nD τ).loc main_arg17) : (⟨S20000x64, .f32⟩ : BufTy).Contents (Elt F)) bitsLt_bf16_f32 :=
  (W4_of_ne dat0 m c main_v2 (by decide)).trans (V3_main_v2 m c)

theorem V4_main_v3 (c : Dev nD) : (V4 dat0 m c main_v3 : (⟨S1x20000, .f32⟩ : BufTy).Contents (Elt F)) =
    shapeCast S1x20000 (m ((c : Thread nD τ).loc main_arg18) : (⟨S20000, .f32⟩ : BufTy).Contents (Elt F)) shapeCasts_S20000_S1x20000 :=
  (W4_of_ne dat0 m c main_v3 (by decide)).trans (V3_main_v3 m c)

end Read

end Cert.KernelIdeal.Hand

end
-- ==== Proof.K0BlkI.lean ====
/-
  The input projection's staged blocks as elements of the arrays.

  Point t stages rows 1024·(t / 8) … and columns 2560·(t % 8) … of x, columns 2560·(t % 8) … of the padded in_W,
  every small weight whole, and writes back rows 1024·(t / 8) … of the hidden state.
-/
import proofs.«111399_j53506702573937_2_alg».proof.Proof.K0DatI
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

theorem index0_x : ∀ t : Fin grid0.N, win0_0.index t 0 = t.val / 8 ∧ win0_0.index t 1 = t.val % 8 := by decide +kernel
theorem index0_w : ∀ t : Fin grid0.N, win0_1.index t 0 = 0 ∧ win0_1.index t 1 = t.val % 8 := by decide +kernel
theorem index0_o : ∀ t : Fin grid0.N, win0_15.index t 0 = t.val / 8 ∧ win0_15.index t 1 = 0 := by decide +kernel
theorem idxS2 : ∀ t : Fin grid0.N, win0_2.index t 0 = 0 := by decide +kernel
theorem idxS3 : ∀ t : Fin grid0.N, win0_3.index t 0 = 0 ∧ win0_3.index t 1 = 0 ∧ win0_3.index t 2 = 0 := by decide +kernel
theorem idxS4 : ∀ t : Fin grid0.N, win0_4.index t 0 = 0 ∧ win0_4.index t 1 = 0 := by decide +kernel
theorem idxS5 : ∀ t : Fin grid0.N, win0_5.index t 0 = 0 ∧ win0_5.index t 1 = 0 ∧ win0_5.index t 2 = 0 := by decide +kernel
theorem idxS6 : ∀ t : Fin grid0.N, win0_6.index t 0 = 0 ∧ win0_6.index t 1 = 0 := by decide +kernel
theorem idxS7 : ∀ t : Fin grid0.N, win0_7.index t 0 = 0 ∧ win0_7.index t 1 = 0 ∧ win0_7.index t 2 = 0 := by decide +kernel
theorem idxS8 : ∀ t : Fin grid0.N, win0_8.index t 0 = 0 ∧ win0_8.index t 1 = 0 := by decide +kernel
theorem idxS9 : ∀ t : Fin grid0.N, win0_9.index t 0 = 0 ∧ win0_9.index t 1 = 0 ∧ win0_9.index t 2 = 0 := by decide +kernel
theorem idxS10 : ∀ t : Fin grid0.N, win0_10.index t 0 = 0 ∧ win0_10.index t 1 = 0 := by decide +kernel
theorem idxS11 : ∀ t : Fin grid0.N, win0_11.index t 0 = 0 ∧ win0_11.index t 1 = 0 := by decide +kernel
theorem idxS12 : ∀ t : Fin grid0.N, win0_12.index t 0 = 0 := by decide +kernel
theorem idxS13 : ∀ t : Fin grid0.N, win0_13.index t 0 = 0 ∧ win0_13.index t 1 = 0 := by decide +kernel
theorem idxS14 : ∀ t : Fin grid0.N, win0_14.index t 0 = 0 := by decide +kernel

section
variable (V : (c : Dev nD) → (b : Ref sig .tc) → Buf (Elt F) ((c : Thread nD τ).loc b))

/-- x's staging buffer after the fetch at point `t`, on the columns the fetch filled, holds rows 1024·(t / 8) … and
    columns 2560·(t % 8) … of x. -/
theorem xblk_apply (c : Dev nD) (t : Fin cfg0.N) (d : S1024x2560.Idx → Elt F .f32) (x : S1024x2560.Idx)
    (hx : (x 1).val < win0_0.xsize (grid0.coords t) 1)
    (k : S4096x20000.Idx) (hk0 : (k 0).val = (t.val / 8) * 1024 + (x 0).val) (hk1 : (k 1).val = (t.val % 8) * 2560 + (x 1).val) :
    win0_0.fill (grid0.coords t) d (iblk0 V c 0 t) x = (V c main_arg0 : S4096x20000.Idx → Elt F .f32) k := by
  let j' : (win0_0.xblock (grid0.coords t)).Idx := fun a => match a with
    | ⟨0, _⟩ => ⟨(x 0).val, by show (x 0).val < win0_0.xsize (grid0.coords t) 0; rw [(xsz t).1]; exact (x 0).isLt⟩
    | ⟨1, _⟩ => ⟨(x 1).val, hx⟩
  have hxj : x = win0_0.xinj (grid0.coords t) j' := by
    funext a
    match a with
    | ⟨0, _⟩ => exact Fin.ext rfl
    | ⟨1, _⟩ => exact Fin.ext rfl
  rw [hxj, Window.fill_xinj]
  unfold iblk0
  rw [View.read_apply]
  show V c main_arg0 _ = V c main_arg0 _
  congr 1
  funext a
  apply Fin.ext
  match a with
  | ⟨0, _⟩ => show win0_0.index t 0 * 1024 + 1 * (x 0).val = (k 0).val; rw [(index0_x t).1, hk0]; omega
  | ⟨1, _⟩ => show win0_0.index t 1 * 2560 + 1 * (x 1).val = (k 1).val; rw [(index0_x t).2, hk1]; omega

/-- in_W's block at point `t` is columns 2560·(t % 8) … of the padded weight. -/
theorem inWblk_apply (c : Dev nD) (t : Fin cfg0.N) (x : S64x2560.Idx) (k : S64x20480.Idx)
    (hk0 : (k 0).val = (x 0).val) (hk1 : (k 1).val = (t.val % 8) * 2560 + (x 1).val) :
    iblk0 V c 1 t x = (V c main_v1 : S64x20480.Idx → Elt F .bf16) k := by
  unfold iblk0
  rw [View.read_apply]
  show V c main_v1 _ = V c main_v1 _
  congr 1
  funext a
  apply Fin.ext
  match a with
  | ⟨0, _⟩ => show win0_1.index t 0 * 64 + 1 * (x 0).val = (k 0).val; rw [(index0_w t).1, hk0]; omega
  | ⟨1, _⟩ => show win0_1.index t 1 * 2560 + 1 * (x 1).val = (k 1).val; rw [(index0_w t).2, hk1]; omega

/-- Every small weight's block is the whole array. -/
theorem sblk2_apply (c : Dev nD) (t : Fin cfg0.N) (x : S64.Idx) : iblk0 V c 2 t x = (V c main_arg2 : S64.Idx → Elt F .f32) x := by
  unfold iblk0
  rw [View.read_apply]
  show V c main_arg2 _ = V c main_arg2 _
  congr 1
  funext a
  apply Fin.ext
  match a with
  | ⟨0, _⟩ => show win0_2.index t 0 * 64 + 1 * (x 0).val = (x 0).val; rw [(idxS2 t)]; omega
theorem sblk3_apply (c : Dev nD) (t : Fin cfg0.N) (x : S3x64x64.Idx) : iblk0 V c 3 t x = (V c main_arg3 : S3x64x64.Idx → Elt F .f32) x := by
  unfold iblk0
  rw [View.read_apply]
  show V c main_arg3 _ = V c main_arg3 _
  congr 1
  funext a
  apply Fin.ext
  match a with
  | ⟨0, _⟩ => show win0_3.index t 0 * 3 + 1 * (x 0).val = (x 0).val; rw [(idxS3 t).1]; omega
  | ⟨1, _⟩ => show win0_3.index t 1 * 64 + 1 * (x 1).val = (x 1).val; rw [(idxS3 t).2.1]; omega
  | ⟨2, _⟩ => show win0_3.index t 2 * 64 + 1 * (x 2).val = (x 2).val; rw [(idxS3 t).2.2]; omega
theorem sblk4_apply (c : Dev nD) (t : Fin cfg0.N) (x : S3x64.Idx) : iblk0 V c 4 t x = (V c main_arg4 : S3x64.Idx → Elt F .f32) x := by
  unfold iblk0
  rw [View.read_apply]
  show V c main_arg4 _ = V c main_arg4 _
  congr 1
  funext a
  apply Fin.ext
  match a with
  | ⟨0, _⟩ => show win0_4.index t 0 * 3 + 1 * (x 0).val = (x 0).val; rw [(idxS4 t).1]; omega
  | ⟨1, _⟩ => show win0_4.index t 1 * 64 + 1 * (x 1).val = (x 1).val; rw [(idxS4 t).2]; omega
theorem sblk5_apply (c : Dev nD) (t : Fin cfg0.N) (x : S3x64x64.Idx) : iblk0 V c 5 t x = (V c main_arg5 : S3x64x64.Idx → Elt F .f32) x := by
  unfold iblk0
  rw [View.read_apply]
  show V c main_arg5 _ = V c main_arg5 _
  congr 1
  funext a
  apply Fin.ext
  match a with
  | ⟨0, _⟩ => show win0_5.index t 0 * 3 + 1 * (x 0).val = (x 0).val; rw [(idxS5 t).1]; omega
  | ⟨1, _⟩ => show win0_5.index t 1 * 64 + 1 * (x 1).val = (x 1).val; rw [(idxS5 t).2.1]; omega
  | ⟨2, _⟩ => show win0_5.index t 2 * 64 + 1 * (x 2).val = (x 2).val; rw [(idxS5 t).2.2]; omega
theorem sblk6_apply (c : Dev nD) (t : Fin cfg0.N) (x : S3x64.Idx) : iblk0 V c 6 t x = (V c main_arg6 : S3x64.Idx → Elt F .f32) x := by
  unfold iblk0
  rw [View.read_apply]
  show V c main_arg6 _ = V c main_arg6 _
  congr 1
  funext a
  apply Fin.ext
  match a with
  | ⟨0, _⟩ => show win0_6.index t 0 * 3 + 1 * (x 0).val = (x 0).val; rw [(idxS6 t).1]; omega
  | ⟨1, _⟩ => show win0_6.index t 1 * 64 + 1 * (x 1).val = (x 1).val; rw [(idxS6 t).2]; omega
theorem sblk7_apply (c : Dev nD) (t : Fin cfg0.N) (x : S3x64x64.Idx) : iblk0 V c 7 t x = (V c main_arg7 : S3x64x64.Idx → Elt F .f32) x := by
  unfold iblk0
  rw [View.read_apply]
  show V c main_arg7 _ = V c main_arg7 _
  congr 1
  funext a
  apply Fin.ext
  match a with
  | ⟨0, _⟩ => show win0_7.index t 0 * 3 + 1 * (x 0).val = (x 0).val; rw [(idxS7 t).1]; omega
  | ⟨1, _⟩ => show win0_7.index t 1 * 64 + 1 * (x 1).val = (x 1).val; rw [(idxS7 t).2.1]; omega
  | ⟨2, _⟩ => show win0_7.index t 2 * 64 + 1 * (x 2).val = (x 2).val; rw [(idxS7 t).2.2]; omega
theorem sblk8_apply (c : Dev nD) (t : Fin cfg0.N) (x : S3x64.Idx) : iblk0 V c 8 t x = (V c main_arg8 : S3x64.Idx → Elt F .f32) x := by
  unfold iblk0
  rw [View.read_apply]
  show V c main_arg8 _ = V c main_arg8 _
  congr 1
  funext a
  apply Fin.ext
  match a with
  | ⟨0, _⟩ => show win0_8.index t 0 * 3 + 1 * (x 0).val = (x 0).val; rw [(idxS8 t).1]; omega
  | ⟨1, _⟩ => show win0_8.index t 1 * 64 + 1 * (x 1).val = (x 1).val; rw [(idxS8 t).2]; omega
theorem sblk9_apply (c : Dev nD) (t : Fin cfg0.N) (x : S3x64x64.Idx) : iblk0 V c 9 t x = (V c main_arg11 : S3x64x64.Idx → Elt F .f32) x := by
  unfold iblk0
  rw [View.read_apply]
  show V c main_arg11 _ = V c main_arg11 _
  congr 1
  funext a
  apply Fin.ext
  match a with
  | ⟨0, _⟩ => show win0_9.index t 0 * 3 + 1 * (x 0).val = (x 0).val; rw [(idxS9 t).1]; omega
  | ⟨1, _⟩ => show win0_9.index t 1 * 64 + 1 * (x 1).val = (x 1).val; rw [(idxS9 t).2.1]; omega
  | ⟨2, _⟩ => show win0_9.index t 2 * 64 + 1 * (x 2).val = (x 2).val; rw [(idxS9 t).2.2]; omega
theorem sblk10_apply (c : Dev nD) (t : Fin cfg0.N) (x : S3x64.Idx) : iblk0 V c 10 t x = (V c main_arg12 : S3x64.Idx → Elt F .f32) x := by
  unfold iblk0
  rw [View.read_apply]
  show V c main_arg12 _ = V c main_arg12 _
  congr 1
  funext a
  apply Fin.ext
  match a with
  | ⟨0, _⟩ => show win0_10.index t 0 * 3 + 1 * (x 0).val = (x 0).val; rw [(idxS10 t).1]; omega
  | ⟨1, _⟩ => show win0_10.index t 1 * 64 + 1 * (x 1).val = (x 1).val; rw [(idxS10 t).2]; omega
theorem sblk11_apply (c : Dev nD) (t : Fin cfg0.N) (x : S128x64.Idx) : iblk0 V c 11 t x = (V c main_arg13 : S128x64.Idx → Elt F .f32) x := by
  unfold iblk0
  rw [View.read_apply]
  show V c main_arg13 _ = V c main_arg13 _
  congr 1
  funext a
  apply Fin.ext
  match a with
  | ⟨0, _⟩ => show win0_11.index t 0 * 128 + 1 * (x 0).val = (x 0).val; rw [(idxS11 t).1]; omega
  | ⟨1, _⟩ => show win0_11.index t 1 * 64 + 1 * (x 1).val = (x 1).val; rw [(idxS11 t).2]; omega
theorem sblk12_apply (c : Dev nD) (t : Fin cfg0.N) (x : S128.Idx) : iblk0 V c 12 t x = (V c main_arg14 : S128.Idx → Elt F .f32) x := by
  unfold iblk0
  rw [View.read_apply]
  show V c main_arg14 _ = V c main_arg14 _
  congr 1
  funext a
  apply Fin.ext
  match a with
  | ⟨0, _⟩ => show win0_12.index t 0 * 128 + 1 * (x 0).val = (x 0).val; rw [(idxS12 t)]; omega
theorem sblk13_apply (c : Dev nD) (t : Fin cfg0.N) (x : S64x128.Idx) : iblk0 V c 13 t x = (V c main_arg15 : S64x128.Idx → Elt F .f32) x := by
  unfold iblk0
  rw [View.read_apply]
  show V c main_arg15 _ = V c main_arg15 _
  congr 1
  funext a
  apply Fin.ext
  match a with
  | ⟨0, _⟩ => show win0_13.index t 0 * 64 + 1 * (x 0).val = (x 0).val; rw [(idxS13 t).1]; omega
  | ⟨1, _⟩ => show win0_13.index t 1 * 128 + 1 * (x 1).val = (x 1).val; rw [(idxS13 t).2]; omega
theorem sblk14_apply (c : Dev nD) (t : Fin cfg0.N) (x : S64.Idx) : iblk0 V c 14 t x = (V c main_arg16 : S64.Idx → Elt F .f32) x := by
  unfold iblk0
  rw [View.read_apply]
  show V c main_arg16 _ = V c main_arg16 _
  congr 1
  funext a
  apply Fin.ext
  match a with
  | ⟨0, _⟩ => show win0_14.index t 0 * 64 + 1 * (x 0).val = (x 0).val; rw [(idxS14 t)]; omega

/-- Every element of the hidden state is in the block of the last point of its row block. -/
theorem cover0_arr (i : S4096x64.Idx) :
    ∃ t : Fin cfg0.N, (cfg0.win 15).flush t = true ∧ i ∈ ((cfg0.win 15).blk t).view.set := by
  have h0 : (i 0).val < 4096 := (i 0).isLt
  have h1 : (i 1).val < 64 := (i 1).isLt
  obtain ⟨t, ht⟩ : ∃ t : Fin cfg0.N, t.val = ((i 0).val / 1024) * 8 + 7 :=
    ⟨⟨((i 0).val / 1024) * 8 + 7, by rw [show cfg0.N = 32 from N_0]; omega⟩, rfl⟩
  have ht8 : t.val / 8 = (i 0).val / 1024 := by omega
  have ht8' : t.val % 8 = 7 := by omega
  refine ⟨t, (flush0_15 t).mpr ht8', ?_⟩
  show i ∈ ((View.whole main_v4).slice (win0_15.rect t)).set
  rw [View.set_slice_whole, Rect.mem_set_unit]
  intro a
  match a with
  | ⟨0, _⟩ =>
    show win0_15.index t 0 * 1024 ≤ (i 0).val ∧ (i 0).val < win0_15.index t 0 * 1024 + 1024
    rw [(index0_o t).1, ht8]; omega
  | ⟨1, _⟩ =>
    show win0_15.index t 1 * 64 ≤ (i 1).val ∧ (i 1).val < win0_15.index t 1 * 64 + 64
    rw [(index0_o t).2]; omega

end

end Cert.KernelIdeal.Hand

end
-- ==== Proof.K0AccFormI.lean ====
/-
  What each case of the input projection kernel leaves in the accumulator, as a formula.

  At every point the accumulator ends at the accumulation step applied to x's staging buffer, in_W's block and the
  accumulator the step found: the zero splat just stored when k = 0, what the point before left otherwise.
-/
import proofs.«111399_j53506702573937_2_alg».proof.Proof.K0IndepI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem accA_eq (c : Dev nD) (i : grid0.Coords) (arg2 : Memref sig .tc .vmem S1024x2560 .f32) (harg2 : arg2.IsWhole) (arg3 : Memref sig .tc .vmem S64x2560 .bf16) (harg3 : arg3.IsWhole) (arg4 : Memref sig .tc .vmem S64 .f32) (harg4 : arg4.IsWhole) (arg5 : Memref sig .tc .vmem S3x64x64 .f32) (harg5 : arg5.IsWhole) (arg6 : Memref sig .tc .vmem S3x64 .f32) (harg6 : arg6.IsWhole) (arg7 : Memref sig .tc .vmem S3x64x64 .f32) (harg7 : arg7.IsWhole) (arg8 : Memref sig .tc .vmem S3x64 .f32) (harg8 : arg8.IsWhole) (arg9 : Memref sig .tc .vmem S3x64x64 .f32) (harg9 : arg9.IsWhole) (arg10 : Memref sig .tc .vmem S3x64 .f32) (harg10 : arg10.IsWhole) (arg11 : Memref sig .tc .vmem S3x64x64 .f32) (harg11 : arg11.IsWhole) (arg12 : Memref sig .tc .vmem S3x64 .f32) (harg12 : arg12.IsWhole) (arg13 : Memref sig .tc .vmem S128x64 .f32) (harg13 : arg13.IsWhole) (arg14 : Memref sig .tc .vmem S128 .f32) (harg14 : arg14.IsWhole) (arg15 : Memref sig .tc .vmem S64x128 .f32) (harg15 : arg15.IsWhole) (arg16 : Memref sig .tc .vmem S64 .f32) (harg16 : arg16.IsWhole) (arg17 : Memref sig .tc .vmem S1024x64 .f32) (harg17 : arg17.IsWhole) (arg18 : Memref sig .tc .vmem S1024x64 .f32) (harg18 : arg18.IsWhole) (hc0 : condReset i) (hc1 : ¬condLast i) (x0 : Vec F S1024x2560 .f32) (x1 : Vec F S64x2560 .bf16) (x2 : Vec F S64 .f32) (x3 : Vec F S3x64x64 .f32) (x4 : Vec F S3x64 .f32) (x5 : Vec F S3x64x64 .f32) (x6 : Vec F S3x64 .f32) (x7 : Vec F S3x64x64 .f32) (x8 : Vec F S3x64 .f32) (x9 : Vec F S3x64x64 .f32) (x10 : Vec F S3x64 .f32) (x11 : Vec F S128x64 .f32) (x12 : Vec F S128 .f32) (x13 : Vec F S64x128 .f32) (x14 : Vec F S64 .f32) :
    View.canon (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14).1 = k0_pay2 i x0 x1 (k0_pay1 (F := F)) := by
  unfold kernelRunA
  dsimp only
  sl_unfold_run_names
  rw [readWhole arg2 harg2 hz2, readWhole arg3 harg3 hz2]
  refine (View.canon_cons_unit_zero (S := S1024x64) hz2 _ _ _).trans ?_
  rw [View.readCov_unit_zero (S := S1024x64) arg18.view hz2]

theorem accB_eq (c : Dev nD) (i : grid0.Coords) (arg2 : Memref sig .tc .vmem S1024x2560 .f32) (harg2 : arg2.IsWhole) (arg3 : Memref sig .tc .vmem S64x2560 .bf16) (harg3 : arg3.IsWhole) (arg4 : Memref sig .tc .vmem S64 .f32) (harg4 : arg4.IsWhole) (arg5 : Memref sig .tc .vmem S3x64x64 .f32) (harg5 : arg5.IsWhole) (arg6 : Memref sig .tc .vmem S3x64 .f32) (harg6 : arg6.IsWhole) (arg7 : Memref sig .tc .vmem S3x64x64 .f32) (harg7 : arg7.IsWhole) (arg8 : Memref sig .tc .vmem S3x64 .f32) (harg8 : arg8.IsWhole) (arg9 : Memref sig .tc .vmem S3x64x64 .f32) (harg9 : arg9.IsWhole) (arg10 : Memref sig .tc .vmem S3x64 .f32) (harg10 : arg10.IsWhole) (arg11 : Memref sig .tc .vmem S3x64x64 .f32) (harg11 : arg11.IsWhole) (arg12 : Memref sig .tc .vmem S3x64 .f32) (harg12 : arg12.IsWhole) (arg13 : Memref sig .tc .vmem S128x64 .f32) (harg13 : arg13.IsWhole) (arg14 : Memref sig .tc .vmem S128 .f32) (harg14 : arg14.IsWhole) (arg15 : Memref sig .tc .vmem S64x128 .f32) (harg15 : arg15.IsWhole) (arg16 : Memref sig .tc .vmem S64 .f32) (harg16 : arg16.IsWhole) (arg17 : Memref sig .tc .vmem S1024x64 .f32) (harg17 : arg17.IsWhole) (arg18 : Memref sig .tc .vmem S1024x64 .f32) (harg18 : arg18.IsWhole) (hc0 : ¬condReset i) (hc1 : ¬condLast i) (x0 : Vec F S1024x2560 .f32) (x1 : Vec F S64x2560 .bf16) (x2 : Vec F S64 .f32) (x3 : Vec F S3x64x64 .f32) (x4 : Vec F S3x64 .f32) (x5 : Vec F S3x64x64 .f32) (x6 : Vec F S3x64 .f32) (x7 : Vec F S3x64x64 .f32) (x8 : Vec F S3x64 .f32) (x9 : Vec F S3x64x64 .f32) (x10 : Vec F S3x64 .f32) (x11 : Vec F S128x64 .f32) (x12 : Vec F S128 .f32) (x13 : Vec F S64x128 .f32) (x14 : Vec F S64 .f32) (xs0 : Vec F S1024x64 .f32) :
    View.canon (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).1 = k0_pay2 i x0 x1 xs0 := by
  unfold kernelRunB
  dsimp only
  rw [readWhole arg2 harg2 hz2, readWhole arg3 harg3 hz2, readWhole arg18 harg18 hz2]
  exact View.canon_cons_unit_zero (S := S1024x64) hz2 _ _ _

theorem accC_eq (c : Dev nD) (i : grid0.Coords) (arg2 : Memref sig .tc .vmem S1024x2560 .f32) (harg2 : arg2.IsWhole) (arg3 : Memref sig .tc .vmem S64x2560 .bf16) (harg3 : arg3.IsWhole) (arg4 : Memref sig .tc .vmem S64 .f32) (harg4 : arg4.IsWhole) (arg5 : Memref sig .tc .vmem S3x64x64 .f32) (harg5 : arg5.IsWhole) (arg6 : Memref sig .tc .vmem S3x64 .f32) (harg6 : arg6.IsWhole) (arg7 : Memref sig .tc .vmem S3x64x64 .f32) (harg7 : arg7.IsWhole) (arg8 : Memref sig .tc .vmem S3x64 .f32) (harg8 : arg8.IsWhole) (arg9 : Memref sig .tc .vmem S3x64x64 .f32) (harg9 : arg9.IsWhole) (arg10 : Memref sig .tc .vmem S3x64 .f32) (harg10 : arg10.IsWhole) (arg11 : Memref sig .tc .vmem S3x64x64 .f32) (harg11 : arg11.IsWhole) (arg12 : Memref sig .tc .vmem S3x64 .f32) (harg12 : arg12.IsWhole) (arg13 : Memref sig .tc .vmem S128x64 .f32) (harg13 : arg13.IsWhole) (arg14 : Memref sig .tc .vmem S128 .f32) (harg14 : arg14.IsWhole) (arg15 : Memref sig .tc .vmem S64x128 .f32) (harg15 : arg15.IsWhole) (arg16 : Memref sig .tc .vmem S64 .f32) (harg16 : arg16.IsWhole) (arg17 : Memref sig .tc .vmem S1024x64 .f32) (harg17 : arg17.IsWhole) (arg18 : Memref sig .tc .vmem S1024x64 .f32) (harg18 : arg18.IsWhole) (hc0 : ¬condReset i) (hc1 : condLast i) (x0 : Vec F S1024x2560 .f32) (x1 : Vec F S64x2560 .bf16) (x2 : Vec F S64 .f32) (x3 : Vec F S3x64x64 .f32) (x4 : Vec F S3x64 .f32) (x5 : Vec F S3x64x64 .f32) (x6 : Vec F S3x64 .f32) (x7 : Vec F S3x64x64 .f32) (x8 : Vec F S3x64 .f32) (x9 : Vec F S3x64x64 .f32) (x10 : Vec F S3x64 .f32) (x11 : Vec F S128x64 .f32) (x12 : Vec F S128 .f32) (x13 : Vec F S64x128 .f32) (x14 : Vec F S64 .f32) (xs0 : Vec F S1024x64 .f32) :
    View.canon (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).2.1 = k0_pay2 i x0 x1 xs0 := by
  unfold kernelRunC
  dsimp only
  sl_unfold_run_names
  rw [readWhole arg2 harg2 hz2, readWhole arg3 harg3 hz2, readWhole arg18 harg18 hz2]
  exact View.canon_cons_unit_zero (S := S1024x64) hz2 _ _ _

end Cert.KernelIdeal.Hand

end
-- ==== Proof.Spec.lean ====
/-
  What the network computes, index by index, on the extended reals.

  A batch row p of x (20000 features) is projected to 64 hidden units; three layers follow, each forming three affine
  images q, k, v of the hidden row, the scalar s = q·k, the row s·v, an affine image of that row, and a residual
  add; then a two-layer feed-forward part (64 → 128, max with 0, 128 → 64) with a residual add; and last the
  affine map back to 20000 features.  Every weight matrix is applied transposed: entry (j, k) of the matrix multiplies
  hidden unit k in output unit j.  No program is mentioned here: both programs are shown to compute `net`.
-/
import Idealize.ShloMosaic.PureOps.Ideal
import Idealize.ShloMosaic.Lib.ValueIdx

noncomputable section

namespace Cert.Spec

open Idealize.ShloMosaic Idealize.ShloMosaic.ValueIdx

/-- Arrays of extended reals over the shapes the programs use. -/
abbrev Arr1 (a : Nat) := (⟨1, ![a]⟩ : Shape).Idx → EReal
abbrev Arr2 (a b : Nat) := (⟨2, ![a, b]⟩ : Shape).Idx → EReal
abbrev Arr3 (a b c : Nat) := (⟨3, ![a, b, c]⟩ : Shape).Idx → EReal

/-- A hidden state: 4096 rows of 64 units. -/
abbrev Hid := Fin 4096 → Fin 64 → EReal

/-- An affine image of a hidden row by slice `l` of a stacked 64×64 weight (applied transposed) and bias. -/
def affL (W : Arr3 3 64 64) (b : Arr2 3 64) (l : Fin 3) (h : Hid) : Hid :=
  fun p j => (∑ k : Fin 64, h p k * W (ix3 l j k)) + b (ix2 l j)

/-- The input projection: x · in_Wᵀ + in_b. -/
def hin (x : Arr2 4096 20000) (inW : Arr2 64 20000) (inb : Arr1 64) : Hid :=
  fun p j => (∑ g : Fin 20000, x (ix2 p g) * inW (ix2 j g)) + inb (ix1 j)

/-- One layer: with q, k, v the three affine images of `h`, the row (q·k) v mapped by the fourth affine map, plus `h`. -/
def layer (qW : Arr3 3 64 64) (qb : Arr2 3 64) (kW : Arr3 3 64 64) (kb : Arr2 3 64) (vW : Arr3 3 64 64) (vb : Arr2 3 64)
    (oW : Arr3 3 64 64) (ob : Arr2 3 64) (l : Fin 3) (h : Hid) : Hid :=
  fun p j => affL oW ob l (fun p' j' => (∑ u : Fin 64, affL qW qb l h p' u * affL kW kb l h p' u) * affL vW vb l h p' j') p j + h p j

/-- The feed-forward part: 64 → 128 affine, max with 0, 128 → 64 affine, plus `h`. -/
def ffn (f1W : Arr2 128 64) (f1b : Arr1 128) (f2W : Arr2 64 128) (f2b : Arr1 64) (h : Hid) : Hid :=
  fun p j => ((∑ u : Fin 128, max ((∑ k : Fin 64, h p k * f1W (ix2 u k)) + f1b (ix1 u)) 0 * f2W (ix2 j u)) + f2b (ix1 j)) + h p j

/-- The hidden state after the input projection, the three layers and the feed-forward part. -/
def hidden (x : Arr2 4096 20000) (inW : Arr2 64 20000) (inb : Arr1 64)
    (qW : Arr3 3 64 64) (qb : Arr2 3 64) (kW : Arr3 3 64 64) (kb : Arr2 3 64) (vW : Arr3 3 64 64) (vb : Arr2 3 64)
    (oW : Arr3 3 64 64) (ob : Arr2 3 64) (f1W : Arr2 128 64) (f1b : Arr1 128) (f2W : Arr2 64 128) (f2b : Arr1 64) : Hid :=
  ffn f1W f1b f2W f2b (layer qW qb kW kb vW vb oW ob 2 (layer qW qb kW kb vW vb oW ob 1 (layer qW qb kW kb vW vb oW ob 0 (hin x inW inb))))

/-- The output projection of a hidden state: h · outWᵀ + outb. -/
def outp (outW : Arr2 20000 64) (outb : Arr1 20000) (h : Hid) : Fin 4096 → Fin 20000 → EReal :=
  fun p g => (∑ k : Fin 64, h p k * outW (ix2 g k)) + outb (ix1 g)

/-- The whole network. -/
def net (x : Arr2 4096 20000) (inW : Arr2 64 20000) (inb : Arr1 64)
    (qW : Arr3 3 64 64) (qb : Arr2 3 64) (kW : Arr3 3 64 64) (kb : Arr2 3 64) (vW : Arr3 3 64 64) (vb : Arr2 3 64)
    (oW : Arr3 3 64 64) (ob : Arr2 3 64) (f1W : Arr2 128 64) (f1b : Arr1 128) (f2W : Arr2 64 128) (f2b : Arr1 64)
    (outW : Arr2 20000 64) (outb : Arr1 20000) : Fin 4096 → Fin 20000 → EReal :=
  outp outW outb (hidden x inW inb qW qb kW kb vW vb oW ob f1W f1b f2W f2b)

end Cert.Spec

end
-- ==== Proof.SpecRow.lean ====
/-
  The network row by row.

  Every step after the input projection treats the 4096 batch rows independently: a row of 64 hidden units goes
  through the three layers and the feed-forward part with no reference to any other row.  The row maps are stated
  here, and the hidden state of the specification is the row map applied to each row of the input projection.
-/
import proofs.«111399_j53506702573937_2_alg».proof.Proof.Spec

noncomputable section

namespace Cert.Spec

open Idealize.ShloMosaic Idealize.ShloMosaic.ValueIdx

/-- A row of hidden units. -/
abbrev Row := Fin 64 → EReal

def rowAff (W : Arr3 3 64 64) (b : Arr2 3 64) (l : Fin 3) (v : Row) : Row :=
  fun j => (∑ k : Fin 64, v k * W (ix3 l j k)) + b (ix2 l j)

def rowLayer (qW : Arr3 3 64 64) (qb : Arr2 3 64) (kW : Arr3 3 64 64) (kb : Arr2 3 64) (vW : Arr3 3 64 64) (vb : Arr2 3 64)
    (oW : Arr3 3 64 64) (ob : Arr2 3 64) (l : Fin 3) (v : Row) : Row :=
  fun j => rowAff oW ob l (fun j' => (∑ u : Fin 64, rowAff qW qb l v u * rowAff kW kb l v u) * rowAff vW vb l v j') j + v j

def rowFfn (f1W : Arr2 128 64) (f1b : Arr1 128) (f2W : Arr2 64 128) (f2b : Arr1 64) (v : Row) : Row :=
  fun j => ((∑ u : Fin 128, max ((∑ k : Fin 64, v k * f1W (ix2 u k)) + f1b (ix1 u)) 0 * f2W (ix2 j u)) + f2b (ix1 j)) + v j

/-- A row through the three layers and the feed-forward part. -/
def rowHidden (qW : Arr3 3 64 64) (qb : Arr2 3 64) (kW : Arr3 3 64 64) (kb : Arr2 3 64) (vW : Arr3 3 64 64) (vb : Arr2 3 64)
    (oW : Arr3 3 64 64) (ob : Arr2 3 64) (f1W : Arr2 128 64) (f1b : Arr1 128) (f2W : Arr2 64 128) (f2b : Arr1 64) (v : Row) : Row :=
  rowFfn f1W f1b f2W f2b (rowLayer qW qb kW kb vW vb oW ob 2 (rowLayer qW qb kW kb vW vb oW ob 1 (rowLayer qW qb kW kb vW vb oW ob 0 v)))

theorem layer_row (qW : Arr3 3 64 64) (qb : Arr2 3 64) (kW : Arr3 3 64 64) (kb : Arr2 3 64) (vW : Arr3 3 64 64) (vb : Arr2 3 64)
    (oW : Arr3 3 64 64) (ob : Arr2 3 64) (l : Fin 3) (h : Hid) (p : Fin 4096) :
    layer qW qb kW kb vW vb oW ob l h p = rowLayer qW qb kW kb vW vb oW ob l (h p) := rfl

theorem ffn_row (f1W : Arr2 128 64) (f1b : Arr1 128) (f2W : Arr2 64 128) (f2b : Arr1 64) (h : Hid) (p : Fin 4096) :
    ffn f1W f1b f2W f2b h p = rowFfn f1W f1b f2W f2b (h p) := rfl

/-- The hidden state is the row map applied to each row of the input projection. -/
theorem hidden_row (x : Arr2 4096 20000) (inW : Arr2 64 20000) (inb : Arr1 64)
    (qW : Arr3 3 64 64) (qb : Arr2 3 64) (kW : Arr3 3 64 64) (kb : Arr2 3 64) (vW : Arr3 3 64 64) (vb : Arr2 3 64)
    (oW : Arr3 3 64 64) (ob : Arr2 3 64) (f1W : Arr2 128 64) (f1b : Arr1 128) (f2W : Arr2 64 128) (f2b : Arr1 64) (p : Fin 4096) :
    hidden x inW inb qW qb kW kb vW vb oW ob f1W f1b f2W f2b p
      = rowHidden qW qb kW kb vW vb oW ob f1W f1b f2W f2b (hin x inW inb p) := rfl

end Cert.Spec

end
-- ==== Proof.K0EpiI.lean ====
/-
  The last step of the first kernel, row by row.

  At the last column block of a row block the first kernel has the finished input projection (without its bias) in
  its 1024×64 accumulator.  It adds the bias, runs the three layers and the feed-forward part on the block and stores
  the result.  Every operation of that chain treats the 1024 rows independently: a product with a 64×64 (or 128×64,
  64×128) weight contracts over a row's units, a sum over axis 1 is a row's sum, a bias is copied down the rows.  So the
  stored block, read at row r, is the specification's row map applied to row r of the accumulator plus the bias.
-/
import proofs.«111399_j53506702573937_2_alg».proof.Proof.Gen.KernelIdeal.Skeleton
import proofs.«111399_j53506702573937_2_alg».proof.Proof.SpecRow
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## The chain of payloads -/

section Chain

variable {F : FTy → Type} [FloatOps F]

/-- The rectangles the chain loads through: the whole bias, feed-forward weight and feed-forward bias buffers, and slice
    0, 1 or 2 of a stacked 3×64×64 weight or 3×64 bias. -/
abbrev r64 : Rect S64 := Rect.unit (s := S64) ![0] S64.size inb_S64_S64_0
abbrev r128 : Rect S128 := Rect.unit (s := S128) ![0] S128.size inb_S128_S128_0
abbrev r128x64 : Rect S128x64 := Rect.unit (s := S128x64) ![0, 0] S128x64.size inb_S128x64_S128x64_0_0
abbrev r64x128 : Rect S64x128 := Rect.unit (s := S64x128) ![0, 0] S64x128.size inb_S64x128_S64x128_0_0
abbrev rW0 : Rect S3x64x64 := Rect.unit (s := S3x64x64) ![0, 0, 0] S1x64x64.size inb_S3x64x64_S1x64x64_0_0_0
abbrev rW1 : Rect S3x64x64 := Rect.unit (s := S3x64x64) ![1, 0, 0] S1x64x64.size inb_S3x64x64_S1x64x64_1_0_0
abbrev rW2 : Rect S3x64x64 := Rect.unit (s := S3x64x64) ![2, 0, 0] S1x64x64.size inb_S3x64x64_S1x64x64_2_0_0
abbrev rb0 : Rect S3x64 := Rect.unit (s := S3x64) ![0, 0] S1x64.size inb_S3x64_S1x64_0_0
abbrev rb1 : Rect S3x64 := Rect.unit (s := S3x64) ![1, 0] S1x64.size inb_S3x64_S1x64_1_0
abbrev rb2 : Rect S3x64 := Rect.unit (s := S3x64) ![2, 0] S1x64.size inb_S3x64_S1x64_2_0

/-- What the last column block's step stores, from the finished accumulator block and the weight buffers: the bias
    added, layer 0, layer 1, layer 2, the feed-forward part. -/
def epi (acc : Vec F S1024x64 .f32) (x2 : Vec F S64 .f32) (x3 : Vec F S3x64x64 .f32) (x4 : Vec F S3x64 .f32)
    (x5 : Vec F S3x64x64 .f32) (x6 : Vec F S3x64 .f32) (x7 : Vec F S3x64x64 .f32) (x8 : Vec F S3x64 .f32)
    (x9 : Vec F S3x64x64 .f32) (x10 : Vec F S3x64 .f32) (x11 : Vec F S128x64 .f32) (x12 : Vec F S128 .f32)
    (x13 : Vec F S64x128 .f32) (x14 : Vec F S64 .f32) : Vec F S1024x64 .f32 :=
  let v27 : FVec F S1024x64 .f32 := k0_pay4 acc (View.ld x2 r64)
  let v60 : FVec F S1024x64 .f32 := k0_pay5 acc (View.ld x2 r64) (View.ld x3 rW0) (View.ld x4 rb0) (View.ld x5 rW0) (View.ld x6 rb0)
    (View.ld x7 rW0) (View.ld x8 rb0)
  let v71 : FVec F S1024x64 .f32 := k0_pay6 v27 v60 (View.ld x9 rW0) (View.ld x10 rb0)
  let v81 : FVec F S1024x64 .f32 := k0_pay8 v27 v60 (View.ld x9 rW0) (View.ld x10 rb0) (View.ld x3 rW1) (View.ld x4 rb1)
  let v90 : FVec F S1024x64 .f32 := k0_pay9 v27 v60 (View.ld x9 rW0) (View.ld x10 rb0) (View.ld x5 rW1) (View.ld x6 rb1)
  let v94 : FVec F S1024x64 .f32 := k0_pay10 v27 v60 (View.ld x9 rW0) (View.ld x10 rb0) (View.ld x7 rW1)
  let v96 : FVec F S64 .f32 := k0_pay11 (View.ld x8 rb1)
  let v115 : FVec F S1024x64 .f32 := k0_pay12 v71 v81 v90 v94 v96 (View.ld x9 rW1) (View.ld x10 rb1)
  let v116 : FVec F S1024x64 .bf16 := k0_pay13 v71 v81 v90 v94 v96 (View.ld x9 rW1) (View.ld x10 rb1)
  let v125 : FVec F S1024x64 .f32 := k0_pay14 v71 v81 v90 v94 v96 (View.ld x9 rW1) (View.ld x10 rb1) (View.ld x3 rW2) (View.ld x4 rb2)
  let v134 : FVec F S1024x64 .f32 := k0_pay15 v71 v81 v90 v94 v96 (View.ld x9 rW1) (View.ld x10 rb1) (View.ld x5 rW2) (View.ld x6 rb2)
  let v159 : FVec F S1024x64 .f32 := k0_pay16 v115 v116 v125 v134 (View.ld x7 rW2) (View.ld x8 rb2) (View.ld x9 rW2) (View.ld x10 rb2)
  let v173 : FVec F S1024x64 .f32 := k0_pay17 v115 v116 v125 v134 (View.ld x7 rW2) (View.ld x8 rb2) (View.ld x9 rW2) (View.ld x10 rb2)
    (View.ld x11 r128x64) (View.ld x12 r128) (View.ld x13 r64x128)
  let v175 : FVec F S1x64 .f32 := k0_pay18 (View.ld x14 r64)
  k0_pay3 v159 v173 v175

end Chain

end Cert.KernelIdeal.Hand

end
-- ==== Proof.K0OutI.lean ====
/-
  What the last column block's step stores, as a formula: the epilogue chain applied to the finished accumulator.
-/
import proofs.«111399_j53506702573937_2_alg».proof.Proof.K0AccFormI
import proofs.«111399_j53506702573937_2_alg».proof.Proof.K0EpiI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem outC_eq (c : Dev nD) (i : grid0.Coords) (arg2 : Memref sig .tc .vmem S1024x2560 .f32) (harg2 : arg2.IsWhole) (arg3 : Memref sig .tc .vmem S64x2560 .bf16) (harg3 : arg3.IsWhole) (arg4 : Memref sig .tc .vmem S64 .f32) (harg4 : arg4.IsWhole) (arg5 : Memref sig .tc .vmem S3x64x64 .f32) (harg5 : arg5.IsWhole) (arg6 : Memref sig .tc .vmem S3x64 .f32) (harg6 : arg6.IsWhole) (arg7 : Memref sig .tc .vmem S3x64x64 .f32) (harg7 : arg7.IsWhole) (arg8 : Memref sig .tc .vmem S3x64 .f32) (harg8 : arg8.IsWhole) (arg9 : Memref sig .tc .vmem S3x64x64 .f32) (harg9 : arg9.IsWhole) (arg10 : Memref sig .tc .vmem S3x64 .f32) (harg10 : arg10.IsWhole) (arg11 : Memref sig .tc .vmem S3x64x64 .f32) (harg11 : arg11.IsWhole) (arg12 : Memref sig .tc .vmem S3x64 .f32) (harg12 : arg12.IsWhole) (arg13 : Memref sig .tc .vmem S128x64 .f32) (harg13 : arg13.IsWhole) (arg14 : Memref sig .tc .vmem S128 .f32) (harg14 : arg14.IsWhole) (arg15 : Memref sig .tc .vmem S64x128 .f32) (harg15 : arg15.IsWhole) (arg16 : Memref sig .tc .vmem S64 .f32) (harg16 : arg16.IsWhole) (arg17 : Memref sig .tc .vmem S1024x64 .f32) (harg17 : arg17.IsWhole) (arg18 : Memref sig .tc .vmem S1024x64 .f32) (harg18 : arg18.IsWhole) (hc0 : ¬condReset i) (hc1 : condLast i) (x0 : Vec F S1024x2560 .f32) (x1 : Vec F S64x2560 .bf16) (x2 : Vec F S64 .f32) (x3 : Vec F S3x64x64 .f32) (x4 : Vec F S3x64 .f32) (x5 : Vec F S3x64x64 .f32) (x6 : Vec F S3x64 .f32) (x7 : Vec F S3x64x64 .f32) (x8 : Vec F S3x64 .f32) (x9 : Vec F S3x64x64 .f32) (x10 : Vec F S3x64 .f32) (x11 : Vec F S128x64 .f32) (x12 : Vec F S128 .f32) (x13 : Vec F S64x128 .f32) (x14 : Vec F S64 .f32) (xs0 : Vec F S1024x64 .f32) :
    View.canon (kernelRunC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).1
      = epi (k0_pay2 i x0 x1 xs0) x2 x3 x4 x5 x6 x7 x8 x9 x10 x11 x12 x13 x14 := by
  unfold kernelRunC
  dsimp only
  sl_unfold_run_names
  refine (View.canon_unit_zero (S := S1024x64) hz2 _ _).trans ?_
  simp only [View.readAt_eq_ld, Memref.IsWhole.read_unread]
  rw [View.readCov_unit_zero (S := S1024x64) arg18.view hz2]
  rw [View.ld_unit_zero (S := S1024x2560) hz2, View.ld_unit_zero (S := S64x2560) hz2, View.ld_unit_zero (S := S1024x64) hz2]
  rfl

end Cert.KernelIdeal.Hand

end
-- ==== Proof.K0EpiApplyI.lean ====
/-
  The last step of the first kernel is the specification's row map.

  Each payload of the chain is read at an entry (r, j) of a 1024×64 block.  A product with a loaded 64×64 weight block
  into the zero accumulator is the sum over row r's 64 units against row j of the weight; a loaded bias block,
  flattened and restored and copied down the rows, contributes its entry j; the sum over axis 1 from zero, copied along the
  row, is row r's sum; a narrowing or widening of the format does nothing at the ideal values.  So every payload at row r
  is a function of row r of its operands alone.  A loaded slice l of a stacked weight is the stacked weight at (l, j, k), so
  the affine stage through loaded blocks is the specification's affine row map at slice l.  Composing the payloads in the
  order the kernel binds them gives the three layers and the feed-forward part of the row of the accumulator plus the bias.
-/
import proofs.«111399_j53506702573937_2_alg».proof.Proof.K0EpiI

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## The operations of the chain read at an index, at the ideal values -/

theorem mm_64_l0 (i : S1024x64.Idx) (q : dot_S1024x64_S64x64_S1024x64_1_1_0_0_n_n.contr.Idx) : (dot_S1024x64_S64x64_S1024x64_1_1_0_0_n_n.lhsIdx i q 0).val = (i 0).val := by
  unfold DotDims.lhsIdx
  rw [dif_neg (show ¬(0 : Fin S1024x64.rank) ∈ dot_S1024x64_S64x64_S1024x64_1_1_0_0_n_n.lhsBatch by decide), dif_pos (show (0 : Fin S1024x64.rank) ∈ dot_S1024x64_S64x64_S1024x64_1_1_0_0_n_n.lhsNonContracting by decide)]
  rfl
theorem mm_64_l1 (i : S1024x64.Idx) (q : dot_S1024x64_S64x64_S1024x64_1_1_0_0_n_n.contr.Idx) : (dot_S1024x64_S64x64_S1024x64_1_1_0_0_n_n.lhsIdx i q 1).val = (q ⟨0, by decide⟩).val :=
  dot_S1024x64_S64x64_S1024x64_1_1_0_0_n_n.lhsIdx_val_of_single rfl i q
theorem mm_64_r0 (i : S1024x64.Idx) (q : dot_S1024x64_S64x64_S1024x64_1_1_0_0_n_n.contr.Idx) : (dot_S1024x64_S64x64_S1024x64_1_1_0_0_n_n.rhsIdx i q 0).val = (i 1).val := by
  unfold DotDims.rhsIdx
  rw [dif_neg (show ¬(0 : Fin S64x64.rank) ∈ dot_S1024x64_S64x64_S1024x64_1_1_0_0_n_n.rhsBatch by decide), dif_pos (show (0 : Fin S64x64.rank) ∈ dot_S1024x64_S64x64_S1024x64_1_1_0_0_n_n.rhsNonContracting by decide)]
  rfl
theorem mm_64_r1 (i : S1024x64.Idx) (q : dot_S1024x64_S64x64_S1024x64_1_1_0_0_n_n.contr.Idx) : (dot_S1024x64_S64x64_S1024x64_1_1_0_0_n_n.rhsIdx i q 1).val = (q ⟨0, by decide⟩).val :=
  dot_S1024x64_S64x64_S1024x64_1_1_0_0_n_n.rhsIdx_val_of_single rfl i q

/-- A product with a transposed 64×64 weight into the zero accumulator: entry (r, j) sums over row r's 64 units. -/
theorem mm_64 (A : FVec Ideal S1024x64 .bf16) (B : FVec Ideal S64x64 .bf16) (r : Fin 1024) (j : Fin 64) :
    matmul dot_S1024x64_S64x64_S1024x64_1_1_0_0_n_n none A B (constant (F := Ideal) S1024x64 .f32 0x00000000#32) (ix2 r j)
      = ∑ k : Fin 64, A (ix2 r k) * B (ix2 j k) := by
  refine (Ideal.matmul_constant_zero_apply dot_S1024x64_S64x64_S1024x64_1_1_0_0_n_n none A B (ix2 r j)).trans ?_
  rw [← Equiv.sum_comp (contrEquiv1 dot_S1024x64_S64x64_S1024x64_1_1_0_0_n_n 64 rfl rfl).symm]
  refine Finset.sum_congr rfl fun k _ => ?_
  have hk := contrEquiv1_symm_val dot_S1024x64_S64x64_S1024x64_1_1_0_0_n_n 64 rfl rfl k
  have el : dot_S1024x64_S64x64_S1024x64_1_1_0_0_n_n.lhsIdx (ix2 r j) ((contrEquiv1 dot_S1024x64_S64x64_S1024x64_1_1_0_0_n_n 64 rfl rfl).symm k) = ix2 r k :=
    funext fun a => Fin.ext (by
      match a with
      | ⟨0, _⟩ => exact mm_64_l0 _ _
      | ⟨1, _⟩ => exact (mm_64_l1 _ _).trans hk)
  have er : dot_S1024x64_S64x64_S1024x64_1_1_0_0_n_n.rhsIdx (ix2 r j) ((contrEquiv1 dot_S1024x64_S64x64_S1024x64_1_1_0_0_n_n 64 rfl rfl).symm k) = ix2 j k :=
    funext fun a => Fin.ext (by
      match a with
      | ⟨0, _⟩ => exact mm_64_r0 _ _
      | ⟨1, _⟩ => exact (mm_64_r1 _ _).trans hk)
  rw [el, er]

theorem mm_128x64_l0 (i : S1024x128.Idx) (q : dot_S1024x64_S128x64_S1024x128_1_1_0_0_n_n.contr.Idx) : (dot_S1024x64_S128x64_S1024x128_1_1_0_0_n_n.lhsIdx i q 0).val = (i 0).val := by
  unfold DotDims.lhsIdx
  rw [dif_neg (show ¬(0 : Fin S1024x64.rank) ∈ dot_S1024x64_S128x64_S1024x128_1_1_0_0_n_n.lhsBatch by decide), dif_pos (show (0 : Fin S1024x64.rank) ∈ dot_S1024x64_S128x64_S1024x128_1_1_0_0_n_n.lhsNonContracting by decide)]
  rfl
theorem mm_128x64_l1 (i : S1024x128.Idx) (q : dot_S1024x64_S128x64_S1024x128_1_1_0_0_n_n.contr.Idx) : (dot_S1024x64_S128x64_S1024x128_1_1_0_0_n_n.lhsIdx i q 1).val = (q ⟨0, by decide⟩).val :=
  dot_S1024x64_S128x64_S1024x128_1_1_0_0_n_n.lhsIdx_val_of_single rfl i q
theorem mm_128x64_r0 (i : S1024x128.Idx) (q : dot_S1024x64_S128x64_S1024x128_1_1_0_0_n_n.contr.Idx) : (dot_S1024x64_S128x64_S1024x128_1_1_0_0_n_n.rhsIdx i q 0).val = (i 1).val := by
  unfold DotDims.rhsIdx
  rw [dif_neg (show ¬(0 : Fin S128x64.rank) ∈ dot_S1024x64_S128x64_S1024x128_1_1_0_0_n_n.rhsBatch by decide), dif_pos (show (0 : Fin S128x64.rank) ∈ dot_S1024x64_S128x64_S1024x128_1_1_0_0_n_n.rhsNonContracting by decide)]
  rfl
theorem mm_128x64_r1 (i : S1024x128.Idx) (q : dot_S1024x64_S128x64_S1024x128_1_1_0_0_n_n.contr.Idx) : (dot_S1024x64_S128x64_S1024x128_1_1_0_0_n_n.rhsIdx i q 1).val = (q ⟨0, by decide⟩).val :=
  dot_S1024x64_S128x64_S1024x128_1_1_0_0_n_n.rhsIdx_val_of_single rfl i q

/-- The same with a 128×64 weight: 128 outputs from 64 units. -/
theorem mm_128x64 (A : FVec Ideal S1024x64 .bf16) (B : FVec Ideal S128x64 .bf16) (r : Fin 1024) (j : Fin 128) :
    matmul dot_S1024x64_S128x64_S1024x128_1_1_0_0_n_n none A B (constant (F := Ideal) S1024x128 .f32 0x00000000#32) (ix2 r j)
      = ∑ k : Fin 64, A (ix2 r k) * B (ix2 j k) := by
  refine (Ideal.matmul_constant_zero_apply dot_S1024x64_S128x64_S1024x128_1_1_0_0_n_n none A B (ix2 r j)).trans ?_
  rw [← Equiv.sum_comp (contrEquiv1 dot_S1024x64_S128x64_S1024x128_1_1_0_0_n_n 64 rfl rfl).symm]
  refine Finset.sum_congr rfl fun k _ => ?_
  have hk := contrEquiv1_symm_val dot_S1024x64_S128x64_S1024x128_1_1_0_0_n_n 64 rfl rfl k
  have el : dot_S1024x64_S128x64_S1024x128_1_1_0_0_n_n.lhsIdx (ix2 r j) ((contrEquiv1 dot_S1024x64_S128x64_S1024x128_1_1_0_0_n_n 64 rfl rfl).symm k) = ix2 r k :=
    funext fun a => Fin.ext (by
      match a with
      | ⟨0, _⟩ => exact mm_128x64_l0 _ _
      | ⟨1, _⟩ => exact (mm_128x64_l1 _ _).trans hk)
  have er : dot_S1024x64_S128x64_S1024x128_1_1_0_0_n_n.rhsIdx (ix2 r j) ((contrEquiv1 dot_S1024x64_S128x64_S1024x128_1_1_0_0_n_n 64 rfl rfl).symm k) = ix2 j k :=
    funext fun a => Fin.ext (by
      match a with
      | ⟨0, _⟩ => exact mm_128x64_r0 _ _
      | ⟨1, _⟩ => exact (mm_128x64_r1 _ _).trans hk)
  rw [el, er]

theorem mm_64x128_l0 (i : S1024x64.Idx) (q : dot_S1024x128_S64x128_S1024x64_1_1_0_0_n_n.contr.Idx) : (dot_S1024x128_S64x128_S1024x64_1_1_0_0_n_n.lhsIdx i q 0).val = (i 0).val := by
  unfold DotDims.lhsIdx
  rw [dif_neg (show ¬(0 : Fin S1024x128.rank) ∈ dot_S1024x128_S64x128_S1024x64_1_1_0_0_n_n.lhsBatch by decide), dif_pos (show (0 : Fin S1024x128.rank) ∈ dot_S1024x128_S64x128_S1024x64_1_1_0_0_n_n.lhsNonContracting by decide)]
  rfl
theorem mm_64x128_l1 (i : S1024x64.Idx) (q : dot_S1024x128_S64x128_S1024x64_1_1_0_0_n_n.contr.Idx) : (dot_S1024x128_S64x128_S1024x64_1_1_0_0_n_n.lhsIdx i q 1).val = (q ⟨0, by decide⟩).val :=
  dot_S1024x128_S64x128_S1024x64_1_1_0_0_n_n.lhsIdx_val_of_single rfl i q
theorem mm_64x128_r0 (i : S1024x64.Idx) (q : dot_S1024x128_S64x128_S1024x64_1_1_0_0_n_n.contr.Idx) : (dot_S1024x128_S64x128_S1024x64_1_1_0_0_n_n.rhsIdx i q 0).val = (i 1).val := by
  unfold DotDims.rhsIdx
  rw [dif_neg (show ¬(0 : Fin S64x128.rank) ∈ dot_S1024x128_S64x128_S1024x64_1_1_0_0_n_n.rhsBatch by decide), dif_pos (show (0 : Fin S64x128.rank) ∈ dot_S1024x128_S64x128_S1024x64_1_1_0_0_n_n.rhsNonContracting by decide)]
  rfl
theorem mm_64x128_r1 (i : S1024x64.Idx) (q : dot_S1024x128_S64x128_S1024x64_1_1_0_0_n_n.contr.Idx) : (dot_S1024x128_S64x128_S1024x64_1_1_0_0_n_n.rhsIdx i q 1).val = (q ⟨0, by decide⟩).val :=
  dot_S1024x128_S64x128_S1024x64_1_1_0_0_n_n.rhsIdx_val_of_single rfl i q

/-- The same with a 64×128 weight: 64 outputs from 128 units. -/
theorem mm_64x128 (A : FVec Ideal S1024x128 .bf16) (B : FVec Ideal S64x128 .bf16) (r : Fin 1024) (j : Fin 64) :
    matmul dot_S1024x128_S64x128_S1024x64_1_1_0_0_n_n none A B (constant (F := Ideal) S1024x64 .f32 0x00000000#32) (ix2 r j)
      = ∑ k : Fin 128, A (ix2 r k) * B (ix2 j k) := by
  refine (Ideal.matmul_constant_zero_apply dot_S1024x128_S64x128_S1024x64_1_1_0_0_n_n none A B (ix2 r j)).trans ?_
  rw [← Equiv.sum_comp (contrEquiv1 dot_S1024x128_S64x128_S1024x64_1_1_0_0_n_n 128 rfl rfl).symm]
  refine Finset.sum_congr rfl fun k _ => ?_
  have hk := contrEquiv1_symm_val dot_S1024x128_S64x128_S1024x64_1_1_0_0_n_n 128 rfl rfl k
  have el : dot_S1024x128_S64x128_S1024x64_1_1_0_0_n_n.lhsIdx (ix2 r j) ((contrEquiv1 dot_S1024x128_S64x128_S1024x64_1_1_0_0_n_n 128 rfl rfl).symm k) = ix2 r k :=
    funext fun a => Fin.ext (by
      match a with
      | ⟨0, _⟩ => exact mm_64x128_l0 _ _
      | ⟨1, _⟩ => exact (mm_64x128_l1 _ _).trans hk)
  have er : dot_S1024x128_S64x128_S1024x64_1_1_0_0_n_n.rhsIdx (ix2 r j) ((contrEquiv1 dot_S1024x128_S64x128_S1024x64_1_1_0_0_n_n 128 rfl rfl).symm k) = ix2 j k :=
    funext fun a => Fin.ext (by
      match a with
      | ⟨0, _⟩ => exact mm_64x128_r0 _ _
      | ⟨1, _⟩ => exact (mm_64x128_r1 _ _).trans hk)
  rw [el, er]

/-- A 1×64 bias block, flattened and restored, copied down the rows. -/
theorem bias_64 (b : Vec Ideal S1x64 .f32) (r : Fin 1024) (j : Fin 64) :
    broadcastTo S1024x64 (shapeCast S1x64 (shapeCast S64 b shapeCasts_S1x64_S64) shapeCasts_S64_S1x64) broadcasts_S1x64_S1024x64 (ix2 r j)
      = b (ix2 0 j) := by
  rw [shapeCast_shapeCast]
  exact broadcastTo_apply b broadcasts_S1x64_S1024x64 (ix2 r j) (ix2 0 j) (fun a => by
    match a with
    | ⟨0, _⟩ => rfl
    | ⟨1, _⟩ => rfl)

/-- A row's sum from zero, copied along the row. -/
theorem rowsum_64 (X : FVec Ideal S1024x64 .f32) (r : Fin 1024) (j : Fin 64) :
    broadcastTo S1024x64 (shapeCast S1024x1 (multiReduction (F := Ideal) .add [1] S1024 X 0x00000000#32 reduces_S1024x64_S1024 (.inl rfl) rfl)
      shapeCasts_S1024_S1024x1) broadcasts_S1024x1_S1024x64 (ix2 r j)
      = ∑ u : Fin 64, X (ix2 r u) := by
  refine (broadcastTo_apply _ broadcasts_S1024x1_S1024x64 (ix2 r j) (ix2 r 0) (fun a => by
    match a with
    | ⟨0, _⟩ => rfl
    | ⟨1, _⟩ => rfl)).trans ?_
  refine (shapeCast_apply _ shapeCasts_S1024_S1024x1 (ix2 r 0) (ix1 r) (by
    rw [Shape.rowMajor_val_one, Shape.rowMajor_val_two]; show r.val = r.val * 1 + 0; omega)).trans ?_
  refine (Ideal.multiReduction_add_single X 0x00000000#32 reduces_S1024x64_S1024 (.inl rfl) rfl (ix1 r)).trans ?_
  refine Finset.sum_congr rfl fun u _ => congrArg X (funext fun c => Fin.ext ?_)
  rw [Shape.Reduces.lift_val]
  match c with
  | ⟨0, _⟩ => rfl
  | ⟨1, _⟩ => rfl

/-! ## Rows through loaded blocks -/

/-- An affine image of a row by a loaded 1×64×64 weight block (applied transposed) and 1×64 bias block. -/
def blkAff (W : Vec Ideal S1x64x64 .f32) (b : Vec Ideal S1x64 .f32) (v : Cert.Spec.Row) : Cert.Spec.Row :=
  fun j => (∑ k : Fin 64, v k * W (ix3 0 j k)) + b (ix2 0 j)

/-- A loaded weight block, its leading unit axis dropped and its entries taken as they are, read at (j, k). -/
theorem wblk_apply (W : Vec Ideal S1x64x64 .f32) (j k : Fin 64) :
    truncf (F := Ideal) .bf16 (shapeCast S64x64 W shapeCasts_S1x64x64_S64x64) bitsLt_bf16_f32 (ix2 j k) = W (ix3 0 j k) := by
  rw [truncf_apply]
  exact shapeCast_apply W shapeCasts_S1x64x64_S64x64 (ix2 j k) (ix3 0 j k) (by
    rw [Shape.rowMajor_val_two, Shape.rowMajor_val_three]
    show (0 * 64 + j.val) * 64 + k.val = j.val * 64 + k.val
    omega)

/-- The affine stage of the chain: a product with a loaded weight block into zero, plus the loaded bias block copied down
    the rows, is the affine image of the row. -/
theorem aff_apply (h : FVec Ideal S1024x64 .bf16) (W : Vec Ideal S1x64x64 .f32) (b : Vec Ideal S1x64 .f32) (r : Fin 1024) (j : Fin 64) :
    addf (matmul dot_S1024x64_S64x64_S1024x64_1_1_0_0_n_n none h (truncf .bf16 (shapeCast S64x64 W shapeCasts_S1x64x64_S64x64) bitsLt_bf16_f32)
        (constant (F := Ideal) S1024x64 .f32 0x00000000#32))
      (broadcastTo S1024x64 (shapeCast S1x64 (shapeCast S64 b shapeCasts_S1x64_S64) shapeCasts_S64_S1x64) broadcasts_S1x64_S1024x64) (ix2 r j)
      = blkAff W b (fun k => h (ix2 r k)) j := by
  rw [addf_apply, mm_64, bias_64]
  unfold blkAff
  refine congrArg (· + _) (Finset.sum_congr rfl fun k _ => ?_)
  rw [wblk_apply]

/-- A 64-vector bias given a leading unit axis and copied down the rows. -/
theorem bias1_64 (b : Vec Ideal S64 .f32) (r : Fin 1024) (j : Fin 64) :
    broadcastTo S1024x64 (shapeCast S1x64 b shapeCasts_S64_S1x64) broadcasts_S1x64_S1024x64 (ix2 r j) = b (ix1 j) := by
  refine (broadcastTo_apply _ broadcasts_S1x64_S1024x64 (ix2 r j) (ix2 0 j) (fun a => by
    match a with
    | ⟨0, _⟩ => rfl
    | ⟨1, _⟩ => rfl)).trans ?_
  exact shapeCast_apply b shapeCasts_S64_S1x64 (ix2 0 j) (ix1 j) (by
    rw [Shape.rowMajor_val_one, Shape.rowMajor_val_two]; show j.val = 0 * 64 + j.val; omega)

/-- A 1×64 block copied down the rows. -/
theorem bcast_1x64 (b : FVec Ideal S1x64 .f32) (r : Fin 1024) (j : Fin 64) :
    broadcastTo S1024x64 b broadcasts_S1x64_S1024x64 (ix2 r j) = b (ix2 0 j) :=
  broadcastTo_apply b broadcasts_S1x64_S1024x64 (ix2 r j) (ix2 0 j) (fun a => by
    match a with
    | ⟨0, _⟩ => rfl
    | ⟨1, _⟩ => rfl)

/-- A 128-vector bias given a leading unit axis and copied down the rows. -/
theorem bias1_128 (b : Vec Ideal S128 .f32) (r : Fin 1024) (u : Fin 128) :
    broadcastTo S1024x128 (shapeCast S1x128 b shapeCasts_S128_S1x128) broadcasts_S1x128_S1024x128 (ix2 r u) = b (ix1 u) := by
  refine (broadcastTo_apply _ broadcasts_S1x128_S1024x128 (ix2 r u) (ix2 0 u) (fun a => by
    match a with
    | ⟨0, _⟩ => rfl
    | ⟨1, _⟩ => rfl)).trans ?_
  exact shapeCast_apply b shapeCasts_S128_S1x128 (ix2 0 u) (ix1 u) (by
    rw [Shape.rowMajor_val_one, Shape.rowMajor_val_two]; show u.val = 0 * 128 + u.val; omega)

/-! ## The payloads at a row -/

section Payloads

variable (acc : Vec Ideal S1024x64 .f32) (b : Vec Ideal S64 .f32)
  (Wq : Vec Ideal S1x64x64 .f32) (bq : Vec Ideal S1x64 .f32) (Wk : Vec Ideal S1x64x64 .f32) (bk : Vec Ideal S1x64 .f32)
  (Wv : Vec Ideal S1x64x64 .f32) (bv : Vec Ideal S1x64 .f32) (Wo : Vec Ideal S1x64x64 .f32) (bo : Vec Ideal S1x64 .f32)
  (r : Fin 1024) (j : Fin 64)

/-- The accumulator plus the input bias. -/
theorem pay4_apply : k0_pay4 acc b (ix2 r j) = acc (ix2 r j) + b (ix1 j) := by
  simp only [k0_pay4]
  rw [addf_apply, bias1_64]

/-- Layer 0 up to the scaled third image. -/
theorem pay5_apply :
    k0_pay5 acc b Wq bq Wk bk Wv bv (ix2 r j)
      = (∑ u : Fin 64, blkAff Wq bq (fun k => k0_pay4 acc b (ix2 r k)) u * blkAff Wk bk (fun k => k0_pay4 acc b (ix2 r k)) u)
          * blkAff Wv bv (fun k => k0_pay4 acc b (ix2 r k)) j := by
  simp only [k0_pay5]
  rw [mulf_apply, rowsum_64, aff_apply]
  simp only [mulf_apply, aff_apply, truncf_apply]

variable (v27 v60 : FVec Ideal S1024x64 .f32)

/-- The fourth affine image of a block plus the residual block. -/
theorem pay6_apply :
    k0_pay6 v27 v60 Wo bo (ix2 r j) = blkAff Wo bo (fun k => v60 (ix2 r k)) j + v27 (ix2 r j) := by
  simp only [k0_pay6]
  rw [addf_apply, aff_apply]
  simp only [truncf_apply]

theorem pay7_apply (i : S1024x64.Idx) : k0_pay7 v27 v60 Wo bo i = k0_pay6 v27 v60 Wo bo i := rfl

/-- Layer 1's first and second affine images, of layer 0's result. -/
theorem pay8_apply :
    k0_pay8 v27 v60 Wo bo Wq bq (ix2 r j) = blkAff Wq bq (fun k => k0_pay6 v27 v60 Wo bo (ix2 r k)) j := by
  simp only [k0_pay8]
  rw [aff_apply]
  simp only [pay7_apply]

theorem pay9_apply :
    k0_pay9 v27 v60 Wo bo Wk bk (ix2 r j) = blkAff Wk bk (fun k => k0_pay6 v27 v60 Wo bo (ix2 r k)) j := by
  simp only [k0_pay9]
  rw [aff_apply]
  simp only [pay7_apply]

/-- Layer 1's third product, its bias still to be added. -/
theorem pay10_apply :
    k0_pay10 v27 v60 Wo bo Wv (ix2 r j) = ∑ k : Fin 64, k0_pay6 v27 v60 Wo bo (ix2 r k) * Wv (ix3 0 j k) := by
  simp only [k0_pay10]
  rw [mm_64]
  simp only [wblk_apply, pay7_apply]

theorem pay11_apply : k0_pay11 (F := Ideal) bv (ix1 j) = bv (ix2 0 j) := by
  simp only [k0_pay11]
  exact shapeCast_apply bv shapeCasts_S1x64_S64 (ix1 j) (ix2 0 j) (by
    rw [Shape.rowMajor_val_one, Shape.rowMajor_val_two]; show 0 * 64 + j.val = j.val; omega)

variable (v71 v81 v90 v94 : FVec Ideal S1024x64 .f32) (v96 : FVec Ideal S64 .f32)

/-- Layer 1's end: the scaled third image through the fourth affine map, plus layer 0's result. -/
theorem pay12_apply :
    k0_pay12 v71 v81 v90 v94 v96 Wo bo (ix2 r j)
      = blkAff Wo bo (fun k => (∑ u : Fin 64, v81 (ix2 r u) * v90 (ix2 r u)) * (v94 (ix2 r k) + v96 (ix1 k))) j + v71 (ix2 r j) := by
  simp only [k0_pay12]
  rw [addf_apply, aff_apply]
  refine congrArg (· + _) (congrArg (fun f => blkAff Wo bo f j) (funext fun k => ?_))
  rw [truncf_apply, mulf_apply, rowsum_64, addf_apply, bias1_64]
  simp only [mulf_apply]

theorem pay13_apply (i : S1024x64.Idx) : k0_pay13 v71 v81 v90 v94 v96 Wo bo i = k0_pay12 v71 v81 v90 v94 v96 Wo bo i := rfl

/-- Layer 2's first and second affine images, of layer 1's result. -/
theorem pay14_apply :
    k0_pay14 v71 v81 v90 v94 v96 Wo bo Wq bq (ix2 r j) = blkAff Wq bq (fun k => k0_pay12 v71 v81 v90 v94 v96 Wo bo (ix2 r k)) j := by
  simp only [k0_pay14]
  rw [aff_apply]
  simp only [pay13_apply]

theorem pay15_apply :
    k0_pay15 v71 v81 v90 v94 v96 Wo bo Wk bk (ix2 r j) = blkAff Wk bk (fun k => k0_pay12 v71 v81 v90 v94 v96 Wo bo (ix2 r k)) j := by
  simp only [k0_pay15]
  rw [aff_apply]
  simp only [pay13_apply]

variable (v115 : FVec Ideal S1024x64 .f32) (v116 : FVec Ideal S1024x64 .bf16) (v125 v134 : FVec Ideal S1024x64 .f32)

/-- Layer 2's end. -/
theorem pay16_apply :
    k0_pay16 v115 v116 v125 v134 Wv bv Wo bo (ix2 r j)
      = blkAff Wo bo (fun k => (∑ u : Fin 64, v125 (ix2 r u) * v134 (ix2 r u)) * blkAff Wv bv (fun k' => v116 (ix2 r k')) k) j
          + v115 (ix2 r j) := by
  simp only [k0_pay16]
  rw [addf_apply, aff_apply]
  refine congrArg (· + _) (congrArg (fun f => blkAff Wo bo f j) (funext fun k => ?_))
  rw [truncf_apply, mulf_apply, rowsum_64, aff_apply]
  simp only [mulf_apply]

variable (F1 : Vec Ideal S128x64 .f32) (f1b : Vec Ideal S128 .f32) (F2 : Vec Ideal S64x128 .f32)

/-- The feed-forward part up to its second product. -/
theorem pay17_apply :
    k0_pay17 v115 v116 v125 v134 Wv bv Wo bo F1 f1b F2 (ix2 r j)
      = ∑ u : Fin 128, max ((∑ k : Fin 64, k0_pay16 v115 v116 v125 v134 Wv bv Wo bo (ix2 r k) * F1 (ix2 u k)) + f1b (ix1 u)) 0
          * F2 (ix2 j u) := by
  simp only [k0_pay17]
  rw [mm_64x128]
  refine Finset.sum_congr rfl fun u _ => ?_
  rw [truncf_apply, truncf_apply, maximumf_apply, addf_apply, mm_128x64, bias1_128, broadcast_apply]
  simp only [truncf_apply]
  show max _ (Ideal.ofBits .f32 0x00000000#32) * _ = _
  rw [Ideal.ofBits_zero_f32]

theorem pay18_apply : k0_pay18 (F := Ideal) b (ix2 0 j) = b (ix1 j) := by
  simp only [k0_pay18]
  exact shapeCast_apply b shapeCasts_S64_S1x64 (ix2 0 j) (ix1 j) (by
    rw [Shape.rowMajor_val_one, Shape.rowMajor_val_two]; show j.val = 0 * 64 + j.val; omega)

variable (v159 v173 : FVec Ideal S1024x64 .f32) (v175 : FVec Ideal S1x64 .f32)

/-- The stored block: the second feed-forward product plus its bias plus layer 2's result. -/
theorem pay3_apply : k0_pay3 v159 v173 v175 (ix2 r j) = (v173 (ix2 r j) + v175 (ix2 0 j)) + v159 (ix2 r j) := by
  simp only [k0_pay3]
  rw [addf_apply, addf_apply, bcast_1x64]

end Payloads

/-! ## The loads -/

theorem ld_r64 (X : Vec Ideal S64 .f32) : View.ld X r64 = X :=
  View.ld_unit_zero (funext fun a => by match a with | ⟨0, _⟩ => rfl) inb_S64_S64_0 X
theorem ld_r128 (X : Vec Ideal S128 .f32) : View.ld X r128 = X :=
  View.ld_unit_zero (funext fun a => by match a with | ⟨0, _⟩ => rfl) inb_S128_S128_0 X
theorem ld_r128x64 (X : Vec Ideal S128x64 .f32) : View.ld X r128x64 = X :=
  View.ld_unit_zero (funext fun a => by match a with | ⟨0, _⟩ => rfl | ⟨1, _⟩ => rfl) inb_S128x64_S128x64_0_0 X
theorem ld_r64x128 (X : Vec Ideal S64x128 .f32) : View.ld X r64x128 = X :=
  View.ld_unit_zero (funext fun a => by match a with | ⟨0, _⟩ => rfl | ⟨1, _⟩ => rfl) inb_S64x128_S64x128_0_0 X

/-- Slice 0 of a stacked weight and of a stacked bias, loaded as blocks. -/
theorem ldW0_apply (X : Vec Ideal S3x64x64 .f32) (j k : Fin 64) : View.ld X rW0 (ix3 0 j k) = X (ix3 0 j k) :=
  congrArg X (funext fun a => Fin.ext (by
    match a with
    | ⟨0, _⟩ => rfl
    | ⟨1, _⟩ => show 0 + 1 * j.val = j.val; omega
    | ⟨2, _⟩ => show 0 + 1 * k.val = k.val; omega))
theorem ldb0_apply (Y : Vec Ideal S3x64 .f32) (j : Fin 64) : View.ld Y rb0 (ix2 0 j) = Y (ix2 0 j) :=
  congrArg Y (funext fun a => Fin.ext (by
    match a with
    | ⟨0, _⟩ => rfl
    | ⟨1, _⟩ => show 0 + 1 * j.val = j.val; omega))
theorem blkAff_ld0 (X : Vec Ideal S3x64x64 .f32) (Y : Vec Ideal S3x64 .f32) :
    blkAff (View.ld X rW0) (View.ld Y rb0) = Cert.Spec.rowAff X Y 0 := by
  funext v j
  unfold blkAff Cert.Spec.rowAff
  rw [ldb0_apply]
  refine congrArg (· + _) (Finset.sum_congr rfl fun k _ => ?_)
  rw [ldW0_apply]

/-- Slice 1 of a stacked weight and of a stacked bias, loaded as blocks. -/
theorem ldW1_apply (X : Vec Ideal S3x64x64 .f32) (j k : Fin 64) : View.ld X rW1 (ix3 0 j k) = X (ix3 1 j k) :=
  congrArg X (funext fun a => Fin.ext (by
    match a with
    | ⟨0, _⟩ => rfl
    | ⟨1, _⟩ => show 0 + 1 * j.val = j.val; omega
    | ⟨2, _⟩ => show 0 + 1 * k.val = k.val; omega))
theorem ldb1_apply (Y : Vec Ideal S3x64 .f32) (j : Fin 64) : View.ld Y rb1 (ix2 0 j) = Y (ix2 1 j) :=
  congrArg Y (funext fun a => Fin.ext (by
    match a with
    | ⟨0, _⟩ => rfl
    | ⟨1, _⟩ => show 0 + 1 * j.val = j.val; omega))
theorem blkAff_ld1 (X : Vec Ideal S3x64x64 .f32) (Y : Vec Ideal S3x64 .f32) :
    blkAff (View.ld X rW1) (View.ld Y rb1) = Cert.Spec.rowAff X Y 1 := by
  funext v j
  unfold blkAff Cert.Spec.rowAff
  rw [ldb1_apply]
  refine congrArg (· + _) (Finset.sum_congr rfl fun k _ => ?_)
  rw [ldW1_apply]

/-- Slice 2 of a stacked weight and of a stacked bias, loaded as blocks. -/
theorem ldW2_apply (X : Vec Ideal S3x64x64 .f32) (j k : Fin 64) : View.ld X rW2 (ix3 0 j k) = X (ix3 2 j k) :=
  congrArg X (funext fun a => Fin.ext (by
    match a with
    | ⟨0, _⟩ => rfl
    | ⟨1, _⟩ => show 0 + 1 * j.val = j.val; omega
    | ⟨2, _⟩ => show 0 + 1 * k.val = k.val; omega))
theorem ldb2_apply (Y : Vec Ideal S3x64 .f32) (j : Fin 64) : View.ld Y rb2 (ix2 0 j) = Y (ix2 2 j) :=
  congrArg Y (funext fun a => Fin.ext (by
    match a with
    | ⟨0, _⟩ => rfl
    | ⟨1, _⟩ => show 0 + 1 * j.val = j.val; omega))
theorem blkAff_ld2 (X : Vec Ideal S3x64x64 .f32) (Y : Vec Ideal S3x64 .f32) :
    blkAff (View.ld X rW2) (View.ld Y rb2) = Cert.Spec.rowAff X Y 2 := by
  funext v j
  unfold blkAff Cert.Spec.rowAff
  rw [ldb2_apply]
  refine congrArg (· + _) (Finset.sum_congr rfl fun k _ => ?_)
  rw [ldW2_apply]

/-! ## The chain at a row -/

open Cert.Spec in
/-- The stored block at row r is the specification's row map of row r of the accumulator plus the input bias. -/
theorem epi_apply (acc : Vec Ideal S1024x64 .f32) (x2 : Vec Ideal S64 .f32) (x3 : Vec Ideal S3x64x64 .f32) (x4 : Vec Ideal S3x64 .f32)
    (x5 : Vec Ideal S3x64x64 .f32) (x6 : Vec Ideal S3x64 .f32) (x7 : Vec Ideal S3x64x64 .f32) (x8 : Vec Ideal S3x64 .f32)
    (x9 : Vec Ideal S3x64x64 .f32) (x10 : Vec Ideal S3x64 .f32) (x11 : Vec Ideal S128x64 .f32) (x12 : Vec Ideal S128 .f32)
    (x13 : Vec Ideal S64x128 .f32) (x14 : Vec Ideal S64 .f32) (r : Fin 1024) (j : Fin 64) :
    epi (F := Ideal) acc x2 x3 x4 x5 x6 x7 x8 x9 x10 x11 x12 x13 x14 (ix2 r j)
      = rowHidden x3 x4 x5 x6 x7 x8 x9 x10 x11 x12 x13 x14 (fun k => acc (ix2 r k) + x2 (ix1 k)) j := by
  unfold epi
  generalize hv27 : k0_pay4 acc (View.ld x2 r64) = v27
  generalize hv60 : k0_pay5 acc (View.ld x2 r64) (View.ld x3 rW0) (View.ld x4 rb0) (View.ld x5 rW0) (View.ld x6 rb0)
    (View.ld x7 rW0) (View.ld x8 rb0) = v60
  generalize hv71 : k0_pay6 v27 v60 (View.ld x9 rW0) (View.ld x10 rb0) = v71
  generalize hv81 : k0_pay8 v27 v60 (View.ld x9 rW0) (View.ld x10 rb0) (View.ld x3 rW1) (View.ld x4 rb1) = v81
  generalize hv90 : k0_pay9 v27 v60 (View.ld x9 rW0) (View.ld x10 rb0) (View.ld x5 rW1) (View.ld x6 rb1) = v90
  generalize hv94 : k0_pay10 v27 v60 (View.ld x9 rW0) (View.ld x10 rb0) (View.ld x7 rW1) = v94
  generalize hv96 : k0_pay11 (View.ld x8 rb1) = v96
  generalize hv115 : k0_pay12 v71 v81 v90 v94 v96 (View.ld x9 rW1) (View.ld x10 rb1) = v115
  generalize hv116 : k0_pay13 v71 v81 v90 v94 v96 (View.ld x9 rW1) (View.ld x10 rb1) = v116
  generalize hv125 : k0_pay14 v71 v81 v90 v94 v96 (View.ld x9 rW1) (View.ld x10 rb1) (View.ld x3 rW2) (View.ld x4 rb2) = v125
  generalize hv134 : k0_pay15 v71 v81 v90 v94 v96 (View.ld x9 rW1) (View.ld x10 rb1) (View.ld x5 rW2) (View.ld x6 rb2) = v134
  generalize hv159 : k0_pay16 v115 v116 v125 v134 (View.ld x7 rW2) (View.ld x8 rb2) (View.ld x9 rW2) (View.ld x10 rb2) = v159
  generalize hv173 : k0_pay17 v115 v116 v125 v134 (View.ld x7 rW2) (View.ld x8 rb2) (View.ld x9 rW2) (View.ld x10 rb2)
    (View.ld x11 r128x64) (View.ld x12 r128) (View.ld x13 r64x128) = v173
  generalize hv175 : k0_pay18 (View.ld x14 r64) = v175
  -- the rows of the stages
  obtain ⟨row0, h0⟩ : ∃ row0 : Row, row0 = fun k => acc (ix2 r k) + x2 (ix1 k) := ⟨_, rfl⟩
  obtain ⟨row1, h1⟩ : ∃ row1 : Row, row1 = rowLayer x3 x4 x5 x6 x7 x8 x9 x10 0 row0 := ⟨_, rfl⟩
  obtain ⟨row2, h2⟩ : ∃ row2 : Row, row2 = rowLayer x3 x4 x5 x6 x7 x8 x9 x10 1 row1 := ⟨_, rfl⟩
  obtain ⟨row3, h3⟩ : ∃ row3 : Row, row3 = rowLayer x3 x4 x5 x6 x7 x8 x9 x10 2 row2 := ⟨_, rfl⟩
  have r27 : ∀ k, v27 (ix2 r k) = row0 k := fun k => by rw [← hv27, pay4_apply, ld_r64, h0]
  have r60 : ∀ k, v60 (ix2 r k) = (∑ u : Fin 64, rowAff x3 x4 0 row0 u * rowAff x5 x6 0 row0 u) * rowAff x7 x8 0 row0 k := fun k => by
    rw [← hv60, pay5_apply, hv27, blkAff_ld0, blkAff_ld0, blkAff_ld0]
    simp only [r27]
  have r71 : ∀ k, v71 (ix2 r k) = row1 k := fun k => by
    rw [← hv71, pay6_apply, blkAff_ld0, h1]
    simp only [r60, r27]
    rfl
  have r81 : ∀ k, v81 (ix2 r k) = rowAff x3 x4 1 row1 k := fun k => by
    rw [← hv81, pay8_apply, hv71, blkAff_ld1]
    simp only [r71]
  have r90 : ∀ k, v90 (ix2 r k) = rowAff x5 x6 1 row1 k := fun k => by
    rw [← hv90, pay9_apply, hv71, blkAff_ld1]
    simp only [r71]
  have r94 : ∀ k, v94 (ix2 r k) = ∑ k' : Fin 64, row1 k' * x7 (ix3 1 k k') := fun k => by
    rw [← hv94, pay10_apply, hv71]
    refine Finset.sum_congr rfl fun k' _ => ?_
    rw [r71, ldW1_apply]
  have r96 : ∀ k, v96 (ix1 k) = x8 (ix2 1 k) := fun k => by rw [← hv96, pay11_apply, ldb1_apply]
  have r115 : ∀ k, v115 (ix2 r k) = row2 k := fun k => by
    rw [← hv115, pay12_apply, blkAff_ld1, h2]
    simp only [r81, r90, r94, r96, r71]
    rfl
  have r116 : ∀ k, v116 (ix2 r k) = row2 k := fun k => by rw [← hv116, pay13_apply, hv115, r115]
  have r125 : ∀ k, v125 (ix2 r k) = rowAff x3 x4 2 row2 k := fun k => by
    rw [← hv125, pay14_apply, hv115, blkAff_ld2]
    simp only [r115]
  have r134 : ∀ k, v134 (ix2 r k) = rowAff x5 x6 2 row2 k := fun k => by
    rw [← hv134, pay15_apply, hv115, blkAff_ld2]
    simp only [r115]
  have r159 : ∀ k, v159 (ix2 r k) = row3 k := fun k => by
    rw [← hv159, pay16_apply, blkAff_ld2, blkAff_ld2, h3]
    simp only [r125, r134, r116, r115]
    rfl
  have r173 : ∀ k, v173 (ix2 r k)
      = ∑ u : Fin 128, max ((∑ k' : Fin 64, row3 k' * x11 (ix2 u k')) + x12 (ix1 u)) 0 * x13 (ix2 k u) := fun k => by
    rw [← hv173, pay17_apply, hv159, ld_r128x64, ld_r128, ld_r64x128]
    simp only [r159]
  have r175 : ∀ k, v175 (ix2 0 k) = x14 (ix1 k) := fun k => by rw [← hv175, pay18_apply, ld_r64]
  rw [pay3_apply, r173, r175, r159]
  unfold rowHidden rowFfn
  rw [← h0, ← h1, ← h2, ← h3]

end Cert.KernelIdeal.Hand

end
-- ==== Proof.K0AccI.lean ====
/-
  The input projection's accumulation step, entry by entry, on the extended reals.

  At the grid point (i, k) the kernel adds to its 1024×64 accumulator the product of a 1024×2560 block of x with a
  64×2560 block of the weights, contracted over the block's 2560 columns, after replacing by zero every entry of the
  x block whose column q is not below 20000 − 2560·k: the columns of the last block (k = 7) that lie past x's 20000
  columns.  Conversion to the 16-bit format does nothing on the extended reals.  So the step adds, at (r, j), the sum
  over q of x(r, q)·w(j, q) with the entries past the end dropped; and the splat stored at k = 0 is zero everywhere.
  The weight block comes from the weight matrix padded by the host with zero columns, read here entry by entry too.
-/
import proofs.«111399_j53506702573937_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.ValueIdx

/-- For k < 8 and a column q < 2560 the kernel's signed comparison "q < 20000 − 2560·k" on 32-bit words holds exactly
    when q + 2560·k < 20000 as natural numbers. -/
theorem maskWord : ∀ (k : Fin 8) (q : Fin 2560),
    (BitVec.ofNat 32 q.val).slt (20000#32 - BitVec.ofNat 32 k.val * 2560#32) = decide (q.val + 2560 * k.val < 20000) := by
  decide +kernel

/-- The splat stored when the accumulator is reset is zero at every entry. -/
theorem pay1_apply (r : Fin 1024) (j : Fin 64) : k0_pay1 (F := Ideal) (ix2 r j) = 0 := by
  unfold k0_pay1
  rw [shapeCast_self]
  exact Ideal.ofBits_zero_f32

/-- The operand indices of the block product at the result entry o and contraction position c: the x block is read
    at (row of o, c), the weight block at (column of o, c). -/
theorem accLhs0 (o : S1024x64.Idx) (c : dot_S1024x2560_S64x2560_S1024x64_1_1_0_0_n_n.contr.Idx) :
    (dot_S1024x2560_S64x2560_S1024x64_1_1_0_0_n_n.lhsIdx o c 0).val = (o 0).val := by
  unfold DotDims.lhsIdx
  rw [dif_neg (show ¬(0 : Fin S1024x2560.rank) ∈ dot_S1024x2560_S64x2560_S1024x64_1_1_0_0_n_n.lhsBatch by decide),
    dif_pos (show (0 : Fin S1024x2560.rank) ∈ dot_S1024x2560_S64x2560_S1024x64_1_1_0_0_n_n.lhsNonContracting by decide)]
  rfl
theorem accLhs1 (o : S1024x64.Idx) (c : dot_S1024x2560_S64x2560_S1024x64_1_1_0_0_n_n.contr.Idx) :
    (dot_S1024x2560_S64x2560_S1024x64_1_1_0_0_n_n.lhsIdx o c 1).val = (c ⟨0, by decide⟩).val :=
  dot_S1024x2560_S64x2560_S1024x64_1_1_0_0_n_n.lhsIdx_val_of_single rfl o c
theorem accRhs0 (o : S1024x64.Idx) (c : dot_S1024x2560_S64x2560_S1024x64_1_1_0_0_n_n.contr.Idx) :
    (dot_S1024x2560_S64x2560_S1024x64_1_1_0_0_n_n.rhsIdx o c 0).val = (o 1).val := by
  unfold DotDims.rhsIdx
  rw [dif_neg (show ¬(0 : Fin S64x2560.rank) ∈ dot_S1024x2560_S64x2560_S1024x64_1_1_0_0_n_n.rhsBatch by decide),
    dif_pos (show (0 : Fin S64x2560.rank) ∈ dot_S1024x2560_S64x2560_S1024x64_1_1_0_0_n_n.rhsNonContracting by decide)]
  rfl
theorem accRhs1 (o : S1024x64.Idx) (c : dot_S1024x2560_S64x2560_S1024x64_1_1_0_0_n_n.contr.Idx) :
    (dot_S1024x2560_S64x2560_S1024x64_1_1_0_0_n_n.rhsIdx o c 1).val = (c ⟨0, by decide⟩).val :=
  dot_S1024x2560_S64x2560_S1024x64_1_1_0_0_n_n.rhsIdx_val_of_single rfl o c

/-- The kernel's mask at row r and column q of block k: set exactly when q + 2560·k < 20000. -/
theorem maskAt (i : grid0.Coords) (r : Fin 1024) (q : Fin 2560) :
    cmpi CmpIPredicate.slt (iota Kind.tc S1024x2560 32 [1] iota_S1024x2560_d1_w32)
      (broadcast S1024x2560 (Scalar.subi (20000#32) (Scalar.muli (BitVec.ofNat 32 (i 1).val) 2560#32))) (ix2 r q)
      = BitVec.ofBool (decide (q.val + 2560 * (i 1).val < 20000)) := by
  show BitVec.ofBool ((BitVec.ofNat 32 (0 * 2560 + q.val)).slt (20000#32 - BitVec.ofNat 32 (i 1).val * 2560#32)) = _
  rw [Nat.zero_mul, Nat.zero_add, maskWord ⟨(i 1).val, (i 1).isLt⟩ q]

/-- The accumulation step at an entry: the old accumulator plus the sum over the block's columns of x times the
    weight, the columns past x's end dropped. -/
theorem pay2_apply (i : grid0.Coords) (X : Vec Ideal S1024x2560 .f32) (W : Vec Ideal S64x2560 .bf16) (A : Vec Ideal S1024x64 .f32)
    (r : Fin 1024) (j : Fin 64) :
    k0_pay2 (F := Ideal) i X W A (ix2 r j)
      = A (ix2 r j) + ∑ q : Fin 2560, (if q.val + 2560 * (i 1).val < 20000 then X (ix2 r q) else 0) * W (ix2 j q) := by
  unfold k0_pay2
  dsimp only
  rw [shapeCast_self, shapeCast_self]
  show A (ix2 r j) + _ = _
  refine congrArg (A (ix2 r j) + ·) ?_
  simp only [matmul]
  rw [Ideal.matmul_constant_zero_apply, ← Equiv.sum_comp (contrEquiv1 dot_S1024x2560_S64x2560_S1024x64_1_1_0_0_n_n 2560 rfl rfl).symm]
  refine Finset.sum_congr rfl fun q _ => ?_
  have hk := contrEquiv1_symm_val dot_S1024x2560_S64x2560_S1024x64_1_1_0_0_n_n 2560 rfl rfl q
  have el : dot_S1024x2560_S64x2560_S1024x64_1_1_0_0_n_n.lhsIdx (ix2 r j)
      ((contrEquiv1 dot_S1024x2560_S64x2560_S1024x64_1_1_0_0_n_n 2560 rfl rfl).symm q) = ix2 r q := funext fun a => Fin.ext (by
    match a with
    | ⟨0, _⟩ => exact accLhs0 _ _
    | ⟨1, _⟩ => exact (accLhs1 _ _).trans hk)
  have er : dot_S1024x2560_S64x2560_S1024x64_1_1_0_0_n_n.rhsIdx (ix2 r j)
      ((contrEquiv1 dot_S1024x2560_S64x2560_S1024x64_1_1_0_0_n_n 2560 rfl rfl).symm q) = ix2 j q := funext fun a => Fin.ext (by
    match a with
    | ⟨0, _⟩ => exact accRhs0 _ _
    | ⟨1, _⟩ => exact (accRhs1 _ _).trans hk)
  rw [el, er]
  refine congrArg (· * W (ix2 j q)) ?_
  refine (truncf_apply (φ := .f32) (ψ := .bf16) _ bitsLt_bf16_f32 (ix2 r q)).trans ?_
  refine (select_apply _ X _ (ix2 r q)).trans ?_
  rw [maskAt]
  show Scalar.select (BitVec.ofBool (decide (q.val + 2560 * (i 1).val < 20000))) (X (ix2 r q)) (Ideal.ofBits .f32 0x00000000#32) = _
  by_cases hP : q.val + 2560 * (i 1).val < 20000
  · rw [if_pos hP, decide_eq_true hP]
    exact select_one _ _
  · rw [if_neg hP, decide_eq_false hP]
    exact (select_zero _ _).trans Ideal.ofBits_zero_f32

/-- The weights as the kernel reads them: the host pads the 64×20000 weight matrix with 480 zero columns to 64×20480 and
    converts it to the 16-bit format.  On the extended reals the conversion does nothing, so entry (j, g) is the weight's
    entry when g is below 20000 and zero past it. -/
theorem padW_apply (inW : Vec Ideal S64x20000 .f32) (j : Fin 64) (g : Fin 20480) :
    truncf (F := Ideal) .bf16 (pad S64x20480 ![0, 0] ![0, 480] ![0, 0] inW (sitofp (F := Ideal) .f32 (constantI S_ 32 0#32))
        pads_S64x20000_S64x20480_000_04800 h_S_) bitsLt_bf16_f32 (ix2 j g)
      = if h : g.val < 20000 then inW (ix2 j ⟨g.val, h⟩) else 0 := by
  refine (truncf_apply (φ := .f32) (ψ := .bf16) _ bitsLt_bf16_f32 (ix2 j g)).trans ?_
  unfold pad
  by_cases h : g.val < 20000
  · have hin : ∀ a : Fin S64x20000.rank, (![0, 0] : Fin 2 → ℕ) a ≤ ((ix2 j g) (a.cast pads_S64x20000_S64x20480_000_04800.1)).val
        ∧ (((ix2 j g) (a.cast pads_S64x20000_S64x20480_000_04800.1)).val - (![0, 0] : Fin 2 → ℕ) a) % ((![0, 0] : Fin 2 → ℕ) a + 1) = 0
        ∧ (((ix2 j g) (a.cast pads_S64x20000_S64x20480_000_04800.1)).val - (![0, 0] : Fin 2 → ℕ) a) / ((![0, 0] : Fin 2 → ℕ) a + 1) < S64x20000.size a := by
      intro a
      match a with
      | ⟨0, _⟩ =>
        have hj := j.isLt
        refine ⟨Nat.zero_le _, Nat.mod_one _, ?_⟩
        show (j.val - 0) / (0 + 1) < 64
        omega
      | ⟨1, _⟩ =>
        refine ⟨Nat.zero_le _, Nat.mod_one _, ?_⟩
        show (g.val - 0) / (0 + 1) < 20000
        omega
    rw [dif_pos h, dif_pos hin]
    refine congrArg inW (funext fun a => Fin.ext ?_)
    match a with
    | ⟨0, _⟩ => show (j.val - 0) / (0 + 1) = j.val; omega
    | ⟨1, _⟩ => show (g.val - 0) / (0 + 1) = g.val; omega
  · rw [dif_neg h, dif_neg (fun hin => h (by
      have h2 : (g.val - 0) / (0 + 1) < 20000 := (hin 1).2.2
      omega))]
    show (((0#32 : BitVec 32).toInt : ℝ) : EReal) = 0
    simp

end Cert.KernelIdeal.Hand

end
-- ==== Proof.LibPadSum.lean ====
/-
  Summing a zero-padded range block by block.

  A blocked accumulation walks over the indices 0, 1, 2, … in blocks of b consecutive indices: it starts from zero and
  adds, one block after another, the sum of the summand over that block.  After the block numbered k it has added
  every index below b·(k+1).  When the summand vanishes from some index n on (the range was padded with zeros up to a
  whole number of blocks), the accumulator after the last block is therefore the sum over the first n indices alone.
  Only associativity and commutativity of addition and the neutrality of zero are used, so everything holds in any
  commutative monoid; on the extended reals it holds whether or not the summands are finite.

  The statements come in two forms: for a summand given on all natural numbers (blockSum, accAt, accAt_eq_sum), and for
  a summand given on the first N = b·(K+1) indices together with ANY sequence that obeys the accumulation's
  recursion (acc_eq_sum); acc8_eq_sum is the latter at 8 blocks of 2560 padding 20000 indices to 20480.
-/
import Idealize.ShloMosaic.Lib.ValueIdx

namespace Idealize.ShloMosaic.PadSum

variable {M : Type*} [AddCommMonoid M]

/-- The sum of the summand over block k: the b consecutive indices from b·k on. -/
def blockSum (b : ℕ) (f : ℕ → M) (k : ℕ) : M := ∑ q : Fin b, f (b * k + q.val)

/-- The accumulator after block k, started from zero: blocks 0, …, k added one at a time, in this order. -/
def accAt (b : ℕ) (f : ℕ → M) : ℕ → M
  | 0 => 0 + blockSum b f 0
  | k + 1 => accAt b f k + blockSum b f (k + 1)

theorem accAt_zero (b : ℕ) (f : ℕ → M) : accAt b f 0 = 0 + blockSum b f 0 := rfl
theorem accAt_succ (b : ℕ) (f : ℕ → M) (k : ℕ) : accAt b f (k + 1) = accAt b f k + blockSum b f (k + 1) := rfl

/-- After block k every index below b·(k+1) has been added, each once. -/
theorem accAt_eq_sum_range (b : ℕ) (f : ℕ → M) (k : ℕ) : accAt b f k = ∑ g ∈ Finset.range (b * (k + 1)), f g := by
  induction k with
  | zero =>
    rw [accAt_zero, zero_add]
    unfold blockSum
    rw [Nat.zero_add, Nat.mul_one, ← Finset.sum_range (fun q => f (b * 0 + q))]
    exact Finset.sum_congr rfl fun q _ => by rw [Nat.mul_zero, Nat.zero_add]
  | succ k ih =>
    rw [accAt_succ, ih, show b * (k + 1 + 1) = b * (k + 1) + b from by ring, Finset.sum_range_add]
    unfold blockSum
    rw [Finset.sum_range (fun q => f (b * (k + 1) + q))]

/-- A summand that vanishes from n on has the same sum over any longer initial range as over the first n indices. -/
theorem sum_range_of_zero_beyond {n N : ℕ} (hn : n ≤ N) (f : ℕ → M) (hz : ∀ g, n ≤ g → f g = 0) :
    ∑ g ∈ Finset.range N, f g = ∑ g ∈ Finset.range n, f g := by
  obtain ⟨d, rfl⟩ := Nat.exists_eq_add_of_le hn
  rw [Finset.sum_range_add, Finset.sum_eq_zero (fun q _ => hz _ (Nat.le_add_right n q)), add_zero]

/-- The padded accumulation: if the summand vanishes from n on and the blocks 0, …, K reach at least to n, the
    accumulator after block K is the sum over the first n indices. -/
theorem accAt_eq_sum (b K n : ℕ) (hn : n ≤ b * (K + 1)) (f : ℕ → M) (hz : ∀ g, n ≤ g → f g = 0) :
    accAt b f K = ∑ g : Fin n, f g.val := by
  rw [accAt_eq_sum_range, sum_range_of_zero_beyond hn f hz, Finset.sum_range]

/-- Index q of block k ≤ K lies among the first b·(K+1) indices. -/
theorem block_lt {b K N : ℕ} (hN : b * (K + 1) = N) {k : ℕ} (hk : k ≤ K) (q : Fin b) : b * k + q.val < N := by
  have hq := q.isLt
  calc b * k + q.val < b * k + b := by omega
    _ = b * (k + 1) := by ring
    _ ≤ b * (K + 1) := Nat.mul_le_mul_left b (by omega)
    _ = N := hN

/-- The same for a summand given on the first N = b·(K+1) indices only, and for ANY sequence acc that starts as zero plus
    block 0 and adds block k+1 at step k+1 up to K: then acc K is the sum of the summand over the first n indices. -/
theorem acc_eq_sum {b K N n : ℕ} (hN : b * (K + 1) = N) (hn : n ≤ N) (f : Fin N → M)
    (hz : ∀ g : Fin N, n ≤ g.val → f g = 0) (acc : ℕ → M)
    (h0 : acc 0 = 0 + ∑ q : Fin b, f ⟨b * 0 + q.val, block_lt hN (Nat.zero_le K) q⟩)
    (hs : ∀ (k : ℕ) (hk : k + 1 ≤ K), acc (k + 1) = acc k + ∑ q : Fin b, f ⟨b * (k + 1) + q.val, block_lt hN hk q⟩) :
    acc K = ∑ g : Fin n, f ⟨g.val, lt_of_lt_of_le g.isLt hn⟩ := by
  let F : ℕ → M := fun g => if h : g < N then f ⟨g, h⟩ else 0
  have hF : ∀ (g : ℕ) (h : g < N), F g = f ⟨g, h⟩ := fun g h => dif_pos h
  have hFz : ∀ g, n ≤ g → F g = 0 := fun g hg => by
    by_cases h : g < N
    · rw [hF g h]; exact hz ⟨g, h⟩ hg
    · exact dif_neg h
  have hB : ∀ (k : ℕ) (hk : k ≤ K), blockSum b F k = ∑ q : Fin b, f ⟨b * k + q.val, block_lt hN hk q⟩ := fun k hk =>
    Finset.sum_congr rfl fun q _ => hF _ (block_lt hN hk q)
  have hacc : ∀ k, k ≤ K → acc k = accAt b F k := by
    intro k
    induction k with
    | zero => intro _; rw [h0, accAt_zero, hB 0 (Nat.zero_le K)]
    | succ k ih => intro hk; rw [hs k hk, accAt_succ, ih (by omega), hB (k + 1) hk]
  rw [hacc K le_rfl, accAt_eq_sum b K n (hN ▸ hn) F hFz]
  exact Finset.sum_congr rfl fun g _ => hF g.val (lt_of_lt_of_le g.isLt hn)

/-- Eight blocks of 2560 over 20000 indices padded to 20480: a sequence that starts as zero plus block 0 and adds blocks
    1, …, 7 in order ends at the sum over the 20000 indices. -/
theorem acc8_eq_sum (f : Fin 20480 → M) (hz : ∀ g : Fin 20480, 20000 ≤ g.val → f g = 0) (acc : ℕ → M)
    (h0 : acc 0 = 0 + ∑ q : Fin 2560, f ⟨2560 * 0 + q.val, block_lt (K := 7) rfl (Nat.zero_le 7) q⟩)
    (hs : ∀ (k : ℕ) (hk : k + 1 ≤ 7), acc (k + 1) = acc k + ∑ q : Fin 2560, f ⟨2560 * (k + 1) + q.val, block_lt (K := 7) rfl hk q⟩) :
    acc 7 = ∑ g : Fin 20000, f ⟨g.val, lt_of_lt_of_le g.isLt (by decide)⟩ :=
  acc_eq_sum (b := 2560) (K := 7) rfl (by decide) f hz acc h0 hs

/-- The same written out: with B k the sum of block k, zero plus B 0 plus B 1 … plus B 7, added in this order, is the
    sum over the 20000 indices. -/
theorem sum8_eq_sum (f : Fin 20480 → M) (hz : ∀ g : Fin 20480, 20000 ≤ g.val → f g = 0) (B : Fin 8 → M)
    (hB : ∀ k : Fin 8, B k = ∑ q : Fin 2560, f ⟨2560 * k.val + q.val, block_lt (K := 7) rfl (Nat.le_of_lt_succ k.isLt) q⟩) :
    (((((((0 + B 0) + B 1) + B 2) + B 3) + B 4) + B 5) + B 6) + B 7 = ∑ g : Fin 20000, f ⟨g.val, lt_of_lt_of_le g.isLt (by decide)⟩ := by
  let acc : ℕ → M := fun k => Nat.rec (0 + B 0) (fun k a => if h : k + 1 < 8 then a + B ⟨k + 1, h⟩ else a) k
  have h := acc8_eq_sum f hz acc (congrArg (0 + ·) (hB 0)) (fun k hk => by
    show (if h : k + 1 < 8 then acc k + B ⟨k + 1, h⟩ else acc k) = _
    rw [dif_pos (by omega), hB ⟨k + 1, by omega⟩])
  exact h

end Idealize.ShloMosaic.PadSum
-- ==== Proof.K0ValI.lean ====
/-
  The hidden state the first kernel leaves, in closed form over the extended reals.

  For a row p = 1024·ib + r the accumulator after the eight column blocks is zero plus the eight block sums of
  x(p, g) · w(k, g), added in order; the padded weight vanishes and x is masked from column 20000 on, so this is the
  sum over the 20000 real columns.  The last point of the row block then applies the bias, the layers and the
  feed-forward part row by row and writes the block back; the four written blocks cover the 4096 rows.
-/
import proofs.«111399_j53506702573937_2_alg».proof.Proof.K0BlkI
import proofs.«111399_j53506702573937_2_alg».proof.Proof.K0OutI
import proofs.«111399_j53506702573937_2_alg».proof.Proof.K0EpiApplyI
import proofs.«111399_j53506702573937_2_alg».proof.Proof.K0AccI
import proofs.«111399_j53506702573937_2_alg».proof.Proof.LibPadSum
import proofs.«111399_j53506702573937_2_alg».proof.Proof.SpecRow

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx
open scoped BigOperators

section
variable (V : (c : Dev nD) → (b : Ref sig .tc) → Buf (Elt Ideal) ((c : Thread nD τ).loc b))

/-- x and the padded weight as the region finds them, as extended reals at an index. -/
abbrev xV (c : Dev nD) : S4096x20000.Idx → EReal := V c main_arg0
abbrev wV (c : Dev nD) : S64x20480.Idx → EReal := V c main_v1

/-- The accumulator after point `t`. -/
abbrev accT (c : Dev nD) (t : Fin cfg0.N) : Vec Ideal S1024x64 .f32 := (outsAt0 V c t.val t.isLt).2

theorem accT_reset (c : Dev nD) (t : Fin cfg0.N) (h0 : t.val % 8 = 0) :
    accT V c t = k0_pay2 (grid0.coords t) (win0_0.fill (grid0.coords t) zeroX (iblk0 V c 0 t)) (iblk0 V c 1 t) (k0_pay1 (F := Ideal)) := by
  have h1 : ¬ t.val % 8 = 7 := by omega
  unfold accT
  rw [outsAt0_A V c t h0 h1]
  dsimp only
  exact accA_eq c (grid0.coords t) _ _ _ _ _ _ _ _ _ _ _ _ _ _ _ _ _ _ _ _ _ _ _ _ _ _ _ _ _ _ _ _ _ _ _ _ _ _ _ _ _ _ _ _ _ _ _ _ _ _ _

theorem accT_step (c : Dev nD) (t : Fin cfg0.N) (h0 : ¬ t.val % 8 = 0) :
    accT V c t = k0_pay2 (grid0.coords t) (win0_0.fill (grid0.coords t) zeroX (iblk0 V c 0 t)) (iblk0 V c 1 t)
      (accT V c ⟨t.val - 1, Nat.lt_of_le_of_lt (Nat.sub_le _ _) t.isLt⟩) := by
  unfold accT
  by_cases h1 : t.val % 8 = 7
  · rw [outsAt0_C V c t h0 h1]
    dsimp only
    exact accC_eq c (grid0.coords t) _ _ _ _ _ _ _ _ _ _ _ _ _ _ _ _ _ _ _ _ _ _ _ _ _ _ _ _ _ _ _ _ _ _ _ _ _ _ _ _ _ _ _ _ _ _ _ _ _ _ _ _
  · rw [outsAt0_B V c t h0 h1]
    dsimp only
    exact accB_eq c (grid0.coords t) _ _ _ _ _ _ _ _ _ _ _ _ _ _ _ _ _ _ _ _ _ _ _ _ _ _ _ _ _ _ _ _ _ _ _ _ _ _ _ _ _ _ _ _ _ _ _ _ _ _ _ _

theorem outT_eq (c : Dev nD) (t : Fin cfg0.N) (h7 : t.val % 8 = 7) :
    (outsAt0 V c t.val t.isLt).1 = epi (accT V c t) (iblk0 V c 2 t) (iblk0 V c 3 t) (iblk0 V c 4 t) (iblk0 V c 5 t) (iblk0 V c 6 t)
      (iblk0 V c 7 t) (iblk0 V c 8 t) (iblk0 V c 9 t) (iblk0 V c 10 t) (iblk0 V c 11 t) (iblk0 V c 12 t) (iblk0 V c 13 t) (iblk0 V c 14 t) := by
  have h0 : ¬ t.val % 8 = 0 := by omega
  rw [accT_step V c t h0]
  rw [outsAt0_C V c t h0 h7]
  dsimp only
  exact outC_eq c (grid0.coords t) _ _ _ _ _ _ _ _ _ _ _ _ _ _ _ _ _ _ _ _ _ _ _ _ _ _ _ _ _ _ _ _ _ _ _ _ _ _ _ _ _ _ _ _ _ _ _ _ _ _ _ _

/-- The summand of the contraction at row p and hidden unit k over the padded columns: x is read as zero past its end. -/
def fSum (c : Dev nD) (p : Fin 4096) (k : Fin 64) : Fin 20480 → EReal :=
  fun g => (if h : g.val < 20000 then xV V c (ix2 p ⟨g.val, h⟩) else 0) * wV V c (ix2 k g)

theorem fSum_zero (c : Dev nD) (p : Fin 4096) (k : Fin 64) (g : Fin 20480) (hg : 20000 ≤ g.val) : fSum V c p k g = 0 := by
  unfold fSum; rw [dif_neg (by omega), zero_mul]

/-- One point's addend at an entry of the accumulator is the block sum of the summand. -/
theorem addend_eq (c : Dev nD) (t : Fin cfg0.N) (r : Fin 1024) (k : Fin 64) (p : Fin 4096) (hp : p.val = (t.val / 8) * 1024 + r.val)
    (hlt : ∀ q : Fin 2560, 2560 * (t.val % 8) + q.val < 20480) :
    (∑ q : Fin 2560, (if q.val + 2560 * ((grid0.coords t) 1).val < 20000 then
        win0_0.fill (grid0.coords t) zeroX (iblk0 V c 0 t) (ix2 r q) else 0) * (iblk0 V c 1 t : S64x2560.Idx → EReal) (ix2 k q))
      = ∑ q : Fin 2560, fSum V c p k ⟨2560 * (t.val % 8) + q.val, hlt q⟩ := by
  refine Finset.sum_congr rfl fun q _ => ?_
  have hq : q.val < 2560 := q.isLt
  have hN : t.val < 32 := lt_of_lt_of_eq t.isLt (show cfg0.N = 32 from N_0)
  unfold fSum
  rw [coordK t]
  have hw : (iblk0 V c 1 t : S64x2560.Idx → EReal) (ix2 k q) = wV V c (ix2 k ⟨2560 * (t.val % 8) + q.val, hlt q⟩) :=
    inWblk_apply V c t (ix2 k q) (ix2 k ⟨2560 * (t.val % 8) + q.val, hlt q⟩) rfl (by show 2560 * (t.val % 8) + q.val = (t.val % 8) * 2560 + q.val; omega)
  rw [hw]
  by_cases hP : q.val + 2560 * (t.val % 8) < 20000
  · rw [if_pos hP, dif_pos (show 2560 * (t.val % 8) + q.val < 20000 by omega)]
    congr 1
    refine xblk_apply V c t zeroX (ix2 r q) ?_ (ix2 p ⟨2560 * (t.val % 8) + q.val, by omega⟩) (by show p.val = _ + r.val; exact hp) (by show 2560 * (t.val % 8) + q.val = (t.val % 8) * 2560 + q.val; omega)
    show q.val < win0_0.xsize (grid0.coords t) 1
    rw [(xsz t).2]; split <;> omega
  · rw [if_neg hP, dif_neg (show ¬ 2560 * (t.val % 8) + q.val < 20000 by omega)]

/-- At the first column block the accumulator is zero plus block 0's sum. -/
theorem accT_reset_apply (c : Dev nD) (t : Fin cfg0.N) (h0 : t.val % 8 = 0) (r : Fin 1024) (k : Fin 64) (p : Fin 4096)
    (hp : p.val = (t.val / 8) * 1024 + r.val) :
    accT V c t (ix2 r k) = 0 + ∑ q : Fin 2560, fSum V c p k ⟨2560 * 0 + q.val, Idealize.ShloMosaic.PadSum.block_lt (K := 7) rfl (Nat.zero_le 7) q⟩ := by
  rw [accT_reset V c t h0, pay2_apply, pay1_apply]
  refine congrArg (0 + ·) ?_
  refine (addend_eq V c t r k p hp (fun q => by have := q.isLt; omega)).trans ?_
  refine Finset.sum_congr rfl fun q _ => congrArg (fSum V c p k) (Fin.ext ?_)
  show 2560 * (t.val % 8) + q.val = 2560 * 0 + q.val
  omega

/-- At a later column block s + 1 it is what the point before left plus that block's sum. -/
theorem accT_step_apply (c : Dev nD) (t : Fin cfg0.N) (s : ℕ) (hs : t.val % 8 = s + 1) (hs7 : s + 1 ≤ 7) (r : Fin 1024) (k : Fin 64) (p : Fin 4096)
    (hp : p.val = (t.val / 8) * 1024 + r.val) :
    accT V c t (ix2 r k) = accT V c ⟨t.val - 1, Nat.lt_of_le_of_lt (Nat.sub_le _ _) t.isLt⟩ (ix2 r k)
      + ∑ q : Fin 2560, fSum V c p k ⟨2560 * (s + 1) + q.val, Idealize.ShloMosaic.PadSum.block_lt (K := 7) rfl hs7 q⟩ := by
  rw [accT_step V c t (by omega), pay2_apply]
  refine congrArg (accT V c ⟨t.val - 1, Nat.lt_of_le_of_lt (Nat.sub_le _ _) t.isLt⟩ (ix2 r k) + ·) ?_
  refine (addend_eq V c t r k p hp (fun q => by have := q.isLt; omega)).trans ?_
  refine Finset.sum_congr rfl fun q _ => congrArg (fSum V c p k) (Fin.ext ?_)
  show 2560 * (t.val % 8) + q.val = 2560 * (s + 1) + q.val
  omega

/-- After the last column block the accumulator at (r, k) is the whole contraction of row p. -/
theorem accT_final (c : Dev nD) (t : Fin cfg0.N) (h7 : t.val % 8 = 7) (r : Fin 1024) (k : Fin 64) (p : Fin 4096)
    (hp : p.val = (t.val / 8) * 1024 + r.val) :
    accT V c t (ix2 r k) = ∑ g : Fin 20000, xV V c (ix2 p g) * wV V c (ix2 k ⟨g.val, lt_of_lt_of_le g.isLt (by decide)⟩) := by
  have hN : t.val < 32 := lt_of_lt_of_eq t.isLt (show cfg0.N = 32 from N_0)
  have hb : ∀ s, s ≤ 7 → t.val - 7 + s < cfg0.N := fun s hs => lt_of_lt_of_eq (show t.val - 7 + s < 32 by omega) (show cfg0.N = 32 from N_0).symm
  let acc : ℕ → EReal := fun s => if hs : s ≤ 7 then accT V c ⟨t.val - 7 + s, hb s hs⟩ (ix2 r k) else 0
  have hacc : ∀ s (hs : s ≤ 7), acc s = accT V c ⟨t.val - 7 + s, hb s hs⟩ (ix2 r k) := fun s hs => dif_pos hs
  have key := Idealize.ShloMosaic.PadSum.acc8_eq_sum (fSum V c p k) (fSum_zero V c p k) acc
    ((hacc 0 (by omega)).trans (accT_reset_apply V c ⟨t.val - 7 + 0, hb 0 (by omega)⟩ (by show (t.val - 7 + 0) % 8 = 0; omega) r k p
      (by show p.val = (t.val - 7 + 0) / 8 * 1024 + r.val; rw [hp]; omega)))
    (fun s hs => (hacc (s + 1) hs).trans ((accT_step_apply V c ⟨t.val - 7 + (s + 1), hb (s + 1) hs⟩ s (by show (t.val - 7 + (s + 1)) % 8 = s + 1; omega) hs r k p
      (by show p.val = (t.val - 7 + (s + 1)) / 8 * 1024 + r.val; rw [hp]; omega)).trans
        (congrArg (fun u => accT V c u (ix2 r k) + ∑ q : Fin 2560, fSum V c p k ⟨2560 * (s + 1) + q.val, Idealize.ShloMosaic.PadSum.block_lt (K := 7) rfl hs q⟩)
          (Fin.ext (show t.val - 7 + (s + 1) - 1 = t.val - 7 + s by omega)) |>.trans (by rw [← hacc s (by omega)]))))
  have e7 : acc 7 = accT V c t (ix2 r k) := by
    rw [hacc 7 le_rfl]
    exact congrArg (fun u => accT V c u (ix2 r k)) (Fin.ext (show t.val - 7 + 7 = t.val by omega))
  rw [← e7, key]
  refine Finset.sum_congr rfl fun g _ => ?_
  unfold fSum
  rw [dif_pos g.isLt]

/-- The hidden state in closed form over the region's entry contents. -/
def GH (c : Dev nD) : S4096x64.Idx → EReal := fun i =>
  Cert.Spec.rowHidden (V c main_arg3 : S3x64x64.Idx → EReal) (V c main_arg4 : S3x64.Idx → EReal) (V c main_arg5 : S3x64x64.Idx → EReal) (V c main_arg6 : S3x64.Idx → EReal)
    (V c main_arg7 : S3x64x64.Idx → EReal) (V c main_arg8 : S3x64.Idx → EReal) (V c main_arg11 : S3x64x64.Idx → EReal) (V c main_arg12 : S3x64.Idx → EReal)
    (V c main_arg13 : S128x64.Idx → EReal) (V c main_arg14 : S128.Idx → EReal) (V c main_arg15 : S64x128.Idx → EReal) (V c main_arg16 : S64.Idx → EReal)
    (fun k => (∑ g : Fin 20000, xV V c (ix2 (i 0 : Fin 4096) g) * wV V c (ix2 k ⟨g.val, lt_of_lt_of_le g.isLt (by decide)⟩)) + (V c main_arg2 : S64.Idx → EReal) (ix1 k))
    (i 1 : Fin 64)

theorem flushed0_eq (c : Dev nD) (t : Fin cfg0.N) (hf : (cfg0.win 15).flush t = true) :
    (dat0 V c).flushed 15 t = ((cfg0.win 15).blk t).view.read (Elt Ideal) (GH V c) := by
  have h7 : t.val % 8 = 7 := (flush0_15 t).mp hf
  funext j
  show win0_15.cut (grid0.coords t) ((dat0 V c).after 15 t) j = _
  rw [after0_15, View.read_apply, outT_eq V c t h7]
  show epi (F := Ideal) _ _ _ _ _ _ _ _ _ _ _ _ _ _ (win0_15.xinj (grid0.coords t) j) = GH V c _
  obtain ⟨r, u, hru⟩ : ∃ (r : Fin 1024) (u : Fin 64), win0_15.xinj (grid0.coords t) j = ix2 r u := ⟨_, _, eq_ix2 _⟩
  have hr : r.val = (j 0).val := (congrArg Fin.val (congrFun hru 0)).symm
  have hu : u.val = (j 1).val := (congrArg Fin.val (congrFun hru 1)).symm
  rw [hru, epi_apply]
  obtain ⟨e, he⟩ : ∃ e : S4096x64.Idx, e = ((cfg0.win 15).blk t).view.emb j := ⟨_, rfl⟩
  have e0 : (e 0).val = (t.val / 8) * 1024 + (j 0).val := by
    rw [he]; show win0_15.index t 0 * 1024 + 1 * (j 0).val = _; rw [(index0_o t).1]; omega
  have e1 : (e 1).val = (j 1).val := by
    rw [he]; show win0_15.index t 1 * 64 + 1 * (j 1).val = _; rw [(index0_o t).2]; omega
  rw [← he]
  unfold GH
  have e2 : (iblk0 V c 2 t : S64.Idx → EReal) = (V c main_arg2 : S64.Idx → EReal) := funext fun y => sblk2_apply V c t y
  have e3 : (iblk0 V c 3 t : S3x64x64.Idx → EReal) = (V c main_arg3 : S3x64x64.Idx → EReal) := funext fun y => sblk3_apply V c t y
  have e4 : (iblk0 V c 4 t : S3x64.Idx → EReal) = (V c main_arg4 : S3x64.Idx → EReal) := funext fun y => sblk4_apply V c t y
  have e5 : (iblk0 V c 5 t : S3x64x64.Idx → EReal) = (V c main_arg5 : S3x64x64.Idx → EReal) := funext fun y => sblk5_apply V c t y
  have e6 : (iblk0 V c 6 t : S3x64.Idx → EReal) = (V c main_arg6 : S3x64.Idx → EReal) := funext fun y => sblk6_apply V c t y
  have e7 : (iblk0 V c 7 t : S3x64x64.Idx → EReal) = (V c main_arg7 : S3x64x64.Idx → EReal) := funext fun y => sblk7_apply V c t y
  have e8 : (iblk0 V c 8 t : S3x64.Idx → EReal) = (V c main_arg8 : S3x64.Idx → EReal) := funext fun y => sblk8_apply V c t y
  have e9 : (iblk0 V c 9 t : S3x64x64.Idx → EReal) = (V c main_arg11 : S3x64x64.Idx → EReal) := funext fun y => sblk9_apply V c t y
  have e10 : (iblk0 V c 10 t : S3x64.Idx → EReal) = (V c main_arg12 : S3x64.Idx → EReal) := funext fun y => sblk10_apply V c t y
  have e11 : (iblk0 V c 11 t : S128x64.Idx → EReal) = (V c main_arg13 : S128x64.Idx → EReal) := funext fun y => sblk11_apply V c t y
  have e12 : (iblk0 V c 12 t : S128.Idx → EReal) = (V c main_arg14 : S128.Idx → EReal) := funext fun y => sblk12_apply V c t y
  have e13 : (iblk0 V c 13 t : S64x128.Idx → EReal) = (V c main_arg15 : S64x128.Idx → EReal) := funext fun y => sblk13_apply V c t y
  have e14 : (iblk0 V c 14 t : S64.Idx → EReal) = (V c main_arg16 : S64.Idx → EReal) := funext fun y => sblk14_apply V c t y
  rw [e2, e3, e4, e5, e6, e7, e8, e9, e10, e11, e12, e13, e14]
  have eu : u = (e 1 : Fin 64) := Fin.ext (by rw [hu, e1])
  have hf : ∀ k : Fin 64, accT V c t (ix2 r k)
      = ∑ g : Fin 20000, xV V c (ix2 (e 0 : Fin 4096) g) * wV V c (ix2 k ⟨g.val, lt_of_lt_of_le g.isLt (by decide)⟩) :=
    fun k => accT_final V c t h7 r k (e 0 : Fin 4096) (by show (e 0).val = _ + r.val; rw [e0, hr])
  simp only [hf]
  exact congrArg _ eu

/-- The hidden state array ends holding the closed form. -/
theorem arr0_final (c : Dev nD) : (dat0 V c).arrAt 15 cfg0.N = GH V c :=
  (dat0 V c).arrAt_eq_of_cover 15 (GH V c) (fun t hf => flushed0_eq V c t hf) cover0_arr

end

end Cert.KernelIdeal.Hand

end
-- ==== Proof.K1LocI.lean ====
/-
  Column locality of the output projection's body, over the extended reals.

  Over the extended reals the body leaves in its output buffer, at row p and column q, the sum over k of
  hidden(p, k) · weights(q, k), plus bias(0, q).  Only row q of the weight buffer and column q of the bias buffer
  enter.  So on the columns inside the array the result is the same for any two weight buffers that agree on the
  rows inside the array and any two bias buffers that agree on the columns inside the array.
-/
import proofs.«111399_j53506702573937_2_alg».proof.Proof.K1DatI
import Idealize.ShloMosaic.Lib.Pipeline.Value
import Idealize.ShloMosaic.Lib.ValueIdx
import Idealize.ShloMosaic.PureOps.Ideal.Laws
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open scoped BigOperators
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The zero offsets of a rank-2 rectangle, as a constant function. -/
theorem zero_offsets2 : (![0, 0] : Fin 2 → Nat) = fun _ => 0 := funext fun a => by fin_cases a <;> rfl

/-! ## The body's result read at an element, over the extended reals -/

/-- Over the extended reals the body's result at row `p`, column `q` is the sum over the 64 contraction positions of
    hidden(p, k) · weights(q, k), plus bias(0, q): the format changes are the identity and the accumulator is zero. -/
theorem outB_ideal_apply (h : Vec Ideal S1024x64 .f32) (w : Vec Ideal S2560x64 .bf16) (b : Vec Ideal S1x2560 .f32)
    (p : Fin 1024) (q : Fin 2560) :
    outB (F := Ideal) h w b (ix2 p q)
      = (∑ k : Fin 64, (h (ix2 p k) : EReal) * (w (ix2 q k) : EReal)) + (b (ix2 (0 : Fin 1) q) : EReal) := by
  unfold outB
  rw [View.canon_unit_zero zero_offsets2, View.ld_unit_zero zero_offsets2, View.ld_unit_zero zero_offsets2,
    View.ld_unit_zero zero_offsets2]
  unfold k1_pay1
  simp only [shapeCast_self]
  rw [addf_apply]
  rw [broadcastTo_apply b broadcasts_S1x2560_S1024x2560 (ix2 p q) (ix2 (0 : Fin 1) q) (by
    intro a
    match a with
    | ⟨0, _⟩ => rfl
    | ⟨1, _⟩ => rfl)]
  simp only [matmul]
  rw [Ideal.matmul_constant_zero_apply]
  congr 1
  refine Fintype.sum_equiv (contrEquiv1 dot_S1024x64_S2560x64_S1024x2560_1_1_0_0_n_n 64 rfl rfl) _ _ fun kk => ?_
  have hl : dot_S1024x64_S2560x64_S1024x2560_1_1_0_0_n_n.lhsIdx (ix2 p q) kk
      = ix2 p ((contrEquiv1 dot_S1024x64_S2560x64_S1024x2560_1_1_0_0_n_n 64 rfl rfl) kk) := by
    funext a
    match a with
    | ⟨0, _⟩ => exact Fin.ext rfl
    | ⟨1, _⟩ => exact Fin.ext rfl
  have hr : dot_S1024x64_S2560x64_S1024x2560_1_1_0_0_n_n.rhsIdx (ix2 p q) kk
      = ix2 q ((contrEquiv1 dot_S1024x64_S2560x64_S1024x2560_1_1_0_0_n_n 64 rfl rfl) kk) := by
    funext a
    match a with
    | ⟨0, _⟩ => exact Fin.ext rfl
    | ⟨1, _⟩ => exact Fin.ext rfl
  rw [truncf_apply, hl, hr]

/-! ## The cuts of the three clipped windows agree -/

/-- The weight window's rows inside the array are as many as the output window's columns inside the array, -/
theorem xsize_w_o (i : grid1.Coords) : win1_1.xsize i 0 = win1_3.xsize i 1 := rfl
/-- and so are the bias window's columns; -/
theorem xsize_b_o (i : grid1.Coords) : win1_2.xsize i 1 = win1_3.xsize i 1 := rfl
/-- the weight window is whole along the contraction axis and the bias window along its one row. -/
theorem xsize_w_k (i : grid1.Coords) : win1_1.xsize i 1 = 64 := rfl
theorem xsize_b_r (i : grid1.Coords) : win1_2.xsize i 0 = 1 := rfl

/-! ## Column locality over the extended reals -/

theorem locB_ideal : LocB (F := Ideal) := by
  intro i h w w' b b' hw hb
  funext j
  show outB h w b (win1_3.xinj i j) = outB h w' b' (win1_3.xinj i j)
  obtain ⟨p, q, hpq⟩ : ∃ (p : Fin 1024) (q : Fin 2560), win1_3.xinj i j = ix2 p q := ⟨_, _, eq_ix2 _⟩
  have hq : q.val = (j 1).val := by
    have := congrFun hpq 1; exact (congrArg Fin.val this).symm
  rw [hpq, outB_ideal_apply, outB_ideal_apply]
  have hj1 : (j 1).val < win1_3.xsize i 1 := (j 1).isLt
  -- row q of the two weight buffers
  have ew : ∀ k : Fin 64, w (ix2 q k) = w' (ix2 q k) := fun k => by
    let j1 : (win1_1.xblock i).Idx := fun a => match a with
      | ⟨0, _⟩ => ⟨(j 1).val, by show (j 1).val < win1_1.xsize i 0; rw [xsize_w_o]; exact hj1⟩
      | ⟨1, _⟩ => ⟨k.val, by show k.val < win1_1.xsize i 1; rw [xsize_w_k]; exact k.isLt⟩
    have e := congrFun hw j1
    have hx : win1_1.xinj i j1 = ix2 q k := by
      funext a
      match a with
      | ⟨0, _⟩ => exact Fin.ext hq.symm
      | ⟨1, _⟩ => exact Fin.ext rfl
    show w (ix2 q k) = w' (ix2 q k)
    rw [← hx]; exact e
  -- column q of the two bias buffers
  have eb : b (ix2 (0 : Fin 1) q) = b' (ix2 (0 : Fin 1) q) := by
    let j2 : (win1_2.xblock i).Idx := fun a => match a with
      | ⟨0, _⟩ => ⟨0, by show 0 < win1_2.xsize i 0; rw [xsize_b_r]; exact Nat.one_pos⟩
      | ⟨1, _⟩ => ⟨(j 1).val, by show (j 1).val < win1_2.xsize i 1; rw [xsize_b_o]; exact hj1⟩
    have e := congrFun hb j2
    have hx : win1_2.xinj i j2 = ix2 (0 : Fin 1) q := by
      funext a
      match a with
      | ⟨0, _⟩ => exact Fin.ext rfl
      | ⟨1, _⟩ => exact Fin.ext hq.symm
    rw [← hx]; exact e
  rw [eb]
  congr 1
  exact Finset.sum_congr rfl fun k _ => by rw [ew k]

end Cert.KernelIdeal.Hand

end
-- ==== Proof.K1ValI.lean ====
/-
  The output projection's result array in closed form, over the extended reals.

  The second kernel's 32 points write back, each through its block cut at the array's 20000 columns, what the body
  left on the columns inside the array.  Every point's block is the same function of the region's entry contents
  read through that block: at row p and column g the sum over k of hidden(p, k) · weights(g, k), plus bias(0, g).
  The blocks cover the array, so the array ends holding that function.
-/
import proofs.«111399_j53506702573937_2_alg».proof.Proof.K1LocI
import Idealize.ShloMosaic.Lib.Pipeline.Value
import Idealize.ShloMosaic.Lib.ValueIdx
import Idealize.ShloMosaic.PureOps.Ideal.Laws
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open scoped BigOperators
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The block indices and cut sizes at a point

Point `t` of the 8×4 grid is column block `t / 4`, row block `t % 4`. -/

theorem index_h : ∀ t : Fin grid1.N, win1_0.index t 0 = t.val % 4 ∧ win1_0.index t 1 = 0 := by decide +kernel
theorem index_w : ∀ t : Fin grid1.N, win1_1.index t 0 = t.val / 4 ∧ win1_1.index t 1 = 0 := by decide +kernel
theorem index_b : ∀ t : Fin grid1.N, win1_2.index t 0 = 0 ∧ win1_2.index t 1 = t.val / 4 := by decide +kernel
theorem index_o : ∀ t : Fin grid1.N, win1_3.index t 0 = t.val % 4 ∧ win1_3.index t 1 = t.val / 4 := by decide +kernel
/-- The output block is whole along the rows; along the columns the last column block keeps 2080 of its 2560. -/
theorem xsize_o : ∀ t : Fin grid1.N, win1_3.xsize (grid1.coords t) 0 = 1024
    ∧ win1_3.xsize (grid1.coords t) 1 = if t.val / 4 = 7 then 2080 else 2560 := by decide +kernel

section Blocks

variable {F : FTy → Type} [FloatOps F]
variable (V : (c : Dev nD) → (b : Ref sig .tc) → Buf (Elt F) ((c : Thread nD τ).loc b))

/-! ## The staged blocks as elements of the arrays -/

/-- The hidden-state block at point `t` is rows `1024·(t % 4) …` of the hidden-state array. -/
theorem hblkB_apply (c : Dev nD) (t : Fin cfg1.N) (x : S1024x64.Idx) (k : S4096x64.Idx)
    (hk0 : (k 0).val = (t.val % 4) * 1024 + (x 0).val) (hk1 : (k 1).val = (x 1).val) :
    hblkB V c t x = (V c main_v4 : S4096x64.Idx → Elt F .f32) k := by
  unfold hblkB iblkB
  rw [View.read_apply]
  show V c main_v4 _ = V c main_v4 _
  congr 1
  funext a
  apply Fin.ext
  match a with
  | ⟨0, _⟩ => show win1_0.index t 0 * 1024 + 1 * (x 0).val = (k 0).val; rw [(index_h t).1, hk0]; omega
  | ⟨1, _⟩ => show win1_0.index t 1 * 64 + 1 * (x 1).val = (k 1).val; rw [(index_h t).2, hk1]; omega

/-- The weight block at point `t`, on its rows inside the array, is rows `2560·(t / 4) …` of the weight array. -/
theorem wblkB_apply (c : Dev nD) (t : Fin cfg1.N) (x : S2560x64.Idx) (hx : (x 0).val < win1_3.xsize (grid1.coords t) 1)
    (k : S20000x64.Idx) (hk0 : (k 0).val = (t.val / 4) * 2560 + (x 0).val) (hk1 : (k 1).val = (x 1).val) :
    wblkB V c t x = (V c main_v2 : S20000x64.Idx → Elt F .bf16) k := by
  let j' : (win1_1.xblock (grid1.coords t)).Idx := fun a => match a with
    | ⟨0, _⟩ => ⟨(x 0).val, by show (x 0).val < win1_1.xsize (grid1.coords t) 0; rw [xsize_w_o]; exact hx⟩
    | ⟨1, _⟩ => ⟨(x 1).val, by show (x 1).val < win1_1.xsize (grid1.coords t) 1; rw [xsize_w_k]; exact (x 1).isLt⟩
  have hxj : x = win1_1.xinj (grid1.coords t) j' := by
    funext a
    match a with
    | ⟨0, _⟩ => exact Fin.ext rfl
    | ⟨1, _⟩ => exact Fin.ext rfl
  unfold wblkB
  rw [hxj, Window.fill_xinj]
  unfold iblkB
  rw [View.read_apply]
  show V c main_v2 _ = V c main_v2 _
  congr 1
  funext a
  apply Fin.ext
  match a with
  | ⟨0, _⟩ => show win1_1.index t 0 * 2560 + 1 * (x 0).val = (k 0).val; rw [(index_w t).1, hk0]; omega
  | ⟨1, _⟩ => show win1_1.index t 1 * 64 + 1 * (x 1).val = (k 1).val; rw [(index_w t).2, hk1]; omega

/-- The bias block at point `t`, on its columns inside the array, is columns `2560·(t / 4) …` of the bias array. -/
theorem bblkB_apply (c : Dev nD) (t : Fin cfg1.N) (x : S1x2560.Idx) (hx : (x 1).val < win1_3.xsize (grid1.coords t) 1)
    (k : S1x20000.Idx) (hk1 : (k 1).val = (t.val / 4) * 2560 + (x 1).val) :
    bblkB V c t x = (V c main_v3 : S1x20000.Idx → Elt F .f32) k := by
  let j' : (win1_2.xblock (grid1.coords t)).Idx := fun a => match a with
    | ⟨0, _⟩ => ⟨(x 0).val, by show (x 0).val < win1_2.xsize (grid1.coords t) 0; rw [xsize_b_r]; exact (x 0).isLt⟩
    | ⟨1, _⟩ => ⟨(x 1).val, by show (x 1).val < win1_2.xsize (grid1.coords t) 1; rw [xsize_b_o]; exact hx⟩
  have hxj : x = win1_2.xinj (grid1.coords t) j' := by
    funext a
    match a with
    | ⟨0, _⟩ => exact Fin.ext rfl
    | ⟨1, _⟩ => exact Fin.ext rfl
  unfold bblkB
  rw [hxj, Window.fill_xinj]
  unfold iblkB
  rw [View.read_apply]
  show V c main_v3 _ = V c main_v3 _
  congr 1
  funext a
  apply Fin.ext
  have hx0 : (x 0).val = 0 := by have h1 : (x 0).val < 1 := (x 0).isLt; omega
  have hk0 : (k 0).val = 0 := by have h1 : (k 0).val < 1 := (k 0).isLt; omega
  match a with
  | ⟨0, _⟩ => show win1_2.index t 0 * 1 + 1 * (x 0).val = (k 0).val; rw [(index_b t).1, hx0, hk0]
  | ⟨1, _⟩ => show win1_2.index t 1 * 2560 + 1 * (x 1).val = (k 1).val; rw [(index_b t).2, hk1]; omega

end Blocks

/-! ## The result array after the run -/

section Final

variable (V : (c : Dev nD) → (b : Ref sig .tc) → Buf (Elt Ideal) ((c : Thread nD τ).loc b))

/-- The hidden-state, weight and bias arrays as the region finds them, as extended reals at an index. -/
abbrev hidV (c : Dev nD) : S4096x64.Idx → EReal := V c main_v4
abbrev wgtV (c : Dev nD) : S20000x64.Idx → EReal := V c main_v2
abbrev biasV (c : Dev nD) : S1x20000.Idx → EReal := V c main_v3

/-- The closed form: at row `p`, column `g` the sum over `k` of hidden(p, k) · weights(g, k), plus bias(0, g), read off
    the arrays as the region finds them. -/
def GB (c : Dev nD) : S4096x20000.Idx → EReal := fun i =>
  (∑ k : Fin 64, hidV V c (ix2 (i 0 : Fin 4096) k) * wgtV V c (ix2 (i 1 : Fin 20000) k))
    + biasV V c (ix2 (0 : Fin 1) (i 1 : Fin 20000))

/-- What every point writes back is its block of the closed form. -/
theorem flushedB_eq (c : Dev nD) (t : Fin cfg1.N) :
    (datB V c).flushed 3 t = ((cfg1.win 3).blk t).view.read (Elt Ideal) (GB V c) := by
  funext j
  show win1_3.cut (grid1.coords t) ((datB V c).after 3 t) j = _
  rw [afterB_3, View.read_apply]
  show outB (hblkB V c t) (wblkB V c t) (bblkB V c t) (win1_3.xinj (grid1.coords t) j) = GB V c _
  obtain ⟨p, q, hpq⟩ : ∃ (p : Fin 1024) (q : Fin 2560), win1_3.xinj (grid1.coords t) j = ix2 p q := ⟨_, _, eq_ix2 _⟩
  have hp : p.val = (j 0).val := (congrArg Fin.val (congrFun hpq 0)).symm
  have hq : q.val = (j 1).val := (congrArg Fin.val (congrFun hpq 1)).symm
  have hj1 : (j 1).val < win1_3.xsize (grid1.coords t) 1 := (j 1).isLt
  rw [hpq, outB_ideal_apply]
  obtain ⟨e, he⟩ : ∃ e : S4096x20000.Idx, e = ((cfg1.win 3).blk t).view.emb j := ⟨_, rfl⟩
  have e0 : (e 0).val = (t.val % 4) * 1024 + (j 0).val := by
    rw [he]; show win1_3.index t 0 * 1024 + 1 * (j 0).val = _; rw [(index_o t).1]; omega
  have e1 : (e 1).val = (t.val / 4) * 2560 + (j 1).val := by
    rw [he]; show win1_3.index t 1 * 2560 + 1 * (j 1).val = _; rw [(index_o t).2]; omega
  rw [← he]
  unfold GB
  congr 1
  · refine Finset.sum_congr rfl fun k _ => ?_
    rw [hblkB_apply V c t (ix2 p k) (ix2 (e 0 : Fin 4096) k) (by show (e 0).val = _ + p.val; rw [e0, hp]) rfl,
      wblkB_apply V c t (ix2 q k) (by show q.val < _; rw [hq]; exact hj1) (ix2 (e 1 : Fin 20000) k)
        (by show (e 1).val = _ + q.val; rw [e1, hq]) rfl]
  · exact bblkB_apply V c t (ix2 (0 : Fin 1) q) (by show q.val < _; rw [hq]; exact hj1) (ix2 (0 : Fin 1) (e 1 : Fin 20000))
      (by show (e 1).val = _ + q.val; rw [e1, hq])

/-- Every element of the result array is in the block of the point at its column block and row block. -/
theorem coverB_arr (i : S4096x20000.Idx) :
    ∃ t : Fin cfg1.N, (cfg1.win 3).flush t = true ∧ i ∈ ((cfg1.win 3).blk t).view.set := by
  have h0 : (i 0).val < 4096 := (i 0).isLt
  have h1 : (i 1).val < 20000 := (i 1).isLt
  obtain ⟨t, ht⟩ : ∃ t : Fin cfg1.N, t.val = ((i 1).val / 2560) * 4 + (i 0).val / 1024 :=
    ⟨⟨((i 1).val / 2560) * 4 + (i 0).val / 1024, by rw [show cfg1.N = 32 from N_1]; omega⟩, rfl⟩
  have ht4 : t.val / 4 = (i 1).val / 2560 := by omega
  have ht4' : t.val % 4 = (i 0).val / 1024 := by omega
  refine ⟨t, flush1_3 t, ?_⟩
  show i ∈ ((View.whole main_v5).slice (win1_3.rect t)).set
  rw [View.set_slice_whole, Rect.mem_set_unit]
  intro a
  match a with
  | ⟨0, _⟩ =>
    show win1_3.index t 0 * 1024 ≤ (i 0).val ∧ (i 0).val < win1_3.index t 0 * 1024 + win1_3.xsize (grid1.coords t) 0
    rw [(index_o t).1, (xsize_o t).1, ht4']; omega
  | ⟨1, _⟩ =>
    show win1_3.index t 1 * 2560 ≤ (i 1).val ∧ (i 1).val < win1_3.index t 1 * 2560 + win1_3.xsize (grid1.coords t) 1
    rw [(index_o t).2, (xsize_o t).2, ht4]; split <;> omega

/-- So the result array ends holding the closed form. -/
theorem arrB_final (c : Dev nD) : (datB V c).arrAt 3 cfg1.N = GB V c :=
  (datB V c).arrAt_eq_of_cover 3 (GB V c) (fun t _ => flushedB_eq V c t) coverB_arr

theorem datB_final (c : Dev nD) : ∀ (p : Fin 4096) (g : Fin 20000),
    (datB (F := Ideal) V c).arrAt 3 cfg1.N (ix2 p g)
      = (∑ k : Fin 64, hidV V c (ix2 p k) * wgtV V c (ix2 g k)) + biasV V c (ix2 (0 : Fin 1) g) := by
  intro p g
  rw [arrB_final]
  rfl

end Final

end Cert.KernelIdeal.Hand

end
-- ==== Proof.K1ReadI.lean ====
/-
  The two arrays the host prepares for the output projection, entry by entry, on the extended reals.

  The host converts the 20000×64 output weight matrix to the 16-bit format, which does nothing on the extended reals,
  and views the 20000 output biases as a 1×20000 array, whose entry (0, g) is bias g.
-/
import proofs.«111399_j53506702573937_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.ValueIdx

/-- The converted output weights hold the output weights. -/
theorem outW_read (W : Vec Ideal S20000x64 .f32) (g : Fin 20000) (k : Fin 64) :
    truncf (F := Ideal) .bf16 W bitsLt_bf16_f32 (ix2 g k) = W (ix2 g k) :=
  truncf_apply (φ := .f32) (ψ := .bf16) W bitsLt_bf16_f32 (ix2 g k)

/-- The output biases viewed as one row of 20000 hold bias g at (0, g). -/
theorem outb_read (b : Vec Ideal S20000 .f32) (g : Fin 20000) :
    shapeCast S1x20000 b shapeCasts_S20000_S1x20000 (ix2 (0 : Fin 1) g) = b (ix1 g) :=
  shapeCast_a_1a_apply b shapeCasts_S20000_S1x20000 (0 : Fin 1) g

end Cert.KernelIdeal.Hand

end
-- ==== Proof.RefNet.lean ====
/-
  The reference program computes the specification's network.

  The reference is a straight-line host program of 147 operations.  Read one operation at a time, every element of an
  intermediate array is an element, a sum of products, or a sum from zero of elements of earlier arrays, at indices that
  are fixed functions of the element's own index: a transposition swaps two coordinates, a slice of a stacked weight
  followed by a flattening picks the entry (slice, j, k) from the row-major position j * 64 + k, a broadcast forgets a
  coordinate.  Composing these readings identifies each stage with the matching stage of `Cert.Spec`: the input
  projection, three layers (the same five stages at slices 0, 1, 2 of the stacked weights, joined once and for all by
  `layer_of_stages`), the feed-forward part, and the output projection.  The run of the reference then ends with its
  result array holding `Cert.Spec.net` of the argument arrays, which it never writes.
-/
import proofs.«111399_j53506702573937_2_alg».proof.Proof.Gen.ReferenceIdeal.Read
import proofs.«111399_j53506702573937_2_alg».proof.Proof.Spec
import proofs.«111399_j53506702573937_2_alg».proof.Defs

noncomputable section

open Idealize.ShloMosaic Idealize.ShloMosaic.ValueIdx Idealize.ShloMosaic.StableHlo
open Cert.ReferenceIdeal Cert.ReferenceIdeal.Gen Cert.ReferenceIdeal.Read

namespace Cert.Proof.RefNet

/-! ## Index functions agree coordinate by coordinate; one layer from its stages -/

/-- Two index functions into a rank-2 shape agree when their coordinates do, each coordinate by computation. -/
macro "idx_rfl" : tactic => `(tactic| exact funext fun a => Fin.ext (by
  match a with
  | ⟨0, _⟩ => rfl
  | ⟨1, _⟩ => rfl))

/-- The entry of a stacked weight read by a transposed, flattened slice: coordinates (slice, j, k) from the row-major
    position j * 64 + k. -/
macro "idx_w" j:term "," k:term : tactic => `(tactic| exact funext fun a => Fin.ext (by
  have hj : ($j).val < 64 := ($j).isLt
  have hk : ($k).val < 64 := ($k).isLt
  match a with
  | ⟨0, _⟩ => rfl
  | ⟨1, _⟩ => show (($j).val * 64 + ($k).val) / 64 % 64 = ($j).val; omega
  | ⟨2, _⟩ => show (($j).val * 64 + ($k).val) % 64 = ($k).val; omega))

/-- The entry of a stacked bias read by a flattened slice. -/
macro "idx_b" j:term : tactic => `(tactic| exact funext fun a => Fin.ext (by
  have hj : ($j).val < 64 := ($j).isLt
  match a with
  | ⟨0, _⟩ => rfl
  | ⟨1, _⟩ => show (($j).val) % 64 = ($j).val; omega))

section Algebra
open Cert.Spec

/-- One layer from its five stages: three affine images, their scalar product, and the fourth affine image of the scaled
    row with the residual. -/
theorem layer_of_stages (H Q K V S O : (⟨2, ![4096, 64]⟩ : Shape).Idx → EReal)
    (qW : Arr3 3 64 64) (qb : Arr2 3 64) (kW : Arr3 3 64 64) (kb : Arr2 3 64) (vW : Arr3 3 64 64) (vb : Arr2 3 64)
    (oW : Arr3 3 64 64) (ob : Arr2 3 64) (l : Fin 3)
    (hq : ∀ (p : Fin 4096) (j : Fin 64), Q (ix2 p j) = (∑ k : Fin 64, H (ix2 p k) * qW (ix3 l j k)) + qb (ix2 l j))
    (hk : ∀ (p : Fin 4096) (j : Fin 64), K (ix2 p j) = (∑ k : Fin 64, H (ix2 p k) * kW (ix3 l j k)) + kb (ix2 l j))
    (hv : ∀ (p : Fin 4096) (j : Fin 64), V (ix2 p j) = (∑ k : Fin 64, H (ix2 p k) * vW (ix3 l j k)) + vb (ix2 l j))
    (hs : ∀ (p : Fin 4096) (j : Fin 64), S (ix2 p j) = ∑ u : Fin 64, Q (ix2 p u) * K (ix2 p u))
    (ho : ∀ (p : Fin 4096) (j : Fin 64), O (ix2 p j) = ((∑ k : Fin 64, (S (ix2 p k) * V (ix2 p k)) * oW (ix3 l j k)) + ob (ix2 l j)) + H (ix2 p j))
    (p : Fin 4096) (j : Fin 64) :
    O (ix2 p j) = layer qW qb kW kb vW vb oW ob l (fun p j => H (ix2 p j)) p j := by
  unfold layer affL
  rw [ho]
  simp only [hs, hq, hk, hv]

end Algebra

variable [Cert.ReferenceIdeal.Facts]
variable (x0 : (⟨S4096x20000, .f32⟩ : BufTy).Contents (Elt Ideal)) (x1 : (⟨S64x20000, .f32⟩ : BufTy).Contents (Elt Ideal))
  (x2 : (⟨S64, .f32⟩ : BufTy).Contents (Elt Ideal))
  (x3 : (⟨S3x64x64, .f32⟩ : BufTy).Contents (Elt Ideal)) (x4 : (⟨S3x64, .f32⟩ : BufTy).Contents (Elt Ideal))
  (x5 : (⟨S3x64x64, .f32⟩ : BufTy).Contents (Elt Ideal)) (x6 : (⟨S3x64, .f32⟩ : BufTy).Contents (Elt Ideal))
  (x7 : (⟨S3x64x64, .f32⟩ : BufTy).Contents (Elt Ideal)) (x8 : (⟨S3x64, .f32⟩ : BufTy).Contents (Elt Ideal))
  (x11 : (⟨S3x64x64, .f32⟩ : BufTy).Contents (Elt Ideal)) (x12 : (⟨S3x64, .f32⟩ : BufTy).Contents (Elt Ideal))
  (x13 : (⟨S128x64, .f32⟩ : BufTy).Contents (Elt Ideal)) (x14 : (⟨S128, .f32⟩ : BufTy).Contents (Elt Ideal))
  (x15 : (⟨S64x128, .f32⟩ : BufTy).Contents (Elt Ideal)) (x16 : (⟨S64, .f32⟩ : BufTy).Contents (Elt Ideal))
  (x17 : (⟨S20000x64, .f32⟩ : BufTy).Contents (Elt Ideal)) (x18 : (⟨S20000, .f32⟩ : BufTy).Contents (Elt Ideal))

/-! ## Layer 0: the operations that read slice 0 of the stacked weights -/
section Layer0

/-- The first affine image of the hidden state entering layer 0. -/
theorem q0 (p : Fin 4096) (j : Fin 64) :
    val_main_v13 (F := Ideal) x0 x1 x2 x3 x4 (ix2 p j)
      = (∑ k : Fin 64, val_main_v4 (F := Ideal) x0 x1 x2 (ix2 p k) * x3 (ix3 0 j k)) + x4 (ix2 0 j) := by
  rw [val_main_v13_apply, val_main_v8_apply, val_main_v12_apply, val_main_v11_apply, val_main_v10_apply, val_main_v9_apply,
    Ideal.addf_def]
  simp only [val_main_v7_apply, val_main_v6_apply, val_main_v5_apply]
  refine congrArg₂ (· + ·) (Finset.sum_congr rfl fun k _ => congrArg₂ (· * ·) (congrArg _ ?_) (congrArg _ ?_)) (congrArg _ ?_)
  · idx_rfl
  · idx_w j, k
  · idx_b j

/-- The second affine image of the hidden state entering layer 0. -/
theorem k0 (p : Fin 4096) (j : Fin 64) :
    val_main_v22 (F := Ideal) x0 x1 x2 x5 x6 (ix2 p j)
      = (∑ k : Fin 64, val_main_v4 (F := Ideal) x0 x1 x2 (ix2 p k) * x5 (ix3 0 j k)) + x6 (ix2 0 j) := by
  rw [val_main_v22_apply, val_main_v17_apply, val_main_v21_apply, val_main_v20_apply, val_main_v19_apply, val_main_v18_apply,
    Ideal.addf_def]
  simp only [val_main_v16_apply, val_main_v15_apply, val_main_v14_apply]
  refine congrArg₂ (· + ·) (Finset.sum_congr rfl fun k _ => congrArg₂ (· * ·) (congrArg _ ?_) (congrArg _ ?_)) (congrArg _ ?_)
  · idx_rfl
  · idx_w j, k
  · idx_b j

/-- The third affine image of the hidden state entering layer 0. -/
theorem v0 (p : Fin 4096) (j : Fin 64) :
    val_main_v31 (F := Ideal) x0 x1 x2 x7 x8 (ix2 p j)
      = (∑ k : Fin 64, val_main_v4 (F := Ideal) x0 x1 x2 (ix2 p k) * x7 (ix3 0 j k)) + x8 (ix2 0 j) := by
  rw [val_main_v31_apply, val_main_v26_apply, val_main_v30_apply, val_main_v29_apply, val_main_v28_apply, val_main_v27_apply,
    Ideal.addf_def]
  simp only [val_main_v25_apply, val_main_v24_apply, val_main_v23_apply]
  refine congrArg₂ (· + ·) (Finset.sum_congr rfl fun k _ => congrArg₂ (· * ·) (congrArg _ ?_) (congrArg _ ?_)) (congrArg _ ?_)
  · idx_rfl
  · idx_w j, k
  · idx_b j

/-- The scalar of a row: the sum from zero of the products of the first two images, copied along the row. -/
theorem s0 (p : Fin 4096) (j : Fin 64) :
    val_main_v35 (F := Ideal) x0 x1 x2 x3 x4 x5 x6 (ix2 p j)
      = ∑ u : Fin 64, val_main_v13 (F := Ideal) x0 x1 x2 x3 x4 (ix2 p u) * val_main_v22 (F := Ideal) x0 x1 x2 x5 x6 (ix2 p u) := by
  rw [val_main_v35_apply, val_main_v34_apply, val_main_v33_apply, val_main_cst_apply, Ideal.ofBits_def, Ideal.ofBits_zero_f32, zero_add]
  refine Finset.sum_congr rfl fun u _ => ?_
  rw [val_main_v32_apply, Ideal.mulf_def]
  have e : idx_main_v33 (idx_main_v34 (idx_main_v35 (ix2 p j))) u = ix2 p u := by idx_rfl
  rw [e]

/-- The fourth affine image, of the scaled third image, plus the hidden state entering the layer. -/
theorem o0 (p : Fin 4096) (j : Fin 64) :
    val_main_v46 (F := Ideal) x0 x1 x2 x3 x4 x5 x6 x7 x8 x11 x12 (ix2 p j)
      = ((∑ k : Fin 64, (val_main_v35 (F := Ideal) x0 x1 x2 x3 x4 x5 x6 (ix2 p k) * val_main_v31 (F := Ideal) x0 x1 x2 x7 x8 (ix2 p k)) * x11 (ix3 0 j k))
          + x12 (ix2 0 j)) + val_main_v4 (F := Ideal) x0 x1 x2 (ix2 p j) := by
  rw [val_main_v46_apply, val_main_v45_apply, val_main_v40_apply, val_main_v44_apply, val_main_v43_apply, val_main_v42_apply, val_main_v41_apply,
    Ideal.addf_def, Ideal.addf_def]
  simp only [val_main_v39_apply, val_main_v38_apply, val_main_v37_apply, val_main_v36_apply, Ideal.mulf_def]
  refine congrArg₂ (· + ·) (congrArg₂ (· + ·) (Finset.sum_congr rfl fun k _ => ?_) (congrArg _ ?_)) rfl
  · have e : lidx_main_v40 (ix2 p j) k = ix2 p k := by idx_rfl
    rw [e]
    refine congrArg₂ (· * ·) rfl (congrArg _ ?_)
    idx_w j, k
  · idx_b j

/-- Layer 0 of the reference is the specification's layer at slice 0, of the hidden state entering it. -/
theorem layer0 (p : Fin 4096) (j : Fin 64) :
    val_main_v46 (F := Ideal) x0 x1 x2 x3 x4 x5 x6 x7 x8 x11 x12 (ix2 p j)
      = Cert.Spec.layer x3 x4 x5 x6 x7 x8 x11 x12 0 (fun p j => val_main_v4 (F := Ideal) x0 x1 x2 (ix2 p j)) p j :=
  layer_of_stages _ _ _ _ _ _ x3 x4 x5 x6 x7 x8 x11 x12 0 (q0 x0 x1 x2 x3 x4) (k0 x0 x1 x2 x5 x6) (v0 x0 x1 x2 x7 x8)
    (s0 x0 x1 x2 x3 x4 x5 x6) (o0 x0 x1 x2 x3 x4 x5 x6 x7 x8 x11 x12) p j

end Layer0

/-! ## Layer 1: the operations that read slice 1 of the stacked weights -/
section Layer1

/-- The first affine image of the hidden state entering layer 1. -/
theorem q1 (p : Fin 4096) (j : Fin 64) :
    val_main_v55 (F := Ideal) x0 x1 x2 x3 x4 x5 x6 x7 x8 x11 x12 (ix2 p j)
      = (∑ k : Fin 64, val_main_v46 (F := Ideal) x0 x1 x2 x3 x4 x5 x6 x7 x8 x11 x12 (ix2 p k) * x3 (ix3 1 j k)) + x4 (ix2 1 j) := by
  rw [val_main_v55_apply, val_main_v50_apply, val_main_v54_apply, val_main_v53_apply, val_main_v52_apply, val_main_v51_apply,
    Ideal.addf_def]
  simp only [val_main_v49_apply, val_main_v48_apply, val_main_v47_apply]
  refine congrArg₂ (· + ·) (Finset.sum_congr rfl fun k _ => congrArg₂ (· * ·) (congrArg _ ?_) (congrArg _ ?_)) (congrArg _ ?_)
  · idx_rfl
  · idx_w j, k
  · idx_b j

/-- The second affine image of the hidden state entering layer 1. -/
theorem k1 (p : Fin 4096) (j : Fin 64) :
    val_main_v64 (F := Ideal) x0 x1 x2 x3 x4 x5 x6 x7 x8 x11 x12 (ix2 p j)
      = (∑ k : Fin 64, val_main_v46 (F := Ideal) x0 x1 x2 x3 x4 x5 x6 x7 x8 x11 x12 (ix2 p k) * x5 (ix3 1 j k)) + x6 (ix2 1 j) := by
  rw [val_main_v64_apply, val_main_v59_apply, val_main_v63_apply, val_main_v62_apply, val_main_v61_apply, val_main_v60_apply,
    Ideal.addf_def]
  simp only [val_main_v58_apply, val_main_v57_apply, val_main_v56_apply]
  refine congrArg₂ (· + ·) (Finset.sum_congr rfl fun k _ => congrArg₂ (· * ·) (congrArg _ ?_) (congrArg _ ?_)) (congrArg _ ?_)
  · idx_rfl
  · idx_w j, k
  · idx_b j

/-- The third affine image of the hidden state entering layer 1. -/
theorem v1 (p : Fin 4096) (j : Fin 64) :
    val_main_v73 (F := Ideal) x0 x1 x2 x3 x4 x5 x6 x7 x8 x11 x12 (ix2 p j)
      = (∑ k : Fin 64, val_main_v46 (F := Ideal) x0 x1 x2 x3 x4 x5 x6 x7 x8 x11 x12 (ix2 p k) * x7 (ix3 1 j k)) + x8 (ix2 1 j) := by
  rw [val_main_v73_apply, val_main_v68_apply, val_main_v72_apply, val_main_v71_apply, val_main_v70_apply, val_main_v69_apply,
    Ideal.addf_def]
  simp only [val_main_v67_apply, val_main_v66_apply, val_main_v65_apply]
  refine congrArg₂ (· + ·) (Finset.sum_congr rfl fun k _ => congrArg₂ (· * ·) (congrArg _ ?_) (congrArg _ ?_)) (congrArg _ ?_)
  · idx_rfl
  · idx_w j, k
  · idx_b j

/-- The scalar of a row: the sum from zero of the products of the first two images, copied along the row. -/
theorem s1 (p : Fin 4096) (j : Fin 64) :
    val_main_v77 (F := Ideal) x0 x1 x2 x3 x4 x5 x6 x7 x8 x11 x12 (ix2 p j)
      = ∑ u : Fin 64, val_main_v55 (F := Ideal) x0 x1 x2 x3 x4 x5 x6 x7 x8 x11 x12 (ix2 p u) * val_main_v64 (F := Ideal) x0 x1 x2 x3 x4 x5 x6 x7 x8 x11 x12 (ix2 p u) := by
  rw [val_main_v77_apply, val_main_v76_apply, val_main_v75_apply, val_main_cst_0_apply, Ideal.ofBits_def, Ideal.ofBits_zero_f32, zero_add]
  refine Finset.sum_congr rfl fun u _ => ?_
  rw [val_main_v74_apply, Ideal.mulf_def]
  have e : idx_main_v75 (idx_main_v76 (idx_main_v77 (ix2 p j))) u = ix2 p u := by idx_rfl
  rw [e]

/-- The fourth affine image, of the scaled third image, plus the hidden state entering the layer. -/
theorem o1 (p : Fin 4096) (j : Fin 64) :
    val_main_v88 (F := Ideal) x0 x1 x2 x3 x4 x5 x6 x7 x8 x11 x12 (ix2 p j)
      = ((∑ k : Fin 64, (val_main_v77 (F := Ideal) x0 x1 x2 x3 x4 x5 x6 x7 x8 x11 x12 (ix2 p k) * val_main_v73 (F := Ideal) x0 x1 x2 x3 x4 x5 x6 x7 x8 x11 x12 (ix2 p k)) * x11 (ix3 1 j k))
          + x12 (ix2 1 j)) + val_main_v46 (F := Ideal) x0 x1 x2 x3 x4 x5 x6 x7 x8 x11 x12 (ix2 p j) := by
  rw [val_main_v88_apply, val_main_v87_apply, val_main_v82_apply, val_main_v86_apply, val_main_v85_apply, val_main_v84_apply, val_main_v83_apply,
    Ideal.addf_def, Ideal.addf_def]
  simp only [val_main_v81_apply, val_main_v80_apply, val_main_v79_apply, val_main_v78_apply, Ideal.mulf_def]
  refine congrArg₂ (· + ·) (congrArg₂ (· + ·) (Finset.sum_congr rfl fun k _ => ?_) (congrArg _ ?_)) rfl
  · have e : lidx_main_v82 (ix2 p j) k = ix2 p k := by idx_rfl
    rw [e]
    refine congrArg₂ (· * ·) rfl (congrArg _ ?_)
    idx_w j, k
  · idx_b j

/-- Layer 1 of the reference is the specification's layer at slice 1, of the hidden state entering it. -/
theorem layer1 (p : Fin 4096) (j : Fin 64) :
    val_main_v88 (F := Ideal) x0 x1 x2 x3 x4 x5 x6 x7 x8 x11 x12 (ix2 p j)
      = Cert.Spec.layer x3 x4 x5 x6 x7 x8 x11 x12 1 (fun p j => val_main_v46 (F := Ideal) x0 x1 x2 x3 x4 x5 x6 x7 x8 x11 x12 (ix2 p j)) p j :=
  layer_of_stages _ _ _ _ _ _ x3 x4 x5 x6 x7 x8 x11 x12 1 (q1 x0 x1 x2 x3 x4 x5 x6 x7 x8 x11 x12) (k1 x0 x1 x2 x3 x4 x5 x6 x7 x8 x11 x12) (v1 x0 x1 x2 x3 x4 x5 x6 x7 x8 x11 x12)
    (s1 x0 x1 x2 x3 x4 x5 x6 x7 x8 x11 x12) (o1 x0 x1 x2 x3 x4 x5 x6 x7 x8 x11 x12) p j

end Layer1

/-! ## Layer 2: the operations that read slice 2 of the stacked weights -/
section Layer2

/-- The first affine image of the hidden state entering layer 2. -/
theorem q2 (p : Fin 4096) (j : Fin 64) :
    val_main_v97 (F := Ideal) x0 x1 x2 x3 x4 x5 x6 x7 x8 x11 x12 (ix2 p j)
      = (∑ k : Fin 64, val_main_v88 (F := Ideal) x0 x1 x2 x3 x4 x5 x6 x7 x8 x11 x12 (ix2 p k) * x3 (ix3 2 j k)) + x4 (ix2 2 j) := by
  rw [val_main_v97_apply, val_main_v92_apply, val_main_v96_apply, val_main_v95_apply, val_main_v94_apply, val_main_v93_apply,
    Ideal.addf_def]
  simp only [val_main_v91_apply, val_main_v90_apply, val_main_v89_apply]
  refine congrArg₂ (· + ·) (Finset.sum_congr rfl fun k _ => congrArg₂ (· * ·) (congrArg _ ?_) (congrArg _ ?_)) (congrArg _ ?_)
  · idx_rfl
  · idx_w j, k
  · idx_b j

/-- The second affine image of the hidden state entering layer 2. -/
theorem k2 (p : Fin 4096) (j : Fin 64) :
    val_main_v106 (F := Ideal) x0 x1 x2 x3 x4 x5 x6 x7 x8 x11 x12 (ix2 p j)
      = (∑ k : Fin 64, val_main_v88 (F := Ideal) x0 x1 x2 x3 x4 x5 x6 x7 x8 x11 x12 (ix2 p k) * x5 (ix3 2 j k)) + x6 (ix2 2 j) := by
  rw [val_main_v106_apply, val_main_v101_apply, val_main_v105_apply, val_main_v104_apply, val_main_v103_apply, val_main_v102_apply,
    Ideal.addf_def]
  simp only [val_main_v100_apply, val_main_v99_apply, val_main_v98_apply]
  refine congrArg₂ (· + ·) (Finset.sum_congr rfl fun k _ => congrArg₂ (· * ·) (congrArg _ ?_) (congrArg _ ?_)) (congrArg _ ?_)
  · idx_rfl
  · idx_w j, k
  · idx_b j

/-- The third affine image of the hidden state entering layer 2. -/
theorem v2 (p : Fin 4096) (j : Fin 64) :
    val_main_v115 (F := Ideal) x0 x1 x2 x3 x4 x5 x6 x7 x8 x11 x12 (ix2 p j)
      = (∑ k : Fin 64, val_main_v88 (F := Ideal) x0 x1 x2 x3 x4 x5 x6 x7 x8 x11 x12 (ix2 p k) * x7 (ix3 2 j k)) + x8 (ix2 2 j) := by
  rw [val_main_v115_apply, val_main_v110_apply, val_main_v114_apply, val_main_v113_apply, val_main_v112_apply, val_main_v111_apply,
    Ideal.addf_def]
  simp only [val_main_v109_apply, val_main_v108_apply, val_main_v107_apply]
  refine congrArg₂ (· + ·) (Finset.sum_congr rfl fun k _ => congrArg₂ (· * ·) (congrArg _ ?_) (congrArg _ ?_)) (congrArg _ ?_)
  · idx_rfl
  · idx_w j, k
  · idx_b j

/-- The scalar of a row: the sum from zero of the products of the first two images, copied along the row. -/
theorem s2 (p : Fin 4096) (j : Fin 64) :
    val_main_v119 (F := Ideal) x0 x1 x2 x3 x4 x5 x6 x7 x8 x11 x12 (ix2 p j)
      = ∑ u : Fin 64, val_main_v97 (F := Ideal) x0 x1 x2 x3 x4 x5 x6 x7 x8 x11 x12 (ix2 p u) * val_main_v106 (F := Ideal) x0 x1 x2 x3 x4 x5 x6 x7 x8 x11 x12 (ix2 p u) := by
  rw [val_main_v119_apply, val_main_v118_apply, val_main_v117_apply, val_main_cst_1_apply, Ideal.ofBits_def, Ideal.ofBits_zero_f32, zero_add]
  refine Finset.sum_congr rfl fun u _ => ?_
  rw [val_main_v116_apply, Ideal.mulf_def]
  have e : idx_main_v117 (idx_main_v118 (idx_main_v119 (ix2 p j))) u = ix2 p u := by idx_rfl
  rw [e]

/-- The fourth affine image, of the scaled third image, plus the hidden state entering the layer. -/
theorem o2 (p : Fin 4096) (j : Fin 64) :
    val_main_v130 (F := Ideal) x0 x1 x2 x3 x4 x5 x6 x7 x8 x11 x12 (ix2 p j)
      = ((∑ k : Fin 64, (val_main_v119 (F := Ideal) x0 x1 x2 x3 x4 x5 x6 x7 x8 x11 x12 (ix2 p k) * val_main_v115 (F := Ideal) x0 x1 x2 x3 x4 x5 x6 x7 x8 x11 x12 (ix2 p k)) * x11 (ix3 2 j k))
          + x12 (ix2 2 j)) + val_main_v88 (F := Ideal) x0 x1 x2 x3 x4 x5 x6 x7 x8 x11 x12 (ix2 p j) := by
  rw [val_main_v130_apply, val_main_v129_apply, val_main_v124_apply, val_main_v128_apply, val_main_v127_apply, val_main_v126_apply, val_main_v125_apply,
    Ideal.addf_def, Ideal.addf_def]
  simp only [val_main_v123_apply, val_main_v122_apply, val_main_v121_apply, val_main_v120_apply, Ideal.mulf_def]
  refine congrArg₂ (· + ·) (congrArg₂ (· + ·) (Finset.sum_congr rfl fun k _ => ?_) (congrArg _ ?_)) rfl
  · have e : lidx_main_v124 (ix2 p j) k = ix2 p k := by idx_rfl
    rw [e]
    refine congrArg₂ (· * ·) rfl (congrArg _ ?_)
    idx_w j, k
  · idx_b j

/-- Layer 2 of the reference is the specification's layer at slice 2, of the hidden state entering it. -/
theorem layer2 (p : Fin 4096) (j : Fin 64) :
    val_main_v130 (F := Ideal) x0 x1 x2 x3 x4 x5 x6 x7 x8 x11 x12 (ix2 p j)
      = Cert.Spec.layer x3 x4 x5 x6 x7 x8 x11 x12 2 (fun p j => val_main_v88 (F := Ideal) x0 x1 x2 x3 x4 x5 x6 x7 x8 x11 x12 (ix2 p j)) p j :=
  layer_of_stages _ _ _ _ _ _ x3 x4 x5 x6 x7 x8 x11 x12 2 (q2 x0 x1 x2 x3 x4 x5 x6 x7 x8 x11 x12) (k2 x0 x1 x2 x3 x4 x5 x6 x7 x8 x11 x12) (v2 x0 x1 x2 x3 x4 x5 x6 x7 x8 x11 x12)
    (s2 x0 x1 x2 x3 x4 x5 x6 x7 x8 x11 x12) (o2 x0 x1 x2 x3 x4 x5 x6 x7 x8 x11 x12) p j

end Layer2

/-! ## The input projection, the feed-forward part and the output projection -/

macro "idx1_rfl" : tactic => `(tactic| exact funext fun a => Fin.ext (by
  match a with
  | ⟨0, _⟩ => rfl))

/-- The input projection of the reference is the specification's. -/
theorem hin_eq (p : Fin 4096) (j : Fin 64) :
    val_main_v4 (F := Ideal) x0 x1 x2 (ix2 p j) = Cert.Spec.hin x0 x1 x2 p j := by
  unfold Cert.Spec.hin
  rw [val_main_v4_apply, val_main_v1_apply, val_main_v3_apply, val_main_v2_apply, Ideal.addf_def]
  simp only [val_main_v0_apply]
  refine congrArg₂ (· + ·) (Finset.sum_congr rfl fun k _ => congrArg₂ (· * ·) (congrArg _ ?_) (congrArg _ ?_)) (congrArg _ ?_)
  · idx_rfl
  · idx_rfl
  · idx1_rfl

/-- The first feed-forward map followed by the maximum with zero. -/
theorem f1 (p : Fin 4096) (u : Fin 128) :
    val_main_v136 (F := Ideal) x0 x1 x2 x3 x4 x5 x6 x7 x8 x11 x12 x13 x14 (ix2 p u)
      = max ((∑ k : Fin 64, val_main_v130 (F := Ideal) x0 x1 x2 x3 x4 x5 x6 x7 x8 x11 x12 (ix2 p k) * x13 (ix2 u k)) + x14 (ix1 u)) 0 := by
  rw [val_main_v136_apply, val_main_v135_apply, val_main_v132_apply, val_main_v134_apply, val_main_v133_apply, val_main_call0_v0_apply, val_main_call0_cst_apply,
    Ideal.maximumf_def, Ideal.addf_def, Ideal.ofBits_def, Ideal.ofBits_zero_f32]
  simp only [val_main_v131_apply]
  refine congrArg₂ max (congrArg₂ (· + ·) (Finset.sum_congr rfl fun k _ => congrArg₂ (· * ·) (congrArg _ ?_) (congrArg _ ?_)) (congrArg _ ?_)) rfl
  · idx_rfl
  · idx_rfl
  · idx1_rfl

/-- The feed-forward part of the reference is the specification's, of the hidden state entering it. -/
theorem ffn_eq (p : Fin 4096) (j : Fin 64) :
    val_main_v142 (F := Ideal) x0 x1 x2 x3 x4 x5 x6 x7 x8 x11 x12 x13 x14 x15 x16 (ix2 p j)
      = Cert.Spec.ffn x13 x14 x15 x16 (fun p j => val_main_v130 (F := Ideal) x0 x1 x2 x3 x4 x5 x6 x7 x8 x11 x12 (ix2 p j)) p j := by
  unfold Cert.Spec.ffn
  rw [val_main_v142_apply, val_main_v141_apply, val_main_v138_apply, val_main_v140_apply, val_main_v139_apply, Ideal.addf_def, Ideal.addf_def]
  simp only [val_main_v137_apply]
  refine congrArg₂ (· + ·) (congrArg₂ (· + ·) (Finset.sum_congr rfl fun u _ => ?_) (congrArg _ ?_)) rfl
  · have e : lidx_main_v138 (ix2 p j) u = ix2 p u := by idx_rfl
    rw [e, f1]
    refine congrArg₂ (· * ·) rfl (congrArg _ ?_)
    idx_rfl
  · idx1_rfl

/-- The output projection of the reference is the specification's, of the hidden state entering it. -/
theorem out_eq (p : Fin 4096) (g : Fin 20000) :
    val_main_v147 (F := Ideal) x0 x1 x2 x3 x4 x5 x6 x7 x8 x11 x12 x13 x14 x15 x16 x17 x18 (ix2 p g)
      = Cert.Spec.outp x17 x18 (fun p j => val_main_v142 (F := Ideal) x0 x1 x2 x3 x4 x5 x6 x7 x8 x11 x12 x13 x14 x15 x16 (ix2 p j)) p g := by
  unfold Cert.Spec.outp
  rw [val_main_v147_apply, val_main_v144_apply, val_main_v146_apply, val_main_v145_apply, Ideal.addf_def]
  simp only [val_main_v143_apply]
  refine congrArg₂ (· + ·) (Finset.sum_congr rfl fun k _ => congrArg₂ (· * ·) (congrArg _ ?_) (congrArg _ ?_)) (congrArg _ ?_)
  · idx_rfl
  · idx_rfl
  · idx1_rfl

/-- The reference's result, as a function of its argument arrays, is the specification's network. -/
theorem ref_eq_net :
    val_main_v147 (F := Ideal) x0 x1 x2 x3 x4 x5 x6 x7 x8 x11 x12 x13 x14 x15 x16 x17 x18
      = fun i => Cert.Spec.net x0 x1 x2 x3 x4 x5 x6 x7 x8 x11 x12 x13 x14 x15 x16 x17 x18 (i 0) (i 1) := by
  funext i
  obtain ⟨p, g, rfl⟩ : ∃ (p : Fin 4096) (g : Fin 20000), i = ix2 p g := ⟨i 0, i 1, eq_ix2 i⟩
  show val_main_v147 (F := Ideal) x0 x1 x2 x3 x4 x5 x6 x7 x8 x11 x12 x13 x14 x15 x16 x17 x18 (ix2 p g) = Cert.Spec.net x0 x1 x2 x3 x4 x5 x6 x7 x8 x11 x12 x13 x14 x15 x16 x17 x18 p g
  unfold Cert.Spec.net Cert.Spec.hidden
  have e4 : (fun (p : Fin 4096) (j : Fin 64) => val_main_v4 (F := Ideal) x0 x1 x2 (ix2 p j)) = Cert.Spec.hin x0 x1 x2 :=
    funext fun p => funext fun j => hin_eq x0 x1 x2 p j
  have e46 : (fun (p : Fin 4096) (j : Fin 64) => val_main_v46 (F := Ideal) x0 x1 x2 x3 x4 x5 x6 x7 x8 x11 x12 (ix2 p j)) = _ :=
    funext fun p => funext fun j => layer0 x0 x1 x2 x3 x4 x5 x6 x7 x8 x11 x12 p j
  have e88 : (fun (p : Fin 4096) (j : Fin 64) => val_main_v88 (F := Ideal) x0 x1 x2 x3 x4 x5 x6 x7 x8 x11 x12 (ix2 p j)) = _ :=
    funext fun p => funext fun j => layer1 x0 x1 x2 x3 x4 x5 x6 x7 x8 x11 x12 p j
  have e130 : (fun (p : Fin 4096) (j : Fin 64) => val_main_v130 (F := Ideal) x0 x1 x2 x3 x4 x5 x6 x7 x8 x11 x12 (ix2 p j)) = _ :=
    funext fun p => funext fun j => layer2 x0 x1 x2 x3 x4 x5 x6 x7 x8 x11 x12 p j
  have e142 : (fun (p : Fin 4096) (j : Fin 64) => val_main_v142 (F := Ideal) x0 x1 x2 x3 x4 x5 x6 x7 x8 x11 x12 x13 x14 x15 x16 (ix2 p j)) = _ :=
    funext fun p => funext fun j => ffn_eq x0 x1 x2 x3 x4 x5 x6 x7 x8 x11 x12 x13 x14 x15 x16 p j
  rw [out_eq, e142, e130, e88, e46, e4]

/-! ## The run -/

open Idealize.ShloMosaic.TcCoe Idealize.SL.Sem in
/-- Every weakly fair execution of the reference terminates with its result array holding the specification's network of
    the argument arrays as launched, and with the nineteen argument arrays unchanged. -/
theorem ref_run [Cert.Pre_finite_inputs.Facts]
    (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v147)
            = (fun i => Cert.Spec.net (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3))
                (m' ((c.tc : Thread Cert.ReferenceIdeal.nD Cert.ReferenceIdeal.τ).loc Cert.ReferenceIdeal.main_arg4))
                (m' ((c.tc : Thread Cert.ReferenceIdeal.nD Cert.ReferenceIdeal.τ).loc Cert.ReferenceIdeal.main_arg5))
                (m' ((c.tc : Thread Cert.ReferenceIdeal.nD Cert.ReferenceIdeal.τ).loc Cert.ReferenceIdeal.main_arg6))
                (m' ((c.tc : Thread Cert.ReferenceIdeal.nD Cert.ReferenceIdeal.τ).loc Cert.ReferenceIdeal.main_arg7))
                (m' ((c.tc : Thread Cert.ReferenceIdeal.nD Cert.ReferenceIdeal.τ).loc Cert.ReferenceIdeal.main_arg8))
                (m' ((c.tc : Thread Cert.ReferenceIdeal.nD Cert.ReferenceIdeal.τ).loc Cert.ReferenceIdeal.main_arg11))
                (m' ((c.tc : Thread Cert.ReferenceIdeal.nD Cert.ReferenceIdeal.τ).loc Cert.ReferenceIdeal.main_arg12))
                (m' ((c.tc : Thread Cert.ReferenceIdeal.nD Cert.ReferenceIdeal.τ).loc Cert.ReferenceIdeal.main_arg13))
                (m' ((c.tc : Thread Cert.ReferenceIdeal.nD Cert.ReferenceIdeal.τ).loc Cert.ReferenceIdeal.main_arg14))
                (m' ((c.tc : Thread Cert.ReferenceIdeal.nD Cert.ReferenceIdeal.τ).loc Cert.ReferenceIdeal.main_arg15))
                (m' ((c.tc : Thread Cert.ReferenceIdeal.nD Cert.ReferenceIdeal.τ).loc Cert.ReferenceIdeal.main_arg16))
                (m' ((c.tc : Thread Cert.ReferenceIdeal.nD Cert.ReferenceIdeal.τ).loc Cert.ReferenceIdeal.main_arg17))
                (m' ((c.tc : Thread Cert.ReferenceIdeal.nD Cert.ReferenceIdeal.τ).loc Cert.ReferenceIdeal.main_arg18))
                (i 0) (i 1))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
        ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)) :=
  (θ_run Cert.ReferenceIdeal.defs _ _).mono
    (fun _ h c => ⟨(h c).1.trans ((val_main_v147_eq (F := Ideal) m' c).trans (ref_eq_net _ _ _ _ _ _ _ _ _ _ _ _ _ _ _ _ _)), (h c).2⟩)
    (Cert.ReferenceIdeal.Value.run (F := Ideal) m' ρ')

end Cert.Proof.RefNet

end
-- ==== Proof.RefFrame.lean ====
/-
  The reference program's frame, read off its run.

  The reference is a straight-line host program: every operation reads buffers written before it and writes a fresh
  one, so its run terminates without a fault and no argument array is ever written.  The run lemma states each result
  as the composed term of the operations; dropping that first component leaves exactly the frame.
-/
import proofs.«111399_j53506702573937_2_alg».proof.Defs
import proofs.«111399_j53506702573937_2_alg».proof.Proof.Gen.ReferenceIdeal.Run

noncomputable section

open Idealize.ShloMosaic Idealize.ShloMosaic.TcCoe Idealize.SL.Sem

namespace Cert.Proof.RefFrame

/-- Every weakly fair execution of the reference terminates, faults nowhere and leaves its nineteen argument arrays
    as launched: the second component of the run's post. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.AlgI.lean ====
/-
  The two idealized programs compute the same network.

  The kernel program's result array is read off its run: the second kernel's closed form over the hidden state, the
  hidden state's closed form over the inputs, the host's padded and converted copies of the weights read back to the
  inputs.  The reference's run ends at the same function of the same inputs.
-/
import proofs.«111399_j53506702573937_2_alg».proof.Defs
import proofs.«111399_j53506702573937_2_alg».proof.Proof.RunMainI
import proofs.«111399_j53506702573937_2_alg».proof.Proof.RunKitReadI
import proofs.«111399_j53506702573937_2_alg».proof.Proof.K0ValI
import proofs.«111399_j53506702573937_2_alg».proof.Proof.K1ValI
import proofs.«111399_j53506702573937_2_alg».proof.Proof.K1ReadI
import proofs.«111399_j53506702573937_2_alg».proof.Proof.RefNet
import proofs.«111399_j53506702573937_2_alg».proof.Proof.RefFrame
import proofs.«111399_j53506702573937_2_alg».proof.Proof.Gen.Pre_finite_inputs
import proofs.«111399_j53506702573937_2_alg».proof.Proof.Gen.ReferenceIdeal
import proofs.«111399_j53506702573937_2_alg».proof.Proof.Gen.KernelIdeal

set_option maxRecDepth 16384

noncomputable section

namespace Cert.Proof.Alg

open Cert.KernelIdeal Cert.KernelIdeal.Gen Cert.KernelIdeal.Hand
open Idealize.ShloMosaic Idealize.ShloMosaic.TcCoe Idealize.ShloMosaic.ValueIdx
open Idealize.SL.Sem
open scoped BigOperators

/-! ## Over any contents the regions may find -/

section Abstract
variable (V : (c : Dev nD) → (b : Ref sig .tc) → Buf (Elt Ideal) ((c : Thread nD τ).loc b))

/-- If the padded weight the first kernel finds equals in_W on the 20000 real columns, the hidden state it leaves is the
    network's hidden state of x, in_W and the biases and small weights it finds. -/
theorem hidden_of (c : Dev nD) (inW : S64x20000.Idx → EReal)
    (hw : ∀ (k : Fin 64) (g : Fin 20000), wV V c (ix2 k ⟨g.val, lt_of_lt_of_le g.isLt (by decide)⟩) = inW (ix2 k g))
    (p : Fin 4096) (u : Fin 64) :
    GH V c (ix2 p u) = Cert.Spec.hidden (xV V c) inW (V c main_arg2 : S64.Idx → EReal) (V c main_arg3 : S3x64x64.Idx → EReal) (V c main_arg4 : S3x64.Idx → EReal) (V c main_arg5 : S3x64x64.Idx → EReal) (V c main_arg6 : S3x64.Idx → EReal) (V c main_arg7 : S3x64x64.Idx → EReal) (V c main_arg8 : S3x64.Idx → EReal) (V c main_arg11 : S3x64x64.Idx → EReal) (V c main_arg12 : S3x64.Idx → EReal) (V c main_arg13 : S128x64.Idx → EReal) (V c main_arg14 : S128.Idx → EReal) (V c main_arg15 : S64x128.Idx → EReal) (V c main_arg16 : S64.Idx → EReal) p u := by
  have hfun : (fun k : Fin 64 => (∑ g : Fin 20000, xV V c (ix2 p g) * wV V c (ix2 k ⟨g.val, lt_of_lt_of_le g.isLt (by decide)⟩))
        + (V c main_arg2 : S64.Idx → EReal) (ix1 k))
      = Cert.Spec.hin (xV V c) inW (V c main_arg2 : S64.Idx → EReal) p := funext fun k => by
    show _ + _ = (∑ g : Fin 20000, (xV V c) (ix2 p g) * inW (ix2 k g)) + _
    refine congrArg (· + (V c main_arg2 : S64.Idx → EReal) (ix1 k)) ?_
    exact Finset.sum_congr rfl fun g _ => by rw [hw k g]
  unfold GH
  show Cert.Spec.rowHidden _ _ _ _ _ _ _ _ _ _ _ _
      (fun k : Fin 64 => (∑ g : Fin 20000, xV V c (ix2 p g) * wV V c (ix2 k ⟨g.val, lt_of_lt_of_le g.isLt (by decide)⟩))
        + (V c main_arg2 : S64.Idx → EReal) (ix1 k)) u = _
  rw [hfun]
  rfl

/-- If the second kernel finds a hidden state, weights and bias with the given entries, its result array is their
    output projection. -/
theorem result_of (c : Dev nD) (H : Cert.Spec.Hid) (outW : S20000x64.Idx → EReal) (outb : S20000.Idx → EReal)
    (hh : ∀ (p : Fin 4096) (k : Fin 64), hidV V c (ix2 p k) = H p k)
    (hwg : ∀ (g : Fin 20000) (k : Fin 64), wgtV V c (ix2 g k) = outW (ix2 g k))
    (hbb : ∀ g : Fin 20000, biasV V c (ix2 (0 : Fin 1) g) = outb (ix1 g))
    (p : Fin 4096) (g : Fin 20000) :
    (datB (F := Ideal) V c).arrAt 3 cfg1.N (ix2 p g) = Cert.Spec.outp outW outb H p g := by
  refine (datB_final V c p g).trans ?_
  show _ = (∑ k : Fin 64, H p k * outW (ix2 g k)) + outb (ix1 g)
  rw [hbb g]
  congr 1
  exact Finset.sum_congr rfl fun k _ => by rw [hh p k, hwg g k]

end Abstract

/-! ## At the contents the run gives the regions -/

section
variable (m : (ℓ : Loc nD τ sig) → Buf (Elt Ideal) ℓ)

/-- The network over the kernel program's launch memory. -/
def netK (c : Dev nD) : S4096x20000.Idx → EReal := fun i =>
  Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (i 0) (i 1)

/-- The padded, converted weight the first kernel finds is in_W on the real columns. -/
theorem padded_weight (c : Dev nD) (k : Fin 64) (g : Fin 20000) :
    wV (Hand.V3 m) c (ix2 k ⟨g.val, lt_of_lt_of_le g.isLt (by decide)⟩) = ((m ((c.tc : Thread nD τ).loc main_arg1)) : S64x20000.Idx → EReal) (ix2 k g) := by
  show (Hand.V3 m c main_v1 : S64x20480.Idx → EReal) (ix2 k ⟨g.val, lt_of_lt_of_le g.isLt (by decide)⟩) = _
  rw [V3_main_v1]
  exact (padW_apply _ k ⟨g.val, lt_of_lt_of_le g.isLt (by decide)⟩).trans (dif_pos g.isLt)

/-- The hidden state the first kernel leaves is the network's hidden state of the inputs. -/
theorem hidden_eq (c : Dev nD) (p : Fin 4096) (u : Fin 64) :
    GH (Hand.V3 m) c (ix2 p u) = Cert.Spec.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) p u := by
  refine (hidden_of (Hand.V3 m) c (m ((c.tc : Thread nD τ).loc main_arg1)) (padded_weight m c) p u).trans ?_
  unfold xV
  rw [V3_main_arg0, V3_main_arg2, V3_main_arg3, V3_main_arg4, V3_main_arg5, V3_main_arg6, V3_main_arg7, V3_main_arg8, V3_main_arg11,
    V3_main_arg12, V3_main_arg13, V3_main_arg14, V3_main_arg15, V3_main_arg16]

/-- The kernel program's result array is the network of its inputs. -/
theorem kernel_result (c : Dev nD) : (datB (F := Ideal) (Hand.V4 dat0 m) c).arrAt 3 cfg1.N = netK m c := by
  funext i
  obtain ⟨p, g, rfl⟩ : ∃ (p : Fin 4096) (g : Fin 20000), i = ix2 p g := ⟨i 0, i 1, eq_ix2 i⟩
  exact result_of (Hand.V4 dat0 m) c (Cert.Spec.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) (m ((c.tc : Thread nD τ).loc main_arg17)) (m ((c.tc : Thread nD τ).loc main_arg18))
    (fun p k => by
      show (Hand.V4 dat0 m c main_v4 : S4096x64.Idx → EReal) (ix2 p k) = _
      rw [V4_main_v4, arr0_final]
      exact hidden_eq m c p k)
    (fun g k => by
      show (Hand.V4 dat0 m c main_v2 : S20000x64.Idx → EReal) (ix2 g k) = _
      rw [V4_main_v2]
      exact outW_read _ g k)
    (fun g => by
      show (Hand.V4 dat0 m c main_v3 : S1x20000.Idx → EReal) (ix2 (0 : Fin 1) g) = _
      rw [V4_main_v3]
      exact outb_read _ g)
    p g

end

/-- The idealized kernel program's frame: its run with the result dropped. -/
theorem frame_ki : Cert.frame_KernelIdeal := fun m ρ _ =>
  (θ_run Cert.KernelIdeal.defs _ _).mono (fun _ h c => (h c).2) (run_main (F := Ideal) locB_ideal m ρ)

/-- Both idealized programs, from memories agreeing on the inputs, end with the network of those inputs. -/
theorem algebraic : Cert.algebraic_KernelIdeal_ReferenceIdeal := by
  intro m ρ m' ρ' _ hagree
  refine ⟨fun c => netK m c, ?_, ?_⟩
  · exact (θ_run Cert.KernelIdeal.defs _ _).mono (fun r h c => ⟨(h c).1.trans (kernel_result m c), (h c).2⟩)
      (run_main (F := Ideal) locB_ideal m ρ)
  · refine (θ_run Cert.ReferenceIdeal.defs _ _).mono (fun r h c => ⟨(h c).1.trans ?_, (h c).2⟩) (Cert.Proof.RefNet.ref_run m' ρ')
    obtain ⟨h0, h1, h2, h3, h4, h5, h6, h7, h8, h9, h10, h11, h12, h13, h14, h15, h16, h17, h18⟩ := hagree c
    rw [h0, h1, h2, h3, h4, h5, h6, h7, h8, h11, h12, h13, h14, h15, h16, h17, h18]
    rfl

end Cert.Proof.Alg

end
-- ==== Proof.lean ====
/-
  The certificate: a two-kernel network (input projection with three layers and a feed-forward part, then the output
  projection) against its plain reference.

  Frames.  The word-level program and its idealization run to the end, fault nowhere and leave the nineteen argument
  arrays as launched: @main is three stretches of host operations (the zero-padded, converted copies of two weights and
  a reshaped bias) and the two kernels' pipelines; no host operation and no pipeline writes an argument.  The
  reference is a straight-line host program.

  Values.  At the ideal instance a change of float format is the identity and every sum is exact.  The first kernel
  accumulates, for each block of 1024 rows, the products of eight column blocks of x with the matching blocks of the
  padded weight; columns from 20000 on are masked to zero in x and are zero in the padded weight, so the accumulated
  value is the contraction over the 20000 real columns, whatever order the blocks are added in.  The bias, the three
  layers and the feed-forward part then act row by row, exactly as the reference's whole-array operations do.  The
  second kernel's blocks are h · outWᵀ + outb on the columns inside the array, and cover it.  Both programs therefore
  end holding the one function `Cert.Spec.net` of the inputs.  No law used needs finiteness: only commutativity and
  associativity of + and 0 · x = 0, so the precondition is never opened.

  The idealization rewrote no operation, so nothing is to be shown of it beyond the frames.
-/
import proofs.«111399_j53506702573937_2_alg».proof.Defs
import proofs.«111399_j53506702573937_2_alg».proof.Proof.Gen.Kernel
import proofs.«111399_j53506702573937_2_alg».proof.Proof.Gen.KernelIdeal
import proofs.«111399_j53506702573937_2_alg».proof.Proof.Gen.ReferenceIdeal
import proofs.«111399_j53506702573937_2_alg».proof.Proof.Gen.Pre_finite_inputs
import proofs.«111399_j53506702573937_2_alg».proof.Proof.FrameB
import proofs.«111399_j53506702573937_2_alg».proof.Proof.AlgI
import proofs.«111399_j53506702573937_2_alg».proof.Proof.RefFrame

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.FrameB.frame_k, Cert.Proof.Alg.frame_ki, Cert.Proof.RefFrame.frame_ri, trivial, Cert.Proof.Alg.algebraic⟩

end Cert.Proof

end
